-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 512]⟩ ⟨3, ![2, 1024, 512]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![1024, 512]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x1024x512 : Shape := ⟨3, ![1, 1024, 512]⟩
abbrev S512 : Shape := ⟨1, ![512]⟩
abbrev S_ : Shape := ⟨0, ![]⟩

class Facts : Prop where
  bcast_S_S1x1024x512 : S_.BroadcastsInDim S1x1024x512 (![] : Fin 0 → Fin S1x1024x512.rank)
  reducesTo_S1x1024x512_S_d0_1_2 : S1x1024x512.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S1x1024x512 .f32) (main_arg1 : FVec F S512 .f32) : IVec S_ 1 :=
  let main_v0 : FVec F S1x1024x512 .f32 := Host.absf main_arg0
  let main_cst : FVec F S_ .f32 := constant S_ .f32 0x7F800000#32
  let main_v1 : FVec F S1x1024x512 .f32 := broadcastInDim S1x1024x512 ![] bcast_S_S1x1024x512 main_cst
  let main_v2 : IVec S1x1024x512 1 := cmpf .olt main_v0 main_v1
  let main_c : IVec S_ 1 := constantI S_ 1 1#1
  let main_v3 : IVec S_ 1 := (fun x v => Host.reduce IntOp.andi x v reducesTo_S1x1024x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Pre_finite_inputs_ReferenceIdeal.lean ====
abbrev S2x1024x512 : Shape := ⟨3, ![2, 1024, 512]⟩
abbrev S512 : Shape := ⟨1, ![512]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S2x1024x512 .f32) (main_arg1 : FVec F S512 .f32) : IVec S_ 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Kernel.lean ====
abbrev S1x1024x512 : Shape := ⟨3, ![1, 1024, 512]⟩
abbrev S512 : Shape := ⟨1, ![512]⟩
abbrev S512x512 : Shape := ⟨2, ![512, 512]⟩
abbrev S4x128x512 : Shape := ⟨3, ![4, 128, 512]⟩
abbrev S5 : Shape := ⟨1, ![5]⟩
abbrev S4 : Shape := ⟨1, ![4]⟩
abbrev S_ : Shape := ⟨0, ![]⟩
abbrev S1 : Shape := ⟨1, ![1]⟩
abbrev S1x512x512 : Shape := ⟨3, ![1, 512, 512]⟩
abbrev S1x128x512 : Shape := ⟨3, ![1, 128, 512]⟩
abbrev S128x512 : Shape := ⟨2, ![128, 512]⟩
abbrev S128 : Shape := ⟨1, ![128]⟩
abbrev S128x1 : Shape := ⟨2, ![128, 1]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S1x1024x512, .f32⟩
  | .hbm, ⟨1, _⟩ => ⟨S512, .f32⟩
  | .hbm, ⟨2, _⟩ => ⟨S512x512, .f32⟩
  | .local _ .vmem, ⟨0, _⟩ => ⟨S512, .f32⟩
  | .local _ .vmem, ⟨1, _⟩ => ⟨S512x512, .f32⟩
  | .local _ .vmem, ⟨2, _⟩ => ⟨S4x128x512, .f32⟩
  | .local _ .vmem, ⟨3, _⟩ => ⟨S4x128x512, .bf16⟩
  | .local _ .vmem, ⟨4, _⟩ => ⟨S4x128x512, .bf16⟩
  | .local _ .vmem, ⟨5, _⟩ => ⟨S4x128x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  { ofTc nBuf bufTy 1 18 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v14 : BitVec 32 := Scalar.muli v2 c4_i32_7
  let v15 : BitVec 32 := Scalar.addi c0_i32 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v16 : BitVec 32 := Scalar.muli v5 c2_i32_8
  let v17 : BitVec 32 := Scalar.addi v15 v16
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_9 : BitVec 32 := 1#32
  let v18 : BitVec 32 := Scalar.muli v9 c1_i32_9
  let v19 : BitVec 32 := Scalar.addi v17 v18
  v19.toNat
def k0_off1 (d0 : Dev nD) : Fin 3 → Nat :=
  let c0_i32_10 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v10 : BitVec 32 := Scalar.muli v8 c512_i32
  let c0_i32_12 : BitVec 32 := 0#32
  ![0, v10.toNat, 0]
def k0_off2 (d0 : Dev nD) (c0_i32_13 : BitVec 32) : Fin 3 → Nat :=
  let c0_i32_14 : BitVec 32 := 0#32
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c512_i32_5 : BitVec 32 := 512#32
  let v12 : BitVec 32 := Scalar.muli v11 c512_i32_5
  let v24 : BitVec 32 := Scalar.addi v12 c0_i32_13
  let c0_i32_19 : BitVec 32 := 0#32
  ![0, v24.toNat, 0]
def k0_dev2 (d0 : Dev nD) : Nat :=
  let c0_i32_87 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_86 : BitVec 32 := 4#32
  let v100 : BitVec 32 := Scalar.muli v2 c4_i32_86
  let v101 : BitVec 32 := Scalar.addi c0_i32_87 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_88 : BitVec 32 := 2#32
  let v102 : BitVec 32 := Scalar.muli v5 c2_i32_88
  let v103 : BitVec 32 := Scalar.addi v101 v102
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_89 : BitVec 32 := 1#32
  let v104 : BitVec 32 := Scalar.muli v9 c1_i32_89
  let v105 : BitVec 32 := Scalar.addi v103 v104
  v105.toNat
def k0_dev3 (d0 : Dev nD) : Nat :=
  let c0_i32_99 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_98 : BitVec 32 := 4#32
  let v114 : BitVec 32 := Scalar.muli v2 c4_i32_98
  let v115 : BitVec 32 := Scalar.addi c0_i32_99 v114
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_100 : BitVec 32 := 2#32
  let v116 : BitVec 32 := Scalar.muli v5 c2_i32_100
  let v117 : BitVec 32 := Scalar.addi v115 v116
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_101 : BitVec 32 := 1#32
  let v118 : BitVec 32 := Scalar.muli v9 c1_i32_101
  let v119 : BitVec 32 := Scalar.addi v117 v118
  v119.toNat
def k0_dev4 (d0 : Dev nD) : Nat :=
  let c0_i32_111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_110 : BitVec 32 := 4#32
  let v128 : BitVec 32 := Scalar.muli v2 c4_i32_110
  let v129 : BitVec 32 := Scalar.addi c0_i32_111 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_112 : BitVec 32 := 2#32
  let v130 : BitVec 32 := Scalar.muli v5 c2_i32_112
  let v131 : BitVec 32 := Scalar.addi v129 v130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_113 : BitVec 32 := 1#32
  let v132 : BitVec 32 := Scalar.muli v9 c1_i32_113
  let v133 : BitVec 32 := Scalar.addi v131 v132
  v133.toNat
def k0_dev5 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_122 : BitVec 32 := 4#32
  let v142 : BitVec 32 := Scalar.muli v2 c4_i32_122
  let v143 : BitVec 32 := Scalar.addi c0_i32_123 v142
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_124 : BitVec 32 := 2#32
  let v144 : BitVec 32 := Scalar.muli v5 c2_i32_124
  let v145 : BitVec 32 := Scalar.addi v143 v144
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_125 : BitVec 32 := 1#32
  let v146 : BitVec 32 := Scalar.muli v9 c1_i32_125
  let v147 : BitVec 32 := Scalar.addi v145 v146
  v147.toNat
abbrev stage0_0 : Fin 1 → Memref sig .tc .vmem S512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S5_S1_4 : ∀ a, (![4] : Fin 1 → Nat) a + S1.size a ≤ S5.size a
  squeezes_S1_S_ : S1.Squeezes S_
  squeezes_S1x512x512_S512x512 : S1x512x512.Squeezes S512x512
  inb_S5_S1_0 : ∀ a, (![0] : Fin 1 → Nat) a + S1.size a ≤ S5.size a
  inb_S4x128x512_S1x128x512_0_0_0 : ∀ a, (![0, 0, 0] : Fin 3 → Nat) a + S1x128x512.size a ≤ S4x128x512.size a
  squeezes_S1x128x512_S128x512 : S1x128x512.Squeezes S128x512
  inb_S5_S1_1 : ∀ a, (![1] : Fin 1 → Nat) a + S1.size a ≤ S5.size a
  inb_S4x128x512_S1x128x512_1_0_0 : ∀ a, (![1, 0, 0] : Fin 3 → Nat) a + S1x128x512.size a ≤ S4x128x512.size a
  inb_S5_S1_2 : ∀ a, (![2] : Fin 1 → Nat) a + S1.size a ≤ S5.size a
  inb_S4x128x512_S1x128x512_2_0_0 : ∀ a, (![2, 0, 0] : Fin 3 → Nat) a + S1x128x512.size a ≤ S4x128x512.size a
  inb_S5_S1_3 : ∀ a, (![3] : Fin 1 → Nat) a + S1.size a ≤ S5.size a
  inb_S4x128x512_S1x128x512_3_0_0 : ∀ a, (![3, 0, 0] : Fin 3 → Nat) a + S1x128x512.size a ≤ S4x128x512.size a
  h_S1x128x512 : 0 < S1x128x512.numel
  shapeCasts_S1x128x512_S128x512 : S1x128x512.ShapeCasts S128x512
  bitsLt_bf16_f32 : FTy.bits .bf16 < FTy.bits .f32
  shapeCasts_S128x512_S1x128x512 : S128x512.ShapeCasts S1x128x512
  packedbf16_S4x128x512_S1x128x512_0_0_0 : (Rect.unit (s := S4x128x512) ![0, 0, 0] S1x128x512.size inb_S4x128x512_S1x128x512_0_0_0).PackedRows (EltTy.packing .bf16)
  packedbf16_S4x128x512_S1x128x512_1_0_0 : (Rect.unit (s := S4x128x512) ![1, 0, 0] S1x128x512.size inb_S4x128x512_S1x128x512_1_0_0).PackedRows (EltTy.packing .bf16)
  packedbf16_S4x128x512_S1x128x512_2_0_0 : (Rect.unit (s := S4x128x512) ![2, 0, 0] S1x128x512.size inb_S4x128x512_S1x128x512_2_0_0).PackedRows (EltTy.packing .bf16)
  packedbf16_S4x128x512_S1x128x512_3_0_0 : (Rect.unit (s := S4x128x512) ![3, 0, 0] S1x128x512.size inb_S4x128x512_S1x128x512_3_0_0).PackedRows (EltTy.packing .bf16)
  inb_S4_S1_0 : ∀ a, (![0] : Fin 1 → Nat) a + S1.size a ≤ S4.size a
  wordsbf16_S4x128x512_S1x128x512_0_0_0 : (Rect.unit (s := S4x128x512) ![0, 0, 0] S1x128x512.size inb_S4x128x512_S1x128x512_0_0_0).WholeWords (EltTy.packing .bf16)
  inb_S4_S1_1 : ∀ a, (![1] : Fin 1 → Nat) a + S1.size a ≤ S4.size a
  wordsbf16_S4x128x512_S1x128x512_1_0_0 : (Rect.unit (s := S4x128x512) ![1, 0, 0] S1x128x512.size inb_S4x128x512_S1x128x512_1_0_0).WholeWords (EltTy.packing .bf16)
  inb_S4_S1_2 : ∀ a, (![2] : Fin 1 → Nat) a + S1.size a ≤ S4.size a
  wordsbf16_S4x128x512_S1x128x512_2_0_0 : (Rect.unit (s := S4x128x512) ![2, 0, 0] S1x128x512.size inb_S4x128x512_S1x128x512_2_0_0).WholeWords (EltTy.packing .bf16)
  inb_S4_S1_3 : ∀ a, (![3] : Fin 1 → Nat) a + S1.size a ≤ S4.size a
  wordsbf16_S4x128x512_S1x128x512_3_0_0 : (Rect.unit (s := S4x128x512) ![3, 0, 0] S1x128x512.size inb_S4x128x512_S1x128x512_3_0_0).WholeWords (EltTy.packing .bf16)
  inb_S512x512_S128x512_0_0 : ∀ a, (![0, 0] : Fin 2 → Nat) a + S128x512.size a ≤ S512x512.size a
  h_S128x512 : 0 < S128x512.numel
  reduces_S128x512_S128 : S128x512.Reduces [1] S128
  shapeCasts_S128_S128x1 : S128.ShapeCasts S128x1
  broadcasts_S128x1_S128x512 : S128x1.Broadcasts S128x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S128x512 : S1x512.Broadcasts S128x512
  inb_S512x512_S128x512_128_0 : ∀ a, (![128, 0] : Fin 2 → Nat) a + S128x512.size a ≤ S512x512.size a
  inb_S512x512_S128x512_256_0 : ∀ a, (![256, 0] : Fin 2 → Nat) a + S128x512.size a ≤ S512x512.size a
  inb_S512x512_S128x512_384_0 : ∀ a, (![384, 0] : Fin 2 → Nat) a + S128x512.size a ≤ S512x512.size a
  hcc0_scratch5 : 1 + S5.numel ≤ 18
  hcc0_scratch6 : 6 + S4.numel ≤ 18
  hcc0_scratch7 : 10 + S4.numel ≤ 18
  hcc0_scratch8 : 14 + S4.numel ≤ 18
  k0_dev1_lt : ∀ d0 : Dev nD, (k0_dev1 d0) < nD
  k0_off1_inb : ∀ d0 : Dev nD, ∀ a, (k0_off1 d0) a + S1x512x512.size a ≤ S1x1024x512.size a
  k0_off2_inb : ∀ d0 : Dev nD, ∀ (r : Fin 4), ∀ a, (k0_off2 d0 (BitVec.ofNat 32 (128 * r.val))) a + S1x128x512.size a ≤ S1x1024x512.size a
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  hstage0_0 : ∀ j, (stage0_0 j).IsWhole

variable [Facts₀]

abbrev cc0_scratch5 : DmaSems sig S5 := SemArray.consecutive 1 S5 hcc0_scratch5
abbrev cc0_scratch6 : DmaSems sig S4 := SemArray.consecutive 6 S4 hcc0_scratch6
abbrev cc0_scratch7 : DmaSems sig S4 := SemArray.consecutive 10 S4 hcc0_scratch7
abbrev cc0_scratch8 : DmaSems sig S4 := SemArray.consecutive 14 S4 hcc0_scratch8

abbrev win0_0 : Pipeline.Window sig grid0 :=
  Pipeline.Window.whole (Memref.whole main_arg1) false false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S2x1024x512 : Shape := ⟨3, ![2, 1024, 512]⟩
abbrev S512 : Shape := ⟨1, ![512]⟩
abbrev S_ : Shape := ⟨0, ![]⟩
abbrev S1024x512 : Shape := ⟨2, ![1024, 512]⟩
abbrev S1024 : Shape := ⟨1, ![1024]⟩
abbrev S1024x1 : Shape := ⟨2, ![1024, 1]⟩
abbrev S1x512 : Shape := ⟨2, ![1, 512]⟩

abbrev nBuf : Space → Nat
  | .hbm => 20
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512, .f32⟩
  | .hbm, ⟨2, _⟩ => ⟨S_, .f32⟩
  | .hbm, ⟨3, _⟩ => ⟨S1024x512, .f32⟩
  | .hbm, ⟨4, _⟩ => ⟨S1024x512, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x512, .f32⟩
  | .hbm, ⟨16, _⟩ => ⟨S1024x512, .f32⟩
  | .hbm, ⟨17, _⟩ => ⟨S1x512, .f32⟩
  | .hbm, ⟨18, _⟩ => ⟨S1024x512, .f32⟩
  | .hbm, ⟨19, _⟩ => ⟨S1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S2x1024x512_S1024x512_d0 : S2x1024x512.ReducesTo [0] S1024x512
  h_S_ : 0 < S_.numel
  reducesTo_S1024x512_S1024_d1 : S1024x512.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)

variable [Facts₀]

class Facts : Prop extends Facts₀ where

variable [Facts]
-- ==== Proof.Contents.lean ====
/-
  What the buffers hold, as functions of the launched arrays (generic in the float instance).

  Device `c` reads two kinds of rows of its own partial array `X c`: the half it keeps (`mineRows`, 512 rows
  starting at `512·z`) and, in four chunks of 128 rows, the half its partner keeps (`peerRows`, starting at
  `512·(1-z) + 128·k`), which it narrows and sends (`sent`).  Chunk `k` of its result is the body's arithmetic
  (`k0_pay6`) of rows `128·k …` of `mineRows`, of what its partner sent in slot `k`, and of the scale row.
-/
import proofs.«900478_g7700000000000479_dist_rsrms_v7x_xyz2x2x2_z_m512_d512_bf16_1_alg».proof.Proof.Gen.KernelIdeal
import proofs.«900478_g7700000000000479_dist_rsrms_v7x_xyz2x2x2_z_m512_d512_bf16_1_alg».proof.Proof.Gen.KernelIdeal.Skeleton
import Idealize.ShloMosaic.Lib.Pipeline.Value
import Idealize.ShloMosaic.Lib.ValueIdx
import Idealize.ShloMosaic.Lib.Exec

noncomputable section

namespace Cert.KernelIdeal.Contents

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The partner: the device with the other coordinate on the cut axis. -/
def peer (c : Dev nD) : Dev nD := ⟨(4 * (c.val / 4) + 2 * ((c.val / 2) % 2) + 1) - (c.val % 2), by have h : c.val < 8 := c.isLt; show _ < 8; omega⟩

abbrev xA : Memref sig .tc .hbm S1x1024x512 .f32 := Memref.whole main_arg0
abbrev oA : Memref sig .tc .hbm S512x512 .f32 := Memref.whole main_v1

/-- The rows of the partial array the device keeps, and chunk `k` of those its partner keeps, as the body slices them. -/
abbrev xMine (c : Dev nD) : Memref sig .tc .hbm S512x512 .f32 :=
  (xA.slice (Rect.unit (s := S1x1024x512) (k0_off1 c) S1x512x512.size (k0_off1_inb c)) (fun _ => rfl)).squeeze S512x512 squeezes_S1x512x512_S512x512
abbrev xPeer (c : Dev nD) (k : Fin 4) : Memref sig .tc .hbm S128x512 .f32 :=
  (xA.slice (Rect.unit (s := S1x1024x512) (k0_off2 c (BitVec.ofNat 32 (128 * k.val))) S1x128x512.size (k0_off2_inb c k)) (fun _ => rfl)).squeeze S128x512 squeezes_S1x128x512_S128x512

abbrev Xof (c : Dev nD) : S1x1024x512.Idx → Elt F .f32 := m ((c : Thread nD τ).loc main_arg0)
abbrev Gof (c : Dev nD) : S512.Idx → Elt F .f32 := m ((c : Thread nD τ).loc main_arg1)

def mineRows (c : Dev nD) : S512x512.Idx → Elt F .f32 := (xMine c).view.read (Elt F) (Xof m c)
def peerRows (c : Dev nD) (k : Fin 4) : S128x512.Idx → Elt F .f32 := (xPeer c k).view.read (Elt F) (Xof m c)

/-- What device `d` sends in slot `k`. -/
def sent (d : Dev nD) (k : Fin 4) : S128x512.Idx → Elt F .bf16 := truncf .bf16 (peerRows m d k) bitsLt_bf16_f32

/-- Rows `128·k …` of the kept half. -/
def mineChunk (c : Dev nD) (k : Fin 4) : S128x512.Idx → Elt F .f32 :=
  fun j => mineRows m c (ValueIdx.ix2 (⟨128 * k.val + (j 0).val, by have h : (j 0).val < 128 := (j 0).isLt; have := k.isLt; omega⟩ : Fin 512) (j 1))

/-- Chunk `k` of the result. -/
def outChunk (c : Dev nD) (k : Fin 4) : S128x512.Idx → Elt F .f32 :=
  shapeCast S128x512 (k0_pay6 (mineChunk m c k) (shapeCast S1x128x512 (sent m (peer c) k) shapeCasts_S128x512_S1x128x512) (Gof m c)) shapeCasts_S1x128x512_S128x512

theorem oslot_inb (k : Fin 4) : ∀ a, (![128 * k.val, 0] : Fin 2 → Nat) a + S128x512.size a ≤ S512x512.size a := by revert k; decide

/-- Rows `128·k …` of the result array. -/
abbrev oSlot (k : Fin 4) : Memref sig .tc .hbm S128x512 .f32 :=
  oA.slice (Rect.unit (s := S512x512) ![128 * k.val, 0] S128x512.size (oslot_inb k)) (fun _ => rfl)

/-- The result array after the four chunk copies: the four row blocks, which together are the whole array (listed newest first). -/
def outFinal (c : Dev nD) : S512x512.Idx → Elt F .f32 :=
  oA.view.writes (Elt F) oA.view.junk
    [⟨Rect.unit (s := S512x512) ![384, 0] S128x512.size inb_S512x512_S128x512_384_0, outChunk m c 3⟩,
     ⟨Rect.unit (s := S512x512) ![256, 0] S128x512.size inb_S512x512_S128x512_256_0, outChunk m c 2⟩,
     ⟨Rect.unit (s := S512x512) ![128, 0] S128x512.size inb_S512x512_S128x512_128_0, outChunk m c 1⟩,
     ⟨Rect.unit (s := S512x512) ![0, 0] S128x512.size inb_S512x512_S128x512_0_0, outChunk m c 0⟩]

end Cert.KernelIdeal.Contents

end
-- ==== Proof.Spec.lean ====
/-
  The mathematics of the certificate, with no program in sight.

  A row of 512 extended reals `y` is normalised by the root of its mean square (plus a small constant) and
  scaled entry by entry by a row `γ`:
    the kernel's form   `y j · rsqrt ((0 + ∑ k, y k · y k) / 512 + ε) · γ j`,
    the reference's     `(y j / sqrt ((0 + ∑ k, y k · y k) / 512 + ε)) · γ j`.
  The row itself is the sum of the two partial arrays' rows.  The whole result has 1024 rows; device `c`
  holds the 512 rows starting at `512 · (c mod 2)`, and its own partial array is slice `c mod 2` of the
  two partials, its partner's slice `1 - c mod 2`.
-/
import Idealize.ShloMosaic.PureOps.Ideal
import Idealize.ShloMosaic.PureOps.Ideal.Laws
import Idealize.ShloMosaic.Lib.ValueIdx

noncomputable section

namespace Cert.Spec

open Idealize.ShloMosaic

/-- The literal `512.0` and the literal `ε ≈ 1e-6`, as their binary words (never evaluated beyond sign and finiteness). -/
abbrev c512 : EReal := Ideal.ofBits .f32 0x44000000#32
abbrev eps : EReal := Ideal.ofBits .f32 0x358637BD#32
abbrev z0 : EReal := Ideal.ofBits .f32 0x00000000#32

/-- Mean square of a row plus `ε`, as both programs compute it. -/
def msq (y : Fin 512 → EReal) : EReal := Ideal.div (z0 + ∑ k : Fin 512, y k * y k) c512 + eps

/-- One normalised, scaled row in the kernel's form. -/
def kRow (y γ : Fin 512 → EReal) (j : Fin 512) : EReal := y j * Ideal.rsqrt (msq y) * γ j

/-- The same row in the reference's form. -/
def rRow (y γ : Fin 512 → EReal) (j : Fin 512) : EReal := Ideal.div (y j) (Ideal.sqrt (msq y)) * γ j

open ValueIdx in
/-- The reference's whole result: row `R` of the two partial arrays summed (from the initial value `0`), normalised, scaled. -/
def refOut (X : (⟨3, ![2, 1024, 512]⟩ : Shape).Idx → EReal) (g : (⟨1, ![512]⟩ : Shape).Idx → EReal) :
    (⟨2, ![1024, 512]⟩ : Shape).Idx → EReal :=
  fun i => rRow (fun k => z0 + (X (ix3 (0 : Fin 2) (i 0) k) + X (ix3 (1 : Fin 2) (i 0) k))) (fun k => g (ix1 k)) (i 1)

/-- Row `r` of the block of a device at coordinate `z` is row `512·z + r` of the whole. -/
def grow (z : Fin 2) (r : Fin 512) : Fin 1024 := ⟨512 * z.val + r.val, by have := r.isLt; have := z.isLt; omega⟩

open ValueIdx in
/-- What a device with mesh coordinate `z` (0 or 1) along the cut axis leaves in its result: row `r` is row
    `512·z + r` of its own partial array `x` plus the same row of its partner's `xp`, normalised, scaled by `γ`. -/
def devOut (z : Fin 2) (x xp : (⟨3, ![1, 1024, 512]⟩ : Shape).Idx → EReal) (γ : (⟨1, ![512]⟩ : Shape).Idx → EReal) :
    (⟨2, ![512, 512]⟩ : Shape).Idx → EReal :=
  fun i => kRow (fun k => x (ix3 (0 : Fin 1) (grow z (i 0)) k) + xp (ix3 (0 : Fin 1) (grow z (i 0)) k))
    (fun k => γ (ix1 k)) (i 1)

end Cert.Spec

end
-- ==== Proof.RefValue.lean ====
/-
  The reference's result, entry by entry.

  Entry `(R, j)` of the reference's last stage is read back through its operations: the product of the scale
  `g j` with the quotient of the summed row entry `0 + (X[0][R,j] + X[1][R,j])` by the root of the row's
  mean square plus `ε`, where the mean square is `(0 + ∑ k, y k · y k) / 512` over the 512 columns of the
  summed row `y`.  That is the specification's `refOut`.
-/
import proofs.«900478_g7700000000000479_dist_rsrms_v7x_xyz2x2x2_z_m512_d512_bf16_1_alg».proof.Proof.Spec
import proofs.«900478_g7700000000000479_dist_rsrms_v7x_xyz2x2x2_z_m512_d512_bf16_1_alg».proof.Proof.Gen.ReferenceIdeal
import proofs.«900478_g7700000000000479_dist_rsrms_v7x_xyz2x2x2_z_m512_d512_bf16_1_alg».proof.Proof.Gen.ReferenceIdeal.Read
import Idealize.ShloMosaic.Lib.ValueIdx
import Idealize.ShloMosaic.Lib.Pipeline.Value
import Idealize.ShloMosaic.PureOps.Ideal.Laws

noncomputable section

namespace Cert.Val

open Idealize.ShloMosaic Idealize.ShloMosaic.ValueIdx Cert.ReferenceIdeal Cert.ReferenceIdeal.Read

/-- The operand index of the sum over the two partial arrays: entry `(R, j)` reads slice `k` at `(R, j)`. -/
theorem idx_partials (R : Fin 1024) (j : Fin 512) (k : Fin 2) :
    idx_main_v0 (ix2 R j) k = ix3 k R j := by
  funext a; match a with | ⟨0, _⟩ => rfl | ⟨1, _⟩ => rfl | ⟨2, _⟩ => rfl

/-- The operand index of the sum over a row's columns, seen from entry `(R, j)` through the two broadcasts of the
    row statistic: column `k` of row `R`. -/
theorem idx_columns (R : Fin 1024) (j : Fin 512) (k : Fin 512) :
    idx_main_v2 (idx_main_v3 (idx_main_v9 (ix2 R j))) k = ix2 R k := by
  funext a; match a with | ⟨0, _⟩ => rfl | ⟨1, _⟩ => rfl

/-- The scale row is read at the entry's column. -/
theorem idx_scale (R : Fin 1024) (j : Fin 512) :
    idx_main_v11 (idx_main_v12 (ix2 R j)) = ix1 j := by
  funext a; match a with | ⟨0, _⟩ => rfl

/-- THE REFERENCE IS THE SPECIFICATION: the reference's last stage, as a function of the two argument arrays, is
    `refOut` of them. -/
theorem ref_eq (X : (⟨S2x1024x512, .f32⟩ : BufTy).Contents (Elt Ideal)) (g : (⟨S512, .f32⟩ : BufTy).Contents (Elt Ideal)) :
    val_main_v13 (F := Ideal) X g = Cert.Spec.refOut X g := by
  funext i
  obtain ⟨R, j, rfl⟩ : ∃ (R : Fin 1024) (j : Fin 512), i = ix2 R j := ⟨i 0, i 1, eq_ix2 i⟩
  simp only [val_main_v13_apply, val_main_v12_apply, val_main_v11_apply, val_main_v10_apply, val_main_v9_apply,
    val_main_v8_apply, val_main_v7_apply, val_main_v6_apply, val_main_cst_2_apply, val_main_v5_apply, val_main_v4_apply,
    val_main_cst_1_apply, val_main_v3_apply, val_main_v2_apply, val_main_cst_0_apply, val_main_v1_apply,
    val_main_v0_apply, val_main_cst_apply]
  simp only [idx_columns, idx_partials, idx_scale, Fin.sum_univ_two, Ideal.mulf_def, Ideal.hostDivf_def,
    Ideal.hostUnary_sqrt_def, Ideal.addf_def, Ideal.ofBits_def]
  rfl

end Cert.Val

end
-- ==== Proof.Law.lean ====
/-
  The algebraic law between the two arrangements of one normalised row.

  For a row `y` of real numbers the sum of squares `s = ∑ k, y k · y k` is a real number `≥ 0`, the literal
  `512.0` is the real `512` and `ε` is a positive real, so the mean square plus `ε` is a real `a > 0`.
  There `rsqrt a` is the real `(√a)⁻¹`, `sqrt a` is the real `√a ≠ 0`, and a quotient by a nonzero real is the
  product with its reciprocal: both arrangements are `y j · (√a)⁻¹ · γ j`.
-/
import proofs.«900478_g7700000000000479_dist_rsrms_v7x_xyz2x2x2_z_m512_d512_bf16_1_alg».proof.Proof.Spec
import Idealize.ShloMosaic.PureOps.Ideal.Laws

noncomputable section

namespace Cert.Val

open Idealize.ShloMosaic

/-- The word of `512.0` denotes the real `512`. -/
theorem ofBits_c512 : Ideal.ofBits .f32 0x44000000#32 = ((512 : ℝ) : EReal) := by
  simp [Ideal.ofBits, Ideal.ieee, -EReal.coe_mul]; norm_num

/-- The word of `ε` denotes a positive real. -/
theorem ofBits_eps : ∃ e : ℝ, 0 < e ∧ Ideal.ofBits .f32 0x358637BD#32 = (e : EReal) := by
  simp [Ideal.ofBits, Ideal.ieee, -EReal.coe_mul]

/-- A finite sum of reals, taken in the extended reals, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The mean square of a real row plus `ε` is a positive real. -/
theorem msq_coe (f : Fin 512 → ℝ) :
    ∃ a : ℝ, 0 < a ∧ Cert.Spec.msq (fun k => ((f k : ℝ) : EReal)) = (a : EReal) := by
  obtain ⟨e, he, hE⟩ := ofBits_eps
  refine ⟨(∑ k, f k * f k) * (1 / 512) + e, ?_, ?_⟩
  · have h0 : 0 ≤ ∑ k, f k * f k := Finset.sum_nonneg fun k _ => mul_self_nonneg _
    positivity
  · show Ideal.div (Ideal.ofBits .f32 0x00000000#32 + ∑ k : Fin 512, ((f k : ℝ) : EReal) * ((f k : ℝ) : EReal))
        (Ideal.ofBits .f32 0x44000000#32) + Ideal.ofBits .f32 0x358637BD#32 = _
    rw [hE, ofBits_c512, Ideal.ofBits_zero_f32, zero_add]
    simp only [← EReal.coe_mul]
    rw [coe_sum, Ideal.div_coe (by norm_num), ← EReal.coe_mul, ← EReal.coe_add]

/-- THE LAW: on a row of reals the kernel's arrangement (multiply by the reciprocal root) and the reference's
    (divide by the root) agree, whatever the scale row `γ` holds. -/
theorem kRow_eq_rRow (y γ : Fin 512 → EReal) (hy : ∀ k, ∃ r : ℝ, y k = (r : EReal)) (j : Fin 512) :
    Cert.Spec.kRow y γ j = Cert.Spec.rRow y γ j := by
  choose f hf using hy
  obtain rfl : y = fun k => ((f k : ℝ) : EReal) := funext hf
  obtain ⟨a, ha, hA⟩ := msq_coe f
  unfold Cert.Spec.kRow Cert.Spec.rRow
  rw [hA, Ideal.rsqrt_coe, Ideal.sqrt_coe, if_neg (not_lt.mpr ha.le), if_neg ha.ne', if_neg (not_lt.mpr ha.le),
    Ideal.div_coe (Real.sqrt_ne_zero'.mpr ha), one_div]

end Cert.Val

end
-- ==== Proof.Finite.lean ====
/-
  From the precondition to real entries.

  The precondition says that, on every device, "every entry of the block of the partial array and every entry of the
  scale row is below `+∞` in absolute value" evaluates to the bit `1`.  A conjunction of two bits is `1` only if
  both are; an all-quantifier computed by folding `and` over an array of bits is `1` only if every bit is; the word
  `0x7F800000` denotes `⊤`; and an extended real `x` with `max x (-x) < ⊤` is neither `⊥` nor `⊤`, hence a real.
-/
import proofs.«900478_g7700000000000479_dist_rsrms_v7x_xyz2x2x2_z_m512_d512_bf16_1_alg».proof.Defs
import Idealize.ShloMosaic.Lib.ReduceAll
import Idealize.ShloMosaic.Lib.ValueIdx
import Idealize.ShloMosaic.PureOps.Ideal.Laws

noncomputable section

namespace Cert.Val

open Idealize.ShloMosaic Idealize.SL.Sem

/-- The rank-0 shape has one index. -/
instance subsingleton_scalar_idx : Subsingleton (⟨0, ![]⟩ : Shape).Idx := ⟨fun a b => funext fun d => d.elim0⟩

/-- The word of `+∞`. -/
theorem ofBits_inf : Ideal.ofBits .f32 0x7F800000#32 = ⊤ := by
  simp [Ideal.ofBits, Ideal.ieee]

/-- An extended real whose absolute value compares below the word of `+∞` is a real number. -/
theorem real_of_abs_lt (x : Ideal .f32)
    (h : FloatOps.cmpf (F := Ideal) .olt (FloatOps.hostAbsf x) (FloatOps.ofBits .f32 0x7F800000#32) = 1#1) :
    ∃ r : ℝ, x = (r : EReal) := by
  simp only [Ideal.hostAbsf_def, Ideal.absf_def, Ideal.cmpf_def, Ideal.ofBits_def, ofBits_inf, Ideal.cmp] at h
  induction x using EReal.rec with
  | bot => simp at h
  | top => simp at h
  | coe r => exact ⟨r, rfl⟩

variable [hP : Cert.Pre_finite_inputs_Kernel.Facts]

/-- Under the precondition every entry of a device's block of the partial array, and every entry of its copy of the
    scale row, is a real number. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  have h0 := congrFun (h c) ValueIdx.ix0
  dsimp only [Cert.Pre_finite_inputs_Kernel.fn] at h0
  obtain ⟨h1, h2⟩ := IntOp.andi_eq_one.1 h0
  refine ⟨fun i => ?_, fun i => ?_⟩
  · exact real_of_abs_lt _ (Host.reduce_andi_all _ _ _ _ _ h1 i)
  · exact real_of_abs_lt _ (Host.reduce_andi_all _ _ _ _ _ h2 i)

end Cert.Val

end
-- ==== Proof.Bridge.lean ====
/-
  The equation that joins the two programs' results.

  Device `c` of the 2 × 2 × 2 mesh has coordinate `z = c mod 2` on the cut axis (the innermost one) and its partner
  is the device with the other `z`.  Its block of the partial arrays is slice `z` of the two, its partner's block
  slice `1 - z`; its block of the result is the 512 rows from row `512 · z`.  So row `r` of what the device leaves
  is the kernel's arrangement of the row `y k = X[z][R, k] + X[1-z][R, k]`, `R = 512 · z + r`, and row `R` of the
  reference's result is the reference's arrangement of `0 + (X[0][R, k] + X[1][R, k])`.  The two rows are the same
  row (the sum of two extended reals commutes and `0` is neutral), its entries are real under the precondition, and
  on a real row the two arrangements agree.
-/
import proofs.«900478_g7700000000000479_dist_rsrms_v7x_xyz2x2x2_z_m512_d512_bf16_1_alg».proof.Defs
import proofs.«900478_g7700000000000479_dist_rsrms_v7x_xyz2x2x2_z_m512_d512_bf16_1_alg».proof.Proof.Spec
import proofs.«900478_g7700000000000479_dist_rsrms_v7x_xyz2x2x2_z_m512_d512_bf16_1_alg».proof.Proof.Law
import proofs.«900478_g7700000000000479_dist_rsrms_v7x_xyz2x2x2_z_m512_d512_bf16_1_alg».proof.Proof.Finite
import Idealize.ShloMosaic.Lib.Layout
import Idealize.ShloMosaic.Lib.ValueIdx
import Idealize.ShloMosaic.PureOps.Ideal.Laws

noncomputable section

namespace Cert.Val

open Idealize.ShloMosaic Idealize.ShloMosaic.ValueIdx Idealize.SL.Sem

/-- The partner of device `c`: the same coordinates on the two outer mesh axes, the other coordinate on the cut axis. -/
def peer (c : Dev 8) : Dev 8 :=
  ⟨(4 * (c.val / 4) + 2 * ((c.val / 2) % 2) + 1) - (c.val % 2), by have := c.isLt; omega⟩

/-- The partner's coordinate on the cut axis is the other one. -/
theorem peer_mod (c : Dev 8) : (peer c).val % 2 = 1 - c.val % 2 := by
  show ((4 * (c.val / 4) + 2 * ((c.val / 2) % 2) + 1) - (c.val % 2)) % 2 = _
  omega

/-- On the mesh of three axes of size 2, numbered row-major, a device's block along a dimension cut by the innermost
    axis is its number mod 2 … -/
theorem meshLin_cut (c : Nat) : Layout.meshLin [2, 2, 2] c [2] = c % 2 := by
  simp [Layout.meshLin, Layout.meshCoord, Layout.cutSize]

/-- … and along a dimension that is not cut it is block 0. -/
theorem meshLin_whole (c : Nat) : Layout.meshLin [2, 2, 2] c [] = 0 := rfl

/-- A device's block of a `[2, 1024, 512]` array cut along its first dimension is slice `c mod 2`. -/
theorem block_arg {α : Type} (c : Dev 8) (X : (⟨3, ![2, 1024, 512]⟩ : Shape).Idx → α) (R : Fin 1024) (k : Fin 512) :
    (Layout.blockN ⟨3, ![1, 1024, 512]⟩ ⟨3, ![2, 1024, 512]⟩ (Layout.meshBlock [2, 2, 2] ![[2], [], []] c) X) (ix3 (0 : Fin 1) R k)
      = X (ix3 (⟨c.val % 2, Nat.mod_lt _ (by decide)⟩ : Fin 2) R k) := by
  rw [Layout.blockN_apply]
  refine congrArg X (funext fun a => Fin.ext ?_)
  rw [Layout.TilesN.idx_val]
  match a with
  | ⟨0, _⟩ => show Layout.meshLin [2, 2, 2] c.val [2] * 1 + 0 = c.val % 2; rw [meshLin_cut]; omega
  | ⟨1, _⟩ => show Layout.meshLin [2, 2, 2] c.val [] * 1024 + R.val = R.val; rw [meshLin_whole]; omega
  | ⟨2, _⟩ => show Layout.meshLin [2, 2, 2] c.val [] * 512 + k.val = k.val; rw [meshLin_whole]; omega

/-- A device's block of a `[1024, 512]` array cut along its rows is the 512 rows from row `512 · (c mod 2)`. -/
theorem block_out {α : Type} (c : Dev 8) (V : (⟨2, ![1024, 512]⟩ : Shape).Idx → α) (r j : Fin 512) :
    (Layout.blockN ⟨2, ![512, 512]⟩ ⟨2, ![1024, 512]⟩ (Layout.meshBlock [2, 2, 2] ![[2], []] c) V) (ix2 r j)
      = V (ix2 (Cert.Spec.grow ⟨c.val % 2, Nat.mod_lt _ (by decide)⟩ r) j) := by
  rw [Layout.blockN_apply]
  refine congrArg V (funext fun a => Fin.ext ?_)
  rw [Layout.TilesN.idx_val]
  match a with
  | ⟨0, _⟩ => show Layout.meshLin [2, 2, 2] c.val [2] * 512 + r.val = 512 * (c.val % 2) + r.val; rw [meshLin_cut]; omega
  | ⟨1, _⟩ => show Layout.meshLin [2, 2, 2] c.val [] * 512 + j.val = j.val; rw [meshLin_whole]; omega

/-- The equation with the programs' memories abstracted: `x` is slice `z` of `X`, `xp` slice `z'` (the other
    one), `γ` is `g`, and both blocks hold reals. -/
theorem bridge_core (z z' : Fin 2) (hz : z'.val = 1 - z.val)
    (x xp : (⟨3, ![1, 1024, 512]⟩ : Shape).Idx → EReal) (γ : (⟨1, ![512]⟩ : Shape).Idx → EReal)
    (X : (⟨3, ![2, 1024, 512]⟩ : Shape).Idx → EReal) (g : (⟨1, ![512]⟩ : Shape).Idx → EReal)
    (hx : ∀ (R : Fin 1024) (k : Fin 512), x (ix3 (0 : Fin 1) R k) = X (ix3 z R k))
    (hxp : ∀ (R : Fin 1024) (k : Fin 512), xp (ix3 (0 : Fin 1) R k) = X (ix3 z' R k))
    (hγ : γ = g) (hfx : ∀ i, ∃ r : ℝ, x i = (r : EReal)) (hfxp : ∀ i, ∃ r : ℝ, xp i = (r : EReal)) (r j : Fin 512) :
    Cert.Spec.devOut z x xp γ (ix2 r j) = Cert.Spec.refOut X g (ix2 (Cert.Spec.grow z r) j) := by
  show Cert.Spec.kRow (fun k => x (ix3 (0 : Fin 1) (Cert.Spec.grow z r) k) + xp (ix3 (0 : Fin 1) (Cert.Spec.grow z r) k))
      (fun k => γ (ix1 k)) j
    = Cert.Spec.rRow (fun k => Cert.Spec.z0 + (X (ix3 (0 : Fin 2) (Cert.Spec.grow z r) k) + X (ix3 (1 : Fin 2) (Cert.Spec.grow z r) k)))
      (fun k => g (ix1 k)) j
  rw [kRow_eq_rRow _ _ (fun k => by
    obtain ⟨a, ha⟩ := hfx (ix3 (0 : Fin 1) (Cert.Spec.grow z r) k)
    obtain ⟨b, hb⟩ := hfxp (ix3 (0 : Fin 1) (Cert.Spec.grow z r) k)
    exact ⟨a + b, by rw [ha, hb, EReal.coe_add]⟩) j]
  have hrow : (fun k => x (ix3 (0 : Fin 1) (Cert.Spec.grow z r) k) + xp (ix3 (0 : Fin 1) (Cert.Spec.grow z r) k))
      = fun k => Cert.Spec.z0 + (X (ix3 (0 : Fin 2) (Cert.Spec.grow z r) k) + X (ix3 (1 : Fin 2) (Cert.Spec.grow z r) k)) := by
    funext k
    rw [hx, hxp, show Cert.Spec.z0 = 0 from Ideal.ofBits_zero_f32, zero_add]
    have hzz : (z = 0 ∧ z' = 1) ∨ (z = 1 ∧ z' = 0) := by
      have h1 := z.isLt; have h2 := z'.isLt
      simp only [Fin.ext_iff, Fin.val_zero, Fin.val_one]
      omega
    rcases hzz with ⟨rfl, rfl⟩ | ⟨rfl, rfl⟩
    · rfl
    · exact add_comm _ _
  rw [hrow, hγ]

variable [hP : Cert.Pre_finite_inputs_Kernel.Facts]

/-- THE BRIDGE: what device `c` leaves, stated over its own block, its partner's block and its copy of the scale row,
    is its block of the reference's result stated over the whole arrays. -/
theorem bridge
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.blockN ⟨3, ![1, 1024, 512]⟩ ⟨3, ![2, 1024, 512]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1))
    (c : Dev 8) :
    Cert.Spec.devOut ⟨c.val % 2, Nat.mod_lt _ (by decide)⟩
        (m ((c.tc : Thread Cert.KernelIdeal.nD Cert.KernelIdeal.τ).loc Cert.KernelIdeal.main_arg0))
        (m (((peer c).tc : Thread Cert.KernelIdeal.nD Cert.KernelIdeal.τ).loc Cert.KernelIdeal.main_arg0))
        (m ((c.tc : Thread Cert.KernelIdeal.nD Cert.KernelIdeal.τ).loc Cert.KernelIdeal.main_arg1))
      = Layout.blockN ⟨2, ![512, 512]⟩ ⟨2, ![1024, 512]⟩ (Layout.meshBlock [2, 2, 2] ![[2], []] c)
          (Cert.Spec.refOut (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))) := by
  funext i
  obtain ⟨r, j, rfl⟩ : ∃ (r : Fin 512) (j : Fin 512), i = ix2 r j := ⟨i 0, i 1, eq_ix2 i⟩
  rw [block_out]
  refine bridge_core ⟨c.val % 2, Nat.mod_lt _ (by decide)⟩ ⟨(peer c).val % 2, Nat.mod_lt _ (by decide)⟩ (peer_mod c) _ _ _ _ _
    (fun R k => ?_) (fun R k => ?_) (hagree c).2 (finite_of_pre m hpre c).1 (finite_of_pre m hpre (peer c)).1 r j
  · rw [(hagree c).1, block_arg]
  · rw [(hagree (peer c)).1, block_arg]

end Cert.Val

end
-- ==== Proof.KVal.lean ====
/-
  The kernel's arithmetic, entry by entry.

  One chunk of the kernel's result is computed from a `128 × 512` block `a` of the device's own rows, the block
  `b` received from its partner and the scale row `g`: with `y = a + b` (the received block's format change is the
  identity on extended reals), entry `(p, q)` is `y[p,q] · rsqrt ((∑ k, y[p,k]²) / 512 + ε) · g[q]`.  The sum over
  a row comes out of the lane reduction with no initial term; the specification's `0 + ∑` is the same number.
  The blocks sent to the partner are the device's own entries, unchanged.
-/
import proofs.«900478_g7700000000000479_dist_rsrms_v7x_xyz2x2x2_z_m512_d512_bf16_1_alg».proof.Proof.Spec
import proofs.«900478_g7700000000000479_dist_rsrms_v7x_xyz2x2x2_z_m512_d512_bf16_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Val

open Idealize.ShloMosaic Idealize.ShloMosaic.ValueIdx Cert.KernelIdeal Cert.KernelIdeal.Gen

/-! ## Two layout operations of a row statistic kept as a column -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The normalised row -/

/-- The lane sum of the squares of a `128 × 512` block, at row `p`: the sum over the row's 512 entries. -/
theorem rowsum_apply (Y : FVec Ideal S128x512 .f32) (p : Fin 128) :
    multiReduction .add [1] S128 (mulf Y Y) 0x00000000#32 reduces_S128x512_S128 (.inl rfl) rfl (ix1 p)
      = ∑ k : Fin 512, Y (ix2 p k) * Y (ix2 p k) := by
  refine (Ideal.multiReduction_add_single (mulf Y Y) 0x00000000#32 reduces_S128x512_S128 (.inl rfl) rfl (ix1 p)).trans ?_
  refine Finset.sum_congr rfl fun k _ => ?_
  have e : reduces_S128x512_S128.lift (ix1 p) k = ix2 p k := by
    funext c; refine Fin.ext ?_
    match c with
    | ⟨0, _⟩ => rfl
    | ⟨1, _⟩ => rfl
  rw [e]; rfl

/-- A block `Y` with every row normalised, as the kernel computes it: entry `(p, q)` is the entry times the
    reciprocal root of the row's mean square plus `ε`. -/
theorem norm_apply (Y : FVec Ideal S128x512 .f32) (p : Fin 128) (q : Fin 512) :
    mulf Y (broadcastTo S128x512 (rsqrt (addf (divf
        (shapeCast S128x1 (multiReduction .add [1] S128 (mulf Y Y) 0x00000000#32 reduces_S128x512_S128 (.inl rfl) rfl)
          shapeCasts_S128_S128x1)
        (broadcast S128x1 (Scalar.ofBits (F := Ideal) .f32 0x44000000#32)))
        (broadcast S128x1 (Scalar.ofBits (F := Ideal) .f32 0x358637BD#32)))) broadcasts_S128x1_S128x512) (ix2 p q)
      = Y (ix2 p q) * Ideal.rsqrt (Cert.Spec.msq fun k => Y (ix2 p k)) := by
  rw [mulf_apply, broadcastTo_a1_ab_apply]
  show Y (ix2 p q) * Ideal.rsqrt (Ideal.div
      (shapeCast S128x1 (multiReduction .add [1] S128 (mulf Y Y) 0x00000000#32 reduces_S128x512_S128 (.inl rfl) rfl)
        shapeCasts_S128_S128x1 (ix2 p (0 : Fin 1)))
      (Ideal.ofBits .f32 0x44000000#32) + Ideal.ofBits .f32 0x358637BD#32) = _
  rw [shapeCast_a_a1_apply, rowsum_apply]
  unfold Cert.Spec.msq
  rw [show Cert.Spec.z0 = 0 from Ideal.ofBits_zero_f32, zero_add]

/-! ## The result chunks -/

/-- The fourth chunk's normalised block. -/
theorem pay9_apply (a : Vec Ideal S128x512 .f32) (b : Vec Ideal S1x128x512 .bf16) (p : Fin 128) (q : Fin 512) :
    k0_pay9 (F := Ideal) a b (ix2 p q)
      = (a (ix2 p q) + b (ix3 (0 : Fin 1) p q))
        * Ideal.rsqrt (Cert.Spec.msq fun k => a (ix2 p k) + b (ix3 (0 : Fin 1) p k)) := by
  have hY : ∀ k : Fin 512,
      (addf a (extf .f32 (shapeCast S128x512 b shapeCasts_S1x128x512_S128x512) bitsLt_bf16_f32) : FVec Ideal S128x512 .f32) (ix2 p k)
        = a (ix2 p k) + b (ix3 (0 : Fin 1) p k) := fun k => by
    rw [addf_apply, extf_apply, shapeCast_1ab_ab_apply]
  unfold k0_pay9
  refine (norm_apply _ p q).trans ?_
  simp only [hY]

/-- The scale row laid over the 128 rows of a chunk. -/
theorem pay10_apply (g : Vec Ideal S512 .f32) (p : Fin 128) (q : Fin 512) :
    k0_pay10 (F := Ideal) g (ix2 p q) = g (ix1 q) := by
  unfold k0_pay10
  rw [broadcastTo_1b_ab_apply, shapeCast_a_1a_apply, shapeCast_self]

/-- The fourth chunk's last step: the entrywise product, stored with a leading unit axis. -/
theorem pay11_mul (u v : FVec Ideal S128x512 .f32) (p : Fin 128) (q : Fin 512) :
    k0_pay11 (F := Ideal) u v (ix3 (0 : Fin 1) p q) = u (ix2 p q) * v (ix2 p q) := by
  unfold k0_pay11
  rw [shapeCast_ab_1ab_apply, mulf_apply]

/-- THE FOURTH CHUNK, cut in three by the printer: entry `(p, q)` is the kernel's arrangement of the row
    `a[p,·] + b[p,·]` scaled by `g`, at column `q`. -/
theorem pay11_apply (a : Vec Ideal S128x512 .f32) (b : Vec Ideal S1x128x512 .bf16) (g : Vec Ideal S512 .f32)
    (p : Fin 128) (q : Fin 512) :
    k0_pay11 (F := Ideal) (k0_pay9 a b) (k0_pay10 g) (ix3 (0 : Fin 1) p q)
      = Cert.Spec.kRow (fun k => a (ix2 p k) + b (ix3 (0 : Fin 1) p k)) (fun k => g (ix1 k)) q := by
  rw [pay11_mul, pay9_apply, pay10_apply]
  rfl

/-- The first three chunks are computed by one payload each, the same composition. -/
theorem pay6_apply (a : Vec Ideal S128x512 .f32) (b : Vec Ideal S1x128x512 .bf16) (g : Vec Ideal S512 .f32)
    (p : Fin 128) (q : Fin 512) :
    k0_pay6 (F := Ideal) a b g (ix3 (0 : Fin 1) p q)
      = Cert.Spec.kRow (fun k => a (ix2 p k) + b (ix3 (0 : Fin 1) p k)) (fun k => g (ix1 k)) q :=
  (show k0_pay6 (F := Ideal) a b g = k0_pay11 (F := Ideal) (k0_pay9 a b) (k0_pay10 g) from rfl) ▸ pay11_apply a b g p q

theorem pay7_apply (a : Vec Ideal S128x512 .f32) (b : Vec Ideal S1x128x512 .bf16) (g : Vec Ideal S512 .f32)
    (p : Fin 128) (q : Fin 512) :
    k0_pay7 (F := Ideal) a b g (ix3 (0 : Fin 1) p q)
      = Cert.Spec.kRow (fun k => a (ix2 p k) + b (ix3 (0 : Fin 1) p k)) (fun k => g (ix1 k)) q :=
  (show k0_pay7 (F := Ideal) a b g = k0_pay11 (F := Ideal) (k0_pay9 a b) (k0_pay10 g) from rfl) ▸ pay11_apply a b g p q

theorem pay8_apply (a : Vec Ideal S128x512 .f32) (b : Vec Ideal S1x128x512 .bf16) (g : Vec Ideal S512 .f32)
    (p : Fin 128) (q : Fin 512) :
    k0_pay8 (F := Ideal) a b g (ix3 (0 : Fin 1) p q)
      = Cert.Spec.kRow (fun k => a (ix2 p k) + b (ix3 (0 : Fin 1) p k)) (fun k => g (ix1 k)) q :=
  (show k0_pay8 (F := Ideal) a b g = k0_pay11 (F := Ideal) (k0_pay9 a b) (k0_pay10 g) from rfl) ▸ pay11_apply a b g p q

/-! ## The blocks sent to the partner -/

/-- A block narrowed to the sixteen-bit format for sending is, on extended reals, the block. -/
theorem pay1_apply (v : Vec Ideal S1x128x512 .f32) (p : Fin 128) (q : Fin 512) :
    k0_pay1 (F := Ideal) v (ix3 (0 : Fin 1) p q) = v (ix3 (0 : Fin 1) p q) := by
  unfold k0_pay1
  rw [shapeCast_ab_1ab_apply, truncf_apply, shapeCast_1ab_ab_apply]

theorem pay2_apply (v : Vec Ideal S1x128x512 .f32) (p : Fin 128) (q : Fin 512) :
    k0_pay2 (F := Ideal) v (ix3 (0 : Fin 1) p q) = v (ix3 (0 : Fin 1) p q) := by
  unfold k0_pay2
  rw [shapeCast_ab_1ab_apply, truncf_apply, shapeCast_1ab_ab_apply]

theorem pay5_apply (v : Vec Ideal S1x128x512 .f32) (p : Fin 128) (q : Fin 512) :
    k0_pay5 (F := Ideal) v (ix3 (0 : Fin 1) p q) = v (ix3 (0 : Fin 1) p q) := by
  unfold k0_pay5
  rw [shapeCast_ab_1ab_apply, truncf_apply, shapeCast_1ab_ab_apply]

/-- The third block is narrowed by one payload and given its leading unit axis by the next. -/
theorem pay4_apply (v : Vec Ideal S1x128x512 .f32) (p : Fin 128) (q : Fin 512) :
    k0_pay4 (F := Ideal) (k0_pay3 v) (ix3 (0 : Fin 1) p q) = v (ix3 (0 : Fin 1) p q) := by
  unfold k0_pay4 k0_pay3
  rw [shapeCast_ab_1ab_apply, truncf_apply, shapeCast_1ab_ab_apply]

end Cert.Val

end
-- ==== Proof.KOut.lean ====
/-
  What the result array holds after the four chunk copies.

  The result array has 512 rows; chunk `k` (rows `128·k … 128·k + 127`) is written once, through the unit-stride
  rectangle at row offset `128·k`, the four rectangles do not meet, and together they are the whole array (so what it
  held before does not matter).  So row `128·k + p` ends holding row `p` of
  chunk `k`: the kernel's arrangement of the sum of row `128·k + p` of the half the device keeps and row `p` of
  what its partner sent in slot `k`, scaled.  The kept half starts at row `512·z` of the device's own partial array
  (`z` its coordinate on the cut axis); the partner, whose coordinate is `1 - z`, sends from row
  `512·(1 - (1 - z)) + 128·k` of ITS array: the same row `512·z + 128·k + p` on both sides.
-/
import proofs.«900478_g7700000000000479_dist_rsrms_v7x_xyz2x2x2_z_m512_d512_bf16_1_alg».proof.Proof.Spec
import proofs.«900478_g7700000000000479_dist_rsrms_v7x_xyz2x2x2_z_m512_d512_bf16_1_alg».proof.Proof.Bridge
import proofs.«900478_g7700000000000479_dist_rsrms_v7x_xyz2x2x2_z_m512_d512_bf16_1_alg».proof.Proof.KVal
import proofs.«900478_g7700000000000479_dist_rsrms_v7x_xyz2x2x2_z_m512_d512_bf16_1_alg».proof.Proof.Contents
import Idealize.ShloMosaic.Lib.ValueIdx
import Idealize.ShloMosaic.Lib.ValueLayout
import Idealize.ShloMosaic.Lib.Pipeline.Value

noncomputable section

namespace Cert.Val

open Idealize.ShloMosaic Idealize.ShloMosaic.ValueIdx Idealize.ShloMosaic.TcCoe Idealize.SL.Sem
open Cert.KernelIdeal Cert.KernelIdeal.Gen Cert.KernelIdeal.Contents

/-! ## The rows the body reads of the partial array -/

/-- Row `r` of the half the device keeps is row `512·z + r` of its partial array. -/
theorem mineRows_apply (m : (ℓ : Loc nD τ sig) → Buf (Elt Ideal) ℓ) (c : Dev nD) (r : Fin 512) (t : Fin 512)
    (h : 512 * (c.val % 2) + r.val < 1024) :
    mineRows (F := Ideal) m c (ix2 r t) = Xof m c (ix3 (0 : Fin 1) (⟨512 * (c.val % 2) + r.val, h⟩ : Fin 1024) t) := by
  have hE : (xMine c).view.emb (ix2 r t) = ix3 (0 : Fin 1) (⟨512 * (c.val % 2) + r.val, h⟩ : Fin 1024) t := by
    show (Rect.unit (s := S1x1024x512) (k0_off1 c) S1x512x512.size (k0_off1_inb c)).emb
        (Shape.reshapeEquiv squeezes_S1x512x512_S512x512.numel_eq (ix2 r t)) = _
    rw [reshapeEquiv_ix2_1ab]
    funext a; refine Fin.ext ?_
    rw [Rect.emb_apply, Rect.off_unit, Rect.stride_unit]
    have e := k0_off1_eq c
    match a with
    | ⟨0, _⟩ => show k0_off1 c ⟨0, _⟩ + 1 * 0 = 0; rw [e]; rfl
    | ⟨1, _⟩ => show k0_off1 c ⟨1, _⟩ + 1 * r.val = 512 * (c.val % 2) + r.val; rw [e]; show 512 * (c.val % 2) + 1 * r.val = _; omega
    | ⟨2, _⟩ => show k0_off1 c ⟨2, _⟩ + 1 * t.val = t.val; rw [e]; show 0 + 1 * t.val = _; omega
  unfold mineRows
  rw [View.read_apply, hE]
  rfl

/-- Row `p` of chunk `k` of the half device `d` sends is row `(128·k + 512) - 512·z_d + p` of its partial array. -/
theorem peerRows_apply (m : (ℓ : Loc nD τ sig) → Buf (Elt Ideal) ℓ) (d : Dev nD) (k : Fin 4) (p : Fin 128) (t : Fin 512)
    (h : (128 * k.val + 512) - 512 * (d.val % 2) + p.val < 1024) :
    peerRows (F := Ideal) m d k (ix2 p t)
      = Xof m d (ix3 (0 : Fin 1) (⟨(128 * k.val + 512) - 512 * (d.val % 2) + p.val, h⟩ : Fin 1024) t) := by
  have hE : (xPeer d k).view.emb (ix2 p t)
      = ix3 (0 : Fin 1) (⟨(128 * k.val + 512) - 512 * (d.val % 2) + p.val, h⟩ : Fin 1024) t := by
    show (Rect.unit (s := S1x1024x512) (k0_off2 d (BitVec.ofNat 32 (128 * k.val))) S1x128x512.size (k0_off2_inb d k)).emb
        (Shape.reshapeEquiv squeezes_S1x128x512_S128x512.numel_eq (ix2 p t)) = _
    rw [reshapeEquiv_ix2_1ab]
    funext a; refine Fin.ext ?_
    rw [Rect.emb_apply, Rect.off_unit, Rect.stride_unit]
    have e := k0_off2_eq d k
    match a with
    | ⟨0, _⟩ => show k0_off2 d (BitVec.ofNat 32 (128 * k.val)) ⟨0, _⟩ + 1 * 0 = 0; rw [e]; rfl
    | ⟨1, _⟩ =>
      show k0_off2 d (BitVec.ofNat 32 (128 * k.val)) ⟨1, _⟩ + 1 * p.val = (128 * k.val + 512) - 512 * (d.val % 2) + p.val
      rw [e]; show (128 * k.val + 512) - 512 * (d.val % 2) + 1 * p.val = _; omega
    | ⟨2, _⟩ => show k0_off2 d (BitVec.ofNat 32 (128 * k.val)) ⟨2, _⟩ + 1 * t.val = t.val; rw [e]; show 0 + 1 * t.val = _; omega
  unfold peerRows
  rw [View.read_apply, hE]
  rfl

/-! ## One chunk of the result -/

/-- Entry `(p, q)` of chunk `k`: the kernel's arrangement of the kept row plus the received row, scaled. -/
theorem outChunk_apply (m : (ℓ : Loc nD τ sig) → Buf (Elt Ideal) ℓ) (c : Dev nD) (k : Fin 4) (p : Fin 128) (q : Fin 512)
    (h : 128 * k.val + p.val < 512) :
    outChunk (F := Ideal) m c k (ix2 p q)
      = Cert.Spec.kRow (fun t => mineRows (F := Ideal) m c (ix2 (⟨128 * k.val + p.val, h⟩ : Fin 512) t)
            + peerRows (F := Ideal) m (Contents.peer c) k (ix2 p t))
          (fun t => Gof m c (ix1 t)) q := by
  unfold outChunk
  rw [shapeCast_1ab_ab_apply, pay6_apply]
  refine congrArg (fun y => Cert.Spec.kRow y _ q) (funext fun t => ?_)
  rw [shapeCast_ab_1ab_apply]
  rfl

/-! ## The four copies into the result array -/

/-- The 128 rows from row `o` of the result array. -/
abbrev oS (o : Nat) (inb : ∀ a, (![o, 0] : Fin 2 → Nat) a + S128x512.size a ≤ S512x512.size a) : Memref sig .tc .hbm S128x512 .f32 :=
  oA.slice (Rect.unit (s := S512x512) ![o, 0] S128x512.size inb) (fun _ => rfl)

/-- A copy of a chunk through the rectangle of the 128 rows from row `o` leaves row `p` of the chunk at row `o + p` of
    the array … -/
theorem slot_hit (o : Nat) (inb : ∀ a, (![o, 0] : Fin 2 → Nat) a + S128x512.size a ≤ S512x512.size a)
    (f : S512x512.Idx → Elt Ideal .f32) (w : S128x512.Idx → Elt Ideal .f32)
    (p : Fin 128) (q : Fin 512) (h : o + p.val < 512) :
    (oS o inb).view.write (Elt Ideal) f w Finset.univ
        (ix2 (⟨o + p.val, h⟩ : Fin 512) q) = w (ix2 p q) := by
  have e := View.read_slice_write_emb (v := View.whole (sig := sig) (κ := .tc) main_v1) (Val := Elt Ideal)
    (Rect.unit (s := S512x512) ![o, 0] S128x512.size inb) f w (M := Finset.univ) (x := ix2 p q) (Finset.mem_univ _)
  have hi : (Rect.unit (s := S512x512) ![o, 0] S128x512.size inb).emb (ix2 p q) = ix2 (⟨o + p.val, h⟩ : Fin 512) q := by
    funext a; refine Fin.ext ?_
    match a with
    | ⟨0, _⟩ => show o + 1 * p.val = o + p.val; omega
    | ⟨1, _⟩ => show 0 + 1 * q.val = q.val; omega
  rw [hi] at e
  exact e

/-- … and every row outside `o … o + 127` as it was. -/
theorem slot_miss (o : Nat) (inb : ∀ a, (![o, 0] : Fin 2 → Nat) a + S128x512.size a ≤ S512x512.size a)
    (f : S512x512.Idx → Elt Ideal .f32) (w : S128x512.Idx → Elt Ideal .f32)
    (i : S512x512.Idx) (h : (i 0).val < o ∨ o + 128 ≤ (i 0).val) :
    (oS o inb).view.write (Elt Ideal) f w Finset.univ i = f i := by
  refine View.read_slice_write_of_not_mem (v := View.whole (sig := sig) (κ := .tc) main_v1) (Val := Elt Ideal)
    (Rect.unit (s := S512x512) ![o, 0] S128x512.size inb) f w Finset.univ (y := i) ?_
  rw [Rect.map_emb_univ, Rect.mem_set_unit]
  intro hall
  have h0 : o ≤ (i 0).val ∧ (i 0).val < o + 128 := hall (0 : Fin 2)
  omega

/-- After the four copies, row `128·k + p` of the result array is row `p` of chunk `k`, whatever the array held. -/
theorem outFinal_chunk (m : (ℓ : Loc nD τ sig) → Buf (Elt Ideal) ℓ) (c : Dev nD) (k : Fin 4) (p : Fin 128) (q : Fin 512)
    (h : 128 * k.val + p.val < 512) :
    outFinal (F := Ideal) m c (ix2 (⟨128 * k.val + p.val, h⟩ : Fin 512) q) = outChunk (F := Ideal) m c k (ix2 p q) := by
  unfold outFinal
  match k, h with
  | ⟨0, _⟩, h =>
    refine (slot_miss 384 inb_S512x512_S128x512_384_0 _ _ _ (Or.inl ?_)).trans
      ((slot_miss 256 inb_S512x512_S128x512_256_0 _ _ _ (Or.inl ?_)).trans
        ((slot_miss 128 inb_S512x512_S128x512_128_0 _ _ _ (Or.inl ?_)).trans
          (slot_hit 0 inb_S512x512_S128x512_0_0 _ _ p q (by omega))))
    · show 128 * 0 + p.val < 384; omega
    · show 128 * 0 + p.val < 256; omega
    · show 128 * 0 + p.val < 128; omega
  | ⟨1, _⟩, h =>
    refine (slot_miss 384 inb_S512x512_S128x512_384_0 _ _ _ (Or.inl ?_)).trans
      ((slot_miss 256 inb_S512x512_S128x512_256_0 _ _ _ (Or.inl ?_)).trans
        (slot_hit 128 inb_S512x512_S128x512_128_0 _ _ p q (by omega)))
    · show 128 * 1 + p.val < 384; omega
    · show 128 * 1 + p.val < 256; omega
  | ⟨2, _⟩, h =>
    refine (slot_miss 384 inb_S512x512_S128x512_384_0 _ _ _ (Or.inl ?_)).trans
      (slot_hit 256 inb_S512x512_S128x512_256_0 _ _ p q (by omega))
    show 128 * 2 + p.val < 384; omega
  | ⟨3, _⟩, h => exact slot_hit 384 inb_S512x512_S128x512_384_0 _ _ p q (by omega)

/-! ## The result array is the specification's -/

/-- Every row is row `p` of some chunk `k`. -/
theorem split_row (r : Fin 512) :
    ∃ (k : Fin 4) (p : Fin 128) (h : 128 * k.val + p.val < 512), r = ⟨128 * k.val + p.val, h⟩ :=
  ⟨⟨r.val / 128, by have := r.isLt; omega⟩, ⟨r.val % 128, Nat.mod_lt _ (by decide)⟩, by have := r.isLt; show 128 * (r.val / 128) + r.val % 128 < 512; omega,
    Fin.ext (by show r.val = 128 * (r.val / 128) + r.val % 128; omega)⟩

/-- THE RESULT: after the four copies the device's result array is the specification's `devOut` of its own partial
    array, its partner's and its copy of the scale row. -/
theorem outFinal_eq (m : (ℓ : Loc Cert.KernelIdeal.nD Cert.KernelIdeal.τ Cert.KernelIdeal.sig) → Buf (Elt Ideal) ℓ) (c : Dev 8) :
    Cert.KernelIdeal.Contents.outFinal (F := Ideal) m c
      = Cert.Spec.devOut ⟨c.val % 2, Nat.mod_lt _ (by decide)⟩
          (m ((c.tc : Thread Cert.KernelIdeal.nD Cert.KernelIdeal.τ).loc Cert.KernelIdeal.main_arg0))
          (m (((Cert.Val.peer c).tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext i
  obtain ⟨r, q, rfl⟩ : ∃ (r : Fin 512) (q : Fin 512), i = ix2 r q := ⟨i 0, i 1, eq_ix2 i⟩
  obtain ⟨k, p, h, rfl⟩ := split_row r
  rw [outFinal_chunk, outChunk_apply m c k p q h]
  have hc : c.val % 2 < 2 := Nat.mod_lt _ (by decide)
  have hpm := peer_mod c
  show _ = Cert.Spec.kRow
      (fun t => (show EReal from m ((c.tc : Thread nD τ).loc main_arg0) (ix3 (0 : Fin 1) (Cert.Spec.grow ⟨c.val % 2, hc⟩ ⟨128 * k.val + p.val, h⟩) t))
        + (show EReal from m (((Cert.Val.peer c).tc : Thread nD τ).loc main_arg0) (ix3 (0 : Fin 1) (Cert.Spec.grow ⟨c.val % 2, hc⟩ ⟨128 * k.val + p.val, h⟩) t)))
      (fun t => m ((c.tc : Thread nD τ).loc main_arg1) (ix1 t)) q
  refine congrArg (fun y => Cert.Spec.kRow y _ q) (funext fun t => ?_)
  have hb : (128 * k.val + 512) - 512 * ((Cert.Val.peer c).val % 2) + p.val < 1024 := by rw [hpm]; omega
  have hp2 : peerRows (F := Ideal) m (Contents.peer c) k (ix2 p t)
      = Xof m (Cert.Val.peer c) (ix3 (0 : Fin 1)
          (⟨(128 * k.val + 512) - 512 * ((Cert.Val.peer c).val % 2) + p.val, hb⟩ : Fin 1024) t) :=
    peerRows_apply m (Cert.Val.peer c) k p t hb
  rw [mineRows_apply m c _ t (by show 512 * (c.val % 2) + (128 * k.val + p.val) < 1024; omega), hp2]
  refine congrArg₂ (· + ·) rfl ?_
  refine congrArg (fun R => m (((Cert.Val.peer c).tc : Thread nD τ).loc main_arg0) (ix3 (0 : Fin 1) R t)) (Fin.ext ?_)
  show (128 * k.val + 512) - 512 * ((Cert.Val.peer c).val % 2) + p.val = 512 * (c.val % 2) + (128 * k.val + p.val)
  rw [hpm]; omega

end Cert.Val

end
-- ==== Proof.Assemble.lean ====
/-
  The five claims, assembled.

  Given the two kernels' runs — the idealized one ending with each device's result array at `outFinal` and its
  arguments unchanged, the word-level one ending with its arguments unchanged — every claim follows: the two
  kernels' frames are those runs with the result clause dropped, the reference's frame is its generated run with
  the result dropped, nothing was rewritten between the word-level kernel and its idealization, and the algebraic
  claim holds with the reference's result `refOut` of its two arguments: each device's `outFinal` is `devOut`,
  which under the precondition is the device's block of `refOut`, and the reference's last stage is `refOut`.
-/
import proofs.«900478_g7700000000000479_dist_rsrms_v7x_xyz2x2x2_z_m512_d512_bf16_1_alg».proof.Defs
import proofs.«900478_g7700000000000479_dist_rsrms_v7x_xyz2x2x2_z_m512_d512_bf16_1_alg».proof.Proof.Gen.Kernel
import proofs.«900478_g7700000000000479_dist_rsrms_v7x_xyz2x2x2_z_m512_d512_bf16_1_alg».proof.Proof.Gen.KernelIdeal
import proofs.«900478_g7700000000000479_dist_rsrms_v7x_xyz2x2x2_z_m512_d512_bf16_1_alg».proof.Proof.Gen.ReferenceIdeal
import proofs.«900478_g7700000000000479_dist_rsrms_v7x_xyz2x2x2_z_m512_d512_bf16_1_alg».proof.Proof.Gen.ReferenceIdeal.Run
import proofs.«900478_g7700000000000479_dist_rsrms_v7x_xyz2x2x2_z_m512_d512_bf16_1_alg».proof.Proof.Gen.ReferenceIdeal.Read
import proofs.«900478_g7700000000000479_dist_rsrms_v7x_xyz2x2x2_z_m512_d512_bf16_1_alg».proof.Proof.Gen.Pre_finite_inputs_Kernel
import proofs.«900478_g7700000000000479_dist_rsrms_v7x_xyz2x2x2_z_m512_d512_bf16_1_alg».proof.Proof.Gen.Pre_finite_inputs_ReferenceIdeal
import proofs.«900478_g7700000000000479_dist_rsrms_v7x_xyz2x2x2_z_m512_d512_bf16_1_alg».proof.Proof.Contents
import proofs.«900478_g7700000000000479_dist_rsrms_v7x_xyz2x2x2_z_m512_d512_bf16_1_alg».proof.Proof.Spec
import proofs.«900478_g7700000000000479_dist_rsrms_v7x_xyz2x2x2_z_m512_d512_bf16_1_alg».proof.Proof.RefValue
import proofs.«900478_g7700000000000479_dist_rsrms_v7x_xyz2x2x2_z_m512_d512_bf16_1_alg».proof.Proof.Bridge
import proofs.«900478_g7700000000000479_dist_rsrms_v7x_xyz2x2x2_z_m512_d512_bf16_1_alg».proof.Proof.KOut

noncomputable section

namespace Cert.Asm

open Idealize.ShloMosaic Idealize.SL.Sem

theorem claim_of
    (runI : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v1) = Cert.KernelIdeal.Contents.outFinal m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)))
    (runB : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩
        (fun r => ∀ c : Dev Cert.Kernel.nD,
          r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))) :
    Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    -- the word-level kernel's frame: its run
    fun m ρ _ => runB m ρ,
    -- the idealized kernel's frame: its run with the result clause dropped
    fun m ρ _ => (θ_run (Cert.KernelIdeal.defs (F := Ideal)) _ _).mono (fun _ h c => (h c).2) (runI m ρ),
    -- the reference's frame: its generated run with the result dropped
    fun m ρ _ => (θ_run (Cert.ReferenceIdeal.defs (F := Ideal)) _ _).mono (fun _ h c => (h c).2) (Cert.ReferenceIdeal.Value.run (F := Ideal) m ρ),
    -- nothing was rewritten
    trivial,
    -- the algebraic claim, with the reference's result the specification's
    fun m ρ m' ρ' hpre hagree =>
      ⟨Cert.Spec.refOut (m' (((0 : Dev Cert.ReferenceIdeal.nD).tc : Thread Cert.ReferenceIdeal.nD Cert.ReferenceIdeal.τ).loc Cert.ReferenceIdeal.main_arg0))
          (m' (((0 : Dev Cert.ReferenceIdeal.nD).tc : Thread Cert.ReferenceIdeal.nD Cert.ReferenceIdeal.τ).loc Cert.ReferenceIdeal.main_arg1)),
        (θ_run (Cert.KernelIdeal.defs (F := Ideal)) _ _).mono
          (fun _ h c => ⟨(h c).1.trans ((Cert.Val.outFinal_eq m c).trans (Cert.Val.bridge m m' hpre hagree c)), (h c).2⟩)
          (runI m ρ),
        (θ_run (Cert.ReferenceIdeal.defs (F := Ideal)) _ _).mono
          (fun _ h => ⟨(h 0).1.trans ((Cert.ReferenceIdeal.Read.val_main_v13_eq _ _).trans (Cert.Val.ref_eq _ _)), (h 0).2⟩)
          (Cert.ReferenceIdeal.Value.run (F := Ideal) m' ρ')⟩⟩

end Cert.Asm

end
-- ==== Proof.Proto.lean ====
/-
  The cross-device protocol of the kernel, as a schedule of rounds.

  Device `c` and its partner `peer c` (the device whose coordinate on the cut mesh axis is the other one)
  exchange four row chunks.  Per device there are nine cells others pay into or the engine pays on a remote copy:
    * the barrier cell — ONE unit, signalled by the partner at its kernel entry; it hands over the partner's
      receive buffer (its four slots), so that whoever has waited for it may copy into that buffer;
    * four send cells — paid by the device's own remote copy `k` once its source slot is read; the source slot
      comes back;
    * four receive cells — paid by the partner's remote copy `k` once slot `k` of the receive buffer is written;
      the slot comes back holding what was sent.
  Every cell has one round with one duty.  A device owes, from launch, one unit to its partner's barrier cell and a
  slot's credit to each of its partner's four receive cells.  Levels: barrier cells 1, receive cells 2, all other
  cells 0; every wait happens below what the waiter still owes, so nobody waits in a cycle.
  The local copies (array → scratch, scratch → result) use cells only their own device touches.
-/
import proofs.«900478_g7700000000000479_dist_rsrms_v7x_xyz2x2x2_z_m512_d512_bf16_1_alg».proof.Proof.Gen.KernelIdeal
import proofs.«900478_g7700000000000479_dist_rsrms_v7x_xyz2x2x2_z_m512_d512_bf16_1_alg».proof.Proof.Gen.KernelIdeal.Skeleton
import proofs.«900478_g7700000000000479_dist_rsrms_v7x_xyz2x2x2_z_m512_d512_bf16_1_alg».proof.Proof.Gen.KernelIdeal.Launch
import proofs.«900478_g7700000000000479_dist_rsrms_v7x_xyz2x2x2_z_m512_d512_bf16_1_alg».proof.Proof.Contents
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Contents

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra, the protocol's own copy, the local
    transfers' counters -/

abbrev UB : Type := URounds (GSem nD τ sig) Unit
abbrev UC : Type := UB × Counters
abbrev UU : Type := UR sig nD τ × UC

local notation "𝕄" => MT nD τ sig Unit (Elt F) ℕ UU ℕ

abbrev EP : Emb (UR sig nD τ) (MT nD τ sig Unit (Elt F) ℕ UU ℕ) := embL
abbrev EC0 : Emb UC (MT nD τ sig Unit (Elt F) ℕ UU ℕ) := embR
abbrev ER : Emb UB (MT nD τ sig Unit (Elt F) ℕ UU ℕ) := (Emb.inl : Emb UB UC).trans embR

variable (m : (ℓ : Loc nD τ sig) → Buf (Elt F) ℓ) (ρ : Dev nD → PrngReg)

/-! ## The partner -/

theorem peer_peer (c : Dev nD) : peer (peer c) = c := by revert c; decide
theorem peer_ne (c : Dev nD) : peer c ≠ c := by revert c; decide

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)

def pe : Dev nD ≃ Dev nD := ⟨peer, peer, peer_peer, peer_peer⟩

/-! ## Memrefs and cells, in the body's own spelling -/

abbrev mineM : Memref sig .tc .vmem S512x512 .f32 := Memref.whole cc0_scratch0
abbrev peerM : Memref sig .tc .vmem S4x128x512 .f32 := Memref.whole cc0_scratch1
abbrev sendM : Memref sig .tc .vmem S4x128x512 .bf16 := Memref.whole cc0_scratch2
abbrev recvM : Memref sig .tc .vmem S4x128x512 .bf16 := Memref.whole cc0_scratch3
abbrev outM : Memref sig .tc .vmem S4x128x512 .f32 := Memref.whole cc0_scratch4

/-- Slot `k` of the send buffer and of the receive buffer, as the body slices and squeezes them. -/
abbrev sendSlot : Fin 4 → Memref sig .tc .vmem S128x512 .bf16
  | 0 => (sendM.slice (Rect.unit (s := S4x128x512) ![0, 0, 0] S1x128x512.size inb_S4x128x512_S1x128x512_0_0_0) (fun _ => rfl)).squeeze S128x512 squeezes_S1x128x512_S128x512
  | 1 => (sendM.slice (Rect.unit (s := S4x128x512) ![1, 0, 0] S1x128x512.size inb_S4x128x512_S1x128x512_1_0_0) (fun _ => rfl)).squeeze S128x512 squeezes_S1x128x512_S128x512
  | 2 => (sendM.slice (Rect.unit (s := S4x128x512) ![2, 0, 0] S1x128x512.size inb_S4x128x512_S1x128x512_2_0_0) (fun _ => rfl)).squeeze S128x512 squeezes_S1x128x512_S128x512
  | 3 => (sendM.slice (Rect.unit (s := S4x128x512) ![3, 0, 0] S1x128x512.size inb_S4x128x512_S1x128x512_3_0_0) (fun _ => rfl)).squeeze S128x512 squeezes_S1x128x512_S128x512
abbrev recvSlot : Fin 4 → Memref sig .tc .vmem S128x512 .bf16
  | 0 => (recvM.slice (Rect.unit (s := S4x128x512) ![0, 0, 0] S1x128x512.size inb_S4x128x512_S1x128x512_0_0_0) (fun _ => rfl)).squeeze S128x512 squeezes_S1x128x512_S128x512
  | 1 => (recvM.slice (Rect.unit (s := S4x128x512) ![1, 0, 0] S1x128x512.size inb_S4x128x512_S1x128x512_1_0_0) (fun _ => rfl)).squeeze S128x512 squeezes_S1x128x512_S128x512
  | 2 => (recvM.slice (Rect.unit (s := S4x128x512) ![2, 0, 0] S1x128x512.size inb_S4x128x512_S1x128x512_2_0_0) (fun _ => rfl)).squeeze S128x512 squeezes_S1x128x512_S128x512
  | 3 => (recvM.slice (Rect.unit (s := S4x128x512) ![3, 0, 0] S1x128x512.size inb_S4x128x512_S1x128x512_3_0_0) (fun _ => rfl)).squeeze S128x512 squeezes_S1x128x512_S128x512

/-- The runtime's barrier semaphore (unscoped) and the four send / receive DMA semaphores (scoped scratch). -/
abbrev barS : Sem sig := (SemArray.scalar (sig.barrier 0 rfl) : Sems sig S_).sem
abbrev sendSem : Fin 4 → DmaSem sig
  | 0 => ((cc0_scratch6.slice (Rect.unit (s := S4) ![0] S1.size inb_S4_S1_0)).squeeze S_ squeezes_S1_S_).sem
  | 1 => ((cc0_scratch6.slice (Rect.unit (s := S4) ![1] S1.size inb_S4_S1_1)).squeeze S_ squeezes_S1_S_).sem
  | 2 => ((cc0_scratch6.slice (Rect.unit (s := S4) ![2] S1.size inb_S4_S1_2)).squeeze S_ squeezes_S1_S_).sem
  | 3 => ((cc0_scratch6.slice (Rect.unit (s := S4) ![3] S1.size inb_S4_S1_3)).squeeze S_ squeezes_S1_S_).sem
abbrev recvSem : Fin 4 → DmaSem sig
  | 0 => ((cc0_scratch7.slice (Rect.unit (s := S4) ![0] S1.size inb_S4_S1_0)).squeeze S_ squeezes_S1_S_).sem
  | 1 => ((cc0_scratch7.slice (Rect.unit (s := S4) ![1] S1.size inb_S4_S1_1)).squeeze S_ squeezes_S1_S_).sem
  | 2 => ((cc0_scratch7.slice (Rect.unit (s := S4) ![2] S1.size inb_S4_S1_2)).squeeze S_ squeezes_S1_S_).sem
  | 3 => ((cc0_scratch7.slice (Rect.unit (s := S4) ![3] S1.size inb_S4_S1_3)).squeeze S_ squeezes_S1_S_).sem

theorem sendSem_val (k : Fin 4) : (sendSem k).val = 6 + k.val := by revert k; decide
theorem recvSem_val (k : Fin 4) : (recvSem k).val = 10 + k.val := by revert k; decide

abbrev barCell (c : Dev nD) : GSem nD τ sig := ((c : Thread nD τ), .reg barS)
abbrev sendCell (c : Dev nD) (k : Fin 4) : GSem nD τ sig := ((c : Thread nD τ), .dma (sendSem k))
abbrev recvCell (c : Dev nD) (k : Fin 4) : GSem nD τ sig := ((c : Thread nD τ), .dma (recvSem k))

/-- A slot's credit. -/
abbrev N : ℕ := (recvSlot 0).view.dmaCredit
theorem N_pos : 0 < N := View.dmaCredit_pos _ (by decide)

/-! ## The four slots of a 4×128×512 scratch buffer: disjoint, and together the whole buffer -/

section Slots
variable {e : EltTy} (b : Ref sig .tc) (hb : b.ty = ⟨S4x128x512, e⟩)

theorem slot_inb (k : Fin 4) : ∀ a, (![k.val, 0, 0] : Fin 3 → Nat) a + S1x128x512.size a ≤ S4x128x512.size a := by
  revert k; decide

/-- The elements of slot `k`: those whose first coordinate is `k`. -/
abbrev slotRect (k : Fin 4) : Rect S4x128x512 := Rect.unit (s := S4x128x512) ![k.val, 0, 0] S1x128x512.size (slot_inb k)

theorem mem_slotRect (k : Fin 4) (i : S4x128x512.Idx) : i ∈ (slotRect k).set ↔ (i 0).val = k.val := by
  rw [Rect.mem_set_unit]
  have e1 : (![k.val, 0, 0] : Fin 3 → Nat) 0 = k.val := rfl
  have e2 : S1x128x512.size 0 = 1 := rfl
  constructor
  · intro h
    have h0 := h 0
    rw [e1, e2] at h0; omega
  · intro h a
    fin_cases a
    · show (![k.val, 0, 0] : Fin 3 → Nat) 0 ≤ (i 0).val ∧ (i 0).val < (![k.val, 0, 0] : Fin 3 → Nat) 0 + S1x128x512.size 0
      rw [e1, e2]; omega
    · show (0:ℕ) ≤ (i 1).val ∧ (i 1).val < 0 + 128
      have : (i 1).val < 128 := (i 1).isLt; omega
    · show (0:ℕ) ≤ (i 2).val ∧ (i 2).val < 0 + 512
      have : (i 2).val < 512 := (i 2).isLt; omega

theorem slotRect_disjoint (k k' : Fin 4) (h : k ≠ k') : Disjoint (slotRect k).set (slotRect k').set :=
  Finset.disjoint_left.mpr fun i hi hi' => h (Fin.ext (((mem_slotRect k i).mp hi).symm.trans ((mem_slotRect k' i).mp hi')))

theorem slotRect_cover : (Finset.univ : Finset (Fin 4)).biUnion (fun k => (slotRect k).set) = Finset.univ := by
  ext i
  simp only [Finset.mem_biUnion, Finset.mem_univ, true_and, iff_true]
  exact ⟨⟨(i 0).val, (i 0).isLt⟩, (mem_slotRect _ i).mpr rfl⟩

end Slots

/-! ## Contents -/

/-! ## The schedule -/

/-- Which of the nine protocol cells a semaphore is: 0 the barrier, 1–4 the send cells, 5–8 the receive cells, 9 none. -/
def cellKind (sl : SemLoc sig) : ℕ :=
  if sl = .reg barS then 0
  else if sl = .dma (sendSem 0) then 1 else if sl = .dma (sendSem 1) then 2 else if sl = .dma (sendSem 2) then 3 else if sl = .dma (sendSem 3) then 4
  else if sl = .dma (recvSem 0) then 5 else if sl = .dma (recvSem 1) then 6 else if sl = .dma (recvSem 2) then 7 else if sl = .dma (recvSem 3) then 8
  else 9

theorem cellKind_bar : cellKind (.reg barS) = 0 := by decide
theorem cellKind_send (k : Fin 4) : cellKind (.dma (sendSem k)) = 1 + k.val := by revert k; decide
theorem cellKind_recv (k : Fin 4) : cellKind (.dma (recvSem k)) = 5 + k.val := by revert k; decide

def slotPts (c : Dev nD) (k : Fin 4) (f : Buf (Elt F) ((recvSlot k).view.loc (c : Thread nD τ))) : sProp 𝕄 :=
  (recvSlot k).view.loc (c : Thread nD τ) ↦[(recvSlot k).view.set]{fullShare} f
def sendPts (c : Dev nD) (k : Fin 4) (f : Buf (Elt F) ((sendSlot k).view.loc (c : Thread nD τ))) : sProp 𝕄 :=
  (sendSlot k).view.loc (c : Thread nD τ) ↦[(sendSlot k).view.set]{fullShare} f

omit [FloatOps F] in
instance slotPts_storable (c : Dev nD) (k : Fin 4) (f) : BI.Storable (upEmb : UEmb _ 𝕄) (slotPts (F := F) c k f) := by unfold slotPts; infer_instance
omit [FloatOps F] in
instance sendPts_storable (c : Dev nD) (k : Fin 4) (f) : BI.Storable (upEmb : UEmb _ 𝕄) (sendPts (F := F) c k f) := by unfold sendPts; infer_instance

/-- The barrier's payload: the signaller's (the partner's) four receive slots, at whatever they hold. -/
def barPay (c : Dev nD) : sProp 𝕄 :=
  iprop((∃ f, slotPts (peer c) 0 f) ∗ (∃ f, slotPts (peer c) 1 f) ∗ (∃ f, slotPts (peer c) 2 f) ∗ (∃ f, slotPts (peer c) 3 f))
omit [FloatOps F] in
instance barPay_storable (c : Dev nD) : BI.Storable (upEmb : UEmb _ 𝕄) (barPay (F := F) c) := by unfold barPay; infer_instance
/-- A receive cell's payload: its slot holding what the partner sent. -/
def recvPay (c : Dev nD) (k : Fin 4) : sProp 𝕄 := slotPts c k ((recvSlot k).view.rep (sent m (peer c) k))
/-- A send cell's payload: the source slot back, holding what was sent. -/
def sendPay (c : Dev nD) (k : Fin 4) : sProp 𝕄 := sendPts c k ((sendSlot k).view.rep (sent m c k))

def payOf (c : Dev nD) : ℕ → sProp 𝕄
  | 0 => barPay c
  | 1 => sendPay m c 0 | 2 => sendPay m c 1 | 3 => sendPay m c 2 | 4 => sendPay m c 3
  | 5 => recvPay m c 0 | 6 => recvPay m c 1 | 7 => recvPay m c 2 | 8 => recvPay m c 3
  | _ => iprop(emp)

abbrev IsCell (g : GSem nD τ sig) : Prop := g.1.2 = .tc ∧ cellKind g.2 < 9

/-- One round, one duty per protocol cell: the barrier one unit, a send or receive cell a slot's credit. -/
def rd : Rounds.Schedule (GSem nD τ sig) Unit 𝕄 where
  duties g r := if r = 0 ∧ IsCell g then {()} else ∅
  unitless _ := False
  amount g _ _ := if cellKind g.2 = 0 then 1 else N
  payload g _ _ := payOf m g.1.1 (cellKind g.2)
  amount_pos g _ _ _ := by
    by_cases h : cellKind g.2 = 0
    · rw [if_pos h]; exact Nat.one_pos
    · rw [if_neg h]; exact N_pos

instance rd_payload_storable (g : GSem nD τ sig) (r : ℕ) (d : Unit) :
    BI.Storable (upEmb : UEmb _ 𝕄) ((rd (F := F) m).payload g r d) := by
  show BI.Storable upEmb (payOf m g.1.1 (cellKind g.2))
  generalize cellKind g.2 = n
  unfold payOf recvPay sendPay
  (repeat' split) <;> infer_instance

section Sched
variable (c : Dev nD) (k : Fin 4)

theorem isCell_bar : IsCell (barCell c) := ⟨rfl, by show cellKind (.reg barS) < 9; rw [cellKind_bar]; decide⟩
theorem isCell_send : IsCell (sendCell c k) := ⟨rfl, by show cellKind (.dma (sendSem k)) < 9; rw [cellKind_send]; have := k.isLt; omega⟩
theorem isCell_recv : IsCell (recvCell c k) := ⟨rfl, by show cellKind (.dma (recvSem k)) < 9; rw [cellKind_recv]; have := k.isLt; omega⟩

theorem duties_bar : (rd (F := F) m).duties (barCell c) 0 = {()} := by dsimp only [rd]; exact if_pos ⟨rfl, isCell_bar c⟩
theorem duties_send : (rd (F := F) m).duties (sendCell c k) 0 = {()} := by dsimp only [rd]; exact if_pos ⟨rfl, isCell_send c k⟩
theorem duties_recv : (rd (F := F) m).duties (recvCell c k) 0 = {()} := by dsimp only [rd]; exact if_pos ⟨rfl, isCell_recv c k⟩
theorem duties_later (g : GSem nD τ sig) : ∀ r, 1 ≤ r → (rd (F := F) m).duties g r = ∅ :=
  fun r hr => by dsimp only [rd]; rw [if_neg fun h => by omega]

theorem amount_bar (d : Unit) : (rd (F := F) m).amount (barCell c) 0 d = 1 := by
  show (if cellKind (.reg barS) = 0 then 1 else N) = 1; rw [if_pos cellKind_bar]
theorem amount_send (d : Unit) : (rd (F := F) m).amount (sendCell c k) 0 d = N := by
  show (if cellKind (.dma (sendSem k)) = 0 then 1 else N) = N; rw [if_neg (by rw [cellKind_send]; omega)]
theorem amount_recv (d : Unit) : (rd (F := F) m).amount (recvCell c k) 0 d = N := by
  show (if cellKind (.dma (recvSem k)) = 0 then 1 else N) = N; rw [if_neg (by rw [cellKind_recv]; omega)]

theorem expect_bar : (rd (F := F) m).expect (barCell c) 0 = 1 := by
  unfold Schedule.expect Schedule.amountOf; rw [duties_bar, Finset.sum_singleton, amount_bar]
theorem expect_send : (rd (F := F) m).expect (sendCell c k) 0 = N := by
  unfold Schedule.expect Schedule.amountOf; rw [duties_send, Finset.sum_singleton, amount_send]
theorem expect_recv : (rd (F := F) m).expect (recvCell c k) 0 = N := by
  unfold Schedule.expect Schedule.amountOf; rw [duties_recv, Finset.sum_singleton, amount_recv]

theorem payload_bar (d : Unit) : (rd (F := F) m).payload (barCell c) 0 d = barPay c := by
  show payOf m c (cellKind (.reg barS)) = _; rw [cellKind_bar]; rfl
theorem payload_send (d : Unit) : (rd (F := F) m).payload (sendCell c k) 0 d = sendPay m c k := by
  show payOf m c (cellKind (.dma (sendSem k))) = _; rw [cellKind_send]; fin_cases k <;> rfl
theorem payload_recv (d : Unit) : (rd (F := F) m).payload (recvCell c k) 0 d = recvPay m c k := by
  show payOf m c (cellKind (.dma (recvSem k))) = _; rw [cellKind_recv]; fin_cases k <;> rfl

theorem rest_bar : bigSep ((rd (F := F) m).duties (barCell c) 0 \ ∅) (fun d => (rd (F := F) m).payload (barCell c) 0 d) = barPay c := by
  rw [Finset.sdiff_empty, duties_bar, bigSep_singleton, payload_bar]
theorem rest_send : bigSep ((rd (F := F) m).duties (sendCell c k) 0 \ ∅) (fun d => (rd (F := F) m).payload (sendCell c k) 0 d) = sendPay m c k := by
  rw [Finset.sdiff_empty, duties_send, bigSep_singleton, payload_send]
theorem rest_recv : bigSep ((rd (F := F) m).duties (recvCell c k) 0 \ ∅) (fun d => (rd (F := F) m).payload (recvCell c k) 0 d) = recvPay m c k := by
  rw [Finset.sdiff_empty, duties_recv, bigSep_singleton, payload_recv]

end Sched

/-! ## What each device owes at launch, peeled in program order; the levels -/

def O3 (c : Dev nD) : CellTallies nD τ sig Unit := 0 + tallyAt (recvCell (peer c) 3) () N
def O2 (c : Dev nD) : CellTallies nD τ sig Unit := O3 c + tallyAt (recvCell (peer c) 2) () N
def O1 (c : Dev nD) : CellTallies nD τ sig Unit := O2 c + tallyAt (recvCell (peer c) 1) () N
def Or0 (c : Dev nD) : CellTallies nD τ sig Unit := O1 c + tallyAt (recvCell (peer c) 0) () N
def O₀ (c : Dev nD) : CellTallies nD τ sig Unit := Or0 c + tallyAt (barCell (peer c)) () 1

def L (g : GSem nD τ sig) : Finset Unit := if g.1.2 = .tc then {()} else ∅
/-- barrier cells at 1, receive cells at 2, everything else at 0. -/
def lv (g : GSem nD τ sig) (_ : Unit) : ℕ := if cellKind g.2 = 0 then 1 else if 5 ≤ cellKind g.2 ∧ cellKind g.2 ≤ 8 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by show (if cellKind (.reg barS) = 0 then 1 else _) = 1; rw [if_pos cellKind_bar]
theorem lv_recv (c : Dev nD) (k : Fin 4) (u : Unit) : lv (recvCell c k) u = 2 := by
  show (if cellKind (.dma (recvSem k)) = 0 then 1 else if 5 ≤ cellKind (.dma (recvSem k)) ∧ cellKind (.dma (recvSem k)) ≤ 8 then 2 else 0) = 2
  rw [cellKind_recv, if_neg (by omega), if_pos (by have := k.isLt; omega)]

/-- Only the partner's four receive cells are charged by `Or0`; -/
theorem Or0_pos {c : Dev nD} {g : GSem nD τ sig} {u : Unit} (h : 0 < Or0 c g u) : ∃ k, g = recvCell (peer c) k := by
  unfold Or0 O1 O2 O3 at h
  simp only [Pi.add_apply, Finsupp.add_apply, tallyAt_apply, Pi.zero_apply, Finsupp.zero_apply, Nat.zero_add] at h
  by_contra hn
  rw [not_exists] at hn
  rw [if_neg (fun h' => hn 3 h'.1), if_neg (fun h' => hn 2 h'.1), if_neg (fun h' => hn 1 h'.1), if_neg (fun h' => hn 0 h'.1)] at h
  exact Nat.lt_irrefl 0 h
/-- and by `O₀` also its barrier cell. -/
theorem O₀_pos {c : Dev nD} {g : GSem nD τ sig} {u : Unit} (h : 0 < O₀ c g u) : g = barCell (peer c) ∨ ∃ k, g = recvCell (peer c) k := by
  unfold O₀ at h
  rw [Pi.add_apply, Finsupp.add_apply, tallyAt_apply] at h
  by_cases hb : g = barCell (peer c)
  · exact Or.inl hb
  · rw [if_neg (fun h' => hb h'.1), Nat.add_zero] at h; exact Or.inr (Or0_pos h)

omit [FloatOps F] in
/-- A wait on a level-0 cell (a staging cell, a local copy's cell, a send cell) is below everything a device can owe. -/
theorem mayWait_low (c : Dev nD) (sm : SemLoc sig) (hsm : lv ((c : Thread nD τ), sm) () = 0) (O : CellTallies nD τ sig Unit)
    (hO : ∀ g u, 0 < O g u → g = barCell (peer c) ∨ ∃ k, g = recvCell (peer c) k) :
    (levAts L lv : sProp 𝕄) ⊢ MayWait (c : Thread nD τ) sm () O :=
  MayOwe.of_cut (L := L) (lev := lv) 0 (fun p hp => by rw [Finset.mem_singleton.mp hp, L_tc]; exact Finset.mem_singleton_self _)
    (fun g u hg => by rcases hO g u hg with rfl | ⟨k, rfl⟩ <;> exact Finset.mem_singleton_self _)
    (fun p hp => by rw [Finset.mem_singleton.mp hp]; exact Nat.le_of_eq hsm)
    (fun g u hg => by
      rcases hO g u hg with rfl | ⟨k, rfl⟩
      · rw [lv_bar]; decide
      · rw [lv_recv]; decide)

omit [FloatOps F] in
/-- At its barrier wait a device owes its partner's receive cells only: level 2, above the barrier's 1. -/
theorem mayWait_bar (c : Dev nD) : (levAts L lv : sProp 𝕄) ⊢ MayWait (c : Thread nD τ) (.reg barS) () (Or0 c) :=
  MayOwe.of_cut (L := L) (lev := lv) 1 (fun p hp => by rw [Finset.mem_singleton.mp hp, L_tc]; exact Finset.mem_singleton_self _)
    (fun g u hg => by obtain ⟨k, rfl⟩ := Or0_pos hg; exact Finset.mem_singleton_self _)
    (fun p hp => by rw [Finset.mem_singleton.mp hp]; exact Nat.le_of_eq (lv_bar c ()))
    (fun g u hg => by obtain ⟨k, rfl⟩ := Or0_pos hg; rw [lv_recv]; decide)

/-! ## The local copies' semaphores; all the kernel's own semaphores; the protocol's cells as a family -/

abbrev copySem : Fin 5 → DmaSem sig
  | 0 => ((cc0_scratch5.slice (Rect.unit (s := S5) ![0] S1.size inb_S5_S1_0)).squeeze S_ squeezes_S1_S_).sem
  | 1 => ((cc0_scratch5.slice (Rect.unit (s := S5) ![1] S1.size inb_S5_S1_1)).squeeze S_ squeezes_S1_S_).sem
  | 2 => ((cc0_scratch5.slice (Rect.unit (s := S5) ![2] S1.size inb_S5_S1_2)).squeeze S_ squeezes_S1_S_).sem
  | 3 => ((cc0_scratch5.slice (Rect.unit (s := S5) ![3] S1.size inb_S5_S1_3)).squeeze S_ squeezes_S1_S_).sem
  | 4 => ((cc0_scratch5.slice (Rect.unit (s := S5) ![4] S1.size inb_S5_S1_4)).squeeze S_ squeezes_S1_S_).sem
abbrev outSem : Fin 4 → DmaSem sig
  | 0 => ((cc0_scratch8.slice (Rect.unit (s := S4) ![0] S1.size inb_S4_S1_0)).squeeze S_ squeezes_S1_S_).sem
  | 1 => ((cc0_scratch8.slice (Rect.unit (s := S4) ![1] S1.size inb_S4_S1_1)).squeeze S_ squeezes_S1_S_).sem
  | 2 => ((cc0_scratch8.slice (Rect.unit (s := S4) ![2] S1.size inb_S4_S1_2)).squeeze S_ squeezes_S1_S_).sem
  | 3 => ((cc0_scratch8.slice (Rect.unit (s := S4) ![3] S1.size inb_S4_S1_3)).squeeze S_ squeezes_S1_S_).sem

/-- The kernel's OWN (scoped) semaphores, as the launch theorem indexes them: 0–4 the local input copies', 5–8 send,
    9–12 receive, 13–16 the result copies'. -/
abbrev osem : Fin 17 → SemLoc sig
  | 0 => .dma (copySem 0) | 1 => .dma (copySem 1) | 2 => .dma (copySem 2) | 3 => .dma (copySem 3) | 4 => .dma (copySem 4)
  | 5 => .dma (sendSem 0) | 6 => .dma (sendSem 1) | 7 => .dma (sendSem 2) | 8 => .dma (sendSem 3)
  | 9 => .dma (recvSem 0) | 10 => .dma (recvSem 1) | 11 => .dma (recvSem 2) | 12 => .dma (recvSem 3)
  | 13 => .dma (outSem 0) | 14 => .dma (outSem 1) | 15 => .dma (outSem 2) | 16 => .dma (outSem 3)
  | ⟨_ + 17, h⟩ => absurd h (by omega)
/-- The protocol's nine, as this proof indexes them: barrier, send 0–3, receive 0–3. -/
abbrev csem : Fin 9 → SemLoc sig
  | 0 => .reg barS
  | 1 => .dma (sendSem 0) | 2 => .dma (sendSem 1) | 3 => .dma (sendSem 2) | 4 => .dma (sendSem 3)
  | 5 => .dma (recvSem 0) | 6 => .dma (recvSem 1) | 7 => .dma (recvSem 2) | 8 => .dma (recvSem 3)
abbrev kcell (ck : Dev nD × Fin 9) : GSem nD τ sig := ((ck.1 : Thread nD τ), csem ck.2)
abbrev jS (k : Fin 4) : Fin 9 := ⟨1 + k.val, by have := k.isLt; omega⟩
abbrev jR (k : Fin 4) : Fin 9 := ⟨5 + k.val, by have := k.isLt; omega⟩
theorem kcell_send (c : Dev nD) (k : Fin 4) : kcell (c, jS k) = sendCell c k := by fin_cases k <;> rfl
theorem kcell_recv (c : Dev nD) (k : Fin 4) : kcell (c, jR k) = recvCell c k := by fin_cases k <;> rfl

/-- The nine local semaphores (input copies, result copies) at zero. -/
def localSems (c : Dev nD) : sProp 𝕄 :=
  iprop(semVal ((c : Thread nD τ), SemLoc.dma (copySem 0)) 0 ∗ semVal ((c : Thread nD τ), SemLoc.dma (copySem 1)) 0 ∗ semVal ((c : Thread nD τ), SemLoc.dma (copySem 2)) 0
    ∗ semVal ((c : Thread nD τ), SemLoc.dma (copySem 3)) 0 ∗ semVal ((c : Thread nD τ), SemLoc.dma (copySem 4)) 0
    ∗ semVal ((c : Thread nD τ), SemLoc.dma (outSem 0)) 0 ∗ semVal ((c : Thread nD τ), SemLoc.dma (outSem 1)) 0 ∗ semVal ((c : Thread nD τ), SemLoc.dma (outSem 2)) 0
    ∗ semVal ((c : Thread nD τ), SemLoc.dma (outSem 3)) 0)
/-- The eight send and receive semaphores at zero. -/
def xferSems (c : Dev nD) : sProp 𝕄 :=
  iprop(semVal (sendCell c 0) 0 ∗ semVal (sendCell c 1) 0 ∗ semVal (sendCell c 2) 0 ∗ semVal (sendCell c 3) 0
    ∗ semVal (recvCell c 0) 0 ∗ semVal (recvCell c 1) 0 ∗ semVal (recvCell c 2) 0 ∗ semVal (recvCell c 3) 0)

/-! ## Ghost state -/

/-- Every protocol cell's invariant under the names the launch allocated them at, and that every cell has reached round 0. -/
def records (K : Dev nD × Fin 9 → ℕ) : sProp 𝕄 :=
  iprop((bigSep Finset.univ fun ck : Dev nD × Fin 9 => cellInv ER (rd m) (K ck) (kcell ck))
    ∗ bigSep Finset.univ fun ck : Dev nD × Fin 9 => reached ER (kcell ck) 0)

instance records_persistent (K : Dev nD × Fin 9 → ℕ) : BI.Persistent (records m K) := by unfold records; infer_instance

theorem inv_at' (K : Dev nD × Fin 9 → ℕ) (ck : Dev nD × Fin 9) :
    (bigSep Finset.univ fun ck : Dev nD × Fin 9 => (cellInv ER (rd m) (K ck) (kcell ck) : sProp 𝕄)) ⊢ cellInv ER (rd m) (K ck) (kcell ck) :=
  bigSep_elim (Finset.mem_univ ck)
omit [FloatOps F] in
theorem reached_at' (ck : Dev nD × Fin 9) :
    (bigSep Finset.univ fun ck : Dev nD × Fin 9 => (reached ER (kcell ck) 0 : sProp 𝕄)) ⊢ reached ER (kcell ck) 0 :=
  bigSep_elim (Finset.mem_univ ck)
theorem inv_at (K : Dev nD × Fin 9 → ℕ) (ck : Dev nD × Fin 9) : records m K ⊢ cellInv ER (rd m) (K ck) (kcell ck) := by
  unfold records; iintro ⟨H, -⟩; iapply (inv_at' m K ck); iexact H
theorem reached_at (K : Dev nD × Fin 9 → ℕ) (ck : Dev nD × Fin 9) : records m K ⊢ reached ER (kcell ck) 0 := by
  unfold records; iintro ⟨-, H⟩; iapply (reached_at' (F := F) ck); iexact H

/-- The tokens of the duties device `c` PAYS: its partner's barrier duty, its partner's four receive duties, its own
    four send duties. -/
def payToks (c : Dev nD) : sProp 𝕄 :=
  iprop(dutyTok ER (barCell (peer c)) 0 ()
    ∗ (dutyTok ER (recvCell (peer c) 0) 0 () ∗ dutyTok ER (recvCell (peer c) 1) 0 () ∗ dutyTok ER (recvCell (peer c) 2) 0 () ∗ dutyTok ER (recvCell (peer c) 3) 0 ())
    ∗ (dutyTok ER (sendCell c 0) 0 () ∗ dutyTok ER (sendCell c 1) 0 () ∗ dutyTok ER (sendCell c 2) 0 () ∗ dutyTok ER (sendCell c 3) 0 ()))
/-- Its positions: round 0 of each of its nine cells, nothing taken. -/
def positions (c : Dev nD) : sProp 𝕄 :=
  iprop(atPos ER (barCell c) 0 ∅ 0
    ∗ (atPos ER (sendCell c 0) 0 ∅ 0 ∗ atPos ER (sendCell c 1) 0 ∅ 0 ∗ atPos ER (sendCell c 2) 0 ∅ 0 ∗ atPos ER (sendCell c 3) 0 ∅ 0)
    ∗ (atPos ER (recvCell c 0) 0 ∅ 0 ∗ atPos ER (recvCell c 1) 0 ∅ 0 ∗ atPos ER (recvCell c 2) 0 ∅ 0 ∗ atPos ER (recvCell c 3) 0 ∅ 0))

def ghost (K : Dev nD × Fin 9 → ℕ) (c : Dev nD) : sProp 𝕄 := iprop(records m K ∗ positions c ∗ payToks c)

/-- What device `c`'s body starts from, besides its scratch buffers. -/
def start (c : Dev nD) : sProp 𝕄 :=
  iprop((∃ K, ghost m K c)
    ∗ cred (tallyAt (barCell c) () 1)
    ∗ (cred (tallyAt (recvCell c 0) () N) ∗ cred (tallyAt (recvCell c 1) () N) ∗ cred (tallyAt (recvCell c 2) () N) ∗ cred (tallyAt (recvCell c 3) () N))
    ∗ levAts L lv ∗ localSems c
    ∗ (xA.view.loc (c : Thread nD τ) ↦{fullShare} Xof m c) ∗ (oA.view.loc (c : Thread nD τ) ↦{fullShare} m ((c : Thread nD τ).loc main_v1)))

/-- The five scratch buffers, each whole at some contents. -/
def scratch (c : Dev nD) : sProp 𝕄 :=
  iprop((∃ f, mineM.view.loc (c : Thread nD τ) ↦{fullShare} f) ∗ (∃ f, peerM.view.loc (c : Thread nD τ) ↦{fullShare} f)
    ∗ (∃ f, sendM.view.loc (c : Thread nD τ) ↦{fullShare} f) ∗ (∃ f, recvM.view.loc (c : Thread nD τ) ↦{fullShare} f)
    ∗ (∃ f, outM.view.loc (c : Thread nD τ) ↦{fullShare} f))

def Φ₀ (c : Dev nD) : sProp 𝕄 := iprop(start m c ∗ scratch c)
/-- After the body: the scratch buffers at some contents, all seventeen own semaphores at zero, the partial array as it
    was, the result array at the computed contents. -/
def Φ₁ (c : Dev nD) : sProp 𝕄 :=
  iprop(scratch c ∗ localSems c ∗ xferSems c
    ∗ (xA.view.loc (c : Thread nD τ) ↦{fullShare} Xof m c) ∗ (oA.view.loc (c : Thread nD τ) ↦{fullShare} outFinal m c))

/-! ## The pipeline's proof data: one staged input window (the scale row), one point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The scale row as staged. -/
def gstg (c : Dev nD) : (cc0_stg0_0 : Ref sig .tc).ty.Contents (Elt F) :=
  (win0_0.blk (0 : Fin 1)).view.read (Elt F) (m ((c : Thread nD τ).loc main_arg1))

def dats (_ : Fin 1) (c : Dev nD) : Dat τ (Elt F) Unit ℕ UU ℕ cfg0 c where
  A w := m ((cfg0.win w).arr.view.loc (c : Thread nD τ))
  after w _ := match w with
    | ⟨0, _⟩ => gstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Proto

end
-- ==== Proof.Launch.lean ====
/-
  The launch: from "every device's body is proved" to the run of the whole program.

  At launch every protocol cell is in round 0 with its one duty unpaid.  Each device is dealt the round states, the
  positions and the duty tokens of its OWN nine cells.  The invariants of all cells are then allocated together, and
  the tokens change hands: the token of a device's barrier duty and those of its four receive duties go to its
  partner, who is the one paying them; the four send tokens stay, the device's own remote copies pay those.
  What a device owes at launch — one unit to its partner's barrier cell, a slot's credit to each of its partner's
  four receive cells — is, summed over all devices, exactly the credit each cell starts with, because the cells of
  device `c` are owed to by `peer c` and by nobody else.
  The two arrays no window stages (the partial array, read; the result array, written by the body's own copies)
  travel beside the pipeline: held whole at launch, whole again after the body, and read back against the final
  memory.  The scale row is staged by the one window and comes back unchanged.
-/
import proofs.«900478_g7700000000000479_dist_rsrms_v7x_xyz2x2x2_z_m512_d512_bf16_1_alg».proof.Proof.Proto

noncomputable section

namespace Cert.KernelIdeal.Proto

open Cert.KernelIdeal Cert.KernelIdeal.Gen Cert.KernelIdeal.Contents

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens minted at launch -/

theorem ownSemFacts : Pipeline.OwnSemFacts cfg0.spec osem := by decide

theorem share_eq (c : Dev nD) (w : Fin cfg0.W) : (dats m 0 c).share w = fullShare := by unfold Dat.share; split <;> rfl

/-- The nine protocol semaphores are told apart by their kind. -/
theorem cellKind_csem (k : Fin 9) : cellKind (csem k) = k.val := by revert k; decide

theorem csem_injective : Function.Injective csem := fun k k' h =>
  Fin.ext (by rw [← cellKind_csem k, ← cellKind_csem k', h])

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- All seventy-two protocol cells. -/
def protoCells : Finset (GSem nD τ sig) := Finset.univ.map ⟨kcell, kcell_injective⟩

/-- The one duty token of each cell, as minted. -/
abbrev tokOf (cj : Dev nD × Fin 9) : GSem nD τ sig × ℕ × Unit := (kcell cj, 0, ())
theorem tokOf_injective : Function.Injective (tokOf : Dev nD × Fin 9 → GSem nD τ sig × ℕ × Unit) :=
  fun a b h => kcell_injective (congrArg Prod.fst h)
def protoToks : Finset (GSem nD τ sig × ℕ × Unit) := Finset.univ.map ⟨tokOf, tokOf_injective⟩

/-- The launch element: the pipeline's rounds at their start, the protocol's rounds at their start, no counter. -/
def u₀ : UU :=
  (initOf (Pipeline.cells cfgs cellOf_inj) (Pipeline.launchToks cfgs cellOf_inj), (initOf protoCells protoToks, 1))

/-! ## What the launch element deals each device -/

/-- The duty tokens of device `c`'s own nine cells. -/
def toks (c : Dev nD) : sProp 𝕄 := bigSep Finset.univ fun k : Fin 9 => dutyTok ER (kcell (c, k)) 0 ()

/-- Round 0 of each of its nine cells, its position there, and those cells' tokens. -/
def G (c : Dev nD) : sProp 𝕄 :=
  iprop((bigSep Finset.univ fun k : Fin 9 => roundState ER (rd m) (kcell (c, k)) 0)
    ∗ (bigSep Finset.univ fun k : Fin 9 => iprop(atPos ER (kcell (c, k)) 0 ∅ 0 ∗ reached ER (kcell (c, k)) 0)) ∗ toks c)

theorem fund : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 9 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks toks; rw [bigSep_map, bigSep_univ_prod]; rfl
  iintro HX
  imod (Rounds.fund ER (rd m) protoCells protoToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
/-- The kernel's own seventeen semaphores, all at zero; -/
theorem ownSems0_eq (c : Dev nD) : (Pipeline.ownSems0 (Ix := Unit) (Name := ℕ) (U := UU) (Lvl := ℕ) (Val := Elt F) (τ := τ) osem c : sProp 𝕄)
    = iprop(semVal ((c : Thread nD τ), SemLoc.dma (copySem 0)) 0
      ∗ semVal ((c : Thread nD τ), SemLoc.dma (copySem 1)) 0
      ∗ semVal ((c : Thread nD τ), SemLoc.dma (copySem 2)) 0
      ∗ semVal ((c : Thread nD τ), SemLoc.dma (copySem 3)) 0
      ∗ semVal ((c : Thread nD τ), SemLoc.dma (copySem 4)) 0
      ∗ semVal (sendCell c 0) 0
      ∗ semVal (sendCell c 1) 0
      ∗ semVal (sendCell c 2) 0
      ∗ semVal (sendCell c 3) 0
      ∗ semVal (recvCell c 0) 0
      ∗ semVal (recvCell c 1) 0
      ∗ semVal (recvCell c 2) 0
      ∗ semVal (recvCell c 3) 0
      ∗ semVal ((c : Thread nD τ), SemLoc.dma (outSem 0)) 0
      ∗ semVal ((c : Thread nD τ), SemLoc.dma (outSem 1)) 0
      ∗ semVal ((c : Thread nD τ), SemLoc.dma (outSem 2)) 0
      ∗ semVal ((c : Thread nD τ), SemLoc.dma (outSem 3)) 0) := by
  rw [Pipeline.ownSems0_eq_of_list c osem [0, 1, 2, 3, 4, 5, 6, 7, 8, 9, 10, 11, 12, 13, 14, 15, 16] (by decide) (by decide)]; rfl

omit [FloatOps F] in
/-- the nine only their own device touches apart from the eight the partner's copies pay into, -/
theorem ownSems0_split (c : Dev nD) : (Pipeline.ownSems0 (Ix := Unit) (Name := ℕ) (U := UU) (Lvl := ℕ) (Val := Elt F) (τ := τ) osem c : sProp 𝕄) ⊢ iprop(localSems c ∗ xferSems c) := by
  rw [ownSems0_eq]; unfold localSems xferSems
  iintro ⟨C0, C1, C2, C3, C4, S0, S1, S2, S3, R0, R1, R2, R3, O0, O1, O2, O3⟩
  isplitl [C0 C1 C2 C3 C4 O0 O1 O2 O3]
  · isplitl [C0]; · iexact C0
    isplitl [C1]; · iexact C1
    isplitl [C2]; · iexact C2
    isplitl [C3]; · iexact C3
    isplitl [C4]; · iexact C4
    isplitl [O0]; · iexact O0
    isplitl [O1]; · iexact O1
    isplitl [O2]; · iexact O2
    iexact O3
  · isplitl [S0]; · iexact S0
    isplitl [S1]; · iexact S1
    isplitl [S2]; · iexact S2
    isplitl [S3]; · iexact S3
    isplitl [R0]; · iexact R0
    isplitl [R1]; · iexact R1
    isplitl [R2]; · iexact R2
    iexact R3

omit [FloatOps F] in
/-- and back. -/
theorem ownSems0_join (c : Dev nD) : iprop(localSems c ∗ xferSems c) ⊢ (Pipeline.ownSems0 (Ix := Unit) (Name := ℕ) (U := UU) (Lvl := ℕ) (Val := Elt F) (τ := τ) osem c : sProp 𝕄) := by
  rw [ownSems0_eq]; unfold localSems xferSems
  iintro ⟨⟨C0, C1, C2, C3, C4, O0, O1, O2, O3⟩, S0, S1, S2, S3, R0, R1, R2, R3⟩
  isplitl [C0]; · iexact C0
  isplitl [C1]; · iexact C1
  isplitl [C2]; · iexact C2
  isplitl [C3]; · iexact C3
  isplitl [C4]; · iexact C4
  isplitl [S0]; · iexact S0
  isplitl [S1]; · iexact S1
  isplitl [S2]; · iexact S2
  isplitl [S3]; · iexact S3
  isplitl [R0]; · iexact R0
  isplitl [R1]; · iexact R1
  isplitl [R2]; · iexact R2
  isplitl [R3]; · iexact R3
  isplitl [O0]; · iexact O0
  isplitl [O1]; · iexact O1
  isplitl [O2]; · iexact O2
  iexact O3

omit [FloatOps F] in
/-- The runtime's barrier semaphore is the one semaphore no scope owns. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The nine protocol semaphores at zero, as a family. -/
theorem sems0_eq (c : Dev nD) :
    iprop(xferSems c ∗ unscopedSems0 c) ⊢ (bigSep Finset.univ fun k : Fin 9 => semVal (kcell (c, k)) 0 : sProp 𝕄) := by
  rw [unscopedSems0_eq, bigSep_fin9]; unfold xferSems
  iintro ⟨⟨S0, S1, S2, S3, R0, R1, R2, R3⟩, B⟩
  isplitl [B]; · iexact B
  isplitl [S0]; · iexact S0
  isplitl [S1]; · iexact S1
  isplitl [S2]; · iexact S2
  isplitl [S3]; · iexact S3
  isplitl [R0]; · iexact R0
  isplitl [R1]; · iexact R1
  isplitl [R2]; · iexact R2
  iexact R3

/-- Every protocol cell's invariant is allocated from its semaphore at zero and its round 0; the local semaphores
    are left as they are. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ localSems c) := by
  unfold G
  iintro ⟨Hos, Hus, Hst, Hat, Htok⟩
  ihave Hsp := (ownSems0_split (F := F) c) $$ Hos
  icases Hsp with ⟨Hloc, Hx⟩
  ihave Hv := (sems0_eq (F := F) c) $$ [Hx Hus]
  · isplitl [Hx] <;> iassumption
  imod (show iprop((bigSep Finset.univ fun k : Fin 9 => semVal (kcell (c, k)) 0) ∗ bigSep Finset.univ fun k : Fin 9 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-! ## The tokens change hands -/

/-- A device's nine positions, grouped as the body holds them. -/
theorem positions_intro (c : Dev nD) : (bigSep Finset.univ fun k : Fin 9 => (atPos ER (kcell (c, k)) 0 ∅ 0 : sProp 𝕄)) ⊢ positions c := by
  rw [bigSep_fin9]; unfold positions
  iintro ⟨B, S0, S1, S2, S3, R0, R1, R2, R3⟩
  isplitl [B]; · iexact B
  isplitl [S0 S1 S2 S3]
  · isplitl [S0]; · iexact S0
    isplitl [S1]; · iexact S1
    isplitl [S2]; · iexact S2
    iexact S3
  · isplitl [R0]; · iexact R0
    isplitl [R1]; · iexact R1
    isplitl [R2]; · iexact R2
    iexact R3

/-- What the global step leaves device `c`: the records of all cells, its positions, the tokens of the duties it
    pays, and its local semaphores. -/
def G' (c : Dev nD) : sProp 𝕄 := iprop((∃ K, ghost m K c) ∗ localSems c)

theorem ghost_intro (K : Dev nD × Fin 9 → ℕ) (c : Dev nD) :
    iprop(records m K ∗ ((bigSep Finset.univ fun k : Fin 9 => atPos ER (kcell (c, k)) 0 ∅ 0) ∗ payToks c ∗ localSems c)) ⊢ G' m c := by
  unfold G' ghost
  iintro ⟨#HR, Hat, Htk, Hloc⟩
  ihave Hp := (positions_intro (F := F) c) $$ Hat
  isplitr [Hloc]
  · iexists K
    isplitr; · iexact HR
    isplitl [Hp]; · iexact Hp
    iexact Htk
  · iexact Hloc

/-- The barrier token and the four receive tokens of every device go to its partner, who pays them; the four send
    tokens stay.  Because the partner's partner is the device itself, dealing along `peer` is a bijection. -/
theorem toks_around : (bigSep Finset.univ fun c : Dev nD => (toks c : sProp 𝕄)) ⊢ bigSep Finset.univ fun c : Dev nD => payToks c := by
  have hT (c : Dev nD) : (toks c : sProp 𝕄) = iprop(dutyTok ER (barCell c) 0 ()
      ∗ dutyTok ER (sendCell c 0) 0 () ∗ dutyTok ER (sendCell c 1) 0 () ∗ dutyTok ER (sendCell c 2) 0 () ∗ dutyTok ER (sendCell c 3) 0 ()
      ∗ dutyTok ER (recvCell c 0) 0 () ∗ dutyTok ER (recvCell c 1) 0 () ∗ dutyTok ER (recvCell c 2) 0 () ∗ dutyTok ER (recvCell c 3) 0 ()) := by
    unfold toks; rw [bigSep_fin9]
  rw [bigSep_congr (s := Finset.univ) (fun (c : Dev nD) _ => hT c)]
  unfold payToks
  simp only [bigSep_sep']
  rw [bigSep_univ_equiv pe (fun c : Dev nD => (dutyTok ER (barCell c) 0 () : sProp 𝕄)),
    bigSep_univ_equiv pe (fun c : Dev nD => (dutyTok ER (recvCell c 0) 0 () : sProp 𝕄)),
    bigSep_univ_equiv pe (fun c : Dev nD => (dutyTok ER (recvCell c 1) 0 () : sProp 𝕄)),
    bigSep_univ_equiv pe (fun c : Dev nD => (dutyTok ER (recvCell c 2) 0 () : sProp 𝕄)),
    bigSep_univ_equiv pe (fun c : Dev nD => (dutyTok ER (recvCell c 3) 0 () : sProp 𝕄))]
  iintro ⟨B, S0, S1, S2, S3, R0, R1, R2, R3⟩
  isplitl [B]; · iexact B
  isplitl [R0 R1 R2 R3]
  · isplitl [R0]; · iexact R0
    isplitl [R1]; · iexact R1
    isplitl [R2]; · iexact R2
    iexact R3
  · isplitl [S0]; · iexact S0
    isplitl [S1]; · iexact S1
    isplitl [S2]; · iexact S2
    iexact S3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Fin 9 => iprop(∃ κ : ℕ, cellInv ER (rd m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok, Hloc⟩
  ihave HK := (BI.bigSep_exists_pi Finset.univ (fun (ck : Dev nD × Fin 9) (κ : ℕ) => (cellInv ER (rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · simp only [bigSep_sep']
    isplitl [Hat]; · iexact Hat
    isplitl [Htk]; · iexact Htk
    iexact Hloc

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- The cells of device `c` are owed to by its partner and by nobody else, so what it is credited at launch is what
    its partner owes: one unit at its barrier cell, a slot's credit at each of its four receive cells. -/
theorem creds (c : Dev nD) :
    (Pipeline.launchCred O₀ c : sProp 𝕄) ⊢ iprop(cred (tallyAt (barCell c) () 1)
      ∗ (cred (tallyAt (recvCell c 0) () N) ∗ cred (tallyAt (recvCell c 1) () N) ∗ cred (tallyAt (recvCell c 2) () N) ∗ cred (tallyAt (recvCell c 3) () N))) := by
  have eB : (Pipeline.launchCred O₀ c : sProp 𝕄) = _ := Pipeline.launchCred_add Or0 (fun d => tallyAt (barCell (peer d)) () 1) c
  have e0 : (Pipeline.launchCred Or0 c : sProp 𝕄) = _ := Pipeline.launchCred_add O1 (fun d => tallyAt (recvCell (peer d) 0) () N) c
  have e1 : (Pipeline.launchCred O1 c : sProp 𝕄) = _ := Pipeline.launchCred_add O2 (fun d => tallyAt (recvCell (peer d) 1) () N) c
  have e2 : (Pipeline.launchCred O2 c : sProp 𝕄) = _ := Pipeline.launchCred_add O3 (fun d => tallyAt (recvCell (peer d) 2) () N) c
  have e3 : (Pipeline.launchCred O3 c : sProp 𝕄) = _ := Pipeline.launchCred_add (fun _ => 0) (fun d => tallyAt (recvCell (peer d) 3) () N) c
  rw [eB, e0, e1, e2, e3]
  iintro ⟨⟨⟨⟨⟨-, H3⟩, H2⟩, H1⟩, H0⟩, HB⟩
  isplitl [HB]
  · iapply (Pipeline.launchCred_tallyAt (.reg barS) peer peer peer_peer peer_peer () 1 c); iexact HB
  isplitl [H0]
  · iapply (Pipeline.launchCred_tallyAt (.dma (recvSem 0)) peer peer peer_peer peer_peer () N c); iexact H0
  isplitl [H1]
  · iapply (Pipeline.launchCred_tallyAt (.dma (recvSem 1)) peer peer peer_peer peer_peer () N c); iexact H1
  isplitl [H2]
  · iapply (Pipeline.launchCred_tallyAt (.dma (recvSem 2)) peer peer peer_peer peer_peer () N c); iexact H2
  · iapply (Pipeline.launchCred_tallyAt (.dma (recvSem 3)) peer peer peer_peer peer_peer () N c); iexact H3

/-! ## The launch theorem's side conditions -/

/-- What travels beside the pipeline after the body: the partial array as it was, the result array at its final
    contents. -/
def Yc (c : Dev nD) : sProp 𝕄 :=
  iprop((xA.view.loc (c : Thread nD τ) ↦{fullShare} Xof m c) ∗ (oA.view.loc (c : Thread nD τ) ↦{fullShare} outFinal m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold start G'
  icases HG with ⟨HK, Hloc⟩
  isplitl
  · isplitl [HK]; · iexact HK
    isplitl [H1]; · iexact H1
    isplitl [HN]; · iexact HN
    isplitl [Hlev]; · iexact Hlev
    isplitl [Hloc]; · iexact Hloc
    isplitl [Hx]; · iexact Hx
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, H0, H1, H2, H3, H4⟩
  isplitl [Hs]; · iexact Hs
  isplitl [H0]; · iexact H0
  isplitl [H1]; · iexact H1
  isplitl [H2]; · iexact H2
  isplitl [H3]; · iexact H3
  iexact H4

theorem phi1_exit (c : Dev nD) :
    (dats m 0 c).Φ (Fin.last cfg0.N) ⊢ iprop(Yc m c ∗ Pipeline.ownSems0 (Ix := Unit) (Name := ℕ) (U := UU) (Lvl := ℕ) (Val := Elt F) (τ := τ) osem c ∗ Pipeline.scopedRest cfg0.spec c) := by
  rw [show (dats m 0 c).Φ (Fin.last cfg0.N) = Φ₁ m c from rfl, scopedRest0_eq]
  unfold Φ₁ scratch Yc
  iintro ⟨⟨H0, H1, H2, H3, H4⟩, Hloc, Hxf, Hx, Ho⟩
  isplitl [Hx Ho]
  · isplitl [Hx] <;> iassumption
  isplitl [Hloc Hxf]
  · iapply (ownSems0_join (F := F) c); isplitl [Hloc] <;> iassumption
  isplitl [H0]; · iexact H0
  isplitl [H1]; · iexact H1
  isplitl [H2]; · iexact H2
  isplitl [H3]; · iexact H3
  iexact H4

omit [FloatOps F] in
/-- A semaphore that is none of the nine protocol cells has level 0. -/
theorem lv_low (c : Dev nD) (sm : SemLoc sig) (h : cellKind sm = 9) : lv ((c : Thread nD τ), sm) () = 0 := by
  show (if cellKind sm = 0 then 1 else if 5 ≤ cellKind sm ∧ cellKind sm ≤ 8 then 2 else 0) = 0
  rw [h]; decide

/-- The one staging cell is at level 0, below everything a device can owe. -/
theorem waits (c : Dev nD) : (levAts L lv : sProp 𝕄) ⊢ Pipeline.cellsWaits cfgs (dats m) () 0 c :=
  Pipeline.cellsWaits_intro cfgs (dats m) () 0 c fun w s t =>
    mayWait_low c _ (lv_low c _ (by fin_cases w <;> fin_cases s <;> decide)) _ (by
      rcases t with ⟨_ | _, ht⟩
      · exact fun g u h => O₀_pos h
      · exact fun g u h => absurd h (Nat.lt_irrefl 0))

/-! ## The run -/

/-- Every device's result array holds the computed contents; its partial array and the scale row are unchanged. -/
def QC : PUnit × MemSt nD τ sig (Elt F) → Prop := fun r => ∀ c : Dev nD,
  r.2.mem ((c : Thread nD τ).loc main_v1) = outFinal m c
  ∧ r.2.mem ((c : Thread nD τ).loc main_arg0) = m ((c : Thread nD τ).loc main_arg0)
  ∧ r.2.mem ((c : Thread nD τ).loc main_arg1) = m ((c : Thread nD τ).loc main_arg1)

set_option maxRecDepth 8000 in
/-- On the eight devices, for any float values, from any memory with zero counters: if every device's body meets its
    obligation, every weakly fair execution of the program — the partners handshaking on the barrier semaphore,
    exchanging four row chunks by remote copies, normalising and copying out — terminates, and every final state has
    each device's result array at the computed contents and its two inputs unchanged. -/
theorem run_main (hbody : ∀ c : Dev nD, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HC⟩
      ihave H' := (own_pair_emb EC0 _ _) $$ HC
      icases H' with ⟨HX, -⟩
      imod (fund m) $$ HX with HG
      imodintro
      isplitl [HP] <;> iassumption)
    (hglob := glob m)
    (hA := fun _ _ => rfl) (hpf := fun _ k => k.elim0)
    (X := start m) (Y := Yc m) (Z := fun _ => iprop(emp))
    (hX := start_intro m ρ) (hin := phi0_intro m) (hout := phi1_exit m)
    (QY := fun c s => s.mem ((c : Thread nD τ).loc main_v1) = outFinal m c
      ∧ s.mem ((c : Thread nD τ).loc main_arg0) = m ((c : Thread nD τ).loc main_arg0))
    (hY := fun c s' => by
      unfold Yc
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun s h c => ⟨(h c).2.2.1, (h c).2.2.2, ((h c).1 0).trans ((dats (F := F) m 0 c).arrAt_in (0 : Fin 1) rfl _)⟩)

end Cert.KernelIdeal.Proto

end
-- ==== Proof.Lay.lean ====
/-
  Where the body's buffers hold what: layout facts, for every float instance.

  Three of the body's buffers have four slots of `128 × 512`, slot `J` being the unit-stride rectangle at offset
  `J` on the leading axis.  The rectangles of different slots do not meet, so a load of slot `K` after stores or
  copies into the four slots reads what went into slot `K`; a slot seen through its squeeze is the same block with
  the unit axis dropped; and a block given a unit axis, narrowed, and stripped of the unit axis again is the block
  narrowed.
-/
import proofs.«900478_g7700000000000479_dist_rsrms_v7x_xyz2x2x2_z_m512_d512_bf16_1_alg».proof.Proof.Gen.KernelIdeal
import proofs.«900478_g7700000000000479_dist_rsrms_v7x_xyz2x2x2_z_m512_d512_bf16_1_alg».proof.Proof.Gen.KernelIdeal.Skeleton
import proofs.«900478_g7700000000000479_dist_rsrms_v7x_xyz2x2x2_z_m512_d512_bf16_1_alg».proof.Proof.Contents
import Idealize.ShloMosaic.Lib.Writes
import Idealize.ShloMosaic.Lib.Exec.Geometry
import Idealize.ShloMosaic.Lib.Pipeline.Value
import Idealize.ShloMosaic.Lib.ValueIdx

noncomputable section

namespace Cert.KernelIdeal.Lay

open Idealize.ShloMosaic Idealize.ShloMosaic.TcCoe Idealize.SL.Sem
open Cert.KernelIdeal Cert.KernelIdeal.Gen Cert.KernelIdeal.Contents

variable {F : FTy → Type} [FloatOps F]

/-! ## The four slots of a `4 × 128 × 512` buffer -/

section Slots
variable {sg : RefSig} {κ : Kind} {sp : Space} {e : EltTy} {Val : EltTy → Type}

/-- A load of slot `K` does not see an unmasked write through another slot `J`. -/
theorem readAt_write_miss (v : View sg κ sp S4x128x512 e) (g : v.ty.Contents Val) (J K : Nat) (hJK : J ≠ K)
    (inbJ : ∀ a, (![J, 0, 0] : Fin 3 → Nat) a + S1x128x512.size a ≤ S4x128x512.size a)
    (inbK : ∀ a, (![K, 0, 0] : Fin 3 → Nat) a + S1x128x512.size a ≤ S4x128x512.size a)
    (w : S1x128x512.Idx → Val e) :
    v.readAt Val (Rect.unit (s := S4x128x512) ![K, 0, 0] S1x128x512.size inbK).toLoadRect ((v.slice (Rect.unit (s := S4x128x512) ![J, 0, 0] S1x128x512.size inbJ)).write Val g w Finset.univ)
      = v.readAt Val (Rect.unit (s := S4x128x512) ![K, 0, 0] S1x128x512.size inbK).toLoadRect g := by
  funext x
  rw [View.readAt_apply, View.readAt_apply]
  refine View.read_slice_write_of_not_mem (v := v) (Rect.unit (s := S4x128x512) ![J, 0, 0] S1x128x512.size inbJ) g w Finset.univ ?_
  rw [Rect.map_emb_univ, Rect.mem_set_unit]
  intro hall
  have h1 : J ≤ K + 1 * (x 0).val ∧ K + 1 * (x 0).val < J + 1 := hall (0 : Fin 3)
  have hx : (x 0).val < 1 := (x 0).isLt
  omega

/-- A load of slot `K` after an unmasked write through slot `K` reads the payload. -/
theorem readAt_write_hit (v : View sg κ sp S4x128x512 e) (g : v.ty.Contents Val) (K : Nat)
    (inbK : ∀ a, (![K, 0, 0] : Fin 3 → Nat) a + S1x128x512.size a ≤ S4x128x512.size a)
    (w : S1x128x512.Idx → Val e) :
    v.readAt Val (Rect.unit (s := S4x128x512) ![K, 0, 0] S1x128x512.size inbK).toLoadRect ((v.slice (Rect.unit (s := S4x128x512) ![K, 0, 0] S1x128x512.size inbK)).write Val g w Finset.univ) = w := by
  funext x
  rw [View.readAt_apply]
  exact View.read_slice_write_emb (Rect.unit (s := S4x128x512) ![K, 0, 0] S1x128x512.size inbK) g w (Finset.mem_univ x)

/-- An unmasked write through the squeeze of slot `J` is the write through the slot of the payload with the unit axis
    put back. -/
theorem write_squeeze (v : View sg κ sp S4x128x512 e) (g : v.ty.Contents Val) (J : Nat)
    (inbJ : ∀ a, (![J, 0, 0] : Fin 3 → Nat) a + S1x128x512.size a ≤ S4x128x512.size a)
    (hq : S128x512.numel = S1x128x512.numel) (d : S128x512.Idx → Val e) :
    ((v.slice (Rect.unit (s := S4x128x512) ![J, 0, 0] S1x128x512.size inbJ)).reshape S128x512 hq).write Val g d Finset.univ
      = (v.slice (Rect.unit (s := S4x128x512) ![J, 0, 0] S1x128x512.size inbJ)).write Val g (shapeCast S1x128x512 d shapeCasts_S128x512_S1x128x512) Finset.univ := by
  rw [View.write_reshape_univ]
  refine congrArg (fun w => (v.slice (Rect.unit (s := S4x128x512) ![J, 0, 0] S1x128x512.size inbJ)).write Val g w Finset.univ) (funext fun x => ?_)
  rw [Shape.reshapeEquiv_symm]
  rfl

end Slots

/-! ## The send buffer: four stores, each slot read back through its squeeze -/

/-- Slot `0` of the send buffer after the four stores holds the payload stored there, with the unit axis dropped. -/
theorem send_read_0 (J0 : S4x128x512.Idx → Elt F .bf16) (p0 p1 p2 p3 : FVec F S1x128x512 .bf16) :
    (((Memref.whole cc0_scratch2).slice (Rect.unit (s := S4x128x512) ![0, 0, 0] S1x128x512.size inb_S4x128x512_S1x128x512_0_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), p3⟩, ⟨(Rect.unit (s := S4x128x512) ![2, 0, 0] S1x128x512.size inb_S4x128x512_S1x128x512_2_0_0), p2⟩, ⟨(Rect.unit (s := S4x128x512) ![1, 0, 0] S1x128x512.size inb_S4x128x512_S1x128x512_1_0_0), p1⟩, ⟨(Rect.unit (s := S4x128x512) ![0, 0, 0] S1x128x512.size inb_S4x128x512_S1x128x512_0_0_0), p0⟩] : List (View.Piece (Elt F) S4x128x512 .bf16)))
      = shapeCast S128x512 p0 shapeCasts_S1x128x512_S128x512 := by
  rw [Memref.read_squeeze_slice _ _ _ _ shapeCasts_S1x128x512_S128x512]
  refine congrArg (fun u => shapeCast S128x512 u shapeCasts_S1x128x512_S128x512) ?_
  show (Memref.whole cc0_scratch2).view.readAt (Elt F) (Rect.unit (s := S4x128x512) ![0, 0, 0] S1x128x512.size inb_S4x128x512_S1x128x512_0_0_0).toLoadRect (((Memref.whole cc0_scratch2).view.slice (Rect.unit (s := S4x128x512) ![3, 0, 0] S1x128x512.size inb_S4x128x512_S1x128x512_3_0_0)).write (Elt F) (((Memref.whole cc0_scratch2).view.slice (Rect.unit (s := S4x128x512) ![2, 0, 0] S1x128x512.size inb_S4x128x512_S1x128x512_2_0_0)).write (Elt F) (((Memref.whole cc0_scratch2).view.slice (Rect.unit (s := S4x128x512) ![1, 0, 0] S1x128x512.size inb_S4x128x512_S1x128x512_1_0_0)).write (Elt F) (((Memref.whole cc0_scratch2).view.slice (Rect.unit (s := S4x128x512) ![0, 0, 0] S1x128x512.size inb_S4x128x512_S1x128x512_0_0_0)).write (Elt F) J0 p0 Finset.univ) p1 Finset.univ) p2 Finset.univ) p3 Finset.univ) = p0
  rw [readAt_write_miss _ _ 3 0 (by decide) inb_S4x128x512_S1x128x512_3_0_0 inb_S4x128x512_S1x128x512_0_0_0, readAt_write_miss _ _ 2 0 (by decide) inb_S4x128x512_S1x128x512_2_0_0 inb_S4x128x512_S1x128x512_0_0_0, readAt_write_miss _ _ 1 0 (by decide) inb_S4x128x512_S1x128x512_1_0_0 inb_S4x128x512_S1x128x512_0_0_0, readAt_write_hit _ _ 0 inb_S4x128x512_S1x128x512_0_0_0]

/-- Slot `1` of the send buffer after the four stores holds the payload stored there, with the unit axis dropped. -/
theorem send_read_1 (J0 : S4x128x512.Idx → Elt F .bf16) (p0 p1 p2 p3 : FVec F S1x128x512 .bf16) :
    (((Memref.whole cc0_scratch2).slice (Rect.unit (s := S4x128x512) ![1, 0, 0] S1x128x512.size inb_S4x128x512_S1x128x512_1_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), p3⟩, ⟨(Rect.unit (s := S4x128x512) ![2, 0, 0] S1x128x512.size inb_S4x128x512_S1x128x512_2_0_0), p2⟩, ⟨(Rect.unit (s := S4x128x512) ![1, 0, 0] S1x128x512.size inb_S4x128x512_S1x128x512_1_0_0), p1⟩, ⟨(Rect.unit (s := S4x128x512) ![0, 0, 0] S1x128x512.size inb_S4x128x512_S1x128x512_0_0_0), p0⟩] : List (View.Piece (Elt F) S4x128x512 .bf16)))
      = shapeCast S128x512 p1 shapeCasts_S1x128x512_S128x512 := by
  rw [Memref.read_squeeze_slice _ _ _ _ shapeCasts_S1x128x512_S128x512]
  refine congrArg (fun u => shapeCast S128x512 u shapeCasts_S1x128x512_S128x512) ?_
  show (Memref.whole cc0_scratch2).view.readAt (Elt F) (Rect.unit (s := S4x128x512) ![1, 0, 0] S1x128x512.size inb_S4x128x512_S1x128x512_1_0_0).toLoadRect (((Memref.whole cc0_scratch2).view.slice (Rect.unit (s := S4x128x512) ![3, 0, 0] S1x128x512.size inb_S4x128x512_S1x128x512_3_0_0)).write (Elt F) (((Memref.whole cc0_scratch2).view.slice (Rect.unit (s := S4x128x512) ![2, 0, 0] S1x128x512.size inb_S4x128x512_S1x128x512_2_0_0)).write (Elt F) (((Memref.whole cc0_scratch2).view.slice (Rect.unit (s := S4x128x512) ![1, 0, 0] S1x128x512.size inb_S4x128x512_S1x128x512_1_0_0)).write (Elt F) (((Memref.whole cc0_scratch2).view.slice (Rect.unit (s := S4x128x512) ![0, 0, 0] S1x128x512.size inb_S4x128x512_S1x128x512_0_0_0)).write (Elt F) J0 p0 Finset.univ) p1 Finset.univ) p2 Finset.univ) p3 Finset.univ) = p1
  rw [readAt_write_miss _ _ 3 1 (by decide) inb_S4x128x512_S1x128x512_3_0_0 inb_S4x128x512_S1x128x512_1_0_0, readAt_write_miss _ _ 2 1 (by decide) inb_S4x128x512_S1x128x512_2_0_0 inb_S4x128x512_S1x128x512_1_0_0, readAt_write_hit _ _ 1 inb_S4x128x512_S1x128x512_1_0_0]

/-- Slot `2` of the send buffer after the four stores holds the payload stored there, with the unit axis dropped. -/
theorem send_read_2 (J0 : S4x128x512.Idx → Elt F .bf16) (p0 p1 p2 p3 : FVec F S1x128x512 .bf16) :
    (((Memref.whole cc0_scratch2).slice (Rect.unit (s := S4x128x512) ![2, 0, 0] S1x128x512.size inb_S4x128x512_S1x128x512_2_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), p3⟩, ⟨(Rect.unit (s := S4x128x512) ![2, 0, 0] S1x128x512.size inb_S4x128x512_S1x128x512_2_0_0), p2⟩, ⟨(Rect.unit (s := S4x128x512) ![1, 0, 0] S1x128x512.size inb_S4x128x512_S1x128x512_1_0_0), p1⟩, ⟨(Rect.unit (s := S4x128x512) ![0, 0, 0] S1x128x512.size inb_S4x128x512_S1x128x512_0_0_0), p0⟩] : List (View.Piece (Elt F) S4x128x512 .bf16)))
      = shapeCast S128x512 p2 shapeCasts_S1x128x512_S128x512 := by
  rw [Memref.read_squeeze_slice _ _ _ _ shapeCasts_S1x128x512_S128x512]
  refine congrArg (fun u => shapeCast S128x512 u shapeCasts_S1x128x512_S128x512) ?_
  show (Memref.whole cc0_scratch2).view.readAt (Elt F) (Rect.unit (s := S4x128x512) ![2, 0, 0] S1x128x512.size inb_S4x128x512_S1x128x512_2_0_0).toLoadRect (((Memref.whole cc0_scratch2).view.slice (Rect.unit (s := S4x128x512) ![3, 0, 0] S1x128x512.size inb_S4x128x512_S1x128x512_3_0_0)).write (Elt F) (((Memref.whole cc0_scratch2).view.slice (Rect.unit (s := S4x128x512) ![2, 0, 0] S1x128x512.size inb_S4x128x512_S1x128x512_2_0_0)).write (Elt F) (((Memref.whole cc0_scratch2).view.slice (Rect.unit (s := S4x128x512) ![1, 0, 0] S1x128x512.size inb_S4x128x512_S1x128x512_1_0_0)).write (Elt F) (((Memref.whole cc0_scratch2).view.slice (Rect.unit (s := S4x128x512) ![0, 0, 0] S1x128x512.size inb_S4x128x512_S1x128x512_0_0_0)).write (Elt F) J0 p0 Finset.univ) p1 Finset.univ) p2 Finset.univ) p3 Finset.univ) = p2
  rw [readAt_write_miss _ _ 3 2 (by decide) inb_S4x128x512_S1x128x512_3_0_0 inb_S4x128x512_S1x128x512_2_0_0, readAt_write_hit _ _ 2 inb_S4x128x512_S1x128x512_2_0_0]

/-- Slot `3` of the send buffer after the four stores holds the payload stored there, with the unit axis dropped. -/
theorem send_read_3 (J0 : S4x128x512.Idx → Elt F .bf16) (p0 p1 p2 p3 : FVec F S1x128x512 .bf16) :
    (((Memref.whole cc0_scratch2).slice (Rect.unit (s := S4x128x512) ![3, 0, 0] S1x128x512.size inb_S4x128x512_S1x128x512_3_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), p3⟩, ⟨(Rect.unit (s := S4x128x512) ![2, 0, 0] S1x128x512.size inb_S4x128x512_S1x128x512_2_0_0), p2⟩, ⟨(Rect.unit (s := S4x128x512) ![1, 0, 0] S1x128x512.size inb_S4x128x512_S1x128x512_1_0_0), p1⟩, ⟨(Rect.unit (s := S4x128x512) ![0, 0, 0] S1x128x512.size inb_S4x128x512_S1x128x512_0_0_0), p0⟩] : List (View.Piece (Elt F) S4x128x512 .bf16)))
      = shapeCast S128x512 p3 shapeCasts_S1x128x512_S128x512 := by
  rw [Memref.read_squeeze_slice _ _ _ _ shapeCasts_S1x128x512_S128x512]
  refine congrArg (fun u => shapeCast S128x512 u shapeCasts_S1x128x512_S128x512) ?_
  show (Memref.whole cc0_scratch2).view.readAt (Elt F) (Rect.unit (s := S4x128x512) ![3, 0, 0] S1x128x512.size inb_S4x128x512_S1x128x512_3_0_0).toLoadRect (((Memref.whole cc0_scratch2).view.slice (Rect.unit (s := S4x128x512) ![3, 0, 0] S1x128x512.size inb_S4x128x512_S1x128x512_3_0_0)).write (Elt F) (((Memref.whole cc0_scratch2).view.slice (Rect.unit (s := S4x128x512) ![2, 0, 0] S1x128x512.size inb_S4x128x512_S1x128x512_2_0_0)).write (Elt F) (((Memref.whole cc0_scratch2).view.slice (Rect.unit (s := S4x128x512) ![1, 0, 0] S1x128x512.size inb_S4x128x512_S1x128x512_1_0_0)).write (Elt F) (((Memref.whole cc0_scratch2).view.slice (Rect.unit (s := S4x128x512) ![0, 0, 0] S1x128x512.size inb_S4x128x512_S1x128x512_0_0_0)).write (Elt F) J0 p0 Finset.univ) p1 Finset.univ) p2 Finset.univ) p3 Finset.univ) = p3
  rw [readAt_write_hit _ _ 3 inb_S4x128x512_S1x128x512_3_0_0]

/-! ## The f32 scratch: four local copies into the squeezed slots, each slot loaded back -/

/-- Slot `0` of the scratch after the four copies holds the block copied there, with the unit axis put back. -/
theorem scratch_read_0 (fP : S4x128x512.Idx → Elt F .f32) (d0 d1 d2 d3 : S128x512.Idx → Elt F .f32) :
    View.readAt (Elt F) (Memref.whole cc0_scratch1).view (Rect.unit (s := S4x128x512) ![0, 0, 0] S1x128x512.size inb_S4x128x512_S1x128x512_0_0_0).toLoadRect
        (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)
      = shapeCast S1x128x512 d0 shapeCasts_S128x512_S1x128x512 := by
  show View.readAt (Elt F) (Memref.whole cc0_scratch1).view (Rect.unit (s := S4x128x512) ![0, 0, 0] S1x128x512.size inb_S4x128x512_S1x128x512_0_0_0).toLoadRect
      ((((Memref.whole cc0_scratch1).view.slice (Rect.unit (s := S4x128x512) ![3, 0, 0] S1x128x512.size inb_S4x128x512_S1x128x512_3_0_0)).reshape S128x512 squeezes_S1x128x512_S128x512.numel_eq).write (Elt F)
        ((((Memref.whole cc0_scratch1).view.slice (Rect.unit (s := S4x128x512) ![2, 0, 0] S1x128x512.size inb_S4x128x512_S1x128x512_2_0_0)).reshape S128x512 squeezes_S1x128x512_S128x512.numel_eq).write (Elt F)
          ((((Memref.whole cc0_scratch1).view.slice (Rect.unit (s := S4x128x512) ![1, 0, 0] S1x128x512.size inb_S4x128x512_S1x128x512_1_0_0)).reshape S128x512 squeezes_S1x128x512_S128x512.numel_eq).write (Elt F)
            ((((Memref.whole cc0_scratch1).view.slice (Rect.unit (s := S4x128x512) ![0, 0, 0] S1x128x512.size inb_S4x128x512_S1x128x512_0_0_0)).reshape S128x512 squeezes_S1x128x512_S128x512.numel_eq).write (Elt F) fP d0 Finset.univ)
            d1 Finset.univ) d2 Finset.univ) d3 Finset.univ) = _
  rw [write_squeeze _ _ 3 inb_S4x128x512_S1x128x512_3_0_0, write_squeeze _ _ 2 inb_S4x128x512_S1x128x512_2_0_0, write_squeeze _ _ 1 inb_S4x128x512_S1x128x512_1_0_0, write_squeeze _ _ 0 inb_S4x128x512_S1x128x512_0_0_0]
  rw [readAt_write_miss _ _ 3 0 (by decide) inb_S4x128x512_S1x128x512_3_0_0 inb_S4x128x512_S1x128x512_0_0_0, readAt_write_miss _ _ 2 0 (by decide) inb_S4x128x512_S1x128x512_2_0_0 inb_S4x128x512_S1x128x512_0_0_0, readAt_write_miss _ _ 1 0 (by decide) inb_S4x128x512_S1x128x512_1_0_0 inb_S4x128x512_S1x128x512_0_0_0, readAt_write_hit _ _ 0 inb_S4x128x512_S1x128x512_0_0_0]

/-- Slot `1` of the scratch after the four copies holds the block copied there, with the unit axis put back. -/
theorem scratch_read_1 (fP : S4x128x512.Idx → Elt F .f32) (d0 d1 d2 d3 : S128x512.Idx → Elt F .f32) :
    View.readAt (Elt F) (Memref.whole cc0_scratch1).view (Rect.unit (s := S4x128x512) ![1, 0, 0] S1x128x512.size inb_S4x128x512_S1x128x512_1_0_0).toLoadRect
        (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)
      = shapeCast S1x128x512 d1 shapeCasts_S128x512_S1x128x512 := by
  show View.readAt (Elt F) (Memref.whole cc0_scratch1).view (Rect.unit (s := S4x128x512) ![1, 0, 0] S1x128x512.size inb_S4x128x512_S1x128x512_1_0_0).toLoadRect
      ((((Memref.whole cc0_scratch1).view.slice (Rect.unit (s := S4x128x512) ![3, 0, 0] S1x128x512.size inb_S4x128x512_S1x128x512_3_0_0)).reshape S128x512 squeezes_S1x128x512_S128x512.numel_eq).write (Elt F)
        ((((Memref.whole cc0_scratch1).view.slice (Rect.unit (s := S4x128x512) ![2, 0, 0] S1x128x512.size inb_S4x128x512_S1x128x512_2_0_0)).reshape S128x512 squeezes_S1x128x512_S128x512.numel_eq).write (Elt F)
          ((((Memref.whole cc0_scratch1).view.slice (Rect.unit (s := S4x128x512) ![1, 0, 0] S1x128x512.size inb_S4x128x512_S1x128x512_1_0_0)).reshape S128x512 squeezes_S1x128x512_S128x512.numel_eq).write (Elt F)
            ((((Memref.whole cc0_scratch1).view.slice (Rect.unit (s := S4x128x512) ![0, 0, 0] S1x128x512.size inb_S4x128x512_S1x128x512_0_0_0)).reshape S128x512 squeezes_S1x128x512_S128x512.numel_eq).write (Elt F) fP d0 Finset.univ)
            d1 Finset.univ) d2 Finset.univ) d3 Finset.univ) = _
  rw [write_squeeze _ _ 3 inb_S4x128x512_S1x128x512_3_0_0, write_squeeze _ _ 2 inb_S4x128x512_S1x128x512_2_0_0, write_squeeze _ _ 1 inb_S4x128x512_S1x128x512_1_0_0, write_squeeze _ _ 0 inb_S4x128x512_S1x128x512_0_0_0]
  rw [readAt_write_miss _ _ 3 1 (by decide) inb_S4x128x512_S1x128x512_3_0_0 inb_S4x128x512_S1x128x512_1_0_0, readAt_write_miss _ _ 2 1 (by decide) inb_S4x128x512_S1x128x512_2_0_0 inb_S4x128x512_S1x128x512_1_0_0, readAt_write_hit _ _ 1 inb_S4x128x512_S1x128x512_1_0_0]

/-- Slot `2` of the scratch after the four copies holds the block copied there, with the unit axis put back. -/
theorem scratch_read_2 (fP : S4x128x512.Idx → Elt F .f32) (d0 d1 d2 d3 : S128x512.Idx → Elt F .f32) :
    View.readAt (Elt F) (Memref.whole cc0_scratch1).view (Rect.unit (s := S4x128x512) ![2, 0, 0] S1x128x512.size inb_S4x128x512_S1x128x512_2_0_0).toLoadRect
        (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)
      = shapeCast S1x128x512 d2 shapeCasts_S128x512_S1x128x512 := by
  show View.readAt (Elt F) (Memref.whole cc0_scratch1).view (Rect.unit (s := S4x128x512) ![2, 0, 0] S1x128x512.size inb_S4x128x512_S1x128x512_2_0_0).toLoadRect
      ((((Memref.whole cc0_scratch1).view.slice (Rect.unit (s := S4x128x512) ![3, 0, 0] S1x128x512.size inb_S4x128x512_S1x128x512_3_0_0)).reshape S128x512 squeezes_S1x128x512_S128x512.numel_eq).write (Elt F)
        ((((Memref.whole cc0_scratch1).view.slice (Rect.unit (s := S4x128x512) ![2, 0, 0] S1x128x512.size inb_S4x128x512_S1x128x512_2_0_0)).reshape S128x512 squeezes_S1x128x512_S128x512.numel_eq).write (Elt F)
          ((((Memref.whole cc0_scratch1).view.slice (Rect.unit (s := S4x128x512) ![1, 0, 0] S1x128x512.size inb_S4x128x512_S1x128x512_1_0_0)).reshape S128x512 squeezes_S1x128x512_S128x512.numel_eq).write (Elt F)
            ((((Memref.whole cc0_scratch1).view.slice (Rect.unit (s := S4x128x512) ![0, 0, 0] S1x128x512.size inb_S4x128x512_S1x128x512_0_0_0)).reshape S128x512 squeezes_S1x128x512_S128x512.numel_eq).write (Elt F) fP d0 Finset.univ)
            d1 Finset.univ) d2 Finset.univ) d3 Finset.univ) = _
  rw [write_squeeze _ _ 3 inb_S4x128x512_S1x128x512_3_0_0, write_squeeze _ _ 2 inb_S4x128x512_S1x128x512_2_0_0, write_squeeze _ _ 1 inb_S4x128x512_S1x128x512_1_0_0, write_squeeze _ _ 0 inb_S4x128x512_S1x128x512_0_0_0]
  rw [readAt_write_miss _ _ 3 2 (by decide) inb_S4x128x512_S1x128x512_3_0_0 inb_S4x128x512_S1x128x512_2_0_0, readAt_write_hit _ _ 2 inb_S4x128x512_S1x128x512_2_0_0]

/-- Slot `3` of the scratch after the four copies holds the block copied there, with the unit axis put back. -/
theorem scratch_read_3 (fP : S4x128x512.Idx → Elt F .f32) (d0 d1 d2 d3 : S128x512.Idx → Elt F .f32) :
    View.readAt (Elt F) (Memref.whole cc0_scratch1).view (Rect.unit (s := S4x128x512) ![3, 0, 0] S1x128x512.size inb_S4x128x512_S1x128x512_3_0_0).toLoadRect
        (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)
      = shapeCast S1x128x512 d3 shapeCasts_S128x512_S1x128x512 := by
  show View.readAt (Elt F) (Memref.whole cc0_scratch1).view (Rect.unit (s := S4x128x512) ![3, 0, 0] S1x128x512.size inb_S4x128x512_S1x128x512_3_0_0).toLoadRect
      ((((Memref.whole cc0_scratch1).view.slice (Rect.unit (s := S4x128x512) ![3, 0, 0] S1x128x512.size inb_S4x128x512_S1x128x512_3_0_0)).reshape S128x512 squeezes_S1x128x512_S128x512.numel_eq).write (Elt F)
        ((((Memref.whole cc0_scratch1).view.slice (Rect.unit (s := S4x128x512) ![2, 0, 0] S1x128x512.size inb_S4x128x512_S1x128x512_2_0_0)).reshape S128x512 squeezes_S1x128x512_S128x512.numel_eq).write (Elt F)
          ((((Memref.whole cc0_scratch1).view.slice (Rect.unit (s := S4x128x512) ![1, 0, 0] S1x128x512.size inb_S4x128x512_S1x128x512_1_0_0)).reshape S128x512 squeezes_S1x128x512_S128x512.numel_eq).write (Elt F)
            ((((Memref.whole cc0_scratch1).view.slice (Rect.unit (s := S4x128x512) ![0, 0, 0] S1x128x512.size inb_S4x128x512_S1x128x512_0_0_0)).reshape S128x512 squeezes_S1x128x512_S128x512.numel_eq).write (Elt F) fP d0 Finset.univ)
            d1 Finset.univ) d2 Finset.univ) d3 Finset.univ) = _
  rw [write_squeeze _ _ 3 inb_S4x128x512_S1x128x512_3_0_0, write_squeeze _ _ 2 inb_S4x128x512_S1x128x512_2_0_0, write_squeeze _ _ 1 inb_S4x128x512_S1x128x512_1_0_0, write_squeeze _ _ 0 inb_S4x128x512_S1x128x512_0_0_0]
  rw [readAt_write_hit _ _ 3 inb_S4x128x512_S1x128x512_3_0_0]

/-! ## The narrowing payloads between two unit-axis casts -/

/-- A block given a unit axis, narrowed by the payload, and stripped of the unit axis is the block narrowed. -/
theorem pay1_cast (d : FVec F S128x512 .f32) :
    shapeCast S128x512 (k0_pay1 (shapeCast S1x128x512 d shapeCasts_S128x512_S1x128x512)) shapeCasts_S1x128x512_S128x512
      = truncf .bf16 d bitsLt_bf16_f32 := by
  show shapeCast S128x512 (shapeCast S1x128x512 (truncf .bf16 (shapeCast S128x512 (shapeCast S1x128x512 d
    shapeCasts_S128x512_S1x128x512) shapeCasts_S1x128x512_S128x512) bitsLt_bf16_f32) shapeCasts_S128x512_S1x128x512)
    shapeCasts_S1x128x512_S128x512 = _
  rw [shapeCast_shapeCast, shapeCast_shapeCast]

theorem pay2_cast (d : FVec F S128x512 .f32) :
    shapeCast S128x512 (k0_pay2 (shapeCast S1x128x512 d shapeCasts_S128x512_S1x128x512)) shapeCasts_S1x128x512_S128x512
      = truncf .bf16 d bitsLt_bf16_f32 := pay1_cast d

theorem pay5_cast (d : FVec F S128x512 .f32) :
    shapeCast S128x512 (k0_pay5 (shapeCast S1x128x512 d shapeCasts_S128x512_S1x128x512)) shapeCasts_S1x128x512_S128x512
      = truncf .bf16 d bitsLt_bf16_f32 := pay1_cast d

theorem pay43_cast (d : FVec F S128x512 .f32) :
    shapeCast S128x512 (k0_pay4 (k0_pay3 (shapeCast S1x128x512 d shapeCasts_S128x512_S1x128x512))) shapeCasts_S1x128x512_S128x512
      = truncf .bf16 d bitsLt_bf16_f32 := pay1_cast d

/-- A transfer that reads its source as it is. -/
theorem readAs_same {s : Shape} {e : EltTy} (x : s.Idx → Elt F e) : (ReadAs.same : ReadAs (Elt F) s e s e).apply x = x := rfl

/-! ## The result chunk's payloads -/

theorem outChunk_def (m : (ℓ : Loc nD τ sig) → Buf (Elt F) ℓ) (c : Dev nD) (K : Fin 4) :
    shapeCast S128x512 (k0_pay6 (mineChunk m c K) (shapeCast S1x128x512 (sent m (peer c) K) shapeCasts_S128x512_S1x128x512) (Gof m c))
      shapeCasts_S1x128x512_S128x512 = outChunk m c K := rfl

theorem pay7_eq_pay6 : @k0_pay7 F _ = @k0_pay6 F _ := rfl
theorem pay8_eq_pay6 : @k0_pay8 F _ = @k0_pay6 F _ := rfl
theorem pay11_eq_pay6 (a : Vec F S128x512 .f32) (b : Vec F S1x128x512 .bf16) (g : Vec F S512 .f32) :
    k0_pay11 (k0_pay9 a b) (k0_pay10 g) = k0_pay6 a b g := rfl

/-! ## What the device sends: the send buffer's slots in terms of the blocks copied into the scratch -/

/-- Slot `0` of the send buffer, after the four blocks were copied into the scratch, loaded, narrowed and stored, holds
    block `0` narrowed. -/
theorem send_eq_0 (J0 : S4x128x512.Idx → Elt F .bf16) (fP : S4x128x512.Idx → Elt F .f32) (d0 d1 d2 d3 : S128x512.Idx → Elt F .f32) :
    (((Memref.whole cc0_scratch2).slice (Rect.unit (s := S4x128x512) ![0, 0, 0] S1x128x512.size inb_S4x128x512_S1x128x512_0_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), (k0_pay5 (View.readAt (Elt F) (Memref.whole cc0_scratch1).view (Rect.unit (s := S4x128x512) ![3, 0, 0] S1x128x512.size inb_S4x128x512_S1x128x512_3_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩, ⟨(Rect.unit (s := S4x128x512) ![2, 0, 0] S1x128x512.size inb_S4x128x512_S1x128x512_2_0_0), (k0_pay4 (k0_pay3 (View.readAt (Elt F) (Memref.whole cc0_scratch1).view (Rect.unit (s := S4x128x512) ![2, 0, 0] S1x128x512.size inb_S4x128x512_S1x128x512_2_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ))))⟩, ⟨(Rect.unit (s := S4x128x512) ![1, 0, 0] S1x128x512.size inb_S4x128x512_S1x128x512_1_0_0), (k0_pay2 (View.readAt (Elt F) (Memref.whole cc0_scratch1).view (Rect.unit (s := S4x128x512) ![1, 0, 0] S1x128x512.size inb_S4x128x512_S1x128x512_1_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩, ⟨(Rect.unit (s := S4x128x512) ![0, 0, 0] S1x128x512.size inb_S4x128x512_S1x128x512_0_0_0), (k0_pay1 (View.readAt (Elt F) (Memref.whole cc0_scratch1).view (Rect.unit (s := S4x128x512) ![0, 0, 0] S1x128x512.size inb_S4x128x512_S1x128x512_0_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩] : List (View.Piece (Elt F) S4x128x512 .bf16)))
      = truncf .bf16 d0 bitsLt_bf16_f32 := by
  rw [send_read_0, scratch_read_0, pay1_cast]

/-- The same with the blocks the body copies: slot `0` holds what the device sends in slot `0`. -/
theorem send_sent_0 (m : (ℓ : Loc nD τ sig) → Buf (Elt F) ℓ) (c : Dev nD) (J0 : S4x128x512.Idx → Elt F .bf16) (fP : S4x128x512.Idx → Elt F .f32) :
    (((Memref.whole cc0_scratch2).slice (Rect.unit (s := S4x128x512) ![0, 0, 0] S1x128x512.size inb_S4x128x512_S1x128x512_0_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), (k0_pay5 (View.readAt (Elt F) (Memref.whole cc0_scratch1).view (Rect.unit (s := S4x128x512) ![3, 0, 0] S1x128x512.size inb_S4x128x512_S1x128x512_3_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩, ⟨(Rect.unit (s := S4x128x512) ![2, 0, 0] S1x128x512.size inb_S4x128x512_S1x128x512_2_0_0), (k0_pay4 (k0_pay3 (View.readAt (Elt F) (Memref.whole cc0_scratch1).view (Rect.unit (s := S4x128x512) ![2, 0, 0] S1x128x512.size inb_S4x128x512_S1x128x512_2_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ))))⟩, ⟨(Rect.unit (s := S4x128x512) ![1, 0, 0] S1x128x512.size inb_S4x128x512_S1x128x512_1_0_0), (k0_pay2 (View.readAt (Elt F) (Memref.whole cc0_scratch1).view (Rect.unit (s := S4x128x512) ![1, 0, 0] S1x128x512.size inb_S4x128x512_S1x128x512_1_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩, ⟨(Rect.unit (s := S4x128x512) ![0, 0, 0] S1x128x512.size inb_S4x128x512_S1x128x512_0_0_0), (k0_pay1 (View.readAt (Elt F) (Memref.whole cc0_scratch1).view (Rect.unit (s := S4x128x512) ![0, 0, 0] S1x128x512.size inb_S4x128x512_S1x128x512_0_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩] : List (View.Piece (Elt F) S4x128x512 .bf16)))
      = sent m c 0 :=
  send_eq_0 J0 fP _ _ _ _

/-- Slot `1` of the send buffer, after the four blocks were copied into the scratch, loaded, narrowed and stored, holds
    block `1` narrowed. -/
theorem send_eq_1 (J0 : S4x128x512.Idx → Elt F .bf16) (fP : S4x128x512.Idx → Elt F .f32) (d0 d1 d2 d3 : S128x512.Idx → Elt F .f32) :
    (((Memref.whole cc0_scratch2).slice (Rect.unit (s := S4x128x512) ![1, 0, 0] S1x128x512.size inb_S4x128x512_S1x128x512_1_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), (k0_pay5 (View.readAt (Elt F) (Memref.whole cc0_scratch1).view (Rect.unit (s := S4x128x512) ![3, 0, 0] S1x128x512.size inb_S4x128x512_S1x128x512_3_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩, ⟨(Rect.unit (s := S4x128x512) ![2, 0, 0] S1x128x512.size inb_S4x128x512_S1x128x512_2_0_0), (k0_pay4 (k0_pay3 (View.readAt (Elt F) (Memref.whole cc0_scratch1).view (Rect.unit (s := S4x128x512) ![2, 0, 0] S1x128x512.size inb_S4x128x512_S1x128x512_2_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ))))⟩, ⟨(Rect.unit (s := S4x128x512) ![1, 0, 0] S1x128x512.size inb_S4x128x512_S1x128x512_1_0_0), (k0_pay2 (View.readAt (Elt F) (Memref.whole cc0_scratch1).view (Rect.unit (s := S4x128x512) ![1, 0, 0] S1x128x512.size inb_S4x128x512_S1x128x512_1_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩, ⟨(Rect.unit (s := S4x128x512) ![0, 0, 0] S1x128x512.size inb_S4x128x512_S1x128x512_0_0_0), (k0_pay1 (View.readAt (Elt F) (Memref.whole cc0_scratch1).view (Rect.unit (s := S4x128x512) ![0, 0, 0] S1x128x512.size inb_S4x128x512_S1x128x512_0_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩] : List (View.Piece (Elt F) S4x128x512 .bf16)))
      = truncf .bf16 d1 bitsLt_bf16_f32 := by
  rw [send_read_1, scratch_read_1, pay2_cast]

/-- The same with the blocks the body copies: slot `1` holds what the device sends in slot `1`. -/
theorem send_sent_1 (m : (ℓ : Loc nD τ sig) → Buf (Elt F) ℓ) (c : Dev nD) (J0 : S4x128x512.Idx → Elt F .bf16) (fP : S4x128x512.Idx → Elt F .f32) :
    (((Memref.whole cc0_scratch2).slice (Rect.unit (s := S4x128x512) ![1, 0, 0] S1x128x512.size inb_S4x128x512_S1x128x512_1_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), (k0_pay5 (View.readAt (Elt F) (Memref.whole cc0_scratch1).view (Rect.unit (s := S4x128x512) ![3, 0, 0] S1x128x512.size inb_S4x128x512_S1x128x512_3_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩, ⟨(Rect.unit (s := S4x128x512) ![2, 0, 0] S1x128x512.size inb_S4x128x512_S1x128x512_2_0_0), (k0_pay4 (k0_pay3 (View.readAt (Elt F) (Memref.whole cc0_scratch1).view (Rect.unit (s := S4x128x512) ![2, 0, 0] S1x128x512.size inb_S4x128x512_S1x128x512_2_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ))))⟩, ⟨(Rect.unit (s := S4x128x512) ![1, 0, 0] S1x128x512.size inb_S4x128x512_S1x128x512_1_0_0), (k0_pay2 (View.readAt (Elt F) (Memref.whole cc0_scratch1).view (Rect.unit (s := S4x128x512) ![1, 0, 0] S1x128x512.size inb_S4x128x512_S1x128x512_1_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩, ⟨(Rect.unit (s := S4x128x512) ![0, 0, 0] S1x128x512.size inb_S4x128x512_S1x128x512_0_0_0), (k0_pay1 (View.readAt (Elt F) (Memref.whole cc0_scratch1).view (Rect.unit (s := S4x128x512) ![0, 0, 0] S1x128x512.size inb_S4x128x512_S1x128x512_0_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩] : List (View.Piece (Elt F) S4x128x512 .bf16)))
      = sent m c 1 :=
  send_eq_1 J0 fP _ _ _ _

/-- Slot `2` of the send buffer, after the four blocks were copied into the scratch, loaded, narrowed and stored, holds
    block `2` narrowed. -/
theorem send_eq_2 (J0 : S4x128x512.Idx → Elt F .bf16) (fP : S4x128x512.Idx → Elt F .f32) (d0 d1 d2 d3 : S128x512.Idx → Elt F .f32) :
    (((Memref.whole cc0_scratch2).slice (Rect.unit (s := S4x128x512) ![2, 0, 0] S1x128x512.size inb_S4x128x512_S1x128x512_2_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), (k0_pay5 (View.readAt (Elt F) (Memref.whole cc0_scratch1).view (Rect.unit (s := S4x128x512) ![3, 0, 0] S1x128x512.size inb_S4x128x512_S1x128x512_3_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩, ⟨(Rect.unit (s := S4x128x512) ![2, 0, 0] S1x128x512.size inb_S4x128x512_S1x128x512_2_0_0), (k0_pay4 (k0_pay3 (View.readAt (Elt F) (Memref.whole cc0_scratch1).view (Rect.unit (s := S4x128x512) ![2, 0, 0] S1x128x512.size inb_S4x128x512_S1x128x512_2_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ))))⟩, ⟨(Rect.unit (s := S4x128x512) ![1, 0, 0] S1x128x512.size inb_S4x128x512_S1x128x512_1_0_0), (k0_pay2 (View.readAt (Elt F) (Memref.whole cc0_scratch1).view (Rect.unit (s := S4x128x512) ![1, 0, 0] S1x128x512.size inb_S4x128x512_S1x128x512_1_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩, ⟨(Rect.unit (s := S4x128x512) ![0, 0, 0] S1x128x512.size inb_S4x128x512_S1x128x512_0_0_0), (k0_pay1 (View.readAt (Elt F) (Memref.whole cc0_scratch1).view (Rect.unit (s := S4x128x512) ![0, 0, 0] S1x128x512.size inb_S4x128x512_S1x128x512_0_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩] : List (View.Piece (Elt F) S4x128x512 .bf16)))
      = truncf .bf16 d2 bitsLt_bf16_f32 := by
  rw [send_read_2, scratch_read_2, pay43_cast]

/-- The same with the blocks the body copies: slot `2` holds what the device sends in slot `2`. -/
theorem send_sent_2 (m : (ℓ : Loc nD τ sig) → Buf (Elt F) ℓ) (c : Dev nD) (J0 : S4x128x512.Idx → Elt F .bf16) (fP : S4x128x512.Idx → Elt F .f32) :
    (((Memref.whole cc0_scratch2).slice (Rect.unit (s := S4x128x512) ![2, 0, 0] S1x128x512.size inb_S4x128x512_S1x128x512_2_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), (k0_pay5 (View.readAt (Elt F) (Memref.whole cc0_scratch1).view (Rect.unit (s := S4x128x512) ![3, 0, 0] S1x128x512.size inb_S4x128x512_S1x128x512_3_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩, ⟨(Rect.unit (s := S4x128x512) ![2, 0, 0] S1x128x512.size inb_S4x128x512_S1x128x512_2_0_0), (k0_pay4 (k0_pay3 (View.readAt (Elt F) (Memref.whole cc0_scratch1).view (Rect.unit (s := S4x128x512) ![2, 0, 0] S1x128x512.size inb_S4x128x512_S1x128x512_2_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ))))⟩, ⟨(Rect.unit (s := S4x128x512) ![1, 0, 0] S1x128x512.size inb_S4x128x512_S1x128x512_1_0_0), (k0_pay2 (View.readAt (Elt F) (Memref.whole cc0_scratch1).view (Rect.unit (s := S4x128x512) ![1, 0, 0] S1x128x512.size inb_S4x128x512_S1x128x512_1_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩, ⟨(Rect.unit (s := S4x128x512) ![0, 0, 0] S1x128x512.size inb_S4x128x512_S1x128x512_0_0_0), (k0_pay1 (View.readAt (Elt F) (Memref.whole cc0_scratch1).view (Rect.unit (s := S4x128x512) ![0, 0, 0] S1x128x512.size inb_S4x128x512_S1x128x512_0_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩] : List (View.Piece (Elt F) S4x128x512 .bf16)))
      = sent m c 2 :=
  send_eq_2 J0 fP _ _ _ _

/-- Slot `3` of the send buffer, after the four blocks were copied into the scratch, loaded, narrowed and stored, holds
    block `3` narrowed. -/
theorem send_eq_3 (J0 : S4x128x512.Idx → Elt F .bf16) (fP : S4x128x512.Idx → Elt F .f32) (d0 d1 d2 d3 : S128x512.Idx → Elt F .f32) :
    (((Memref.whole cc0_scratch2).slice (Rect.unit (s := S4x128x512) ![3, 0, 0] S1x128x512.size inb_S4x128x512_S1x128x512_3_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), (k0_pay5 (View.readAt (Elt F) (Memref.whole cc0_scratch1).view (Rect.unit (s := S4x128x512) ![3, 0, 0] S1x128x512.size inb_S4x128x512_S1x128x512_3_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩, ⟨(Rect.unit (s := S4x128x512) ![2, 0, 0] S1x128x512.size inb_S4x128x512_S1x128x512_2_0_0), (k0_pay4 (k0_pay3 (View.readAt (Elt F) (Memref.whole cc0_scratch1).view (Rect.unit (s := S4x128x512) ![2, 0, 0] S1x128x512.size inb_S4x128x512_S1x128x512_2_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ))))⟩, ⟨(Rect.unit (s := S4x128x512) ![1, 0, 0] S1x128x512.size inb_S4x128x512_S1x128x512_1_0_0), (k0_pay2 (View.readAt (Elt F) (Memref.whole cc0_scratch1).view (Rect.unit (s := S4x128x512) ![1, 0, 0] S1x128x512.size inb_S4x128x512_S1x128x512_1_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩, ⟨(Rect.unit (s := S4x128x512) ![0, 0, 0] S1x128x512.size inb_S4x128x512_S1x128x512_0_0_0), (k0_pay1 (View.readAt (Elt F) (Memref.whole cc0_scratch1).view (Rect.unit (s := S4x128x512) ![0, 0, 0] S1x128x512.size inb_S4x128x512_S1x128x512_0_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩] : List (View.Piece (Elt F) S4x128x512 .bf16)))
      = truncf .bf16 d3 bitsLt_bf16_f32 := by
  rw [send_read_3, scratch_read_3, pay5_cast]

/-- The same with the blocks the body copies: slot `3` holds what the device sends in slot `3`. -/
theorem send_sent_3 (m : (ℓ : Loc nD τ sig) → Buf (Elt F) ℓ) (c : Dev nD) (J0 : S4x128x512.Idx → Elt F .bf16) (fP : S4x128x512.Idx → Elt F .f32) :
    (((Memref.whole cc0_scratch2).slice (Rect.unit (s := S4x128x512) ![3, 0, 0] S1x128x512.size inb_S4x128x512_S1x128x512_3_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), (k0_pay5 (View.readAt (Elt F) (Memref.whole cc0_scratch1).view (Rect.unit (s := S4x128x512) ![3, 0, 0] S1x128x512.size inb_S4x128x512_S1x128x512_3_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩, ⟨(Rect.unit (s := S4x128x512) ![2, 0, 0] S1x128x512.size inb_S4x128x512_S1x128x512_2_0_0), (k0_pay4 (k0_pay3 (View.readAt (Elt F) (Memref.whole cc0_scratch1).view (Rect.unit (s := S4x128x512) ![2, 0, 0] S1x128x512.size inb_S4x128x512_S1x128x512_2_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ))))⟩, ⟨(Rect.unit (s := S4x128x512) ![1, 0, 0] S1x128x512.size inb_S4x128x512_S1x128x512_1_0_0), (k0_pay2 (View.readAt (Elt F) (Memref.whole cc0_scratch1).view (Rect.unit (s := S4x128x512) ![1, 0, 0] S1x128x512.size inb_S4x128x512_S1x128x512_1_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩, ⟨(Rect.unit (s := S4x128x512) ![0, 0, 0] S1x128x512.size inb_S4x128x512_S1x128x512_0_0_0), (k0_pay1 (View.readAt (Elt F) (Memref.whole cc0_scratch1).view (Rect.unit (s := S4x128x512) ![0, 0, 0] S1x128x512.size inb_S4x128x512_S1x128x512_0_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩] : List (View.Piece (Elt F) S4x128x512 .bf16)))
      = sent m c 3 :=
  send_eq_3 J0 fP _ _ _ _

/-! ## The kept half, copied whole into its scratch and loaded in four chunks -/

/-- A load of the rows from `o = 128·K` of the kept half's scratch, after the half was copied there whole, is chunk `K`
    of the kept half. -/
theorem mine_read (m : (ℓ : Loc nD τ sig) → Buf (Elt F) ℓ) (c : Dev nD) (K : Fin 4) (o : Nat) (ho : o = 128 * K.val)
    (inb : ∀ a, (![o, 0] : Fin 2 → Nat) a + S128x512.size a ≤ S512x512.size a) (fM : S512x512.Idx → Elt F .f32) :
    View.readAt (Elt F) (Memref.whole cc0_scratch0).view (Rect.unit (s := S512x512) ![o, 0] S128x512.size inb).toLoadRect
        (View.write (Elt F) (Memref.whole cc0_scratch0).view fM (ReadAs.same.apply ((xMine c).view.read (Elt F) (m ((c : Thread nD τ).loc main_arg0)))) Finset.univ)
      = mineChunk m c K := by
  subst ho
  have hw : View.write (Elt F) (Memref.whole cc0_scratch0).view fM (ReadAs.same.apply ((xMine c).view.read (Elt F) (m ((c : Thread nD τ).loc main_arg0)))) Finset.univ
      = mineRows m c :=
    View.write_whole_univ (Val := Elt F) cc0_scratch0 fM (mineRows m c)
  rw [hw]
  funext j
  rw [View.readAt_apply]
  show mineRows m c ((Rect.unit (s := S512x512) ![128 * K.val, 0] S128x512.size inb).toLoadRect.idx j) = mineRows m c _
  refine congrArg (mineRows m c) (funext fun a => Fin.ext ?_)
  match a with
  | ⟨0, _⟩ => show 128 * K.val + 1 * (j 0).val = 128 * K.val + (j 0).val; omega
  | ⟨1, _⟩ => show 0 + 1 * (j 1).val = (j 1).val; omega

theorem mine_read_0 (m : (ℓ : Loc nD τ sig) → Buf (Elt F) ℓ) (c : Dev nD) (fM : S512x512.Idx → Elt F .f32) :
    View.readAt (Elt F) (Memref.whole cc0_scratch0).view (Rect.unit (s := S512x512) ![0, 0] S128x512.size inb_S512x512_S128x512_0_0).toLoadRect
        (View.write (Elt F) (Memref.whole cc0_scratch0).view fM (ReadAs.same.apply ((xMine c).view.read (Elt F) (m ((c : Thread nD τ).loc main_arg0)))) Finset.univ)
      = mineChunk m c 0 :=
  mine_read m c 0 0 rfl inb_S512x512_S128x512_0_0 fM

theorem mine_read_1 (m : (ℓ : Loc nD τ sig) → Buf (Elt F) ℓ) (c : Dev nD) (fM : S512x512.Idx → Elt F .f32) :
    View.readAt (Elt F) (Memref.whole cc0_scratch0).view (Rect.unit (s := S512x512) ![128, 0] S128x512.size inb_S512x512_S128x512_128_0).toLoadRect
        (View.write (Elt F) (Memref.whole cc0_scratch0).view fM (ReadAs.same.apply ((xMine c).view.read (Elt F) (m ((c : Thread nD τ).loc main_arg0)))) Finset.univ)
      = mineChunk m c 1 :=
  mine_read m c 1 128 rfl inb_S512x512_S128x512_128_0 fM

theorem mine_read_2 (m : (ℓ : Loc nD τ sig) → Buf (Elt F) ℓ) (c : Dev nD) (fM : S512x512.Idx → Elt F .f32) :
    View.readAt (Elt F) (Memref.whole cc0_scratch0).view (Rect.unit (s := S512x512) ![256, 0] S128x512.size inb_S512x512_S128x512_256_0).toLoadRect
        (View.write (Elt F) (Memref.whole cc0_scratch0).view fM (ReadAs.same.apply ((xMine c).view.read (Elt F) (m ((c : Thread nD τ).loc main_arg0)))) Finset.univ)
      = mineChunk m c 2 :=
  mine_read m c 2 256 rfl inb_S512x512_S128x512_256_0 fM

theorem mine_read_3 (m : (ℓ : Loc nD τ sig) → Buf (Elt F) ℓ) (c : Dev nD) (fM : S512x512.Idx → Elt F .f32) :
    View.readAt (Elt F) (Memref.whole cc0_scratch0).view (Rect.unit (s := S512x512) ![384, 0] S128x512.size inb_S512x512_S128x512_384_0).toLoadRect
        (View.write (Elt F) (Memref.whole cc0_scratch0).view fM (ReadAs.same.apply ((xMine c).view.read (Elt F) (m ((c : Thread nD τ).loc main_arg0)))) Finset.univ)
      = mineChunk m c 3 :=
  mine_read m c 3 384 rfl inb_S512x512_S128x512_384_0 fM

/-! ## A receive slot held by its own elements, loaded through the enclosing buffer -/

section Rep
variable {sg : RefSig} {κ : Kind} {sp : Space} {e : EltTy} {Val : EltTy → Type} [∀ e, Nonempty (Val e)]

/-- A load of slot `K` of the representative of a block on the slot's squeeze reads the block with the unit axis put back. -/
theorem readAt_rep_squeeze (v : View sg κ sp S4x128x512 e) (K : Nat)
    (inbK : ∀ a, (![K, 0, 0] : Fin 3 → Nat) a + S1x128x512.size a ≤ S4x128x512.size a)
    (hq : S128x512.numel = S1x128x512.numel) (x : S128x512.Idx → Val e) :
    v.readAt Val (Rect.unit (s := S4x128x512) ![K, 0, 0] S1x128x512.size inbK).toLoadRect (((v.slice (Rect.unit (s := S4x128x512) ![K, 0, 0] S1x128x512.size inbK)).reshape S128x512 hq).rep x)
      = shapeCast S1x128x512 x shapeCasts_S128x512_S1x128x512 := by
  funext j
  rw [View.readAt_apply, View.read_apply]
  have hj : v.emb ((Rect.unit (s := S4x128x512) ![K, 0, 0] S1x128x512.size inbK).toLoadRect.idx j)
      = ((v.slice (Rect.unit (s := S4x128x512) ![K, 0, 0] S1x128x512.size inbK)).reshape S128x512 hq).emb ((Shape.reshapeEquiv hq).symm j) := by
    show v.emb ((Rect.unit (s := S4x128x512) ![K, 0, 0] S1x128x512.size inbK).emb j) = v.emb ((Rect.unit (s := S4x128x512) ![K, 0, 0] S1x128x512.size inbK).emb (Shape.reshapeEquiv hq ((Shape.reshapeEquiv hq).symm j)))
    rw [Equiv.apply_symm_apply]
  rw [hj, View.rep_emb, cast_cast, cast_eq, Shape.reshapeEquiv_symm]
  rfl

end Rep

theorem recv_read_0 (v : S128x512.Idx → Elt F .bf16) :
    View.readAt (Elt F) (Memref.whole cc0_scratch3).view (Rect.unit (s := S4x128x512) ![0, 0, 0] S1x128x512.size inb_S4x128x512_S1x128x512_0_0_0).toLoadRect ((((Memref.whole cc0_scratch3).slice (Rect.unit (s := S4x128x512) ![0, 0, 0] S1x128x512.size inb_S4x128x512_S1x128x512_0_0_0) (fun _ => rfl)).squeeze S128x512 squeezes_S1x128x512_S128x512).view.rep v)
      = shapeCast S1x128x512 v shapeCasts_S128x512_S1x128x512 :=
  readAt_rep_squeeze (Memref.whole cc0_scratch3).view 0 inb_S4x128x512_S1x128x512_0_0_0 squeezes_S1x128x512_S128x512.numel_eq v

theorem recv_read_1 (v : S128x512.Idx → Elt F .bf16) :
    View.readAt (Elt F) (Memref.whole cc0_scratch3).view (Rect.unit (s := S4x128x512) ![1, 0, 0] S1x128x512.size inb_S4x128x512_S1x128x512_1_0_0).toLoadRect ((((Memref.whole cc0_scratch3).slice (Rect.unit (s := S4x128x512) ![1, 0, 0] S1x128x512.size inb_S4x128x512_S1x128x512_1_0_0) (fun _ => rfl)).squeeze S128x512 squeezes_S1x128x512_S128x512).view.rep v)
      = shapeCast S1x128x512 v shapeCasts_S128x512_S1x128x512 :=
  readAt_rep_squeeze (Memref.whole cc0_scratch3).view 1 inb_S4x128x512_S1x128x512_1_0_0 squeezes_S1x128x512_S128x512.numel_eq v

theorem recv_read_2 (v : S128x512.Idx → Elt F .bf16) :
    View.readAt (Elt F) (Memref.whole cc0_scratch3).view (Rect.unit (s := S4x128x512) ![2, 0, 0] S1x128x512.size inb_S4x128x512_S1x128x512_2_0_0).toLoadRect ((((Memref.whole cc0_scratch3).slice (Rect.unit (s := S4x128x512) ![2, 0, 0] S1x128x512.size inb_S4x128x512_S1x128x512_2_0_0) (fun _ => rfl)).squeeze S128x512 squeezes_S1x128x512_S128x512).view.rep v)
      = shapeCast S1x128x512 v shapeCasts_S128x512_S1x128x512 :=
  readAt_rep_squeeze (Memref.whole cc0_scratch3).view 2 inb_S4x128x512_S1x128x512_2_0_0 squeezes_S1x128x512_S128x512.numel_eq v

theorem recv_read_3 (v : S128x512.Idx → Elt F .bf16) :
    View.readAt (Elt F) (Memref.whole cc0_scratch3).view (Rect.unit (s := S4x128x512) ![3, 0, 0] S1x128x512.size inb_S4x128x512_S1x128x512_3_0_0).toLoadRect ((((Memref.whole cc0_scratch3).slice (Rect.unit (s := S4x128x512) ![3, 0, 0] S1x128x512.size inb_S4x128x512_S1x128x512_3_0_0) (fun _ => rfl)).squeeze S128x512 squeezes_S1x128x512_S128x512).view.rep v)
      = shapeCast S1x128x512 v shapeCasts_S128x512_S1x128x512 :=
  readAt_rep_squeeze (Memref.whole cc0_scratch3).view 3 inb_S4x128x512_S1x128x512_3_0_0 squeezes_S1x128x512_S128x512.numel_eq v

/-! ## The staged result: a slot read back right after its store -/

/-- Slot `0` of the staged result, read through its squeeze when the newest store is the one into that slot, holds that
    store's payload with the unit axis dropped, whatever was stored before. -/
theorem stage_read_0 (J0 : S4x128x512.Idx → Elt F .f32) (p : FVec F S1x128x512 .f32) (L : List (View.Piece (Elt F) S4x128x512 .f32)) :
    (((Memref.whole cc0_scratch4).slice (Rect.unit (s := S4x128x512) ![0, 0, 0] S1x128x512.size inb_S4x128x512_S1x128x512_0_0_0) (fun _ => rfl)).squeeze S128x512 squeezes_S1x128x512_S128x512).view.read (Elt F)
        ((Memref.whole cc0_scratch4).view.writes (Elt F) J0 ((⟨(Rect.unit (s := S4x128x512) ![0, 0, 0] S1x128x512.size inb_S4x128x512_S1x128x512_0_0_0), p⟩ : View.Piece (Elt F) S4x128x512 .f32) :: L))
      = shapeCast S128x512 p shapeCasts_S1x128x512_S128x512 := by
  rw [Memref.read_squeeze_slice _ _ _ _ shapeCasts_S1x128x512_S128x512]
  refine congrArg (fun u => shapeCast S128x512 u shapeCasts_S1x128x512_S128x512) ?_
  exact readAt_write_hit (Memref.whole cc0_scratch4).view ((Memref.whole cc0_scratch4).view.writes (Elt F) J0 L) 0 inb_S4x128x512_S1x128x512_0_0_0 p

/-- Slot `1` of the staged result, read through its squeeze when the newest store is the one into that slot, holds that
    store's payload with the unit axis dropped, whatever was stored before. -/
theorem stage_read_1 (J0 : S4x128x512.Idx → Elt F .f32) (p : FVec F S1x128x512 .f32) (L : List (View.Piece (Elt F) S4x128x512 .f32)) :
    (((Memref.whole cc0_scratch4).slice (Rect.unit (s := S4x128x512) ![1, 0, 0] S1x128x512.size inb_S4x128x512_S1x128x512_1_0_0) (fun _ => rfl)).squeeze S128x512 squeezes_S1x128x512_S128x512).view.read (Elt F)
        ((Memref.whole cc0_scratch4).view.writes (Elt F) J0 ((⟨(Rect.unit (s := S4x128x512) ![1, 0, 0] S1x128x512.size inb_S4x128x512_S1x128x512_1_0_0), p⟩ : View.Piece (Elt F) S4x128x512 .f32) :: L))
      = shapeCast S128x512 p shapeCasts_S1x128x512_S128x512 := by
  rw [Memref.read_squeeze_slice _ _ _ _ shapeCasts_S1x128x512_S128x512]
  refine congrArg (fun u => shapeCast S128x512 u shapeCasts_S1x128x512_S128x512) ?_
  exact readAt_write_hit (Memref.whole cc0_scratch4).view ((Memref.whole cc0_scratch4).view.writes (Elt F) J0 L) 1 inb_S4x128x512_S1x128x512_1_0_0 p

/-- Slot `2` of the staged result, read through its squeeze when the newest store is the one into that slot, holds that
    store's payload with the unit axis dropped, whatever was stored before. -/
theorem stage_read_2 (J0 : S4x128x512.Idx → Elt F .f32) (p : FVec F S1x128x512 .f32) (L : List (View.Piece (Elt F) S4x128x512 .f32)) :
    (((Memref.whole cc0_scratch4).slice (Rect.unit (s := S4x128x512) ![2, 0, 0] S1x128x512.size inb_S4x128x512_S1x128x512_2_0_0) (fun _ => rfl)).squeeze S128x512 squeezes_S1x128x512_S128x512).view.read (Elt F)
        ((Memref.whole cc0_scratch4).view.writes (Elt F) J0 ((⟨(Rect.unit (s := S4x128x512) ![2, 0, 0] S1x128x512.size inb_S4x128x512_S1x128x512_2_0_0), p⟩ : View.Piece (Elt F) S4x128x512 .f32) :: L))
      = shapeCast S128x512 p shapeCasts_S1x128x512_S128x512 := by
  rw [Memref.read_squeeze_slice _ _ _ _ shapeCasts_S1x128x512_S128x512]
  refine congrArg (fun u => shapeCast S128x512 u shapeCasts_S1x128x512_S128x512) ?_
  exact readAt_write_hit (Memref.whole cc0_scratch4).view ((Memref.whole cc0_scratch4).view.writes (Elt F) J0 L) 2 inb_S4x128x512_S1x128x512_2_0_0 p

/-- Slot `3` of the staged result, read through its squeeze when the newest store is the one into that slot, holds that
    store's payload with the unit axis dropped, whatever was stored before. -/
theorem stage_read_3 (J0 : S4x128x512.Idx → Elt F .f32) (p : FVec F S1x128x512 .f32) (L : List (View.Piece (Elt F) S4x128x512 .f32)) :
    (((Memref.whole cc0_scratch4).slice (Rect.unit (s := S4x128x512) ![3, 0, 0] S1x128x512.size inb_S4x128x512_S1x128x512_3_0_0) (fun _ => rfl)).squeeze S128x512 squeezes_S1x128x512_S128x512).view.read (Elt F)
        ((Memref.whole cc0_scratch4).view.writes (Elt F) J0 ((⟨(Rect.unit (s := S4x128x512) ![3, 0, 0] S1x128x512.size inb_S4x128x512_S1x128x512_3_0_0), p⟩ : View.Piece (Elt F) S4x128x512 .f32) :: L))
      = shapeCast S128x512 p shapeCasts_S1x128x512_S128x512 := by
  rw [Memref.read_squeeze_slice _ _ _ _ shapeCasts_S1x128x512_S128x512]
  refine congrArg (fun u => shapeCast S128x512 u shapeCasts_S1x128x512_S128x512) ?_
  exact readAt_write_hit (Memref.whole cc0_scratch4).view ((Memref.whole cc0_scratch4).view.writes (Elt F) J0 L) 3 inb_S4x128x512_S1x128x512_3_0_0 p

/-! ## The scale row -/

/-- The staged scale row loaded whole is the row. -/
theorem scale_read (g : S512.Idx → Elt F .f32) :
    View.readAt (Elt F) (Memref.whole cc0_stg0_0).view (Rect.unit (s := S512) ![0] S512.size inb_S512_S512_0).toLoadRect g = g :=
  Memref.readAt_unit_zero (Elt F) cc0_stg0_0 (funext fun (a : Fin 1) => Matrix.cons_val_fin_one 0 _ a : (![0] : Fin 1 → ℕ) = fun _ => 0) inb_S512_S512_0 g

/-- The scale array's one window is the whole array. -/
theorem scale_window_read (G : S512.Idx → Elt F .f32) : (win0_0.blk (0 : Fin 1)).view.read (Elt F) G = G := by
  funext x
  rw [View.read_apply]
  have hx : (win0_0.blk (0 : Fin 1)).view.emb x = x := by
    funext a; refine Fin.ext ?_
    show 0 * S512.size a + 1 * (x a).val = (x a).val
    omega
  rw [hx]
  rfl

end Cert.KernelIdeal.Lay

end
-- ==== Proof.Body.lean ====
/-
  One device's body, stepped from the protocol's ghost state to the final contents.
-/
import proofs.«900478_g7700000000000479_dist_rsrms_v7x_xyz2x2x2_z_m512_d512_bf16_1_alg».proof.Proof.Proto
import proofs.«900478_g7700000000000479_dist_rsrms_v7x_xyz2x2x2_z_m512_d512_bf16_1_alg».proof.Proof.Gen.KernelIdeal.Points
import proofs.«900478_g7700000000000479_dist_rsrms_v7x_xyz2x2x2_z_m512_d512_bf16_1_alg».proof.Proof.Lay
import Idealize.ShloMosaic.Lib.Ring

noncomputable section

namespace Cert.KernelIdeal.Proto

open Cert.KernelIdeal Cert.KernelIdeal.Gen Cert.KernelIdeal.Contents

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## A 4×128×512 buffer held whole is held slot by slot -/

omit [FloatOps F] in
theorem recvSlot_set0 : (recvSlot 0).view.set = (slotRect 0).set := (Memref.set_view_squeeze _ squeezes_S1x128x512_S128x512).trans (View.set_slice_whole _ _)
omit [FloatOps F] in
theorem recvSlot_set1 : (recvSlot 1).view.set = (slotRect 1).set := (Memref.set_view_squeeze _ squeezes_S1x128x512_S128x512).trans (View.set_slice_whole _ _)
omit [FloatOps F] in
theorem recvSlot_set2 : (recvSlot 2).view.set = (slotRect 2).set := (Memref.set_view_squeeze _ squeezes_S1x128x512_S128x512).trans (View.set_slice_whole _ _)
omit [FloatOps F] in
theorem recvSlot_set3 : (recvSlot 3).view.set = (slotRect 3).set := (Memref.set_view_squeeze _ squeezes_S1x128x512_S128x512).trans (View.set_slice_whole _ _)

omit [FloatOps F] in
theorem recv_split (c : Dev nD) (f : Buf (Elt F) (recvM.view.loc (c : Thread nD τ))) :
    (recvM.view.loc (c : Thread nD τ) ↦{fullShare} f : sProp 𝕄)
      = iprop(((recvSlot 0).view.loc (c : Thread nD τ) ↦[(recvSlot 0).view.set]{fullShare} f) ∗ ((recvSlot 1).view.loc (c : Thread nD τ) ↦[(recvSlot 1).view.set]{fullShare} f)
          ∗ ((recvSlot 2).view.loc (c : Thread nD τ) ↦[(recvSlot 2).view.set]{fullShare} f) ∗ ((recvSlot 3).view.loc (c : Thread nD τ) ↦[(recvSlot 3).view.set]{fullShare} f)) := by
  rw [recvSlot_set0, recvSlot_set1, recvSlot_set2, recvSlot_set3,
    Ring.pointsTo_blocks (ℓ := recvM.view.loc (c : Thread nD τ)) (fun k : Fin 4 => ((slotRect k).set : Finset (Idx (recvM.view.loc (c : Thread nD τ)))))
      (fun k k' h => slotRect_disjoint k k' h) slotRect_cover f,
    bigSep_univ_eq_bigSepL [(0 : Fin 4), 1, 2, 3] (by decide) (by decide), bigSepL_cons_cons, bigSepL_cons_cons, bigSepL_cons_cons, bigSepL_singleton]
  rfl

/-! ## The partial array read by five copies at once: five read tokens and a rest -/

omit [FloatOps F] in
theorem x_toks (c : Dev nD) (f : Buf (Elt F) (xA.view.loc (c : Thread nD τ))) :
    (xA.view.loc (c : Thread nD τ) ↦{fullShare} f : sProp 𝕄)
      ⊣⊢ iprop((xA.view.loc (c : Thread nD τ) ↦{Transfers.shareDrop fullShare 5} f)
          ∗ (xA.view.loc (c : Thread nD τ) ↦{Transfers.shareTokN fullShare 0} f) ∗ (xA.view.loc (c : Thread nD τ) ↦{Transfers.shareTokN fullShare 1} f)
          ∗ (xA.view.loc (c : Thread nD τ) ↦{Transfers.shareTokN fullShare 2} f) ∗ (xA.view.loc (c : Thread nD τ) ↦{Transfers.shareTokN fullShare 3} f)
          ∗ (xA.view.loc (c : Thread nD τ) ↦{Transfers.shareTokN fullShare 4} f)) := by
  have h := Transfers.pointsTo_toks (Ix := Unit) (Name := ℕ) (U := UU) (Lvl := ℕ) (ℓ := xA.view.loc (c : Thread nD τ)) (S := Finset.univ) (f := f) fullShare 5
  rw [bigSep_univ_eq_bigSepL [(0 : Fin 5), 1, 2, 3, 4] (by decide) (by decide), bigSepL_cons_cons, bigSepL_cons_cons, bigSepL_cons_cons, bigSepL_cons_cons, bigSepL_singleton] at h
  exact h

omit [FloatOps F] in
theorem lv_copy (c : Dev nD) (k : Fin 5) : lv ((c : Thread nD τ), SemLoc.dma (copySem k)) () = 0 := by
  have h : cellKind (SemLoc.dma (copySem k)) = 9 := by revert k; decide
  show (if cellKind (SemLoc.dma (copySem k)) = 0 then 1 else if 5 ≤ cellKind (SemLoc.dma (copySem k)) ∧ cellKind (SemLoc.dma (copySem k)) ≤ 8 then 2 else 0) = 0
  rw [h]; rfl
omit [FloatOps F] in
theorem mayWait_copy (c : Dev nD) (k : Fin 5) : (levAts L lv : sProp 𝕄) ⊢ MayWait (c : Thread nD τ) (SemLoc.dma (copySem k)) () (Or0 c) :=
  mayWait_low c _ (lv_copy c k) (Or0 c) (fun g u h => Or.inr (Or0_pos h))

/-! ## The schedule's tables at this device's cells, payloads spelt as points-tos -/

theorem payload_bar_peer (c : Dev nD) (d : Unit) : (rd (F := F) m).payload (barCell (peer c)) 0 d
    = iprop((∃ f, (recvSlot 0).view.loc (c : Thread nD τ) ↦[(recvSlot 0).view.set]{fullShare} f) ∗ (∃ f, (recvSlot 1).view.loc (c : Thread nD τ) ↦[(recvSlot 1).view.set]{fullShare} f)
        ∗ (∃ f, (recvSlot 2).view.loc (c : Thread nD τ) ↦[(recvSlot 2).view.set]{fullShare} f) ∗ (∃ f, (recvSlot 3).view.loc (c : Thread nD τ) ↦[(recvSlot 3).view.set]{fullShare} f)) := by
  rw [payload_bar]; unfold barPay slotPts; rw [peer_peer]
theorem payload_bar_own (c : Dev nD) (d : Unit) : (rd (F := F) m).payload (barCell c) 0 d
    = iprop((∃ f, (recvSlot 0).view.loc (peer c : Thread nD τ) ↦[(recvSlot 0).view.set]{fullShare} f) ∗ (∃ f, (recvSlot 1).view.loc (peer c : Thread nD τ) ↦[(recvSlot 1).view.set]{fullShare} f)
        ∗ (∃ f, (recvSlot 2).view.loc (peer c : Thread nD τ) ↦[(recvSlot 2).view.set]{fullShare} f) ∗ (∃ f, (recvSlot 3).view.loc (peer c : Thread nD τ) ↦[(recvSlot 3).view.set]{fullShare} f)) := by
  rw [payload_bar]; rfl
theorem payload_recv_own (c : Dev nD) (k : Fin 4) (d : Unit) : (rd (F := F) m).payload (recvCell c k) 0 d
    = ((recvSlot k).view.loc (c : Thread nD τ) ↦[(recvSlot k).view.set]{fullShare} (recvSlot k).view.rep (sent m (peer c) k) : sProp 𝕄) := by
  rw [payload_recv]; rfl
theorem payload_recv_peer (c : Dev nD) (k : Fin 4) (d : Unit) : (rd (F := F) m).payload (recvCell (peer c) k) 0 d
    = ((recvSlot k).view.loc (peer c : Thread nD τ) ↦[(recvSlot k).view.set]{fullShare} (recvSlot k).view.rep (sent m c k) : sProp 𝕄) := by
  rw [payload_recv]; unfold recvPay slotPts; rw [peer_peer]
theorem payload_send_own (c : Dev nD) (k : Fin 4) (d : Unit) : (rd (F := F) m).payload (sendCell c k) 0 d
    = ((sendSlot k).view.loc (c : Thread nD τ) ↦[(sendSlot k).view.set]{fullShare} (sendSlot k).view.rep (sent m c k) : sProp 𝕄) := by
  rw [payload_send]; rfl

theorem pay_recv (c : Dev nD) (k : Fin 4) :
    bigSep ((rd (F := F) m).duties (recvCell c k) 0) (fun d => (rd (F := F) m).payload (recvCell c k) 0 d)
      = ((recvSlot k).view.loc (c : Thread nD τ) ↦[(recvSlot k).view.set]{fullShare} (recvSlot k).view.rep (sent m (peer c) k) : sProp 𝕄) := by
  rw [duties_recv, bigSep_singleton, payload_recv_own]
theorem pay_send (c : Dev nD) (k : Fin 4) :
    bigSep ((rd (F := F) m).duties (sendCell c k) 0) (fun d => (rd (F := F) m).payload (sendCell c k) 0 d)
      = ((sendSlot k).view.loc (c : Thread nD τ) ↦[(sendSlot k).view.set]{fullShare} (sendSlot k).view.rep (sent m c k) : sProp 𝕄) := by
  rw [duties_send, bigSep_singleton, payload_send_own]

/-! ## What each result copy carries: chunk `k` of the result -/

theorem out_piece_0 (c : Dev nD) (fM : S512x512.Idx → Elt F .f32) (J0 : S4x128x512.Idx → Elt F .f32) (Lp : List (View.Piece (Elt F) S4x128x512 .f32))
    (g0 : S512.Idx → Elt F .f32) (hg : g0 = Gof m c) :
    ReadAs.same.apply ((((Memref.whole cc0_scratch4).slice (Rect.unit (s := S4x128x512) ![0, 0, 0] S1x128x512.size inb_S4x128x512_S1x128x512_0_0_0) (fun _ => rfl)).squeeze S128x512 squeezes_S1x128x512_S128x512).view.read (Elt F) ((Memref.whole cc0_scratch4).view.writes (Elt F) J0
        ((⟨(Rect.unit (s := S4x128x512) ![0, 0, 0] S1x128x512.size inb_S4x128x512_S1x128x512_0_0_0), k0_pay6 (View.readAt (Elt F) (Memref.whole cc0_scratch0).view (Rect.unit (s := S512x512) ![0, 0] S128x512.size inb_S512x512_S128x512_0_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![0, 0, 0] S1x128x512.size inb_S4x128x512_S1x128x512_0_0_0).toLoadRect ((((Memref.whole cc0_scratch3).slice (Rect.unit (s := S4x128x512) ![0, 0, 0] S1x128x512.size inb_S4x128x512_S1x128x512_0_0_0) (fun _ => rfl)).squeeze S128x512 squeezes_S1x128x512_S128x512).view.rep (sent m (peer c) 0))) (View.readAt (Elt F) (Memref.whole cc0_stg0_0).view (Rect.unit (s := S512) ![0] S512.size inb_S512_S512_0).toLoadRect g0)⟩ : View.Piece (Elt F) S4x128x512 .f32) :: Lp)))
      = outChunk m c 0 := by
  rw [Lay.readAs_same, Lay.stage_read_0, Lay.readAs_same, Lay.mine_read_0, Lay.recv_read_0, Lay.scale_read, hg]
  exact Lay.outChunk_def m c 0

theorem out_piece_1 (c : Dev nD) (fM : S512x512.Idx → Elt F .f32) (J0 : S4x128x512.Idx → Elt F .f32) (Lp : List (View.Piece (Elt F) S4x128x512 .f32))
    (g0 : S512.Idx → Elt F .f32) (hg : g0 = Gof m c) :
    ReadAs.same.apply ((((Memref.whole cc0_scratch4).slice (Rect.unit (s := S4x128x512) ![1, 0, 0] S1x128x512.size inb_S4x128x512_S1x128x512_1_0_0) (fun _ => rfl)).squeeze S128x512 squeezes_S1x128x512_S128x512).view.read (Elt F) ((Memref.whole cc0_scratch4).view.writes (Elt F) J0
        ((⟨(Rect.unit (s := S4x128x512) ![1, 0, 0] S1x128x512.size inb_S4x128x512_S1x128x512_1_0_0), k0_pay7 (View.readAt (Elt F) (Memref.whole cc0_scratch0).view (Rect.unit (s := S512x512) ![128, 0] S128x512.size inb_S512x512_S128x512_128_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![1, 0, 0] S1x128x512.size inb_S4x128x512_S1x128x512_1_0_0).toLoadRect ((((Memref.whole cc0_scratch3).slice (Rect.unit (s := S4x128x512) ![1, 0, 0] S1x128x512.size inb_S4x128x512_S1x128x512_1_0_0) (fun _ => rfl)).squeeze S128x512 squeezes_S1x128x512_S128x512).view.rep (sent m (peer c) 1))) (View.readAt (Elt F) (Memref.whole cc0_stg0_0).view (Rect.unit (s := S512) ![0] S512.size inb_S512_S512_0).toLoadRect g0)⟩ : View.Piece (Elt F) S4x128x512 .f32) :: Lp)))
      = outChunk m c 1 := by
  rw [Lay.readAs_same, Lay.stage_read_1, Lay.readAs_same, Lay.mine_read_1, Lay.recv_read_1, Lay.scale_read, hg, Lay.pay7_eq_pay6]
  exact Lay.outChunk_def m c 1

theorem out_piece_2 (c : Dev nD) (fM : S512x512.Idx → Elt F .f32) (J0 : S4x128x512.Idx → Elt F .f32) (Lp : List (View.Piece (Elt F) S4x128x512 .f32))
    (g0 : S512.Idx → Elt F .f32) (hg : g0 = Gof m c) :
    ReadAs.same.apply ((((Memref.whole cc0_scratch4).slice (Rect.unit (s := S4x128x512) ![2, 0, 0] S1x128x512.size inb_S4x128x512_S1x128x512_2_0_0) (fun _ => rfl)).squeeze S128x512 squeezes_S1x128x512_S128x512).view.read (Elt F) ((Memref.whole cc0_scratch4).view.writes (Elt F) J0
        ((⟨(Rect.unit (s := S4x128x512) ![2, 0, 0] S1x128x512.size inb_S4x128x512_S1x128x512_2_0_0), k0_pay8 (View.readAt (Elt F) (Memref.whole cc0_scratch0).view (Rect.unit (s := S512x512) ![256, 0] S128x512.size inb_S512x512_S128x512_256_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![2, 0, 0] S1x128x512.size inb_S4x128x512_S1x128x512_2_0_0).toLoadRect ((((Memref.whole cc0_scratch3).slice (Rect.unit (s := S4x128x512) ![2, 0, 0] S1x128x512.size inb_S4x128x512_S1x128x512_2_0_0) (fun _ => rfl)).squeeze S128x512 squeezes_S1x128x512_S128x512).view.rep (sent m (peer c) 2))) (View.readAt (Elt F) (Memref.whole cc0_stg0_0).view (Rect.unit (s := S512) ![0] S512.size inb_S512_S512_0).toLoadRect g0)⟩ : View.Piece (Elt F) S4x128x512 .f32) :: Lp)))
      = outChunk m c 2 := by
  rw [Lay.readAs_same, Lay.stage_read_2, Lay.readAs_same, Lay.mine_read_2, Lay.recv_read_2, Lay.scale_read, hg, Lay.pay8_eq_pay6]
  exact Lay.outChunk_def m c 2

theorem out_piece_3 (c : Dev nD) (fM : S512x512.Idx → Elt F .f32) (J0 : S4x128x512.Idx → Elt F .f32) (Lp : List (View.Piece (Elt F) S4x128x512 .f32))
    (g0 : S512.Idx → Elt F .f32) (hg : g0 = Gof m c) :
    ReadAs.same.apply ((((Memref.whole cc0_scratch4).slice (Rect.unit (s := S4x128x512) ![3, 0, 0] S1x128x512.size inb_S4x128x512_S1x128x512_3_0_0) (fun _ => rfl)).squeeze S128x512 squeezes_S1x128x512_S128x512).view.read (Elt F) ((Memref.whole cc0_scratch4).view.writes (Elt F) J0
        ((⟨(Rect.unit (s := S4x128x512) ![3, 0, 0] S1x128x512.size inb_S4x128x512_S1x128x512_3_0_0), k0_pay11 (k0_pay9 (View.readAt (Elt F) (Memref.whole cc0_scratch0).view (Rect.unit (s := S512x512) ![384, 0] S128x512.size inb_S512x512_S128x512_384_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![3, 0, 0] S1x128x512.size inb_S4x128x512_S1x128x512_3_0_0).toLoadRect ((((Memref.whole cc0_scratch3).slice (Rect.unit (s := S4x128x512) ![3, 0, 0] S1x128x512.size inb_S4x128x512_S1x128x512_3_0_0) (fun _ => rfl)).squeeze S128x512 squeezes_S1x128x512_S128x512).view.rep (sent m (peer c) 3)))) (k0_pay10 (View.readAt (Elt F) (Memref.whole cc0_stg0_0).view (Rect.unit (s := S512) ![0] S512.size inb_S512_S512_0).toLoadRect g0))⟩ : View.Piece (Elt F) S4x128x512 .f32) :: Lp)))
      = outChunk m c 3 := by
  rw [Lay.readAs_same, Lay.stage_read_3, Lay.readAs_same, Lay.mine_read_3, Lay.recv_read_3, Lay.scale_read, hg, Lay.pay11_eq_pay6]
  exact Lay.outChunk_def m c 3

/-- The result array after the four copies, as the run leaves it, is `outFinal`. -/
theorem out_final_eq (c : Dev nD) (fM : S512x512.Idx → Elt F .f32) (fO : S4x128x512.Idx → Elt F .f32) (g0 : S512.Idx → Elt F .f32) (hg : g0 = Gof m c) :
    oA.view.writes (Elt F) oA.view.junk
      [(⟨Rect.unit (s := S512x512) ![384, 0] S128x512.size inb_S512x512_S128x512_384_0, ReadAs.same.apply ((((Memref.whole cc0_scratch4).slice (Rect.unit (s := S4x128x512) ![3, 0, 0] S1x128x512.size inb_S4x128x512_S1x128x512_3_0_0) (fun _ => rfl)).squeeze S128x512 squeezes_S1x128x512_S128x512).view.read (Elt F) ((Memref.whole cc0_scratch4).view.writes (Elt F) fO
          [(⟨(Rect.unit (s := S4x128x512) ![3, 0, 0] S1x128x512.size inb_S4x128x512_S1x128x512_3_0_0), k0_pay11 (k0_pay9 (View.readAt (Elt F) (Memref.whole cc0_scratch0).view (Rect.unit (s := S512x512) ![384, 0] S128x512.size inb_S512x512_S128x512_384_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![3, 0, 0] S1x128x512.size inb_S4x128x512_S1x128x512_3_0_0).toLoadRect ((((Memref.whole cc0_scratch3).slice (Rect.unit (s := S4x128x512) ![3, 0, 0] S1x128x512.size inb_S4x128x512_S1x128x512_3_0_0) (fun _ => rfl)).squeeze S128x512 squeezes_S1x128x512_S128x512).view.rep (sent m (peer c) 3)))) (k0_pay10 (View.readAt (Elt F) (Memref.whole cc0_stg0_0).view (Rect.unit (s := S512) ![0] S512.size inb_S512_S512_0).toLoadRect g0))⟩ : View.Piece (Elt F) S4x128x512 .f32),
          (⟨(Rect.unit (s := S4x128x512) ![2, 0, 0] S1x128x512.size inb_S4x128x512_S1x128x512_2_0_0), k0_pay8 (View.readAt (Elt F) (Memref.whole cc0_scratch0).view (Rect.unit (s := S512x512) ![256, 0] S128x512.size inb_S512x512_S128x512_256_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![2, 0, 0] S1x128x512.size inb_S4x128x512_S1x128x512_2_0_0).toLoadRect ((((Memref.whole cc0_scratch3).slice (Rect.unit (s := S4x128x512) ![2, 0, 0] S1x128x512.size inb_S4x128x512_S1x128x512_2_0_0) (fun _ => rfl)).squeeze S128x512 squeezes_S1x128x512_S128x512).view.rep (sent m (peer c) 2))) (View.readAt (Elt F) (Memref.whole cc0_stg0_0).view (Rect.unit (s := S512) ![0] S512.size inb_S512_S512_0).toLoadRect g0)⟩ : View.Piece (Elt F) S4x128x512 .f32),
          (⟨(Rect.unit (s := S4x128x512) ![1, 0, 0] S1x128x512.size inb_S4x128x512_S1x128x512_1_0_0), k0_pay7 (View.readAt (Elt F) (Memref.whole cc0_scratch0).view (Rect.unit (s := S512x512) ![128, 0] S128x512.size inb_S512x512_S128x512_128_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![1, 0, 0] S1x128x512.size inb_S4x128x512_S1x128x512_1_0_0).toLoadRect ((((Memref.whole cc0_scratch3).slice (Rect.unit (s := S4x128x512) ![1, 0, 0] S1x128x512.size inb_S4x128x512_S1x128x512_1_0_0) (fun _ => rfl)).squeeze S128x512 squeezes_S1x128x512_S128x512).view.rep (sent m (peer c) 1))) (View.readAt (Elt F) (Memref.whole cc0_stg0_0).view (Rect.unit (s := S512) ![0] S512.size inb_S512_S512_0).toLoadRect g0)⟩ : View.Piece (Elt F) S4x128x512 .f32),
          (⟨(Rect.unit (s := S4x128x512) ![0, 0, 0] S1x128x512.size inb_S4x128x512_S1x128x512_0_0_0), k0_pay6 (View.readAt (Elt F) (Memref.whole cc0_scratch0).view (Rect.unit (s := S512x512) ![0, 0] S128x512.size inb_S512x512_S128x512_0_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![0, 0, 0] S1x128x512.size inb_S4x128x512_S1x128x512_0_0_0).toLoadRect ((((Memref.whole cc0_scratch3).slice (Rect.unit (s := S4x128x512) ![0, 0, 0] S1x128x512.size inb_S4x128x512_S1x128x512_0_0_0) (fun _ => rfl)).squeeze S128x512 squeezes_S1x128x512_S128x512).view.rep (sent m (peer c) 0))) (View.readAt (Elt F) (Memref.whole cc0_stg0_0).view (Rect.unit (s := S512) ![0] S512.size inb_S512_S512_0).toLoadRect g0)⟩ : View.Piece (Elt F) S4x128x512 .f32)]))⟩ : View.Piece (Elt F) S512x512 .f32),
       ⟨Rect.unit (s := S512x512) ![256, 0] S128x512.size inb_S512x512_S128x512_256_0, ReadAs.same.apply ((((Memref.whole cc0_scratch4).slice (Rect.unit (s := S4x128x512) ![2, 0, 0] S1x128x512.size inb_S4x128x512_S1x128x512_2_0_0) (fun _ => rfl)).squeeze S128x512 squeezes_S1x128x512_S128x512).view.read (Elt F) ((Memref.whole cc0_scratch4).view.writes (Elt F) fO
          [(⟨(Rect.unit (s := S4x128x512) ![2, 0, 0] S1x128x512.size inb_S4x128x512_S1x128x512_2_0_0), k0_pay8 (View.readAt (Elt F) (Memref.whole cc0_scratch0).view (Rect.unit (s := S512x512) ![256, 0] S128x512.size inb_S512x512_S128x512_256_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![2, 0, 0] S1x128x512.size inb_S4x128x512_S1x128x512_2_0_0).toLoadRect ((((Memref.whole cc0_scratch3).slice (Rect.unit (s := S4x128x512) ![2, 0, 0] S1x128x512.size inb_S4x128x512_S1x128x512_2_0_0) (fun _ => rfl)).squeeze S128x512 squeezes_S1x128x512_S128x512).view.rep (sent m (peer c) 2))) (View.readAt (Elt F) (Memref.whole cc0_stg0_0).view (Rect.unit (s := S512) ![0] S512.size inb_S512_S512_0).toLoadRect g0)⟩ : View.Piece (Elt F) S4x128x512 .f32),
          (⟨(Rect.unit (s := S4x128x512) ![1, 0, 0] S1x128x512.size inb_S4x128x512_S1x128x512_1_0_0), k0_pay7 (View.readAt (Elt F) (Memref.whole cc0_scratch0).view (Rect.unit (s := S512x512) ![128, 0] S128x512.size inb_S512x512_S128x512_128_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![1, 0, 0] S1x128x512.size inb_S4x128x512_S1x128x512_1_0_0).toLoadRect ((((Memref.whole cc0_scratch3).slice (Rect.unit (s := S4x128x512) ![1, 0, 0] S1x128x512.size inb_S4x128x512_S1x128x512_1_0_0) (fun _ => rfl)).squeeze S128x512 squeezes_S1x128x512_S128x512).view.rep (sent m (peer c) 1))) (View.readAt (Elt F) (Memref.whole cc0_stg0_0).view (Rect.unit (s := S512) ![0] S512.size inb_S512_S512_0).toLoadRect g0)⟩ : View.Piece (Elt F) S4x128x512 .f32),
          (⟨(Rect.unit (s := S4x128x512) ![0, 0, 0] S1x128x512.size inb_S4x128x512_S1x128x512_0_0_0), k0_pay6 (View.readAt (Elt F) (Memref.whole cc0_scratch0).view (Rect.unit (s := S512x512) ![0, 0] S128x512.size inb_S512x512_S128x512_0_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![0, 0, 0] S1x128x512.size inb_S4x128x512_S1x128x512_0_0_0).toLoadRect ((((Memref.whole cc0_scratch3).slice (Rect.unit (s := S4x128x512) ![0, 0, 0] S1x128x512.size inb_S4x128x512_S1x128x512_0_0_0) (fun _ => rfl)).squeeze S128x512 squeezes_S1x128x512_S128x512).view.rep (sent m (peer c) 0))) (View.readAt (Elt F) (Memref.whole cc0_stg0_0).view (Rect.unit (s := S512) ![0] S512.size inb_S512_S512_0).toLoadRect g0)⟩ : View.Piece (Elt F) S4x128x512 .f32)]))⟩,
       ⟨Rect.unit (s := S512x512) ![128, 0] S128x512.size inb_S512x512_S128x512_128_0, ReadAs.same.apply ((((Memref.whole cc0_scratch4).slice (Rect.unit (s := S4x128x512) ![1, 0, 0] S1x128x512.size inb_S4x128x512_S1x128x512_1_0_0) (fun _ => rfl)).squeeze S128x512 squeezes_S1x128x512_S128x512).view.read (Elt F) ((Memref.whole cc0_scratch4).view.writes (Elt F) fO
          [(⟨(Rect.unit (s := S4x128x512) ![1, 0, 0] S1x128x512.size inb_S4x128x512_S1x128x512_1_0_0), k0_pay7 (View.readAt (Elt F) (Memref.whole cc0_scratch0).view (Rect.unit (s := S512x512) ![128, 0] S128x512.size inb_S512x512_S128x512_128_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![1, 0, 0] S1x128x512.size inb_S4x128x512_S1x128x512_1_0_0).toLoadRect ((((Memref.whole cc0_scratch3).slice (Rect.unit (s := S4x128x512) ![1, 0, 0] S1x128x512.size inb_S4x128x512_S1x128x512_1_0_0) (fun _ => rfl)).squeeze S128x512 squeezes_S1x128x512_S128x512).view.rep (sent m (peer c) 1))) (View.readAt (Elt F) (Memref.whole cc0_stg0_0).view (Rect.unit (s := S512) ![0] S512.size inb_S512_S512_0).toLoadRect g0)⟩ : View.Piece (Elt F) S4x128x512 .f32),
          (⟨(Rect.unit (s := S4x128x512) ![0, 0, 0] S1x128x512.size inb_S4x128x512_S1x128x512_0_0_0), k0_pay6 (View.readAt (Elt F) (Memref.whole cc0_scratch0).view (Rect.unit (s := S512x512) ![0, 0] S128x512.size inb_S512x512_S128x512_0_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![0, 0, 0] S1x128x512.size inb_S4x128x512_S1x128x512_0_0_0).toLoadRect ((((Memref.whole cc0_scratch3).slice (Rect.unit (s := S4x128x512) ![0, 0, 0] S1x128x512.size inb_S4x128x512_S1x128x512_0_0_0) (fun _ => rfl)).squeeze S128x512 squeezes_S1x128x512_S128x512).view.rep (sent m (peer c) 0))) (View.readAt (Elt F) (Memref.whole cc0_stg0_0).view (Rect.unit (s := S512) ![0] S512.size inb_S512_S512_0).toLoadRect g0)⟩ : View.Piece (Elt F) S4x128x512 .f32)]))⟩,
       ⟨Rect.unit (s := S512x512) ![0, 0] S128x512.size inb_S512x512_S128x512_0_0, ReadAs.same.apply ((((Memref.whole cc0_scratch4).slice (Rect.unit (s := S4x128x512) ![0, 0, 0] S1x128x512.size inb_S4x128x512_S1x128x512_0_0_0) (fun _ => rfl)).squeeze S128x512 squeezes_S1x128x512_S128x512).view.read (Elt F) ((Memref.whole cc0_scratch4).view.writes (Elt F) fO
          [(⟨(Rect.unit (s := S4x128x512) ![0, 0, 0] S1x128x512.size inb_S4x128x512_S1x128x512_0_0_0), k0_pay6 (View.readAt (Elt F) (Memref.whole cc0_scratch0).view (Rect.unit (s := S512x512) ![0, 0] S128x512.size inb_S512x512_S128x512_0_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![0, 0, 0] S1x128x512.size inb_S4x128x512_S1x128x512_0_0_0).toLoadRect ((((Memref.whole cc0_scratch3).slice (Rect.unit (s := S4x128x512) ![0, 0, 0] S1x128x512.size inb_S4x128x512_S1x128x512_0_0_0) (fun _ => rfl)).squeeze S128x512 squeezes_S1x128x512_S128x512).view.rep (sent m (peer c) 0))) (View.readAt (Elt F) (Memref.whole cc0_stg0_0).view (Rect.unit (s := S512) ![0] S512.size inb_S512_S512_0).toLoadRect g0)⟩ : View.Piece (Elt F) S4x128x512 .f32)]))⟩]
      = outFinal m c := by
  rw [out_piece_3 m c fM fO _ g0 hg, out_piece_2 m c fM fO _ g0 hg, out_piece_1 m c fM fO _ g0 hg, out_piece_0 m c fM fO _ g0 hg]
  rfl

/-! ## The send buffer by slots; one remote copy -/

omit [FloatOps F] in
theorem sendSlot_set0 : (sendSlot 0).view.set = (slotRect 0).set := (Memref.set_view_squeeze _ squeezes_S1x128x512_S128x512).trans (View.set_slice_whole _ _)
omit [FloatOps F] in
theorem sendSlot_set1 : (sendSlot 1).view.set = (slotRect 1).set := (Memref.set_view_squeeze _ squeezes_S1x128x512_S128x512).trans (View.set_slice_whole _ _)
omit [FloatOps F] in
theorem sendSlot_set2 : (sendSlot 2).view.set = (slotRect 2).set := (Memref.set_view_squeeze _ squeezes_S1x128x512_S128x512).trans (View.set_slice_whole _ _)
omit [FloatOps F] in
theorem sendSlot_set3 : (sendSlot 3).view.set = (slotRect 3).set := (Memref.set_view_squeeze _ squeezes_S1x128x512_S128x512).trans (View.set_slice_whole _ _)

omit [FloatOps F] in
theorem send_split (c : Dev nD) (f : Buf (Elt F) (sendM.view.loc (c : Thread nD τ))) :
    (sendM.view.loc (c : Thread nD τ) ↦{fullShare} f : sProp 𝕄)
      = iprop(((sendSlot 0).view.loc (c : Thread nD τ) ↦[(sendSlot 0).view.set]{fullShare} f) ∗ ((sendSlot 1).view.loc (c : Thread nD τ) ↦[(sendSlot 1).view.set]{fullShare} f)
          ∗ ((sendSlot 2).view.loc (c : Thread nD τ) ↦[(sendSlot 2).view.set]{fullShare} f) ∗ ((sendSlot 3).view.loc (c : Thread nD τ) ↦[(sendSlot 3).view.set]{fullShare} f)) := by
  rw [sendSlot_set0, sendSlot_set1, sendSlot_set2, sendSlot_set3,
    Ring.pointsTo_blocks (ℓ := sendM.view.loc (c : Thread nD τ)) (fun k : Fin 4 => ((slotRect k).set : Finset (Idx (sendM.view.loc (c : Thread nD τ)))))
      (fun k k' h => slotRect_disjoint k k' h) slotRect_cover f,
    bigSep_univ_eq_bigSepL [(0 : Fin 4), 1, 2, 3] (by decide) (by decide), bigSepL_cons_cons, bigSepL_cons_cons, bigSepL_cons_cons, bigSepL_singleton]
  rfl

omit [FloatOps F] in
theorem credit_slot (k : Fin 4) : (recvSlot k).view.amount (SemLoc.dma (recvSem k)) = N := by fin_cases k <;> rfl

/-- The remote copy of slot `k` to the partner: the source slot goes to the send cell's duty, the partner's slot, rewritten
    with what is sent, to its receive cell's. The transfer is addressed to `n = peer c` (substituted, not rewritten). -/
theorem wp_send_slot (K : Dev nD × Fin 9 → ℕ) (c n : Dev nD) (hn : n = peer c) (k : Fin 4)
    {hsc : (recvSlot k : Memref sig (Dev.tc n : Thread nD τ).2.kind .vmem S128x512 .bf16).view.ref.isScScratch = false}
    {hsrc : (sendSlot k).view.WordExact} {hdst : (recvSlot k).view.WordExact}
    {hsem : DmaTarget.Typed .vmem (.dma (recvSem k)) (.remote (Dev.tc n : Thread nD τ) (recvSlot k) (.dma (sendSem k)) hsc)}
    {α : Type} {Q : α → sProp 𝕄} {kk : PUnit → Prog (TpuEff nD τ sig (Elt F) Λ₀ .tc) α}
    (fs : Buf (Elt F) ((sendSlot k).view.loc (c : Thread nD τ))) (fd : Buf (Elt F) ((recvSlot k).view.loc (peer c : Thread nD τ)))
    (O : CellTallies nD τ sig Unit) (W : Waits sig Unit)
    (hfs : (sendSlot k).view.read (Elt F) fs = sent m c k) :
    iprop(cellInv ER (rd m) (K (c, jS k)) (sendCell c k) ∗ cellInv ER (rd m) (K (peer c, jR k)) (recvCell (peer c) k)
        ∗ ((sendSlot k).view.loc (c : Thread nD τ) ↦[(sendSlot k).view.set]{fullShare} fs)
        ∗ ((recvSlot k).view.loc (peer c : Thread nD τ) ↦[(recvSlot k).view.set]{fullShare} fd)
        ∗ owes (c : Thread nD τ) (O + tallyAt (recvCell (peer c) k) () N) W
        ∗ dutyTok ER (sendCell c k) 0 () ∗ reached ER (sendCell c k) 0
        ∗ dutyTok ER (recvCell (peer c) k) 0 () ∗ reached ER (recvCell (peer c) k) 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sendSlot k) (.remote (Dev.tc n : Thread nD τ) (recvSlot k) (.dma (sendSem k)) hsc) (.dma (recvSem k)) hsrc hdst hsem) kk) Q) := by
  subst hn
  exact Rounds.wp_send_pointsTo 𝒱₀ ER (rd m) (c : Thread nD τ) none (κ₁ := K (c, jS k)) (κ₂ := K (peer c, jR k))
    (r₁ := 0) (r₂ := 0) (d₁ := ()) (d₂ := ()) (fd := fd)
    (by rw [duties_send]; exact Finset.mem_singleton_self _) (by rw [duties_recv]; exact Finset.mem_singleton_self _)
    () () N (credit_slot k) (amount_send m c k ()) (amount_recv m (peer c) k ()) O rfl (W := W)
    (by rw [payload_send_own, ← hfs]; exact pointsTo_rep_entails (c : Thread nD τ) (sendSlot k) fs fullShare)
    (by
      rw [payload_recv_peer, ← hfs]
      refine (pointsTo_rep_entails (peer c : Thread nD τ) (recvSlot k) _ fullShare).trans ?_
      rw [View.read_write_univ])

omit [FloatOps F] in
theorem send_join (c : Dev nD) (f0 f1 f2 f3 : Buf (Elt F) (sendM.view.loc (c : Thread nD τ))) :
    iprop(((sendSlot 0).view.loc (c : Thread nD τ) ↦[(sendSlot 0).view.set]{fullShare} f0) ∗ ((sendSlot 1).view.loc (c : Thread nD τ) ↦[(sendSlot 1).view.set]{fullShare} f1)
        ∗ ((sendSlot 2).view.loc (c : Thread nD τ) ↦[(sendSlot 2).view.set]{fullShare} f2) ∗ ((sendSlot 3).view.loc (c : Thread nD τ) ↦[(sendSlot 3).view.set]{fullShare} f3))
      ⊢ (iprop(∃ g, sendM.view.loc (c : Thread nD τ) ↦{fullShare} g) : sProp 𝕄) := by
  rw [sendSlot_set0, sendSlot_set1, sendSlot_set2, sendSlot_set3]
  refine Entails.trans (Entails.of_eq ?_) (Ring.pointsTo_blocks_join (ℓ := sendM.view.loc (c : Thread nD τ))
    (fun k : Fin 4 => ((slotRect k).set : Finset (Idx (sendM.view.loc (c : Thread nD τ))))) (fun k k' h => slotRect_disjoint k k' h) slotRect_cover
    (fun k : Fin 4 => match k with | 0 => f0 | 1 => f1 | 2 => f2 | 3 => f3) f0)
  rw [bigSep_univ_eq_bigSepL [(0 : Fin 4), 1, 2, 3] (by decide) (by decide), bigSepL_cons_cons, bigSepL_cons_cons, bigSepL_cons_cons, bigSepL_singleton]
  rfl
omit [FloatOps F] in
theorem recv_join (c : Dev nD) (f0 f1 f2 f3 : Buf (Elt F) (recvM.view.loc (c : Thread nD τ))) :
    iprop(((recvSlot 0).view.loc (c : Thread nD τ) ↦[(recvSlot 0).view.set]{fullShare} f0) ∗ ((recvSlot 1).view.loc (c : Thread nD τ) ↦[(recvSlot 1).view.set]{fullShare} f1)
        ∗ ((recvSlot 2).view.loc (c : Thread nD τ) ↦[(recvSlot 2).view.set]{fullShare} f2) ∗ ((recvSlot 3).view.loc (c : Thread nD τ) ↦[(recvSlot 3).view.set]{fullShare} f3))
      ⊢ (iprop(∃ g, recvM.view.loc (c : Thread nD τ) ↦{fullShare} g) : sProp 𝕄) := by
  rw [recvSlot_set0, recvSlot_set1, recvSlot_set2, recvSlot_set3]
  refine Entails.trans (Entails.of_eq ?_) (Ring.pointsTo_blocks_join (ℓ := recvM.view.loc (c : Thread nD τ))
    (fun k : Fin 4 => ((slotRect k).set : Finset (Idx (recvM.view.loc (c : Thread nD τ))))) (fun k k' h => slotRect_disjoint k k' h) slotRect_cover
    (fun k : Fin 4 => match k with | 0 => f0 | 1 => f1 | 2 => f2 | 3 => f3) f0)
  rw [bigSep_univ_eq_bigSepL [(0 : Fin 4), 1, 2, 3] (by decide) (by decide), bigSepL_cons_cons, bigSepL_cons_cons, bigSepL_cons_cons, bigSepL_singleton]
  rfl

def bodyPre (K : Dev nD × Fin 9 → ℕ) (c : Dev nD) : sProp 𝕄 :=
  iprop((ghost m K c
      ∗ cred (tallyAt (barCell c) () 1)
      ∗ (cred (tallyAt (recvCell c 0) () N) ∗ cred (tallyAt (recvCell c 1) () N) ∗ cred (tallyAt (recvCell c 2) () N) ∗ cred (tallyAt (recvCell c 3) () N))
      ∗ levAts L lv ∗ localSems c
      ∗ (xA.view.loc (c : Thread nD τ) ↦{fullShare} Xof m c) ∗ (oA.view.loc (c : Thread nD τ) ↦{fullShare} m ((c : Thread nD τ).loc main_v1))
      ∗ scratch c)
    ∗ (dats m 0 c).owesAt () t₀.castSucc
    ∗ (∃ d, stg c cc0_stg0_0 ((dats m 0 c).before (0 : Fin 1) t₀ d)))

def bodyPost (c : Dev nD) : sProp 𝕄 :=
  iprop(Φ₁ m c ∗ (dats m 0 c).owesAt () t₀.succ ∗ stg c cc0_stg0_0 (gstg m c))

theorem owes_exit (c : Dev nD) (Wx : Waits sig Unit) : (owes (c : Thread nD τ) 0 Wx : sProp 𝕄) ⊢ (dats m 0 c).owesAt () t₀.succ := by
  unfold Dat.owesAt Pipeline.owesWithin
  rw [show (dats m 0 c).owed t₀.succ = 0 from rfl]
  iintro H
  iexists Wx
  isplitr; · ipureintro; exact fun _ _ => Or.inl trivial
  iexact H

attribute [local sl_rounds] duties_bar duties_send duties_recv amount_bar amount_send amount_recv expect_bar expect_send expect_recv
  payload_bar_own payload_recv_own payload_send_own
attribute [local sl_canon] dev1_eq dev2_eq dev3_eq dev4_eq dev5_eq

set_option maxHeartbeats 1600000 in
theorem sound_body (K : Dev nD × Fin 9 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole cc0_stg0_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) cc0_scratch5 cc0_scratch6 cc0_scratch7 cc0_scratch8) Kt := by
  unfold bodyPre ghost positions payToks localSems scratch
  iintro ⟨⟨⟨⟨#Hrec, ⟨HatB, ⟨HatS0, HatS1, HatS2, HatS3⟩, ⟨HatR0, HatR1, HatR2, HatR3⟩⟩, ⟨HtB, ⟨HtR0, HtR1, HtR2, HtR3⟩, ⟨HtS0, HtS1, HtS2, HtS3⟩⟩⟩,
      HcB, ⟨HcR0, HcR1, HcR2, HcR3⟩, #Hlev, ⟨Hc0, Hc1, Hc2, Hc3, Hc4, Ho0, Ho1, Ho2, Ho3⟩, HX, HOut,
      ⟨⟨%fM, HM⟩, ⟨%fP, HP⟩, ⟨%fS, HS⟩, ⟨%fR, HR⟩, ⟨%fO, HOv⟩⟩⟩,
    Ho, ⟨%d0, %g0, %hg0, Hg⟩⟩, Hk⟩
  unfold Dat.owesAt Pipeline.owesWithin
  icases Ho with ⟨%W, %hW, HO⟩
  rw [show (dats m 0 c).owed t₀.castSucc = O₀ c from rfl]
  ihave #HIbP := (show records m K ⊢ cellInv ER (rd m) (K (peer c, 0)) (barCell (peer c)) from inv_at m K (peer c, 0)) $$ []
  · iexact Hrec
  ihave #HrbP := (show records m K ⊢ reached ER (barCell (peer c)) 0 from reached_at m K (peer c, 0)) $$ []
  · iexact Hrec
  ihave #HIb := (show records m K ⊢ cellInv ER (rd m) (K (c, 0)) (barCell c) from inv_at m K (c, 0)) $$ []
  · iexact Hrec
  ihave #HIs0 := (show records m K ⊢ cellInv ER (rd m) (K (c, 1)) (sendCell c 0) from inv_at m K (c, 1)) $$ []
  · iexact Hrec
  ihave #HIs1 := (show records m K ⊢ cellInv ER (rd m) (K (c, 2)) (sendCell c 1) from inv_at m K (c, 2)) $$ []
  · iexact Hrec
  ihave #HIs2 := (show records m K ⊢ cellInv ER (rd m) (K (c, 3)) (sendCell c 2) from inv_at m K (c, 3)) $$ []
  · iexact Hrec
  ihave #HIs3 := (show records m K ⊢ cellInv ER (rd m) (K (c, 4)) (sendCell c 3) from inv_at m K (c, 4)) $$ []
  · iexact Hrec
  ihave #HIr0 := (show records m K ⊢ cellInv ER (rd m) (K (c, 5)) (recvCell c 0) from inv_at m K (c, 5)) $$ []
  · iexact Hrec
  ihave #HIr1 := (show records m K ⊢ cellInv ER (rd m) (K (c, 6)) (recvCell c 1) from inv_at m K (c, 6)) $$ []
  · iexact Hrec
  ihave #HIr2 := (show records m K ⊢ cellInv ER (rd m) (K (c, 7)) (recvCell c 2) from inv_at m K (c, 7)) $$ []
  · iexact Hrec
  ihave #HIr3 := (show records m K ⊢ cellInv ER (rd m) (K (c, 8)) (recvCell c 3) from inv_at m K (c, 8)) $$ []
  · iexact Hrec
  ihave #HIrP0 := (show records m K ⊢ cellInv ER (rd m) (K (peer c, 5)) (recvCell (peer c) 0) from inv_at m K (peer c, 5)) $$ []
  · iexact Hrec
  ihave #HIrP1 := (show records m K ⊢ cellInv ER (rd m) (K (peer c, 6)) (recvCell (peer c) 1) from inv_at m K (peer c, 6)) $$ []
  · iexact Hrec
  ihave #HIrP2 := (show records m K ⊢ cellInv ER (rd m) (K (peer c, 7)) (recvCell (peer c) 2) from inv_at m K (peer c, 7)) $$ []
  · iexact Hrec
  ihave #HIrP3 := (show records m K ⊢ cellInv ER (rd m) (K (peer c, 8)) (recvCell (peer c) 3) from inv_at m K (peer c, 8)) $$ []
  · iexact Hrec
  ihave #HrrP0 := (show records m K ⊢ reached ER (recvCell (peer c) 0) 0 from reached_at m K (peer c, 5)) $$ []
  · iexact Hrec
  ihave #HrrP1 := (show records m K ⊢ reached ER (recvCell (peer c) 1) 0 from reached_at m K (peer c, 6)) $$ []
  · iexact Hrec
  ihave #HrrP2 := (show records m K ⊢ reached ER (recvCell (peer c) 2) 0 from reached_at m K (peer c, 7)) $$ []
  · iexact Hrec
  ihave #HrrP3 := (show records m K ⊢ reached ER (recvCell (peer c) 3) 0 from reached_at m K (peer c, 8)) $$ []
  · iexact Hrec
  ihave #Hrs0 := (show records m K ⊢ reached ER (sendCell c 0) 0 from reached_at m K (c, 1)) $$ []
  · iexact Hrec
  ihave #Hrs1 := (show records m K ⊢ reached ER (sendCell c 1) 0 from reached_at m K (c, 2)) $$ []
  · iexact Hrec
  ihave #Hrs2 := (show records m K ⊢ reached ER (sendCell c 2) 0 from reached_at m K (c, 3)) $$ []
  · iexact Hrec
  ihave #Hrs3 := (show records m K ⊢ reached ER (sendCell c 3) 0 from reached_at m K (c, 4)) $$ []
  · iexact Hrec
  iclear Hrec
  ihave HRs := (Entails.of_eq (recv_split (F := F) c fR)) $$ HR
  icases HRs with ⟨HR0, HR1, HR2, HR3⟩
  ihave Hg := (show (((c : Thread nD τ).loc cc0_stg0_0 ↦{fullShare} g0 : sProp 𝕄)) ⊢ ((Memref.whole cc0_stg0_0 : Memref sig .tc .vmem S512 .f32).view.loc (c : Thread nD τ) ↦{fullShare} g0) from .rfl) $$ Hg
  ihave HXs := (x_toks (F := F) c (Xof m c)).1 $$ HX
  icases HXs with ⟨HX, HX0, HX1, HX2, HX3, HX4⟩
  unfold O₀
  have hmw0 := mayWait_copy (F := F) c 0
  have hmw1 := mayWait_copy (F := F) c 1
  have hmw2 := mayWait_copy (F := F) c 2
  have hmw3 := mayWait_copy (F := F) c 3
  have hmwb := mayWait_bar (F := F) c
  sl_unfold [cc0_body]
  sl_exec!
  -- the entry signal to the partner's barrier cell: the device's own four receive slots go with it
  iapply (Rounds.wp_signal 𝒱₀ ER (rd m) (c : Thread nD τ) none (dst := (peer c : Thread nD τ)) (κ := K (peer c, 0))
      (d := ()) (by rw [duties_bar]; exact Finset.mem_singleton_self _) ((amount_bar m (peer c) ()).trans (by decide)) () (Or0 c) rfl)
    $$ [HO HtB HR0 HR1 HR2 HR3]
  · isplitr; · iexact HIbP
    isplitl [HO]; · iexact HO
    isplitl [HtB]; · iexact HtB
    isplitl [HR0 HR1 HR2 HR3]
    · rw [payload_bar_peer]
      isplitl [HR0]; · iexists fR; iexact HR0
      isplitl [HR1]; · iexists fR; iexact HR1
      isplitl [HR2]; · iexists fR; iexact HR2
      iexists fR; iexact HR3
    · iexact HrbP
  iintro HO
  set_option sl_exec.dmaWindow true in sl_exec!
  -- the send buffer slot by slot
  ihave HSs := (Entails.of_eq (send_split (F := F) c _)) $$ HS
  icases HSs with ⟨HS0, HS1, HS2, HS3⟩
  -- the remote copy of slot 0
  unfold Or0
  iapply (wp_send_slot m K c _ (dev2_eq c) 0 _ _ (O1 c) _ (Lay.send_sent_0 m c _ _)) $$ [HS0 HatB_pay1 HO HtS0 HtR0]
  · isplitr; · iexact HIs0
    isplitr; · iexact HIrP0
    isplitl [HS0]; · iexact HS0
    isplitl [HatB_pay1]; · iexact HatB_pay1
    isplitl [HO]; · iexact HO
    isplitl [HtS0]; · iexact HtS0
    isplitr; · iexact Hrs0
    isplitl [HtR0]; · iexact HtR0
    iexact HrrP0
  iintro ⟨HcS0, HO⟩
  set_option sl_exec.dmaWindow true in sl_exec!
  -- the remote copy of slot 1
  unfold O1
  iapply (wp_send_slot m K c _ (dev3_eq c) 1 _ _ (O2 c) _ (Lay.send_sent_1 m c _ _)) $$ [HS1 HatB_pay2 HO HtS1 HtR1]
  · isplitr; · iexact HIs1
    isplitr; · iexact HIrP1
    isplitl [HS1]; · iexact HS1
    isplitl [HatB_pay2]; · iexact HatB_pay2
    isplitl [HO]; · iexact HO
    isplitl [HtS1]; · iexact HtS1
    isplitr; · iexact Hrs1
    isplitl [HtR1]; · iexact HtR1
    iexact HrrP1
  iintro ⟨HcS1, HO⟩
  set_option sl_exec.dmaWindow true in sl_exec!
  -- the remote copy of slot 2
  unfold O2
  iapply (wp_send_slot m K c _ (dev4_eq c) 2 _ _ (O3 c) _ (Lay.send_sent_2 m c _ _)) $$ [HS2 HatB_pay3 HO HtS2 HtR2]
  · isplitr; · iexact HIs2
    isplitr; · iexact HIrP2
    isplitl [HS2]; · iexact HS2
    isplitl [HatB_pay3]; · iexact HatB_pay3
    isplitl [HO]; · iexact HO
    isplitl [HtS2]; · iexact HtS2
    isplitr; · iexact Hrs2
    isplitl [HtR2]; · iexact HtR2
    iexact HrrP2
  iintro ⟨HcS2, HO⟩
  set_option sl_exec.dmaWindow true in sl_exec!
  -- the remote copy of slot 3
  unfold O3
  iapply (wp_send_slot m K c _ (dev5_eq c) 3 _ _ (0) _ (Lay.send_sent_3 m c _ _)) $$ [HS3 HatB_pay4 HO HtS3 HtR3]
  · isplitr; · iexact HIs3
    isplitr; · iexact HIrP3
    isplitl [HS3]; · iexact HS3
    isplitl [HatB_pay4]; · iexact HatB_pay4
    isplitl [HO]; · iexact HO
    isplitl [HtS3]; · iexact HtS3
    isplitr; · iexact Hrs3
    isplitl [HtR3]; · iexact HtR3
    iexact HrrP3
  iintro ⟨HcS3, HO⟩
  set_option sl_exec.dmaWindow true in sl_exec!
  ihave HRl0 := (Entails.of_eq (pay_recv m c 0)) $$ HatR0_pay1
  set_option sl_exec.dmaWindow true in sl_exec!
  ihave HRl1 := (Entails.of_eq (pay_recv m c 1)) $$ HatR1_pay1
  set_option sl_exec.dmaWindow true in sl_exec!
  ihave HRl2 := (Entails.of_eq (pay_recv m c 2)) $$ HatR2_pay1
  set_option sl_exec.dmaWindow true in sl_exec!
  ihave HRl3 := (Entails.of_eq (pay_recv m c 3)) $$ HatR3_pay1
  set_option sl_exec.dmaWindow true in sl_exec!
  ihave HSl0 := (Entails.of_eq (pay_send m c 0)) $$ HatS0_pay1
  ihave HSl1 := (Entails.of_eq (pay_send m c 1)) $$ HatS1_pay1
  ihave HSl2 := (Entails.of_eq (pay_send m c 2)) $$ HatS2_pay1
  ihave HSl3 := (Entails.of_eq (pay_send m c 3)) $$ HatS3_pay1
  -- the eight send and receive cells close: their counters at zero are the device's again
  imod (Rounds.cell_close ER (rd m) (Set.mem_univ (K (c, 1))) (fun h => h) (R := 0 + 1) (duties_later m (sendCell c 0))) $$ [HatS0] with HzS0
  · isplitr; · iexact HIs0
    iexact HatS0
  imod (Rounds.cell_close ER (rd m) (Set.mem_univ (K (c, 2))) (fun h => h) (R := 0 + 1) (duties_later m (sendCell c 1))) $$ [HatS1] with HzS1
  · isplitr; · iexact HIs1
    iexact HatS1
  imod (Rounds.cell_close ER (rd m) (Set.mem_univ (K (c, 3))) (fun h => h) (R := 0 + 1) (duties_later m (sendCell c 2))) $$ [HatS2] with HzS2
  · isplitr; · iexact HIs2
    iexact HatS2
  imod (Rounds.cell_close ER (rd m) (Set.mem_univ (K (c, 4))) (fun h => h) (R := 0 + 1) (duties_later m (sendCell c 3))) $$ [HatS3] with HzS3
  · isplitr; · iexact HIs3
    iexact HatS3
  imod (Rounds.cell_close ER (rd m) (Set.mem_univ (K (c, 5))) (fun h => h) (R := 0 + 1) (duties_later m (recvCell c 0))) $$ [HatR0] with HzR0
  · isplitr; · iexact HIr0
    iexact HatR0
  imod (Rounds.cell_close ER (rd m) (Set.mem_univ (K (c, 6))) (fun h => h) (R := 0 + 1) (duties_later m (recvCell c 1))) $$ [HatR1] with HzR1
  · isplitr; · iexact HIr1
    iexact HatR1
  imod (Rounds.cell_close ER (rd m) (Set.mem_univ (K (c, 7))) (fun h => h) (R := 0 + 1) (duties_later m (recvCell c 2))) $$ [HatR2] with HzR2
  · isplitr; · iexact HIr2
    iexact HatR2
  imod (Rounds.cell_close ER (rd m) (Set.mem_univ (K (c, 8))) (fun h => h) (R := 0 + 1) (duties_later m (recvCell c 3))) $$ [HatR3] with HzR3
  · isplitr; · iexact HIr3
    iexact HatR3
  have hg : g0 = gstg m c := by rw [hg0]; unfold Dat.before; rw [if_pos (fetch0_0 t₀)]; rfl
  sl_step
  iapply Hk
  unfold bodyPost Φ₁ scratch localSems xferSems
  isplitr [HO Hg]
  · isplitl [HM HP HSl0 HSl1 HSl2 HSl3 HRl0 HRl1 HRl2 HRl3 HOv]
    · isplitl [HM]; · iexists _; iexact HM
      isplitl [HP]; · iexists _; iexact HP
      isplitl [HSl0 HSl1 HSl2 HSl3]
      · iapply (send_join (F := F) c _ _ _ _)
        isplitl [HSl0]; · iexact HSl0
        isplitl [HSl1]; · iexact HSl1
        isplitl [HSl2]; · iexact HSl2
        iexact HSl3
      isplitl [HRl0 HRl1 HRl2 HRl3]
      · iapply (recv_join (F := F) c _ _ _ _)
        isplitl [HRl0]; · iexact HRl0
        isplitl [HRl1]; · iexact HRl1
        isplitl [HRl2]; · iexact HRl2
        iexact HRl3
      iexists _; iexact HOv
    isplitl [Hc0 Hc1 Hc2 Hc3 Hc4 Ho0 Ho1 Ho2 Ho3]
    · isplitl [Hc0]; · iexact Hc0
      isplitl [Hc1]; · iexact Hc1
      isplitl [Hc2]; · iexact Hc2
      isplitl [Hc3]; · iexact Hc3
      isplitl [Hc4]; · iexact Hc4
      isplitl [Ho0]; · iexact Ho0
      isplitl [Ho1]; · iexact Ho1
      isplitl [Ho2]; · iexact Ho2
      iexact Ho3
    isplitl [HzS0 HzS1 HzS2 HzS3 HzR0 HzR1 HzR2 HzR3]
    · isplitl [HzS0]; · iexact HzS0
      isplitl [HzS1]; · iexact HzS1
      isplitl [HzS2]; · iexact HzS2
      isplitl [HzS3]; · iexact HzS3
      isplitl [HzR0]; · iexact HzR0
      isplitl [HzR1]; · iexact HzR1
      isplitl [HzR2]; · iexact HzR2
      iexact HzR3
    isplitl [HX HX0 HX1 HX2 HX3 HX4]
    · iapply (x_toks (F := F) c _).2
      isplitl [HX]; · iexact HX
      isplitl [HX0]; · iexact HX0
      isplitl [HX1]; · iexact HX1
      isplitl [HX2]; · iexact HX2
      isplitl [HX3]; · iexact HX3
      iexact HX4
    have hg' : (g0 : S512.Idx → Elt F .f32) = Gof m c := hg.trans (Lay.scale_window_read _)
    iapply (Entails.of_eq (congrArg (fun f => (oA.view.loc (c : Thread nD τ) ↦{fullShare} f : sProp 𝕄)) (out_final_eq m c fM fO g0 hg')))
    iexact HOut
  isplitl [HO]
  · iapply (owes_exit m c _); iexact HO
  iexists _
  isplitr; · ipureintro; exact hg
  iexact Hg

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre' (c : Dev nD) : sProp 𝕄 :=
  iprop(Φ₀ m c ∗ (dats m 0 c).owesAt () t₀.castSucc
    ∗ (∃ d, stg c cc0_stg0_0 ((dats m 0 c).before (0 : Fin 1) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole main_arg0) (Memref.isWhole_whole _) (Memref.whole cc0_stg0_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7 cc0_scratch8)
    (fun _ => bodyPost m c)
  unfold bodyPre' Φ₀ start
  iintro ⟨⟨⟨⟨%K, Hgh⟩, HcB, HcR, Hlev, Hloc, HX, HOut⟩, Hscr⟩, Ho, Hx⟩
  iapply (sound_body m K c fun _ => bodyPost m c)
  unfold bodyPre
  isplitr []
  · isplitl [Hgh HcB HcR Hlev Hloc HX HOut Hscr]
    · isplitl [Hgh]; · iexact Hgh
      isplitl [HcB]; · iexact HcB
      isplitl [HcR]; · iexact HcR
      isplitl [Hlev]; · iexact Hlev
      isplitl [Hloc]; · iexact Hloc
      isplitl [HX]; · iexact HX
      isplitl [HOut]; · iexact HOut
      iexact Hscr
    isplitl [Ho]; · iexact Ho
    iexact Hx
  · iintro H; iexact H

/-- info: 'Cert.KernelIdeal.Proto.body_obligation' depends on axioms: [propext, Classical.choice, Quot.sound] -/
#guard_msgs in #print axioms body_obligation

end Cert.KernelIdeal.Proto

end
-- ==== Proof.ContentsB.lean ====
/-
  What the buffers hold, as functions of the launched arrays (generic in the float instance).

  Device `c` reads two kinds of rows of its own partial array `X c`: the half it keeps (`mineRows`, 512 rows
  starting at `512·z`) and, in four chunks of 128 rows, the half its partner keeps (`peerRows`, starting at
  `512·(1-z) + 128·k`), which it narrows and sends (`sent`).  Chunk `k` of its result is the body's arithmetic
  (`k0_pay6`) of rows `128·k …` of `mineRows`, of what its partner sent in slot `k`, and of the scale row.
-/
import proofs.«900478_g7700000000000479_dist_rsrms_v7x_xyz2x2x2_z_m512_d512_bf16_1_alg».proof.Proof.Gen.Kernel
import proofs.«900478_g7700000000000479_dist_rsrms_v7x_xyz2x2x2_z_m512_d512_bf16_1_alg».proof.Proof.Gen.Kernel.Skeleton
import Idealize.ShloMosaic.Lib.Pipeline.Value
import Idealize.ShloMosaic.Lib.ValueIdx
import Idealize.ShloMosaic.Lib.Exec

noncomputable section

namespace Cert.Kernel.Contents

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The partner: the device with the other coordinate on the cut axis. -/
def peer (c : Dev nD) : Dev nD := ⟨(4 * (c.val / 4) + 2 * ((c.val / 2) % 2) + 1) - (c.val % 2), by have h : c.val < 8 := c.isLt; show _ < 8; omega⟩

abbrev xA : Memref sig .tc .hbm S1x1024x512 .f32 := Memref.whole main_arg0
abbrev oA : Memref sig .tc .hbm S512x512 .f32 := Memref.whole main_v1

/-- The rows of the partial array the device keeps, and chunk `k` of those its partner keeps, as the body slices them. -/
abbrev xMine (c : Dev nD) : Memref sig .tc .hbm S512x512 .f32 :=
  (xA.slice (Rect.unit (s := S1x1024x512) (k0_off1 c) S1x512x512.size (k0_off1_inb c)) (fun _ => rfl)).squeeze S512x512 squeezes_S1x512x512_S512x512
abbrev xPeer (c : Dev nD) (k : Fin 4) : Memref sig .tc .hbm S128x512 .f32 :=
  (xA.slice (Rect.unit (s := S1x1024x512) (k0_off2 c (BitVec.ofNat 32 (128 * k.val))) S1x128x512.size (k0_off2_inb c k)) (fun _ => rfl)).squeeze S128x512 squeezes_S1x128x512_S128x512

abbrev Xof (c : Dev nD) : S1x1024x512.Idx → Elt F .f32 := m ((c : Thread nD τ).loc main_arg0)
abbrev Gof (c : Dev nD) : S512.Idx → Elt F .f32 := m ((c : Thread nD τ).loc main_arg1)

def mineRows (c : Dev nD) : S512x512.Idx → Elt F .f32 := (xMine c).view.read (Elt F) (Xof m c)
def peerRows (c : Dev nD) (k : Fin 4) : S128x512.Idx → Elt F .f32 := (xPeer c k).view.read (Elt F) (Xof m c)

/-- What device `d` sends in slot `k`. -/
def sent (d : Dev nD) (k : Fin 4) : S128x512.Idx → Elt F .bf16 := truncf .bf16 (peerRows m d k) bitsLt_bf16_f32

/-- Rows `128·k …` of the kept half. -/
def mineChunk (c : Dev nD) (k : Fin 4) : S128x512.Idx → Elt F .f32 :=
  fun j => mineRows m c (ValueIdx.ix2 (⟨128 * k.val + (j 0).val, by have h : (j 0).val < 128 := (j 0).isLt; have := k.isLt; omega⟩ : Fin 512) (j 1))

/-- Chunk `k` of the result. -/
def outChunk (c : Dev nD) (k : Fin 4) : S128x512.Idx → Elt F .f32 :=
  shapeCast S128x512 (k0_pay6 (mineChunk m c k) (shapeCast S1x128x512 (sent m (peer c) k) shapeCasts_S128x512_S1x128x512) (Gof m c)) shapeCasts_S1x128x512_S128x512

theorem oslot_inb (k : Fin 4) : ∀ a, (![128 * k.val, 0] : Fin 2 → Nat) a + S128x512.size a ≤ S512x512.size a := by revert k; decide

/-- Rows `128·k …` of the result array. -/
abbrev oSlot (k : Fin 4) : Memref sig .tc .hbm S128x512 .f32 :=
  oA.slice (Rect.unit (s := S512x512) ![128 * k.val, 0] S128x512.size (oslot_inb k)) (fun _ => rfl)

/-- The result array after the four chunk copies: the four row blocks, which together are the whole array (listed newest first). -/
def outFinal (c : Dev nD) : S512x512.Idx → Elt F .f32 :=
  oA.view.writes (Elt F) oA.view.junk
    [⟨Rect.unit (s := S512x512) ![384, 0] S128x512.size inb_S512x512_S128x512_384_0, outChunk m c 3⟩,
     ⟨Rect.unit (s := S512x512) ![256, 0] S128x512.size inb_S512x512_S128x512_256_0, outChunk m c 2⟩,
     ⟨Rect.unit (s := S512x512) ![128, 0] S128x512.size inb_S512x512_S128x512_128_0, outChunk m c 1⟩,
     ⟨Rect.unit (s := S512x512) ![0, 0] S128x512.size inb_S512x512_S128x512_0_0, outChunk m c 0⟩]

end Cert.Kernel.Contents

end
-- ==== Proof.ProtoB.lean ====
/-
  The cross-device protocol of the kernel, as a schedule of rounds.

  Device `c` and its partner `peer c` (the device whose coordinate on the cut mesh axis is the other one)
  exchange four row chunks.  Per device there are nine cells others pay into or the engine pays on a remote copy:
    * the barrier cell — ONE unit, signalled by the partner at its kernel entry; it hands over the partner's
      receive buffer (its four slots), so that whoever has waited for it may copy into that buffer;
    * four send cells — paid by the device's own remote copy `k` once its source slot is read; the source slot
      comes back;
    * four receive cells — paid by the partner's remote copy `k` once slot `k` of the receive buffer is written;
      the slot comes back holding what was sent.
  Every cell has one round with one duty.  A device owes, from launch, one unit to its partner's barrier cell and a
  slot's credit to each of its partner's four receive cells.  Levels: barrier cells 1, receive cells 2, all other
  cells 0; every wait happens below what the waiter still owes, so nobody waits in a cycle.
  The local copies (array → scratch, scratch → result) use cells only their own device touches.
-/
import proofs.«900478_g7700000000000479_dist_rsrms_v7x_xyz2x2x2_z_m512_d512_bf16_1_alg».proof.Proof.Gen.Kernel
import proofs.«900478_g7700000000000479_dist_rsrms_v7x_xyz2x2x2_z_m512_d512_bf16_1_alg».proof.Proof.Gen.Kernel.Skeleton
import proofs.«900478_g7700000000000479_dist_rsrms_v7x_xyz2x2x2_z_m512_d512_bf16_1_alg».proof.Proof.Gen.Kernel.Launch
import proofs.«900478_g7700000000000479_dist_rsrms_v7x_xyz2x2x2_z_m512_d512_bf16_1_alg».proof.Proof.ContentsB
import Idealize.ShloMosaic.Lib.Pipeline.Launch
import Idealize.ShloMosaic.Lib.Pipeline.Kit
import Idealize.ShloMosaic.Lib.Tactic

noncomputable section

namespace Cert.Kernel.Proto

open Cert.Kernel Cert.Kernel.Gen Cert.Kernel.Contents

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra, the protocol's own copy, the local
    transfers' counters -/

abbrev UB : Type := URounds (GSem nD τ sig) Unit
abbrev UC : Type := UB × Counters
abbrev UU : Type := UR sig nD τ × UC

local notation "𝕄" => MT nD τ sig Unit (Elt F) ℕ UU ℕ

abbrev EP : Emb (UR sig nD τ) (MT nD τ sig Unit (Elt F) ℕ UU ℕ) := embL
abbrev EC0 : Emb UC (MT nD τ sig Unit (Elt F) ℕ UU ℕ) := embR
abbrev ER : Emb UB (MT nD τ sig Unit (Elt F) ℕ UU ℕ) := (Emb.inl : Emb UB UC).trans embR

variable (m : (ℓ : Loc nD τ sig) → Buf (Elt F) ℓ) (ρ : Dev nD → PrngReg)

/-! ## The partner -/

theorem peer_peer (c : Dev nD) : peer (peer c) = c := by revert c; decide
theorem peer_ne (c : Dev nD) : peer c ≠ c := by revert c; decide

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)

def pe : Dev nD ≃ Dev nD := ⟨peer, peer, peer_peer, peer_peer⟩

/-! ## Memrefs and cells, in the body's own spelling -/

abbrev mineM : Memref sig .tc .vmem S512x512 .f32 := Memref.whole cc0_scratch0
abbrev peerM : Memref sig .tc .vmem S4x128x512 .f32 := Memref.whole cc0_scratch1
abbrev sendM : Memref sig .tc .vmem S4x128x512 .bf16 := Memref.whole cc0_scratch2
abbrev recvM : Memref sig .tc .vmem S4x128x512 .bf16 := Memref.whole cc0_scratch3
abbrev outM : Memref sig .tc .vmem S4x128x512 .f32 := Memref.whole cc0_scratch4

/-- Slot `k` of the send buffer and of the receive buffer, as the body slices and squeezes them. -/
abbrev sendSlot : Fin 4 → Memref sig .tc .vmem S128x512 .bf16
  | 0 => (sendM.slice (Rect.unit (s := S4x128x512) ![0, 0, 0] S1x128x512.size inb_S4x128x512_S1x128x512_0_0_0) (fun _ => rfl)).squeeze S128x512 squeezes_S1x128x512_S128x512
  | 1 => (sendM.slice (Rect.unit (s := S4x128x512) ![1, 0, 0] S1x128x512.size inb_S4x128x512_S1x128x512_1_0_0) (fun _ => rfl)).squeeze S128x512 squeezes_S1x128x512_S128x512
  | 2 => (sendM.slice (Rect.unit (s := S4x128x512) ![2, 0, 0] S1x128x512.size inb_S4x128x512_S1x128x512_2_0_0) (fun _ => rfl)).squeeze S128x512 squeezes_S1x128x512_S128x512
  | 3 => (sendM.slice (Rect.unit (s := S4x128x512) ![3, 0, 0] S1x128x512.size inb_S4x128x512_S1x128x512_3_0_0) (fun _ => rfl)).squeeze S128x512 squeezes_S1x128x512_S128x512
abbrev recvSlot : Fin 4 → Memref sig .tc .vmem S128x512 .bf16
  | 0 => (recvM.slice (Rect.unit (s := S4x128x512) ![0, 0, 0] S1x128x512.size inb_S4x128x512_S1x128x512_0_0_0) (fun _ => rfl)).squeeze S128x512 squeezes_S1x128x512_S128x512
  | 1 => (recvM.slice (Rect.unit (s := S4x128x512) ![1, 0, 0] S1x128x512.size inb_S4x128x512_S1x128x512_1_0_0) (fun _ => rfl)).squeeze S128x512 squeezes_S1x128x512_S128x512
  | 2 => (recvM.slice (Rect.unit (s := S4x128x512) ![2, 0, 0] S1x128x512.size inb_S4x128x512_S1x128x512_2_0_0) (fun _ => rfl)).squeeze S128x512 squeezes_S1x128x512_S128x512
  | 3 => (recvM.slice (Rect.unit (s := S4x128x512) ![3, 0, 0] S1x128x512.size inb_S4x128x512_S1x128x512_3_0_0) (fun _ => rfl)).squeeze S128x512 squeezes_S1x128x512_S128x512

/-- The runtime's barrier semaphore (unscoped) and the four send / receive DMA semaphores (scoped scratch). -/
abbrev barS : Sem sig := (SemArray.scalar (sig.barrier 0 rfl) : Sems sig S_).sem
abbrev sendSem : Fin 4 → DmaSem sig
  | 0 => ((cc0_scratch6.slice (Rect.unit (s := S4) ![0] S1.size inb_S4_S1_0)).squeeze S_ squeezes_S1_S_).sem
  | 1 => ((cc0_scratch6.slice (Rect.unit (s := S4) ![1] S1.size inb_S4_S1_1)).squeeze S_ squeezes_S1_S_).sem
  | 2 => ((cc0_scratch6.slice (Rect.unit (s := S4) ![2] S1.size inb_S4_S1_2)).squeeze S_ squeezes_S1_S_).sem
  | 3 => ((cc0_scratch6.slice (Rect.unit (s := S4) ![3] S1.size inb_S4_S1_3)).squeeze S_ squeezes_S1_S_).sem
abbrev recvSem : Fin 4 → DmaSem sig
  | 0 => ((cc0_scratch7.slice (Rect.unit (s := S4) ![0] S1.size inb_S4_S1_0)).squeeze S_ squeezes_S1_S_).sem
  | 1 => ((cc0_scratch7.slice (Rect.unit (s := S4) ![1] S1.size inb_S4_S1_1)).squeeze S_ squeezes_S1_S_).sem
  | 2 => ((cc0_scratch7.slice (Rect.unit (s := S4) ![2] S1.size inb_S4_S1_2)).squeeze S_ squeezes_S1_S_).sem
  | 3 => ((cc0_scratch7.slice (Rect.unit (s := S4) ![3] S1.size inb_S4_S1_3)).squeeze S_ squeezes_S1_S_).sem

theorem sendSem_val (k : Fin 4) : (sendSem k).val = 6 + k.val := by revert k; decide
theorem recvSem_val (k : Fin 4) : (recvSem k).val = 10 + k.val := by revert k; decide

abbrev barCell (c : Dev nD) : GSem nD τ sig := ((c : Thread nD τ), .reg barS)
abbrev sendCell (c : Dev nD) (k : Fin 4) : GSem nD τ sig := ((c : Thread nD τ), .dma (sendSem k))
abbrev recvCell (c : Dev nD) (k : Fin 4) : GSem nD τ sig := ((c : Thread nD τ), .dma (recvSem k))

/-- A slot's credit. -/
abbrev N : ℕ := (recvSlot 0).view.dmaCredit
theorem N_pos : 0 < N := View.dmaCredit_pos _ (by decide)

/-! ## The four slots of a 4×128×512 scratch buffer: disjoint, and together the whole buffer -/

section Slots
variable {e : EltTy} (b : Ref sig .tc) (hb : b.ty = ⟨S4x128x512, e⟩)

theorem slot_inb (k : Fin 4) : ∀ a, (![k.val, 0, 0] : Fin 3 → Nat) a + S1x128x512.size a ≤ S4x128x512.size a := by
  revert k; decide

/-- The elements of slot `k`: those whose first coordinate is `k`. -/
abbrev slotRect (k : Fin 4) : Rect S4x128x512 := Rect.unit (s := S4x128x512) ![k.val, 0, 0] S1x128x512.size (slot_inb k)

theorem mem_slotRect (k : Fin 4) (i : S4x128x512.Idx) : i ∈ (slotRect k).set ↔ (i 0).val = k.val := by
  rw [Rect.mem_set_unit]
  have e1 : (![k.val, 0, 0] : Fin 3 → Nat) 0 = k.val := rfl
  have e2 : S1x128x512.size 0 = 1 := rfl
  constructor
  · intro h
    have h0 := h 0
    rw [e1, e2] at h0; omega
  · intro h a
    fin_cases a
    · show (![k.val, 0, 0] : Fin 3 → Nat) 0 ≤ (i 0).val ∧ (i 0).val < (![k.val, 0, 0] : Fin 3 → Nat) 0 + S1x128x512.size 0
      rw [e1, e2]; omega
    · show (0:ℕ) ≤ (i 1).val ∧ (i 1).val < 0 + 128
      have : (i 1).val < 128 := (i 1).isLt; omega
    · show (0:ℕ) ≤ (i 2).val ∧ (i 2).val < 0 + 512
      have : (i 2).val < 512 := (i 2).isLt; omega

theorem slotRect_disjoint (k k' : Fin 4) (h : k ≠ k') : Disjoint (slotRect k).set (slotRect k').set :=
  Finset.disjoint_left.mpr fun i hi hi' => h (Fin.ext (((mem_slotRect k i).mp hi).symm.trans ((mem_slotRect k' i).mp hi')))

theorem slotRect_cover : (Finset.univ : Finset (Fin 4)).biUnion (fun k => (slotRect k).set) = Finset.univ := by
  ext i
  simp only [Finset.mem_biUnion, Finset.mem_univ, true_and, iff_true]
  exact ⟨⟨(i 0).val, (i 0).isLt⟩, (mem_slotRect _ i).mpr rfl⟩

end Slots

/-! ## Contents -/

/-! ## The schedule -/

/-- Which of the nine protocol cells a semaphore is: 0 the barrier, 1–4 the send cells, 5–8 the receive cells, 9 none. -/
def cellKind (sl : SemLoc sig) : ℕ :=
  if sl = .reg barS then 0
  else if sl = .dma (sendSem 0) then 1 else if sl = .dma (sendSem 1) then 2 else if sl = .dma (sendSem 2) then 3 else if sl = .dma (sendSem 3) then 4
  else if sl = .dma (recvSem 0) then 5 else if sl = .dma (recvSem 1) then 6 else if sl = .dma (recvSem 2) then 7 else if sl = .dma (recvSem 3) then 8
  else 9

theorem cellKind_bar : cellKind (.reg barS) = 0 := by decide
theorem cellKind_send (k : Fin 4) : cellKind (.dma (sendSem k)) = 1 + k.val := by revert k; decide
theorem cellKind_recv (k : Fin 4) : cellKind (.dma (recvSem k)) = 5 + k.val := by revert k; decide

def slotPts (c : Dev nD) (k : Fin 4) (f : Buf (Elt F) ((recvSlot k).view.loc (c : Thread nD τ))) : sProp 𝕄 :=
  (recvSlot k).view.loc (c : Thread nD τ) ↦[(recvSlot k).view.set]{fullShare} f
def sendPts (c : Dev nD) (k : Fin 4) (f : Buf (Elt F) ((sendSlot k).view.loc (c : Thread nD τ))) : sProp 𝕄 :=
  (sendSlot k).view.loc (c : Thread nD τ) ↦[(sendSlot k).view.set]{fullShare} f

omit [FloatOps F] in
instance slotPts_storable (c : Dev nD) (k : Fin 4) (f) : BI.Storable (upEmb : UEmb _ 𝕄) (slotPts (F := F) c k f) := by unfold slotPts; infer_instance
omit [FloatOps F] in
instance sendPts_storable (c : Dev nD) (k : Fin 4) (f) : BI.Storable (upEmb : UEmb _ 𝕄) (sendPts (F := F) c k f) := by unfold sendPts; infer_instance

/-- The barrier's payload: the signaller's (the partner's) four receive slots, at whatever they hold. -/
def barPay (c : Dev nD) : sProp 𝕄 :=
  iprop((∃ f, slotPts (peer c) 0 f) ∗ (∃ f, slotPts (peer c) 1 f) ∗ (∃ f, slotPts (peer c) 2 f) ∗ (∃ f, slotPts (peer c) 3 f))
omit [FloatOps F] in
instance barPay_storable (c : Dev nD) : BI.Storable (upEmb : UEmb _ 𝕄) (barPay (F := F) c) := by unfold barPay; infer_instance
/-- A receive cell's payload: its slot holding what the partner sent. -/
def recvPay (c : Dev nD) (k : Fin 4) : sProp 𝕄 := slotPts c k ((recvSlot k).view.rep (sent m (peer c) k))
/-- A send cell's payload: the source slot back, holding what was sent. -/
def sendPay (c : Dev nD) (k : Fin 4) : sProp 𝕄 := sendPts c k ((sendSlot k).view.rep (sent m c k))

def payOf (c : Dev nD) : ℕ → sProp 𝕄
  | 0 => barPay c
  | 1 => sendPay m c 0 | 2 => sendPay m c 1 | 3 => sendPay m c 2 | 4 => sendPay m c 3
  | 5 => recvPay m c 0 | 6 => recvPay m c 1 | 7 => recvPay m c 2 | 8 => recvPay m c 3
  | _ => iprop(emp)

abbrev IsCell (g : GSem nD τ sig) : Prop := g.1.2 = .tc ∧ cellKind g.2 < 9

/-- One round, one duty per protocol cell: the barrier one unit, a send or receive cell a slot's credit. -/
def rd : Rounds.Schedule (GSem nD τ sig) Unit 𝕄 where
  duties g r := if r = 0 ∧ IsCell g then {()} else ∅
  unitless _ := False
  amount g _ _ := if cellKind g.2 = 0 then 1 else N
  payload g _ _ := payOf m g.1.1 (cellKind g.2)
  amount_pos g _ _ _ := by
    by_cases h : cellKind g.2 = 0
    · rw [if_pos h]; exact Nat.one_pos
    · rw [if_neg h]; exact N_pos

instance rd_payload_storable (g : GSem nD τ sig) (r : ℕ) (d : Unit) :
    BI.Storable (upEmb : UEmb _ 𝕄) ((rd (F := F) m).payload g r d) := by
  show BI.Storable upEmb (payOf m g.1.1 (cellKind g.2))
  generalize cellKind g.2 = n
  unfold payOf recvPay sendPay
  (repeat' split) <;> infer_instance

section Sched
variable (c : Dev nD) (k : Fin 4)

theorem isCell_bar : IsCell (barCell c) := ⟨rfl, by show cellKind (.reg barS) < 9; rw [cellKind_bar]; decide⟩
theorem isCell_send : IsCell (sendCell c k) := ⟨rfl, by show cellKind (.dma (sendSem k)) < 9; rw [cellKind_send]; have := k.isLt; omega⟩
theorem isCell_recv : IsCell (recvCell c k) := ⟨rfl, by show cellKind (.dma (recvSem k)) < 9; rw [cellKind_recv]; have := k.isLt; omega⟩

theorem duties_bar : (rd (F := F) m).duties (barCell c) 0 = {()} := by dsimp only [rd]; exact if_pos ⟨rfl, isCell_bar c⟩
theorem duties_send : (rd (F := F) m).duties (sendCell c k) 0 = {()} := by dsimp only [rd]; exact if_pos ⟨rfl, isCell_send c k⟩
theorem duties_recv : (rd (F := F) m).duties (recvCell c k) 0 = {()} := by dsimp only [rd]; exact if_pos ⟨rfl, isCell_recv c k⟩
theorem duties_later (g : GSem nD τ sig) : ∀ r, 1 ≤ r → (rd (F := F) m).duties g r = ∅ :=
  fun r hr => by dsimp only [rd]; rw [if_neg fun h => by omega]

theorem amount_bar (d : Unit) : (rd (F := F) m).amount (barCell c) 0 d = 1 := by
  show (if cellKind (.reg barS) = 0 then 1 else N) = 1; rw [if_pos cellKind_bar]
theorem amount_send (d : Unit) : (rd (F := F) m).amount (sendCell c k) 0 d = N := by
  show (if cellKind (.dma (sendSem k)) = 0 then 1 else N) = N; rw [if_neg (by rw [cellKind_send]; omega)]
theorem amount_recv (d : Unit) : (rd (F := F) m).amount (recvCell c k) 0 d = N := by
  show (if cellKind (.dma (recvSem k)) = 0 then 1 else N) = N; rw [if_neg (by rw [cellKind_recv]; omega)]

theorem expect_bar : (rd (F := F) m).expect (barCell c) 0 = 1 := by
  unfold Schedule.expect Schedule.amountOf; rw [duties_bar, Finset.sum_singleton, amount_bar]
theorem expect_send : (rd (F := F) m).expect (sendCell c k) 0 = N := by
  unfold Schedule.expect Schedule.amountOf; rw [duties_send, Finset.sum_singleton, amount_send]
theorem expect_recv : (rd (F := F) m).expect (recvCell c k) 0 = N := by
  unfold Schedule.expect Schedule.amountOf; rw [duties_recv, Finset.sum_singleton, amount_recv]

theorem payload_bar (d : Unit) : (rd (F := F) m).payload (barCell c) 0 d = barPay c := by
  show payOf m c (cellKind (.reg barS)) = _; rw [cellKind_bar]; rfl
theorem payload_send (d : Unit) : (rd (F := F) m).payload (sendCell c k) 0 d = sendPay m c k := by
  show payOf m c (cellKind (.dma (sendSem k))) = _; rw [cellKind_send]; fin_cases k <;> rfl
theorem payload_recv (d : Unit) : (rd (F := F) m).payload (recvCell c k) 0 d = recvPay m c k := by
  show payOf m c (cellKind (.dma (recvSem k))) = _; rw [cellKind_recv]; fin_cases k <;> rfl

theorem rest_bar : bigSep ((rd (F := F) m).duties (barCell c) 0 \ ∅) (fun d => (rd (F := F) m).payload (barCell c) 0 d) = barPay c := by
  rw [Finset.sdiff_empty, duties_bar, bigSep_singleton, payload_bar]
theorem rest_send : bigSep ((rd (F := F) m).duties (sendCell c k) 0 \ ∅) (fun d => (rd (F := F) m).payload (sendCell c k) 0 d) = sendPay m c k := by
  rw [Finset.sdiff_empty, duties_send, bigSep_singleton, payload_send]
theorem rest_recv : bigSep ((rd (F := F) m).duties (recvCell c k) 0 \ ∅) (fun d => (rd (F := F) m).payload (recvCell c k) 0 d) = recvPay m c k := by
  rw [Finset.sdiff_empty, duties_recv, bigSep_singleton, payload_recv]

end Sched

/-! ## What each device owes at launch, peeled in program order; the levels -/

def O3 (c : Dev nD) : CellTallies nD τ sig Unit := 0 + tallyAt (recvCell (peer c) 3) () N
def O2 (c : Dev nD) : CellTallies nD τ sig Unit := O3 c + tallyAt (recvCell (peer c) 2) () N
def O1 (c : Dev nD) : CellTallies nD τ sig Unit := O2 c + tallyAt (recvCell (peer c) 1) () N
def Or0 (c : Dev nD) : CellTallies nD τ sig Unit := O1 c + tallyAt (recvCell (peer c) 0) () N
def O₀ (c : Dev nD) : CellTallies nD τ sig Unit := Or0 c + tallyAt (barCell (peer c)) () 1

def L (g : GSem nD τ sig) : Finset Unit := if g.1.2 = .tc then {()} else ∅
/-- barrier cells at 1, receive cells at 2, everything else at 0. -/
def lv (g : GSem nD τ sig) (_ : Unit) : ℕ := if cellKind g.2 = 0 then 1 else if 5 ≤ cellKind g.2 ∧ cellKind g.2 ≤ 8 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by show (if cellKind (.reg barS) = 0 then 1 else _) = 1; rw [if_pos cellKind_bar]
theorem lv_recv (c : Dev nD) (k : Fin 4) (u : Unit) : lv (recvCell c k) u = 2 := by
  show (if cellKind (.dma (recvSem k)) = 0 then 1 else if 5 ≤ cellKind (.dma (recvSem k)) ∧ cellKind (.dma (recvSem k)) ≤ 8 then 2 else 0) = 2
  rw [cellKind_recv, if_neg (by omega), if_pos (by have := k.isLt; omega)]

/-- Only the partner's four receive cells are charged by `Or0`; -/
theorem Or0_pos {c : Dev nD} {g : GSem nD τ sig} {u : Unit} (h : 0 < Or0 c g u) : ∃ k, g = recvCell (peer c) k := by
  unfold Or0 O1 O2 O3 at h
  simp only [Pi.add_apply, Finsupp.add_apply, tallyAt_apply, Pi.zero_apply, Finsupp.zero_apply, Nat.zero_add] at h
  by_contra hn
  rw [not_exists] at hn
  rw [if_neg (fun h' => hn 3 h'.1), if_neg (fun h' => hn 2 h'.1), if_neg (fun h' => hn 1 h'.1), if_neg (fun h' => hn 0 h'.1)] at h
  exact Nat.lt_irrefl 0 h
/-- and by `O₀` also its barrier cell. -/
theorem O₀_pos {c : Dev nD} {g : GSem nD τ sig} {u : Unit} (h : 0 < O₀ c g u) : g = barCell (peer c) ∨ ∃ k, g = recvCell (peer c) k := by
  unfold O₀ at h
  rw [Pi.add_apply, Finsupp.add_apply, tallyAt_apply] at h
  by_cases hb : g = barCell (peer c)
  · exact Or.inl hb
  · rw [if_neg (fun h' => hb h'.1), Nat.add_zero] at h; exact Or.inr (Or0_pos h)

omit [FloatOps F] in
/-- A wait on a level-0 cell (a staging cell, a local copy's cell, a send cell) is below everything a device can owe. -/
theorem mayWait_low (c : Dev nD) (sm : SemLoc sig) (hsm : lv ((c : Thread nD τ), sm) () = 0) (O : CellTallies nD τ sig Unit)
    (hO : ∀ g u, 0 < O g u → g = barCell (peer c) ∨ ∃ k, g = recvCell (peer c) k) :
    (levAts L lv : sProp 𝕄) ⊢ MayWait (c : Thread nD τ) sm () O :=
  MayOwe.of_cut (L := L) (lev := lv) 0 (fun p hp => by rw [Finset.mem_singleton.mp hp, L_tc]; exact Finset.mem_singleton_self _)
    (fun g u hg => by rcases hO g u hg with rfl | ⟨k, rfl⟩ <;> exact Finset.mem_singleton_self _)
    (fun p hp => by rw [Finset.mem_singleton.mp hp]; exact Nat.le_of_eq hsm)
    (fun g u hg => by
      rcases hO g u hg with rfl | ⟨k, rfl⟩
      · rw [lv_bar]; decide
      · rw [lv_recv]; decide)

omit [FloatOps F] in
/-- At its barrier wait a device owes its partner's receive cells only: level 2, above the barrier's 1. -/
theorem mayWait_bar (c : Dev nD) : (levAts L lv : sProp 𝕄) ⊢ MayWait (c : Thread nD τ) (.reg barS) () (Or0 c) :=
  MayOwe.of_cut (L := L) (lev := lv) 1 (fun p hp => by rw [Finset.mem_singleton.mp hp, L_tc]; exact Finset.mem_singleton_self _)
    (fun g u hg => by obtain ⟨k, rfl⟩ := Or0_pos hg; exact Finset.mem_singleton_self _)
    (fun p hp => by rw [Finset.mem_singleton.mp hp]; exact Nat.le_of_eq (lv_bar c ()))
    (fun g u hg => by obtain ⟨k, rfl⟩ := Or0_pos hg; rw [lv_recv]; decide)

/-! ## The local copies' semaphores; all the kernel's own semaphores; the protocol's cells as a family -/

abbrev copySem : Fin 5 → DmaSem sig
  | 0 => ((cc0_scratch5.slice (Rect.unit (s := S5) ![0] S1.size inb_S5_S1_0)).squeeze S_ squeezes_S1_S_).sem
  | 1 => ((cc0_scratch5.slice (Rect.unit (s := S5) ![1] S1.size inb_S5_S1_1)).squeeze S_ squeezes_S1_S_).sem
  | 2 => ((cc0_scratch5.slice (Rect.unit (s := S5) ![2] S1.size inb_S5_S1_2)).squeeze S_ squeezes_S1_S_).sem
  | 3 => ((cc0_scratch5.slice (Rect.unit (s := S5) ![3] S1.size inb_S5_S1_3)).squeeze S_ squeezes_S1_S_).sem
  | 4 => ((cc0_scratch5.slice (Rect.unit (s := S5) ![4] S1.size inb_S5_S1_4)).squeeze S_ squeezes_S1_S_).sem
abbrev outSem : Fin 4 → DmaSem sig
  | 0 => ((cc0_scratch8.slice (Rect.unit (s := S4) ![0] S1.size inb_S4_S1_0)).squeeze S_ squeezes_S1_S_).sem
  | 1 => ((cc0_scratch8.slice (Rect.unit (s := S4) ![1] S1.size inb_S4_S1_1)).squeeze S_ squeezes_S1_S_).sem
  | 2 => ((cc0_scratch8.slice (Rect.unit (s := S4) ![2] S1.size inb_S4_S1_2)).squeeze S_ squeezes_S1_S_).sem
  | 3 => ((cc0_scratch8.slice (Rect.unit (s := S4) ![3] S1.size inb_S4_S1_3)).squeeze S_ squeezes_S1_S_).sem

/-- The kernel's OWN (scoped) semaphores, as the launch theorem indexes them: 0–4 the local input copies', 5–8 send,
    9–12 receive, 13–16 the result copies'. -/
abbrev osem : Fin 17 → SemLoc sig
  | 0 => .dma (copySem 0) | 1 => .dma (copySem 1) | 2 => .dma (copySem 2) | 3 => .dma (copySem 3) | 4 => .dma (copySem 4)
  | 5 => .dma (sendSem 0) | 6 => .dma (sendSem 1) | 7 => .dma (sendSem 2) | 8 => .dma (sendSem 3)
  | 9 => .dma (recvSem 0) | 10 => .dma (recvSem 1) | 11 => .dma (recvSem 2) | 12 => .dma (recvSem 3)
  | 13 => .dma (outSem 0) | 14 => .dma (outSem 1) | 15 => .dma (outSem 2) | 16 => .dma (outSem 3)
  | ⟨_ + 17, h⟩ => absurd h (by omega)
/-- The protocol's nine, as this proof indexes them: barrier, send 0–3, receive 0–3. -/
abbrev csem : Fin 9 → SemLoc sig
  | 0 => .reg barS
  | 1 => .dma (sendSem 0) | 2 => .dma (sendSem 1) | 3 => .dma (sendSem 2) | 4 => .dma (sendSem 3)
  | 5 => .dma (recvSem 0) | 6 => .dma (recvSem 1) | 7 => .dma (recvSem 2) | 8 => .dma (recvSem 3)
abbrev kcell (ck : Dev nD × Fin 9) : GSem nD τ sig := ((ck.1 : Thread nD τ), csem ck.2)
abbrev jS (k : Fin 4) : Fin 9 := ⟨1 + k.val, by have := k.isLt; omega⟩
abbrev jR (k : Fin 4) : Fin 9 := ⟨5 + k.val, by have := k.isLt; omega⟩
theorem kcell_send (c : Dev nD) (k : Fin 4) : kcell (c, jS k) = sendCell c k := by fin_cases k <;> rfl
theorem kcell_recv (c : Dev nD) (k : Fin 4) : kcell (c, jR k) = recvCell c k := by fin_cases k <;> rfl

/-- The nine local semaphores (input copies, result copies) at zero. -/
def localSems (c : Dev nD) : sProp 𝕄 :=
  iprop(semVal ((c : Thread nD τ), SemLoc.dma (copySem 0)) 0 ∗ semVal ((c : Thread nD τ), SemLoc.dma (copySem 1)) 0 ∗ semVal ((c : Thread nD τ), SemLoc.dma (copySem 2)) 0
    ∗ semVal ((c : Thread nD τ), SemLoc.dma (copySem 3)) 0 ∗ semVal ((c : Thread nD τ), SemLoc.dma (copySem 4)) 0
    ∗ semVal ((c : Thread nD τ), SemLoc.dma (outSem 0)) 0 ∗ semVal ((c : Thread nD τ), SemLoc.dma (outSem 1)) 0 ∗ semVal ((c : Thread nD τ), SemLoc.dma (outSem 2)) 0
    ∗ semVal ((c : Thread nD τ), SemLoc.dma (outSem 3)) 0)
/-- The eight send and receive semaphores at zero. -/
def xferSems (c : Dev nD) : sProp 𝕄 :=
  iprop(semVal (sendCell c 0) 0 ∗ semVal (sendCell c 1) 0 ∗ semVal (sendCell c 2) 0 ∗ semVal (sendCell c 3) 0
    ∗ semVal (recvCell c 0) 0 ∗ semVal (recvCell c 1) 0 ∗ semVal (recvCell c 2) 0 ∗ semVal (recvCell c 3) 0)

/-! ## Ghost state -/

/-- Every protocol cell's invariant under the names the launch allocated them at, and that every cell has reached round 0. -/
def records (K : Dev nD × Fin 9 → ℕ) : sProp 𝕄 :=
  iprop((bigSep Finset.univ fun ck : Dev nD × Fin 9 => cellInv ER (rd m) (K ck) (kcell ck))
    ∗ bigSep Finset.univ fun ck : Dev nD × Fin 9 => reached ER (kcell ck) 0)

instance records_persistent (K : Dev nD × Fin 9 → ℕ) : BI.Persistent (records m K) := by unfold records; infer_instance

theorem inv_at' (K : Dev nD × Fin 9 → ℕ) (ck : Dev nD × Fin 9) :
    (bigSep Finset.univ fun ck : Dev nD × Fin 9 => (cellInv ER (rd m) (K ck) (kcell ck) : sProp 𝕄)) ⊢ cellInv ER (rd m) (K ck) (kcell ck) :=
  bigSep_elim (Finset.mem_univ ck)
omit [FloatOps F] in
theorem reached_at' (ck : Dev nD × Fin 9) :
    (bigSep Finset.univ fun ck : Dev nD × Fin 9 => (reached ER (kcell ck) 0 : sProp 𝕄)) ⊢ reached ER (kcell ck) 0 :=
  bigSep_elim (Finset.mem_univ ck)
theorem inv_at (K : Dev nD × Fin 9 → ℕ) (ck : Dev nD × Fin 9) : records m K ⊢ cellInv ER (rd m) (K ck) (kcell ck) := by
  unfold records; iintro ⟨H, -⟩; iapply (inv_at' m K ck); iexact H
theorem reached_at (K : Dev nD × Fin 9 → ℕ) (ck : Dev nD × Fin 9) : records m K ⊢ reached ER (kcell ck) 0 := by
  unfold records; iintro ⟨-, H⟩; iapply (reached_at' (F := F) ck); iexact H

/-- The tokens of the duties device `c` PAYS: its partner's barrier duty, its partner's four receive duties, its own
    four send duties. -/
def payToks (c : Dev nD) : sProp 𝕄 :=
  iprop(dutyTok ER (barCell (peer c)) 0 ()
    ∗ (dutyTok ER (recvCell (peer c) 0) 0 () ∗ dutyTok ER (recvCell (peer c) 1) 0 () ∗ dutyTok ER (recvCell (peer c) 2) 0 () ∗ dutyTok ER (recvCell (peer c) 3) 0 ())
    ∗ (dutyTok ER (sendCell c 0) 0 () ∗ dutyTok ER (sendCell c 1) 0 () ∗ dutyTok ER (sendCell c 2) 0 () ∗ dutyTok ER (sendCell c 3) 0 ()))
/-- Its positions: round 0 of each of its nine cells, nothing taken. -/
def positions (c : Dev nD) : sProp 𝕄 :=
  iprop(atPos ER (barCell c) 0 ∅ 0
    ∗ (atPos ER (sendCell c 0) 0 ∅ 0 ∗ atPos ER (sendCell c 1) 0 ∅ 0 ∗ atPos ER (sendCell c 2) 0 ∅ 0 ∗ atPos ER (sendCell c 3) 0 ∅ 0)
    ∗ (atPos ER (recvCell c 0) 0 ∅ 0 ∗ atPos ER (recvCell c 1) 0 ∅ 0 ∗ atPos ER (recvCell c 2) 0 ∅ 0 ∗ atPos ER (recvCell c 3) 0 ∅ 0))

def ghost (K : Dev nD × Fin 9 → ℕ) (c : Dev nD) : sProp 𝕄 := iprop(records m K ∗ positions c ∗ payToks c)

/-- What device `c`'s body starts from, besides its scratch buffers. -/
def start (c : Dev nD) : sProp 𝕄 :=
  iprop((∃ K, ghost m K c)
    ∗ cred (tallyAt (barCell c) () 1)
    ∗ (cred (tallyAt (recvCell c 0) () N) ∗ cred (tallyAt (recvCell c 1) () N) ∗ cred (tallyAt (recvCell c 2) () N) ∗ cred (tallyAt (recvCell c 3) () N))
    ∗ levAts L lv ∗ localSems c
    ∗ (xA.view.loc (c : Thread nD τ) ↦{fullShare} Xof m c) ∗ (oA.view.loc (c : Thread nD τ) ↦{fullShare} m ((c : Thread nD τ).loc main_v1)))

/-- The five scratch buffers, each whole at some contents. -/
def scratch (c : Dev nD) : sProp 𝕄 :=
  iprop((∃ f, mineM.view.loc (c : Thread nD τ) ↦{fullShare} f) ∗ (∃ f, peerM.view.loc (c : Thread nD τ) ↦{fullShare} f)
    ∗ (∃ f, sendM.view.loc (c : Thread nD τ) ↦{fullShare} f) ∗ (∃ f, recvM.view.loc (c : Thread nD τ) ↦{fullShare} f)
    ∗ (∃ f, outM.view.loc (c : Thread nD τ) ↦{fullShare} f))

def Φ₀ (c : Dev nD) : sProp 𝕄 := iprop(start m c ∗ scratch c)
/-- After the body: the scratch buffers at some contents, all seventeen own semaphores at zero, the partial array as it
    was, the result array at the computed contents. -/
def Φ₁ (c : Dev nD) : sProp 𝕄 :=
  iprop(scratch c ∗ localSems c ∗ xferSems c
    ∗ (xA.view.loc (c : Thread nD τ) ↦{fullShare} Xof m c) ∗ (oA.view.loc (c : Thread nD τ) ↦{fullShare} outFinal m c))

/-! ## The pipeline's proof data: one staged input window (the scale row), one point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The scale row as staged. -/
def gstg (c : Dev nD) : (cc0_stg0_0 : Ref sig .tc).ty.Contents (Elt F) :=
  (win0_0.blk (0 : Fin 1)).view.read (Elt F) (m ((c : Thread nD τ).loc main_arg1))

def dats (_ : Fin 1) (c : Dev nD) : Dat τ (Elt F) Unit ℕ UU ℕ cfg0 c where
  A w := m ((cfg0.win w).arr.view.loc (c : Thread nD τ))
  after w _ := match w with
    | ⟨0, _⟩ => gstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.Proto

end
-- ==== Proof.LaunchB.lean ====
/-
  The launch: from "every device's body is proved" to the run of the whole program.

  At launch every protocol cell is in round 0 with its one duty unpaid.  Each device is dealt the round states, the
  positions and the duty tokens of its OWN nine cells.  The invariants of all cells are then allocated together, and
  the tokens change hands: the token of a device's barrier duty and those of its four receive duties go to its
  partner, who is the one paying them; the four send tokens stay, the device's own remote copies pay those.
  What a device owes at launch — one unit to its partner's barrier cell, a slot's credit to each of its partner's
  four receive cells — is, summed over all devices, exactly the credit each cell starts with, because the cells of
  device `c` are owed to by `peer c` and by nobody else.
  The two arrays no window stages (the partial array, read; the result array, written by the body's own copies)
  travel beside the pipeline: held whole at launch, whole again after the body, and read back against the final
  memory.  The scale row is staged by the one window and comes back unchanged.
-/
import proofs.«900478_g7700000000000479_dist_rsrms_v7x_xyz2x2x2_z_m512_d512_bf16_1_alg».proof.Proof.ProtoB

noncomputable section

namespace Cert.Kernel.Proto

open Cert.Kernel Cert.Kernel.Gen Cert.Kernel.Contents

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens minted at launch -/

theorem ownSemFacts : Pipeline.OwnSemFacts cfg0.spec osem := by decide

theorem share_eq (c : Dev nD) (w : Fin cfg0.W) : (dats m 0 c).share w = fullShare := by unfold Dat.share; split <;> rfl

/-- The nine protocol semaphores are told apart by their kind. -/
theorem cellKind_csem (k : Fin 9) : cellKind (csem k) = k.val := by revert k; decide

theorem csem_injective : Function.Injective csem := fun k k' h =>
  Fin.ext (by rw [← cellKind_csem k, ← cellKind_csem k', h])

theorem kcell_injective : Function.Injective (kcell : Dev nD × Fin 9 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- All seventy-two protocol cells. -/
def protoCells : Finset (GSem nD τ sig) := Finset.univ.map ⟨kcell, kcell_injective⟩

/-- The one duty token of each cell, as minted. -/
abbrev tokOf (cj : Dev nD × Fin 9) : GSem nD τ sig × ℕ × Unit := (kcell cj, 0, ())
theorem tokOf_injective : Function.Injective (tokOf : Dev nD × Fin 9 → GSem nD τ sig × ℕ × Unit) :=
  fun a b h => kcell_injective (congrArg Prod.fst h)
def protoToks : Finset (GSem nD τ sig × ℕ × Unit) := Finset.univ.map ⟨tokOf, tokOf_injective⟩

/-- The launch element: the pipeline's rounds at their start, the protocol's rounds at their start, no counter. -/
def u₀ : UU :=
  (initOf (Pipeline.cells cfgs cellOf_inj) (Pipeline.launchToks cfgs cellOf_inj), (initOf protoCells protoToks, 1))

/-! ## What the launch element deals each device -/

/-- The duty tokens of device `c`'s own nine cells. -/
def toks (c : Dev nD) : sProp 𝕄 := bigSep Finset.univ fun k : Fin 9 => dutyTok ER (kcell (c, k)) 0 ()

/-- Round 0 of each of its nine cells, its position there, and those cells' tokens. -/
def G (c : Dev nD) : sProp 𝕄 :=
  iprop((bigSep Finset.univ fun k : Fin 9 => roundState ER (rd m) (kcell (c, k)) 0)
    ∗ (bigSep Finset.univ fun k : Fin 9 => iprop(atPos ER (kcell (c, k)) 0 ∅ 0 ∗ reached ER (kcell (c, k)) 0)) ∗ toks c)

theorem fund : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 9 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks toks; rw [bigSep_map, bigSep_univ_prod]; rfl
  iintro HX
  imod (Rounds.fund ER (rd m) protoCells protoToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
/-- The kernel's own seventeen semaphores, all at zero; -/
theorem ownSems0_eq (c : Dev nD) : (Pipeline.ownSems0 (Ix := Unit) (Name := ℕ) (U := UU) (Lvl := ℕ) (Val := Elt F) (τ := τ) osem c : sProp 𝕄)
    = iprop(semVal ((c : Thread nD τ), SemLoc.dma (copySem 0)) 0
      ∗ semVal ((c : Thread nD τ), SemLoc.dma (copySem 1)) 0
      ∗ semVal ((c : Thread nD τ), SemLoc.dma (copySem 2)) 0
      ∗ semVal ((c : Thread nD τ), SemLoc.dma (copySem 3)) 0
      ∗ semVal ((c : Thread nD τ), SemLoc.dma (copySem 4)) 0
      ∗ semVal (sendCell c 0) 0
      ∗ semVal (sendCell c 1) 0
      ∗ semVal (sendCell c 2) 0
      ∗ semVal (sendCell c 3) 0
      ∗ semVal (recvCell c 0) 0
      ∗ semVal (recvCell c 1) 0
      ∗ semVal (recvCell c 2) 0
      ∗ semVal (recvCell c 3) 0
      ∗ semVal ((c : Thread nD τ), SemLoc.dma (outSem 0)) 0
      ∗ semVal ((c : Thread nD τ), SemLoc.dma (outSem 1)) 0
      ∗ semVal ((c : Thread nD τ), SemLoc.dma (outSem 2)) 0
      ∗ semVal ((c : Thread nD τ), SemLoc.dma (outSem 3)) 0) := by
  rw [Pipeline.ownSems0_eq_of_list c osem [0, 1, 2, 3, 4, 5, 6, 7, 8, 9, 10, 11, 12, 13, 14, 15, 16] (by decide) (by decide)]; rfl

omit [FloatOps F] in
/-- the nine only their own device touches apart from the eight the partner's copies pay into, -/
theorem ownSems0_split (c : Dev nD) : (Pipeline.ownSems0 (Ix := Unit) (Name := ℕ) (U := UU) (Lvl := ℕ) (Val := Elt F) (τ := τ) osem c : sProp 𝕄) ⊢ iprop(localSems c ∗ xferSems c) := by
  rw [ownSems0_eq]; unfold localSems xferSems
  iintro ⟨C0, C1, C2, C3, C4, S0, S1, S2, S3, R0, R1, R2, R3, O0, O1, O2, O3⟩
  isplitl [C0 C1 C2 C3 C4 O0 O1 O2 O3]
  · isplitl [C0]; · iexact C0
    isplitl [C1]; · iexact C1
    isplitl [C2]; · iexact C2
    isplitl [C3]; · iexact C3
    isplitl [C4]; · iexact C4
    isplitl [O0]; · iexact O0
    isplitl [O1]; · iexact O1
    isplitl [O2]; · iexact O2
    iexact O3
  · isplitl [S0]; · iexact S0
    isplitl [S1]; · iexact S1
    isplitl [S2]; · iexact S2
    isplitl [S3]; · iexact S3
    isplitl [R0]; · iexact R0
    isplitl [R1]; · iexact R1
    isplitl [R2]; · iexact R2
    iexact R3

omit [FloatOps F] in
/-- and back. -/
theorem ownSems0_join (c : Dev nD) : iprop(localSems c ∗ xferSems c) ⊢ (Pipeline.ownSems0 (Ix := Unit) (Name := ℕ) (U := UU) (Lvl := ℕ) (Val := Elt F) (τ := τ) osem c : sProp 𝕄) := by
  rw [ownSems0_eq]; unfold localSems xferSems
  iintro ⟨⟨C0, C1, C2, C3, C4, O0, O1, O2, O3⟩, S0, S1, S2, S3, R0, R1, R2, R3⟩
  isplitl [C0]; · iexact C0
  isplitl [C1]; · iexact C1
  isplitl [C2]; · iexact C2
  isplitl [C3]; · iexact C3
  isplitl [C4]; · iexact C4
  isplitl [S0]; · iexact S0
  isplitl [S1]; · iexact S1
  isplitl [S2]; · iexact S2
  isplitl [S3]; · iexact S3
  isplitl [R0]; · iexact R0
  isplitl [R1]; · iexact R1
  isplitl [R2]; · iexact R2
  isplitl [R3]; · iexact R3
  isplitl [O0]; · iexact O0
  isplitl [O1]; · iexact O1
  isplitl [O2]; · iexact O2
  iexact O3

omit [FloatOps F] in
/-- The runtime's barrier semaphore is the one semaphore no scope owns. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The nine protocol semaphores at zero, as a family. -/
theorem sems0_eq (c : Dev nD) :
    iprop(xferSems c ∗ unscopedSems0 c) ⊢ (bigSep Finset.univ fun k : Fin 9 => semVal (kcell (c, k)) 0 : sProp 𝕄) := by
  rw [unscopedSems0_eq, bigSep_fin9]; unfold xferSems
  iintro ⟨⟨S0, S1, S2, S3, R0, R1, R2, R3⟩, B⟩
  isplitl [B]; · iexact B
  isplitl [S0]; · iexact S0
  isplitl [S1]; · iexact S1
  isplitl [S2]; · iexact S2
  isplitl [S3]; · iexact S3
  isplitl [R0]; · iexact R0
  isplitl [R1]; · iexact R1
  isplitl [R2]; · iexact R2
  iexact R3

/-- Every protocol cell's invariant is allocated from its semaphore at zero and its round 0; the local semaphores
    are left as they are. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ localSems c) := by
  unfold G
  iintro ⟨Hos, Hus, Hst, Hat, Htok⟩
  ihave Hsp := (ownSems0_split (F := F) c) $$ Hos
  icases Hsp with ⟨Hloc, Hx⟩
  ihave Hv := (sems0_eq (F := F) c) $$ [Hx Hus]
  · isplitl [Hx] <;> iassumption
  imod (show iprop((bigSep Finset.univ fun k : Fin 9 => semVal (kcell (c, k)) 0) ∗ bigSep Finset.univ fun k : Fin 9 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-! ## The tokens change hands -/

/-- A device's nine positions, grouped as the body holds them. -/
theorem positions_intro (c : Dev nD) : (bigSep Finset.univ fun k : Fin 9 => (atPos ER (kcell (c, k)) 0 ∅ 0 : sProp 𝕄)) ⊢ positions c := by
  rw [bigSep_fin9]; unfold positions
  iintro ⟨B, S0, S1, S2, S3, R0, R1, R2, R3⟩
  isplitl [B]; · iexact B
  isplitl [S0 S1 S2 S3]
  · isplitl [S0]; · iexact S0
    isplitl [S1]; · iexact S1
    isplitl [S2]; · iexact S2
    iexact S3
  · isplitl [R0]; · iexact R0
    isplitl [R1]; · iexact R1
    isplitl [R2]; · iexact R2
    iexact R3

/-- What the global step leaves device `c`: the records of all cells, its positions, the tokens of the duties it
    pays, and its local semaphores. -/
def G' (c : Dev nD) : sProp 𝕄 := iprop((∃ K, ghost m K c) ∗ localSems c)

theorem ghost_intro (K : Dev nD × Fin 9 → ℕ) (c : Dev nD) :
    iprop(records m K ∗ ((bigSep Finset.univ fun k : Fin 9 => atPos ER (kcell (c, k)) 0 ∅ 0) ∗ payToks c ∗ localSems c)) ⊢ G' m c := by
  unfold G' ghost
  iintro ⟨#HR, Hat, Htk, Hloc⟩
  ihave Hp := (positions_intro (F := F) c) $$ Hat
  isplitr [Hloc]
  · iexists K
    isplitr; · iexact HR
    isplitl [Hp]; · iexact Hp
    iexact Htk
  · iexact Hloc

/-- The barrier token and the four receive tokens of every device go to its partner, who pays them; the four send
    tokens stay.  Because the partner's partner is the device itself, dealing along `peer` is a bijection. -/
theorem toks_around : (bigSep Finset.univ fun c : Dev nD => (toks c : sProp 𝕄)) ⊢ bigSep Finset.univ fun c : Dev nD => payToks c := by
  have hT (c : Dev nD) : (toks c : sProp 𝕄) = iprop(dutyTok ER (barCell c) 0 ()
      ∗ dutyTok ER (sendCell c 0) 0 () ∗ dutyTok ER (sendCell c 1) 0 () ∗ dutyTok ER (sendCell c 2) 0 () ∗ dutyTok ER (sendCell c 3) 0 ()
      ∗ dutyTok ER (recvCell c 0) 0 () ∗ dutyTok ER (recvCell c 1) 0 () ∗ dutyTok ER (recvCell c 2) 0 () ∗ dutyTok ER (recvCell c 3) 0 ()) := by
    unfold toks; rw [bigSep_fin9]
  rw [bigSep_congr (s := Finset.univ) (fun (c : Dev nD) _ => hT c)]
  unfold payToks
  simp only [bigSep_sep']
  rw [bigSep_univ_equiv pe (fun c : Dev nD => (dutyTok ER (barCell c) 0 () : sProp 𝕄)),
    bigSep_univ_equiv pe (fun c : Dev nD => (dutyTok ER (recvCell c 0) 0 () : sProp 𝕄)),
    bigSep_univ_equiv pe (fun c : Dev nD => (dutyTok ER (recvCell c 1) 0 () : sProp 𝕄)),
    bigSep_univ_equiv pe (fun c : Dev nD => (dutyTok ER (recvCell c 2) 0 () : sProp 𝕄)),
    bigSep_univ_equiv pe (fun c : Dev nD => (dutyTok ER (recvCell c 3) 0 () : sProp 𝕄))]
  iintro ⟨B, S0, S1, S2, S3, R0, R1, R2, R3⟩
  isplitl [B]; · iexact B
  isplitl [R0 R1 R2 R3]
  · isplitl [R0]; · iexact R0
    isplitl [R1]; · iexact R1
    isplitl [R2]; · iexact R2
    iexact R3
  · isplitl [S0]; · iexact S0
    isplitl [S1]; · iexact S1
    isplitl [S2]; · iexact S2
    iexact S3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Fin 9 => iprop(∃ κ : ℕ, cellInv ER (rd m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok, Hloc⟩
  ihave HK := (BI.bigSep_exists_pi Finset.univ (fun (ck : Dev nD × Fin 9) (κ : ℕ) => (cellInv ER (rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · simp only [bigSep_sep']
    isplitl [Hat]; · iexact Hat
    isplitl [Htk]; · iexact Htk
    iexact Hloc

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- The cells of device `c` are owed to by its partner and by nobody else, so what it is credited at launch is what
    its partner owes: one unit at its barrier cell, a slot's credit at each of its four receive cells. -/
theorem creds (c : Dev nD) :
    (Pipeline.launchCred O₀ c : sProp 𝕄) ⊢ iprop(cred (tallyAt (barCell c) () 1)
      ∗ (cred (tallyAt (recvCell c 0) () N) ∗ cred (tallyAt (recvCell c 1) () N) ∗ cred (tallyAt (recvCell c 2) () N) ∗ cred (tallyAt (recvCell c 3) () N))) := by
  have eB : (Pipeline.launchCred O₀ c : sProp 𝕄) = _ := Pipeline.launchCred_add Or0 (fun d => tallyAt (barCell (peer d)) () 1) c
  have e0 : (Pipeline.launchCred Or0 c : sProp 𝕄) = _ := Pipeline.launchCred_add O1 (fun d => tallyAt (recvCell (peer d) 0) () N) c
  have e1 : (Pipeline.launchCred O1 c : sProp 𝕄) = _ := Pipeline.launchCred_add O2 (fun d => tallyAt (recvCell (peer d) 1) () N) c
  have e2 : (Pipeline.launchCred O2 c : sProp 𝕄) = _ := Pipeline.launchCred_add O3 (fun d => tallyAt (recvCell (peer d) 2) () N) c
  have e3 : (Pipeline.launchCred O3 c : sProp 𝕄) = _ := Pipeline.launchCred_add (fun _ => 0) (fun d => tallyAt (recvCell (peer d) 3) () N) c
  rw [eB, e0, e1, e2, e3]
  iintro ⟨⟨⟨⟨⟨-, H3⟩, H2⟩, H1⟩, H0⟩, HB⟩
  isplitl [HB]
  · iapply (Pipeline.launchCred_tallyAt (.reg barS) peer peer peer_peer peer_peer () 1 c); iexact HB
  isplitl [H0]
  · iapply (Pipeline.launchCred_tallyAt (.dma (recvSem 0)) peer peer peer_peer peer_peer () N c); iexact H0
  isplitl [H1]
  · iapply (Pipeline.launchCred_tallyAt (.dma (recvSem 1)) peer peer peer_peer peer_peer () N c); iexact H1
  isplitl [H2]
  · iapply (Pipeline.launchCred_tallyAt (.dma (recvSem 2)) peer peer peer_peer peer_peer () N c); iexact H2
  · iapply (Pipeline.launchCred_tallyAt (.dma (recvSem 3)) peer peer peer_peer peer_peer () N c); iexact H3

/-! ## The launch theorem's side conditions -/

/-- What travels beside the pipeline after the body: the partial array as it was, the result array at its final
    contents. -/
def Yc (c : Dev nD) : sProp 𝕄 :=
  iprop((xA.view.loc (c : Thread nD τ) ↦{fullShare} Xof m c) ∗ (oA.view.loc (c : Thread nD τ) ↦{fullShare} outFinal m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  icases Hc with ⟨H1, HN⟩
  imodintro
  unfold start G'
  icases HG with ⟨HK, Hloc⟩
  isplitl
  · isplitl [HK]; · iexact HK
    isplitl [H1]; · iexact H1
    isplitl [HN]; · iexact HN
    isplitl [Hlev]; · iexact Hlev
    isplitl [Hloc]; · iexact Hloc
    isplitl [Hx]; · iexact Hx
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, H0, H1, H2, H3, H4⟩
  isplitl [Hs]; · iexact Hs
  isplitl [H0]; · iexact H0
  isplitl [H1]; · iexact H1
  isplitl [H2]; · iexact H2
  isplitl [H3]; · iexact H3
  iexact H4

theorem phi1_exit (c : Dev nD) :
    (dats m 0 c).Φ (Fin.last cfg0.N) ⊢ iprop(Yc m c ∗ Pipeline.ownSems0 (Ix := Unit) (Name := ℕ) (U := UU) (Lvl := ℕ) (Val := Elt F) (τ := τ) osem c ∗ Pipeline.scopedRest cfg0.spec c) := by
  rw [show (dats m 0 c).Φ (Fin.last cfg0.N) = Φ₁ m c from rfl, scopedRest0_eq]
  unfold Φ₁ scratch Yc
  iintro ⟨⟨H0, H1, H2, H3, H4⟩, Hloc, Hxf, Hx, Ho⟩
  isplitl [Hx Ho]
  · isplitl [Hx] <;> iassumption
  isplitl [Hloc Hxf]
  · iapply (ownSems0_join (F := F) c); isplitl [Hloc] <;> iassumption
  isplitl [H0]; · iexact H0
  isplitl [H1]; · iexact H1
  isplitl [H2]; · iexact H2
  isplitl [H3]; · iexact H3
  iexact H4

omit [FloatOps F] in
/-- A semaphore that is none of the nine protocol cells has level 0. -/
theorem lv_low (c : Dev nD) (sm : SemLoc sig) (h : cellKind sm = 9) : lv ((c : Thread nD τ), sm) () = 0 := by
  show (if cellKind sm = 0 then 1 else if 5 ≤ cellKind sm ∧ cellKind sm ≤ 8 then 2 else 0) = 0
  rw [h]; decide

/-- The one staging cell is at level 0, below everything a device can owe. -/
theorem waits (c : Dev nD) : (levAts L lv : sProp 𝕄) ⊢ Pipeline.cellsWaits cfgs (dats m) () 0 c :=
  Pipeline.cellsWaits_intro cfgs (dats m) () 0 c fun w s t =>
    mayWait_low c _ (lv_low c _ (by fin_cases w <;> fin_cases s <;> decide)) _ (by
      rcases t with ⟨_ | _, ht⟩
      · exact fun g u h => O₀_pos h
      · exact fun g u h => absurd h (Nat.lt_irrefl 0))

/-! ## The run -/

/-- Every device's result array holds the computed contents; its partial array and the scale row are unchanged. -/
def QC : PUnit × MemSt nD τ sig (Elt F) → Prop := fun r => ∀ c : Dev nD,
  r.2.mem ((c : Thread nD τ).loc main_v1) = outFinal m c
  ∧ r.2.mem ((c : Thread nD τ).loc main_arg0) = m ((c : Thread nD τ).loc main_arg0)
  ∧ r.2.mem ((c : Thread nD τ).loc main_arg1) = m ((c : Thread nD τ).loc main_arg1)

set_option maxRecDepth 8000 in
/-- On the eight devices, for any float values, from any memory with zero counters: if every device's body meets its
    obligation, every weakly fair execution of the program — the partners handshaking on the barrier semaphore,
    exchanging four row chunks by remote copies, normalising and copying out — terminates, and every final state has
    each device's result array at the computed contents and its two inputs unchanged. -/
theorem run_main (hbody : ∀ c : Dev nD, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HC⟩
      ihave H' := (own_pair_emb EC0 _ _) $$ HC
      icases H' with ⟨HX, -⟩
      imod (fund m) $$ HX with HG
      imodintro
      isplitl [HP] <;> iassumption)
    (hglob := glob m)
    (hA := fun _ _ => rfl) (hpf := fun _ k => k.elim0)
    (X := start m) (Y := Yc m) (Z := fun _ => iprop(emp))
    (hX := start_intro m ρ) (hin := phi0_intro m) (hout := phi1_exit m)
    (QY := fun c s => s.mem ((c : Thread nD τ).loc main_v1) = outFinal m c
      ∧ s.mem ((c : Thread nD τ).loc main_arg0) = m ((c : Thread nD τ).loc main_arg0))
    (hY := fun c s' => by
      unfold Yc
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun s h c => ⟨(h c).2.2.1, (h c).2.2.2, ((h c).1 0).trans ((dats (F := F) m 0 c).arrAt_in (0 : Fin 1) rfl _)⟩)

end Cert.Kernel.Proto

end
-- ==== Proof.LayB.lean ====
/-
  Where the body's buffers hold what: layout facts, for every float instance.

  Three of the body's buffers have four slots of `128 × 512`, slot `J` being the unit-stride rectangle at offset
  `J` on the leading axis.  The rectangles of different slots do not meet, so a load of slot `K` after stores or
  copies into the four slots reads what went into slot `K`; a slot seen through its squeeze is the same block with
  the unit axis dropped; and a block given a unit axis, narrowed, and stripped of the unit axis again is the block
  narrowed.
-/
import proofs.«900478_g7700000000000479_dist_rsrms_v7x_xyz2x2x2_z_m512_d512_bf16_1_alg».proof.Proof.Gen.Kernel
import proofs.«900478_g7700000000000479_dist_rsrms_v7x_xyz2x2x2_z_m512_d512_bf16_1_alg».proof.Proof.Gen.Kernel.Skeleton
import proofs.«900478_g7700000000000479_dist_rsrms_v7x_xyz2x2x2_z_m512_d512_bf16_1_alg».proof.Proof.ContentsB
import Idealize.ShloMosaic.Lib.Writes
import Idealize.ShloMosaic.Lib.Exec.Geometry
import Idealize.ShloMosaic.Lib.Pipeline.Value
import Idealize.ShloMosaic.Lib.ValueIdx

noncomputable section

namespace Cert.Kernel.Lay

open Idealize.ShloMosaic Idealize.ShloMosaic.TcCoe Idealize.SL.Sem
open Cert.Kernel Cert.Kernel.Gen Cert.Kernel.Contents

variable {F : FTy → Type} [FloatOps F]

/-! ## The four slots of a `4 × 128 × 512` buffer -/

section Slots
variable {sg : RefSig} {κ : Kind} {sp : Space} {e : EltTy} {Val : EltTy → Type}

/-- A load of slot `K` does not see an unmasked write through another slot `J`. -/
theorem readAt_write_miss (v : View sg κ sp S4x128x512 e) (g : v.ty.Contents Val) (J K : Nat) (hJK : J ≠ K)
    (inbJ : ∀ a, (![J, 0, 0] : Fin 3 → Nat) a + S1x128x512.size a ≤ S4x128x512.size a)
    (inbK : ∀ a, (![K, 0, 0] : Fin 3 → Nat) a + S1x128x512.size a ≤ S4x128x512.size a)
    (w : S1x128x512.Idx → Val e) :
    v.readAt Val (Rect.unit (s := S4x128x512) ![K, 0, 0] S1x128x512.size inbK).toLoadRect ((v.slice (Rect.unit (s := S4x128x512) ![J, 0, 0] S1x128x512.size inbJ)).write Val g w Finset.univ)
      = v.readAt Val (Rect.unit (s := S4x128x512) ![K, 0, 0] S1x128x512.size inbK).toLoadRect g := by
  funext x
  rw [View.readAt_apply, View.readAt_apply]
  refine View.read_slice_write_of_not_mem (v := v) (Rect.unit (s := S4x128x512) ![J, 0, 0] S1x128x512.size inbJ) g w Finset.univ ?_
  rw [Rect.map_emb_univ, Rect.mem_set_unit]
  intro hall
  have h1 : J ≤ K + 1 * (x 0).val ∧ K + 1 * (x 0).val < J + 1 := hall (0 : Fin 3)
  have hx : (x 0).val < 1 := (x 0).isLt
  omega

/-- A load of slot `K` after an unmasked write through slot `K` reads the payload. -/
theorem readAt_write_hit (v : View sg κ sp S4x128x512 e) (g : v.ty.Contents Val) (K : Nat)
    (inbK : ∀ a, (![K, 0, 0] : Fin 3 → Nat) a + S1x128x512.size a ≤ S4x128x512.size a)
    (w : S1x128x512.Idx → Val e) :
    v.readAt Val (Rect.unit (s := S4x128x512) ![K, 0, 0] S1x128x512.size inbK).toLoadRect ((v.slice (Rect.unit (s := S4x128x512) ![K, 0, 0] S1x128x512.size inbK)).write Val g w Finset.univ) = w := by
  funext x
  rw [View.readAt_apply]
  exact View.read_slice_write_emb (Rect.unit (s := S4x128x512) ![K, 0, 0] S1x128x512.size inbK) g w (Finset.mem_univ x)

/-- An unmasked write through the squeeze of slot `J` is the write through the slot of the payload with the unit axis
    put back. -/
theorem write_squeeze (v : View sg κ sp S4x128x512 e) (g : v.ty.Contents Val) (J : Nat)
    (inbJ : ∀ a, (![J, 0, 0] : Fin 3 → Nat) a + S1x128x512.size a ≤ S4x128x512.size a)
    (hq : S128x512.numel = S1x128x512.numel) (d : S128x512.Idx → Val e) :
    ((v.slice (Rect.unit (s := S4x128x512) ![J, 0, 0] S1x128x512.size inbJ)).reshape S128x512 hq).write Val g d Finset.univ
      = (v.slice (Rect.unit (s := S4x128x512) ![J, 0, 0] S1x128x512.size inbJ)).write Val g (shapeCast S1x128x512 d shapeCasts_S128x512_S1x128x512) Finset.univ := by
  rw [View.write_reshape_univ]
  refine congrArg (fun w => (v.slice (Rect.unit (s := S4x128x512) ![J, 0, 0] S1x128x512.size inbJ)).write Val g w Finset.univ) (funext fun x => ?_)
  rw [Shape.reshapeEquiv_symm]
  rfl

end Slots

/-! ## The send buffer: four stores, each slot read back through its squeeze -/

/-- Slot `0` of the send buffer after the four stores holds the payload stored there, with the unit axis dropped. -/
theorem send_read_0 (J0 : S4x128x512.Idx → Elt F .bf16) (p0 p1 p2 p3 : FVec F S1x128x512 .bf16) :
    (((Memref.whole cc0_scratch2).slice (Rect.unit (s := S4x128x512) ![0, 0, 0] S1x128x512.size inb_S4x128x512_S1x128x512_0_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), p3⟩, ⟨(Rect.unit (s := S4x128x512) ![2, 0, 0] S1x128x512.size inb_S4x128x512_S1x128x512_2_0_0), p2⟩, ⟨(Rect.unit (s := S4x128x512) ![1, 0, 0] S1x128x512.size inb_S4x128x512_S1x128x512_1_0_0), p1⟩, ⟨(Rect.unit (s := S4x128x512) ![0, 0, 0] S1x128x512.size inb_S4x128x512_S1x128x512_0_0_0), p0⟩] : List (View.Piece (Elt F) S4x128x512 .bf16)))
      = shapeCast S128x512 p0 shapeCasts_S1x128x512_S128x512 := by
  rw [Memref.read_squeeze_slice _ _ _ _ shapeCasts_S1x128x512_S128x512]
  refine congrArg (fun u => shapeCast S128x512 u shapeCasts_S1x128x512_S128x512) ?_
  show (Memref.whole cc0_scratch2).view.readAt (Elt F) (Rect.unit (s := S4x128x512) ![0, 0, 0] S1x128x512.size inb_S4x128x512_S1x128x512_0_0_0).toLoadRect (((Memref.whole cc0_scratch2).view.slice (Rect.unit (s := S4x128x512) ![3, 0, 0] S1x128x512.size inb_S4x128x512_S1x128x512_3_0_0)).write (Elt F) (((Memref.whole cc0_scratch2).view.slice (Rect.unit (s := S4x128x512) ![2, 0, 0] S1x128x512.size inb_S4x128x512_S1x128x512_2_0_0)).write (Elt F) (((Memref.whole cc0_scratch2).view.slice (Rect.unit (s := S4x128x512) ![1, 0, 0] S1x128x512.size inb_S4x128x512_S1x128x512_1_0_0)).write (Elt F) (((Memref.whole cc0_scratch2).view.slice (Rect.unit (s := S4x128x512) ![0, 0, 0] S1x128x512.size inb_S4x128x512_S1x128x512_0_0_0)).write (Elt F) J0 p0 Finset.univ) p1 Finset.univ) p2 Finset.univ) p3 Finset.univ) = p0
  rw [readAt_write_miss _ _ 3 0 (by decide) inb_S4x128x512_S1x128x512_3_0_0 inb_S4x128x512_S1x128x512_0_0_0, readAt_write_miss _ _ 2 0 (by decide) inb_S4x128x512_S1x128x512_2_0_0 inb_S4x128x512_S1x128x512_0_0_0, readAt_write_miss _ _ 1 0 (by decide) inb_S4x128x512_S1x128x512_1_0_0 inb_S4x128x512_S1x128x512_0_0_0, readAt_write_hit _ _ 0 inb_S4x128x512_S1x128x512_0_0_0]

/-- Slot `1` of the send buffer after the four stores holds the payload stored there, with the unit axis dropped. -/
theorem send_read_1 (J0 : S4x128x512.Idx → Elt F .bf16) (p0 p1 p2 p3 : FVec F S1x128x512 .bf16) :
    (((Memref.whole cc0_scratch2).slice (Rect.unit (s := S4x128x512) ![1, 0, 0] S1x128x512.size inb_S4x128x512_S1x128x512_1_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), p3⟩, ⟨(Rect.unit (s := S4x128x512) ![2, 0, 0] S1x128x512.size inb_S4x128x512_S1x128x512_2_0_0), p2⟩, ⟨(Rect.unit (s := S4x128x512) ![1, 0, 0] S1x128x512.size inb_S4x128x512_S1x128x512_1_0_0), p1⟩, ⟨(Rect.unit (s := S4x128x512) ![0, 0, 0] S1x128x512.size inb_S4x128x512_S1x128x512_0_0_0), p0⟩] : List (View.Piece (Elt F) S4x128x512 .bf16)))
      = shapeCast S128x512 p1 shapeCasts_S1x128x512_S128x512 := by
  rw [Memref.read_squeeze_slice _ _ _ _ shapeCasts_S1x128x512_S128x512]
  refine congrArg (fun u => shapeCast S128x512 u shapeCasts_S1x128x512_S128x512) ?_
  show (Memref.whole cc0_scratch2).view.readAt (Elt F) (Rect.unit (s := S4x128x512) ![1, 0, 0] S1x128x512.size inb_S4x128x512_S1x128x512_1_0_0).toLoadRect (((Memref.whole cc0_scratch2).view.slice (Rect.unit (s := S4x128x512) ![3, 0, 0] S1x128x512.size inb_S4x128x512_S1x128x512_3_0_0)).write (Elt F) (((Memref.whole cc0_scratch2).view.slice (Rect.unit (s := S4x128x512) ![2, 0, 0] S1x128x512.size inb_S4x128x512_S1x128x512_2_0_0)).write (Elt F) (((Memref.whole cc0_scratch2).view.slice (Rect.unit (s := S4x128x512) ![1, 0, 0] S1x128x512.size inb_S4x128x512_S1x128x512_1_0_0)).write (Elt F) (((Memref.whole cc0_scratch2).view.slice (Rect.unit (s := S4x128x512) ![0, 0, 0] S1x128x512.size inb_S4x128x512_S1x128x512_0_0_0)).write (Elt F) J0 p0 Finset.univ) p1 Finset.univ) p2 Finset.univ) p3 Finset.univ) = p1
  rw [readAt_write_miss _ _ 3 1 (by decide) inb_S4x128x512_S1x128x512_3_0_0 inb_S4x128x512_S1x128x512_1_0_0, readAt_write_miss _ _ 2 1 (by decide) inb_S4x128x512_S1x128x512_2_0_0 inb_S4x128x512_S1x128x512_1_0_0, readAt_write_hit _ _ 1 inb_S4x128x512_S1x128x512_1_0_0]

/-- Slot `2` of the send buffer after the four stores holds the payload stored there, with the unit axis dropped. -/
theorem send_read_2 (J0 : S4x128x512.Idx → Elt F .bf16) (p0 p1 p2 p3 : FVec F S1x128x512 .bf16) :
    (((Memref.whole cc0_scratch2).slice (Rect.unit (s := S4x128x512) ![2, 0, 0] S1x128x512.size inb_S4x128x512_S1x128x512_2_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), p3⟩, ⟨(Rect.unit (s := S4x128x512) ![2, 0, 0] S1x128x512.size inb_S4x128x512_S1x128x512_2_0_0), p2⟩, ⟨(Rect.unit (s := S4x128x512) ![1, 0, 0] S1x128x512.size inb_S4x128x512_S1x128x512_1_0_0), p1⟩, ⟨(Rect.unit (s := S4x128x512) ![0, 0, 0] S1x128x512.size inb_S4x128x512_S1x128x512_0_0_0), p0⟩] : List (View.Piece (Elt F) S4x128x512 .bf16)))
      = shapeCast S128x512 p2 shapeCasts_S1x128x512_S128x512 := by
  rw [Memref.read_squeeze_slice _ _ _ _ shapeCasts_S1x128x512_S128x512]
  refine congrArg (fun u => shapeCast S128x512 u shapeCasts_S1x128x512_S128x512) ?_
  show (Memref.whole cc0_scratch2).view.readAt (Elt F) (Rect.unit (s := S4x128x512) ![2, 0, 0] S1x128x512.size inb_S4x128x512_S1x128x512_2_0_0).toLoadRect (((Memref.whole cc0_scratch2).view.slice (Rect.unit (s := S4x128x512) ![3, 0, 0] S1x128x512.size inb_S4x128x512_S1x128x512_3_0_0)).write (Elt F) (((Memref.whole cc0_scratch2).view.slice (Rect.unit (s := S4x128x512) ![2, 0, 0] S1x128x512.size inb_S4x128x512_S1x128x512_2_0_0)).write (Elt F) (((Memref.whole cc0_scratch2).view.slice (Rect.unit (s := S4x128x512) ![1, 0, 0] S1x128x512.size inb_S4x128x512_S1x128x512_1_0_0)).write (Elt F) (((Memref.whole cc0_scratch2).view.slice (Rect.unit (s := S4x128x512) ![0, 0, 0] S1x128x512.size inb_S4x128x512_S1x128x512_0_0_0)).write (Elt F) J0 p0 Finset.univ) p1 Finset.univ) p2 Finset.univ) p3 Finset.univ) = p2
  rw [readAt_write_miss _ _ 3 2 (by decide) inb_S4x128x512_S1x128x512_3_0_0 inb_S4x128x512_S1x128x512_2_0_0, readAt_write_hit _ _ 2 inb_S4x128x512_S1x128x512_2_0_0]

/-- Slot `3` of the send buffer after the four stores holds the payload stored there, with the unit axis dropped. -/
theorem send_read_3 (J0 : S4x128x512.Idx → Elt F .bf16) (p0 p1 p2 p3 : FVec F S1x128x512 .bf16) :
    (((Memref.whole cc0_scratch2).slice (Rect.unit (s := S4x128x512) ![3, 0, 0] S1x128x512.size inb_S4x128x512_S1x128x512_3_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), p3⟩, ⟨(Rect.unit (s := S4x128x512) ![2, 0, 0] S1x128x512.size inb_S4x128x512_S1x128x512_2_0_0), p2⟩, ⟨(Rect.unit (s := S4x128x512) ![1, 0, 0] S1x128x512.size inb_S4x128x512_S1x128x512_1_0_0), p1⟩, ⟨(Rect.unit (s := S4x128x512) ![0, 0, 0] S1x128x512.size inb_S4x128x512_S1x128x512_0_0_0), p0⟩] : List (View.Piece (Elt F) S4x128x512 .bf16)))
      = shapeCast S128x512 p3 shapeCasts_S1x128x512_S128x512 := by
  rw [Memref.read_squeeze_slice _ _ _ _ shapeCasts_S1x128x512_S128x512]
  refine congrArg (fun u => shapeCast S128x512 u shapeCasts_S1x128x512_S128x512) ?_
  show (Memref.whole cc0_scratch2).view.readAt (Elt F) (Rect.unit (s := S4x128x512) ![3, 0, 0] S1x128x512.size inb_S4x128x512_S1x128x512_3_0_0).toLoadRect (((Memref.whole cc0_scratch2).view.slice (Rect.unit (s := S4x128x512) ![3, 0, 0] S1x128x512.size inb_S4x128x512_S1x128x512_3_0_0)).write (Elt F) (((Memref.whole cc0_scratch2).view.slice (Rect.unit (s := S4x128x512) ![2, 0, 0] S1x128x512.size inb_S4x128x512_S1x128x512_2_0_0)).write (Elt F) (((Memref.whole cc0_scratch2).view.slice (Rect.unit (s := S4x128x512) ![1, 0, 0] S1x128x512.size inb_S4x128x512_S1x128x512_1_0_0)).write (Elt F) (((Memref.whole cc0_scratch2).view.slice (Rect.unit (s := S4x128x512) ![0, 0, 0] S1x128x512.size inb_S4x128x512_S1x128x512_0_0_0)).write (Elt F) J0 p0 Finset.univ) p1 Finset.univ) p2 Finset.univ) p3 Finset.univ) = p3
  rw [readAt_write_hit _ _ 3 inb_S4x128x512_S1x128x512_3_0_0]

/-! ## The f32 scratch: four local copies into the squeezed slots, each slot loaded back -/

/-- Slot `0` of the scratch after the four copies holds the block copied there, with the unit axis put back. -/
theorem scratch_read_0 (fP : S4x128x512.Idx → Elt F .f32) (d0 d1 d2 d3 : S128x512.Idx → Elt F .f32) :
    View.readAt (Elt F) (Memref.whole cc0_scratch1).view (Rect.unit (s := S4x128x512) ![0, 0, 0] S1x128x512.size inb_S4x128x512_S1x128x512_0_0_0).toLoadRect
        (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)
      = shapeCast S1x128x512 d0 shapeCasts_S128x512_S1x128x512 := by
  show View.readAt (Elt F) (Memref.whole cc0_scratch1).view (Rect.unit (s := S4x128x512) ![0, 0, 0] S1x128x512.size inb_S4x128x512_S1x128x512_0_0_0).toLoadRect
      ((((Memref.whole cc0_scratch1).view.slice (Rect.unit (s := S4x128x512) ![3, 0, 0] S1x128x512.size inb_S4x128x512_S1x128x512_3_0_0)).reshape S128x512 squeezes_S1x128x512_S128x512.numel_eq).write (Elt F)
        ((((Memref.whole cc0_scratch1).view.slice (Rect.unit (s := S4x128x512) ![2, 0, 0] S1x128x512.size inb_S4x128x512_S1x128x512_2_0_0)).reshape S128x512 squeezes_S1x128x512_S128x512.numel_eq).write (Elt F)
          ((((Memref.whole cc0_scratch1).view.slice (Rect.unit (s := S4x128x512) ![1, 0, 0] S1x128x512.size inb_S4x128x512_S1x128x512_1_0_0)).reshape S128x512 squeezes_S1x128x512_S128x512.numel_eq).write (Elt F)
            ((((Memref.whole cc0_scratch1).view.slice (Rect.unit (s := S4x128x512) ![0, 0, 0] S1x128x512.size inb_S4x128x512_S1x128x512_0_0_0)).reshape S128x512 squeezes_S1x128x512_S128x512.numel_eq).write (Elt F) fP d0 Finset.univ)
            d1 Finset.univ) d2 Finset.univ) d3 Finset.univ) = _
  rw [write_squeeze _ _ 3 inb_S4x128x512_S1x128x512_3_0_0, write_squeeze _ _ 2 inb_S4x128x512_S1x128x512_2_0_0, write_squeeze _ _ 1 inb_S4x128x512_S1x128x512_1_0_0, write_squeeze _ _ 0 inb_S4x128x512_S1x128x512_0_0_0]
  rw [readAt_write_miss _ _ 3 0 (by decide) inb_S4x128x512_S1x128x512_3_0_0 inb_S4x128x512_S1x128x512_0_0_0, readAt_write_miss _ _ 2 0 (by decide) inb_S4x128x512_S1x128x512_2_0_0 inb_S4x128x512_S1x128x512_0_0_0, readAt_write_miss _ _ 1 0 (by decide) inb_S4x128x512_S1x128x512_1_0_0 inb_S4x128x512_S1x128x512_0_0_0, readAt_write_hit _ _ 0 inb_S4x128x512_S1x128x512_0_0_0]

/-- Slot `1` of the scratch after the four copies holds the block copied there, with the unit axis put back. -/
theorem scratch_read_1 (fP : S4x128x512.Idx → Elt F .f32) (d0 d1 d2 d3 : S128x512.Idx → Elt F .f32) :
    View.readAt (Elt F) (Memref.whole cc0_scratch1).view (Rect.unit (s := S4x128x512) ![1, 0, 0] S1x128x512.size inb_S4x128x512_S1x128x512_1_0_0).toLoadRect
        (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)
      = shapeCast S1x128x512 d1 shapeCasts_S128x512_S1x128x512 := by
  show View.readAt (Elt F) (Memref.whole cc0_scratch1).view (Rect.unit (s := S4x128x512) ![1, 0, 0] S1x128x512.size inb_S4x128x512_S1x128x512_1_0_0).toLoadRect
      ((((Memref.whole cc0_scratch1).view.slice (Rect.unit (s := S4x128x512) ![3, 0, 0] S1x128x512.size inb_S4x128x512_S1x128x512_3_0_0)).reshape S128x512 squeezes_S1x128x512_S128x512.numel_eq).write (Elt F)
        ((((Memref.whole cc0_scratch1).view.slice (Rect.unit (s := S4x128x512) ![2, 0, 0] S1x128x512.size inb_S4x128x512_S1x128x512_2_0_0)).reshape S128x512 squeezes_S1x128x512_S128x512.numel_eq).write (Elt F)
          ((((Memref.whole cc0_scratch1).view.slice (Rect.unit (s := S4x128x512) ![1, 0, 0] S1x128x512.size inb_S4x128x512_S1x128x512_1_0_0)).reshape S128x512 squeezes_S1x128x512_S128x512.numel_eq).write (Elt F)
            ((((Memref.whole cc0_scratch1).view.slice (Rect.unit (s := S4x128x512) ![0, 0, 0] S1x128x512.size inb_S4x128x512_S1x128x512_0_0_0)).reshape S128x512 squeezes_S1x128x512_S128x512.numel_eq).write (Elt F) fP d0 Finset.univ)
            d1 Finset.univ) d2 Finset.univ) d3 Finset.univ) = _
  rw [write_squeeze _ _ 3 inb_S4x128x512_S1x128x512_3_0_0, write_squeeze _ _ 2 inb_S4x128x512_S1x128x512_2_0_0, write_squeeze _ _ 1 inb_S4x128x512_S1x128x512_1_0_0, write_squeeze _ _ 0 inb_S4x128x512_S1x128x512_0_0_0]
  rw [readAt_write_miss _ _ 3 1 (by decide) inb_S4x128x512_S1x128x512_3_0_0 inb_S4x128x512_S1x128x512_1_0_0, readAt_write_miss _ _ 2 1 (by decide) inb_S4x128x512_S1x128x512_2_0_0 inb_S4x128x512_S1x128x512_1_0_0, readAt_write_hit _ _ 1 inb_S4x128x512_S1x128x512_1_0_0]

/-- Slot `2` of the scratch after the four copies holds the block copied there, with the unit axis put back. -/
theorem scratch_read_2 (fP : S4x128x512.Idx → Elt F .f32) (d0 d1 d2 d3 : S128x512.Idx → Elt F .f32) :
    View.readAt (Elt F) (Memref.whole cc0_scratch1).view (Rect.unit (s := S4x128x512) ![2, 0, 0] S1x128x512.size inb_S4x128x512_S1x128x512_2_0_0).toLoadRect
        (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)
      = shapeCast S1x128x512 d2 shapeCasts_S128x512_S1x128x512 := by
  show View.readAt (Elt F) (Memref.whole cc0_scratch1).view (Rect.unit (s := S4x128x512) ![2, 0, 0] S1x128x512.size inb_S4x128x512_S1x128x512_2_0_0).toLoadRect
      ((((Memref.whole cc0_scratch1).view.slice (Rect.unit (s := S4x128x512) ![3, 0, 0] S1x128x512.size inb_S4x128x512_S1x128x512_3_0_0)).reshape S128x512 squeezes_S1x128x512_S128x512.numel_eq).write (Elt F)
        ((((Memref.whole cc0_scratch1).view.slice (Rect.unit (s := S4x128x512) ![2, 0, 0] S1x128x512.size inb_S4x128x512_S1x128x512_2_0_0)).reshape S128x512 squeezes_S1x128x512_S128x512.numel_eq).write (Elt F)
          ((((Memref.whole cc0_scratch1).view.slice (Rect.unit (s := S4x128x512) ![1, 0, 0] S1x128x512.size inb_S4x128x512_S1x128x512_1_0_0)).reshape S128x512 squeezes_S1x128x512_S128x512.numel_eq).write (Elt F)
            ((((Memref.whole cc0_scratch1).view.slice (Rect.unit (s := S4x128x512) ![0, 0, 0] S1x128x512.size inb_S4x128x512_S1x128x512_0_0_0)).reshape S128x512 squeezes_S1x128x512_S128x512.numel_eq).write (Elt F) fP d0 Finset.univ)
            d1 Finset.univ) d2 Finset.univ) d3 Finset.univ) = _
  rw [write_squeeze _ _ 3 inb_S4x128x512_S1x128x512_3_0_0, write_squeeze _ _ 2 inb_S4x128x512_S1x128x512_2_0_0, write_squeeze _ _ 1 inb_S4x128x512_S1x128x512_1_0_0, write_squeeze _ _ 0 inb_S4x128x512_S1x128x512_0_0_0]
  rw [readAt_write_miss _ _ 3 2 (by decide) inb_S4x128x512_S1x128x512_3_0_0 inb_S4x128x512_S1x128x512_2_0_0, readAt_write_hit _ _ 2 inb_S4x128x512_S1x128x512_2_0_0]

/-- Slot `3` of the scratch after the four copies holds the block copied there, with the unit axis put back. -/
theorem scratch_read_3 (fP : S4x128x512.Idx → Elt F .f32) (d0 d1 d2 d3 : S128x512.Idx → Elt F .f32) :
    View.readAt (Elt F) (Memref.whole cc0_scratch1).view (Rect.unit (s := S4x128x512) ![3, 0, 0] S1x128x512.size inb_S4x128x512_S1x128x512_3_0_0).toLoadRect
        (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)
      = shapeCast S1x128x512 d3 shapeCasts_S128x512_S1x128x512 := by
  show View.readAt (Elt F) (Memref.whole cc0_scratch1).view (Rect.unit (s := S4x128x512) ![3, 0, 0] S1x128x512.size inb_S4x128x512_S1x128x512_3_0_0).toLoadRect
      ((((Memref.whole cc0_scratch1).view.slice (Rect.unit (s := S4x128x512) ![3, 0, 0] S1x128x512.size inb_S4x128x512_S1x128x512_3_0_0)).reshape S128x512 squeezes_S1x128x512_S128x512.numel_eq).write (Elt F)
        ((((Memref.whole cc0_scratch1).view.slice (Rect.unit (s := S4x128x512) ![2, 0, 0] S1x128x512.size inb_S4x128x512_S1x128x512_2_0_0)).reshape S128x512 squeezes_S1x128x512_S128x512.numel_eq).write (Elt F)
          ((((Memref.whole cc0_scratch1).view.slice (Rect.unit (s := S4x128x512) ![1, 0, 0] S1x128x512.size inb_S4x128x512_S1x128x512_1_0_0)).reshape S128x512 squeezes_S1x128x512_S128x512.numel_eq).write (Elt F)
            ((((Memref.whole cc0_scratch1).view.slice (Rect.unit (s := S4x128x512) ![0, 0, 0] S1x128x512.size inb_S4x128x512_S1x128x512_0_0_0)).reshape S128x512 squeezes_S1x128x512_S128x512.numel_eq).write (Elt F) fP d0 Finset.univ)
            d1 Finset.univ) d2 Finset.univ) d3 Finset.univ) = _
  rw [write_squeeze _ _ 3 inb_S4x128x512_S1x128x512_3_0_0, write_squeeze _ _ 2 inb_S4x128x512_S1x128x512_2_0_0, write_squeeze _ _ 1 inb_S4x128x512_S1x128x512_1_0_0, write_squeeze _ _ 0 inb_S4x128x512_S1x128x512_0_0_0]
  rw [readAt_write_hit _ _ 3 inb_S4x128x512_S1x128x512_3_0_0]

/-! ## The narrowing payloads between two unit-axis casts -/

/-- A block given a unit axis, narrowed by the payload, and stripped of the unit axis is the block narrowed. -/
theorem pay1_cast (d : FVec F S128x512 .f32) :
    shapeCast S128x512 (k0_pay1 (shapeCast S1x128x512 d shapeCasts_S128x512_S1x128x512)) shapeCasts_S1x128x512_S128x512
      = truncf .bf16 d bitsLt_bf16_f32 := by
  show shapeCast S128x512 (shapeCast S1x128x512 (truncf .bf16 (shapeCast S128x512 (shapeCast S1x128x512 d
    shapeCasts_S128x512_S1x128x512) shapeCasts_S1x128x512_S128x512) bitsLt_bf16_f32) shapeCasts_S128x512_S1x128x512)
    shapeCasts_S1x128x512_S128x512 = _
  rw [shapeCast_shapeCast, shapeCast_shapeCast]

theorem pay2_cast (d : FVec F S128x512 .f32) :
    shapeCast S128x512 (k0_pay2 (shapeCast S1x128x512 d shapeCasts_S128x512_S1x128x512)) shapeCasts_S1x128x512_S128x512
      = truncf .bf16 d bitsLt_bf16_f32 := pay1_cast d

theorem pay5_cast (d : FVec F S128x512 .f32) :
    shapeCast S128x512 (k0_pay5 (shapeCast S1x128x512 d shapeCasts_S128x512_S1x128x512)) shapeCasts_S1x128x512_S128x512
      = truncf .bf16 d bitsLt_bf16_f32 := pay1_cast d

theorem pay43_cast (d : FVec F S128x512 .f32) :
    shapeCast S128x512 (k0_pay4 (k0_pay3 (shapeCast S1x128x512 d shapeCasts_S128x512_S1x128x512))) shapeCasts_S1x128x512_S128x512
      = truncf .bf16 d bitsLt_bf16_f32 := pay1_cast d

/-- A transfer that reads its source as it is. -/
theorem readAs_same {s : Shape} {e : EltTy} (x : s.Idx → Elt F e) : (ReadAs.same : ReadAs (Elt F) s e s e).apply x = x := rfl

/-! ## The result chunk's payloads -/

theorem outChunk_def (m : (ℓ : Loc nD τ sig) → Buf (Elt F) ℓ) (c : Dev nD) (K : Fin 4) :
    shapeCast S128x512 (k0_pay6 (mineChunk m c K) (shapeCast S1x128x512 (sent m (peer c) K) shapeCasts_S128x512_S1x128x512) (Gof m c))
      shapeCasts_S1x128x512_S128x512 = outChunk m c K := rfl

theorem pay7_eq_pay6 : @k0_pay7 F _ = @k0_pay6 F _ := rfl
theorem pay8_eq_pay6 : @k0_pay8 F _ = @k0_pay6 F _ := rfl
theorem pay11_eq_pay6 (a : Vec F S128x512 .f32) (b : Vec F S1x128x512 .bf16) (g : Vec F S512 .f32) :
    k0_pay11 (k0_pay9 a b) (k0_pay10 g) = k0_pay6 a b g := rfl

/-! ## What the device sends: the send buffer's slots in terms of the blocks copied into the scratch -/

/-- Slot `0` of the send buffer, after the four blocks were copied into the scratch, loaded, narrowed and stored, holds
    block `0` narrowed. -/
theorem send_eq_0 (J0 : S4x128x512.Idx → Elt F .bf16) (fP : S4x128x512.Idx → Elt F .f32) (d0 d1 d2 d3 : S128x512.Idx → Elt F .f32) :
    (((Memref.whole cc0_scratch2).slice (Rect.unit (s := S4x128x512) ![0, 0, 0] S1x128x512.size inb_S4x128x512_S1x128x512_0_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), (k0_pay5 (View.readAt (Elt F) (Memref.whole cc0_scratch1).view (Rect.unit (s := S4x128x512) ![3, 0, 0] S1x128x512.size inb_S4x128x512_S1x128x512_3_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩, ⟨(Rect.unit (s := S4x128x512) ![2, 0, 0] S1x128x512.size inb_S4x128x512_S1x128x512_2_0_0), (k0_pay4 (k0_pay3 (View.readAt (Elt F) (Memref.whole cc0_scratch1).view (Rect.unit (s := S4x128x512) ![2, 0, 0] S1x128x512.size inb_S4x128x512_S1x128x512_2_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ))))⟩, ⟨(Rect.unit (s := S4x128x512) ![1, 0, 0] S1x128x512.size inb_S4x128x512_S1x128x512_1_0_0), (k0_pay2 (View.readAt (Elt F) (Memref.whole cc0_scratch1).view (Rect.unit (s := S4x128x512) ![1, 0, 0] S1x128x512.size inb_S4x128x512_S1x128x512_1_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩, ⟨(Rect.unit (s := S4x128x512) ![0, 0, 0] S1x128x512.size inb_S4x128x512_S1x128x512_0_0_0), (k0_pay1 (View.readAt (Elt F) (Memref.whole cc0_scratch1).view (Rect.unit (s := S4x128x512) ![0, 0, 0] S1x128x512.size inb_S4x128x512_S1x128x512_0_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩] : List (View.Piece (Elt F) S4x128x512 .bf16)))
      = truncf .bf16 d0 bitsLt_bf16_f32 := by
  rw [send_read_0, scratch_read_0, pay1_cast]

/-- The same with the blocks the body copies: slot `0` holds what the device sends in slot `0`. -/
theorem send_sent_0 (m : (ℓ : Loc nD τ sig) → Buf (Elt F) ℓ) (c : Dev nD) (J0 : S4x128x512.Idx → Elt F .bf16) (fP : S4x128x512.Idx → Elt F .f32) :
    (((Memref.whole cc0_scratch2).slice (Rect.unit (s := S4x128x512) ![0, 0, 0] S1x128x512.size inb_S4x128x512_S1x128x512_0_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), (k0_pay5 (View.readAt (Elt F) (Memref.whole cc0_scratch1).view (Rect.unit (s := S4x128x512) ![3, 0, 0] S1x128x512.size inb_S4x128x512_S1x128x512_3_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩, ⟨(Rect.unit (s := S4x128x512) ![2, 0, 0] S1x128x512.size inb_S4x128x512_S1x128x512_2_0_0), (k0_pay4 (k0_pay3 (View.readAt (Elt F) (Memref.whole cc0_scratch1).view (Rect.unit (s := S4x128x512) ![2, 0, 0] S1x128x512.size inb_S4x128x512_S1x128x512_2_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ))))⟩, ⟨(Rect.unit (s := S4x128x512) ![1, 0, 0] S1x128x512.size inb_S4x128x512_S1x128x512_1_0_0), (k0_pay2 (View.readAt (Elt F) (Memref.whole cc0_scratch1).view (Rect.unit (s := S4x128x512) ![1, 0, 0] S1x128x512.size inb_S4x128x512_S1x128x512_1_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩, ⟨(Rect.unit (s := S4x128x512) ![0, 0, 0] S1x128x512.size inb_S4x128x512_S1x128x512_0_0_0), (k0_pay1 (View.readAt (Elt F) (Memref.whole cc0_scratch1).view (Rect.unit (s := S4x128x512) ![0, 0, 0] S1x128x512.size inb_S4x128x512_S1x128x512_0_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩] : List (View.Piece (Elt F) S4x128x512 .bf16)))
      = sent m c 0 :=
  send_eq_0 J0 fP _ _ _ _

/-- Slot `1` of the send buffer, after the four blocks were copied into the scratch, loaded, narrowed and stored, holds
    block `1` narrowed. -/
theorem send_eq_1 (J0 : S4x128x512.Idx → Elt F .bf16) (fP : S4x128x512.Idx → Elt F .f32) (d0 d1 d2 d3 : S128x512.Idx → Elt F .f32) :
    (((Memref.whole cc0_scratch2).slice (Rect.unit (s := S4x128x512) ![1, 0, 0] S1x128x512.size inb_S4x128x512_S1x128x512_1_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), (k0_pay5 (View.readAt (Elt F) (Memref.whole cc0_scratch1).view (Rect.unit (s := S4x128x512) ![3, 0, 0] S1x128x512.size inb_S4x128x512_S1x128x512_3_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩, ⟨(Rect.unit (s := S4x128x512) ![2, 0, 0] S1x128x512.size inb_S4x128x512_S1x128x512_2_0_0), (k0_pay4 (k0_pay3 (View.readAt (Elt F) (Memref.whole cc0_scratch1).view (Rect.unit (s := S4x128x512) ![2, 0, 0] S1x128x512.size inb_S4x128x512_S1x128x512_2_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ))))⟩, ⟨(Rect.unit (s := S4x128x512) ![1, 0, 0] S1x128x512.size inb_S4x128x512_S1x128x512_1_0_0), (k0_pay2 (View.readAt (Elt F) (Memref.whole cc0_scratch1).view (Rect.unit (s := S4x128x512) ![1, 0, 0] S1x128x512.size inb_S4x128x512_S1x128x512_1_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩, ⟨(Rect.unit (s := S4x128x512) ![0, 0, 0] S1x128x512.size inb_S4x128x512_S1x128x512_0_0_0), (k0_pay1 (View.readAt (Elt F) (Memref.whole cc0_scratch1).view (Rect.unit (s := S4x128x512) ![0, 0, 0] S1x128x512.size inb_S4x128x512_S1x128x512_0_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩] : List (View.Piece (Elt F) S4x128x512 .bf16)))
      = truncf .bf16 d1 bitsLt_bf16_f32 := by
  rw [send_read_1, scratch_read_1, pay2_cast]

/-- The same with the blocks the body copies: slot `1` holds what the device sends in slot `1`. -/
theorem send_sent_1 (m : (ℓ : Loc nD τ sig) → Buf (Elt F) ℓ) (c : Dev nD) (J0 : S4x128x512.Idx → Elt F .bf16) (fP : S4x128x512.Idx → Elt F .f32) :
    (((Memref.whole cc0_scratch2).slice (Rect.unit (s := S4x128x512) ![1, 0, 0] S1x128x512.size inb_S4x128x512_S1x128x512_1_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), (k0_pay5 (View.readAt (Elt F) (Memref.whole cc0_scratch1).view (Rect.unit (s := S4x128x512) ![3, 0, 0] S1x128x512.size inb_S4x128x512_S1x128x512_3_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩, ⟨(Rect.unit (s := S4x128x512) ![2, 0, 0] S1x128x512.size inb_S4x128x512_S1x128x512_2_0_0), (k0_pay4 (k0_pay3 (View.readAt (Elt F) (Memref.whole cc0_scratch1).view (Rect.unit (s := S4x128x512) ![2, 0, 0] S1x128x512.size inb_S4x128x512_S1x128x512_2_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ))))⟩, ⟨(Rect.unit (s := S4x128x512) ![1, 0, 0] S1x128x512.size inb_S4x128x512_S1x128x512_1_0_0), (k0_pay2 (View.readAt (Elt F) (Memref.whole cc0_scratch1).view (Rect.unit (s := S4x128x512) ![1, 0, 0] S1x128x512.size inb_S4x128x512_S1x128x512_1_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩, ⟨(Rect.unit (s := S4x128x512) ![0, 0, 0] S1x128x512.size inb_S4x128x512_S1x128x512_0_0_0), (k0_pay1 (View.readAt (Elt F) (Memref.whole cc0_scratch1).view (Rect.unit (s := S4x128x512) ![0, 0, 0] S1x128x512.size inb_S4x128x512_S1x128x512_0_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩] : List (View.Piece (Elt F) S4x128x512 .bf16)))
      = sent m c 1 :=
  send_eq_1 J0 fP _ _ _ _

/-- Slot `2` of the send buffer, after the four blocks were copied into the scratch, loaded, narrowed and stored, holds
    block `2` narrowed. -/
theorem send_eq_2 (J0 : S4x128x512.Idx → Elt F .bf16) (fP : S4x128x512.Idx → Elt F .f32) (d0 d1 d2 d3 : S128x512.Idx → Elt F .f32) :
    (((Memref.whole cc0_scratch2).slice (Rect.unit (s := S4x128x512) ![2, 0, 0] S1x128x512.size inb_S4x128x512_S1x128x512_2_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), (k0_pay5 (View.readAt (Elt F) (Memref.whole cc0_scratch1).view (Rect.unit (s := S4x128x512) ![3, 0, 0] S1x128x512.size inb_S4x128x512_S1x128x512_3_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩, ⟨(Rect.unit (s := S4x128x512) ![2, 0, 0] S1x128x512.size inb_S4x128x512_S1x128x512_2_0_0), (k0_pay4 (k0_pay3 (View.readAt (Elt F) (Memref.whole cc0_scratch1).view (Rect.unit (s := S4x128x512) ![2, 0, 0] S1x128x512.size inb_S4x128x512_S1x128x512_2_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ))))⟩, ⟨(Rect.unit (s := S4x128x512) ![1, 0, 0] S1x128x512.size inb_S4x128x512_S1x128x512_1_0_0), (k0_pay2 (View.readAt (Elt F) (Memref.whole cc0_scratch1).view (Rect.unit (s := S4x128x512) ![1, 0, 0] S1x128x512.size inb_S4x128x512_S1x128x512_1_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩, ⟨(Rect.unit (s := S4x128x512) ![0, 0, 0] S1x128x512.size inb_S4x128x512_S1x128x512_0_0_0), (k0_pay1 (View.readAt (Elt F) (Memref.whole cc0_scratch1).view (Rect.unit (s := S4x128x512) ![0, 0, 0] S1x128x512.size inb_S4x128x512_S1x128x512_0_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩] : List (View.Piece (Elt F) S4x128x512 .bf16)))
      = truncf .bf16 d2 bitsLt_bf16_f32 := by
  rw [send_read_2, scratch_read_2, pay43_cast]

/-- The same with the blocks the body copies: slot `2` holds what the device sends in slot `2`. -/
theorem send_sent_2 (m : (ℓ : Loc nD τ sig) → Buf (Elt F) ℓ) (c : Dev nD) (J0 : S4x128x512.Idx → Elt F .bf16) (fP : S4x128x512.Idx → Elt F .f32) :
    (((Memref.whole cc0_scratch2).slice (Rect.unit (s := S4x128x512) ![2, 0, 0] S1x128x512.size inb_S4x128x512_S1x128x512_2_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), (k0_pay5 (View.readAt (Elt F) (Memref.whole cc0_scratch1).view (Rect.unit (s := S4x128x512) ![3, 0, 0] S1x128x512.size inb_S4x128x512_S1x128x512_3_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩, ⟨(Rect.unit (s := S4x128x512) ![2, 0, 0] S1x128x512.size inb_S4x128x512_S1x128x512_2_0_0), (k0_pay4 (k0_pay3 (View.readAt (Elt F) (Memref.whole cc0_scratch1).view (Rect.unit (s := S4x128x512) ![2, 0, 0] S1x128x512.size inb_S4x128x512_S1x128x512_2_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ))))⟩, ⟨(Rect.unit (s := S4x128x512) ![1, 0, 0] S1x128x512.size inb_S4x128x512_S1x128x512_1_0_0), (k0_pay2 (View.readAt (Elt F) (Memref.whole cc0_scratch1).view (Rect.unit (s := S4x128x512) ![1, 0, 0] S1x128x512.size inb_S4x128x512_S1x128x512_1_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩, ⟨(Rect.unit (s := S4x128x512) ![0, 0, 0] S1x128x512.size inb_S4x128x512_S1x128x512_0_0_0), (k0_pay1 (View.readAt (Elt F) (Memref.whole cc0_scratch1).view (Rect.unit (s := S4x128x512) ![0, 0, 0] S1x128x512.size inb_S4x128x512_S1x128x512_0_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩] : List (View.Piece (Elt F) S4x128x512 .bf16)))
      = sent m c 2 :=
  send_eq_2 J0 fP _ _ _ _

/-- Slot `3` of the send buffer, after the four blocks were copied into the scratch, loaded, narrowed and stored, holds
    block `3` narrowed. -/
theorem send_eq_3 (J0 : S4x128x512.Idx → Elt F .bf16) (fP : S4x128x512.Idx → Elt F .f32) (d0 d1 d2 d3 : S128x512.Idx → Elt F .f32) :
    (((Memref.whole cc0_scratch2).slice (Rect.unit (s := S4x128x512) ![3, 0, 0] S1x128x512.size inb_S4x128x512_S1x128x512_3_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), (k0_pay5 (View.readAt (Elt F) (Memref.whole cc0_scratch1).view (Rect.unit (s := S4x128x512) ![3, 0, 0] S1x128x512.size inb_S4x128x512_S1x128x512_3_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩, ⟨(Rect.unit (s := S4x128x512) ![2, 0, 0] S1x128x512.size inb_S4x128x512_S1x128x512_2_0_0), (k0_pay4 (k0_pay3 (View.readAt (Elt F) (Memref.whole cc0_scratch1).view (Rect.unit (s := S4x128x512) ![2, 0, 0] S1x128x512.size inb_S4x128x512_S1x128x512_2_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ))))⟩, ⟨(Rect.unit (s := S4x128x512) ![1, 0, 0] S1x128x512.size inb_S4x128x512_S1x128x512_1_0_0), (k0_pay2 (View.readAt (Elt F) (Memref.whole cc0_scratch1).view (Rect.unit (s := S4x128x512) ![1, 0, 0] S1x128x512.size inb_S4x128x512_S1x128x512_1_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩, ⟨(Rect.unit (s := S4x128x512) ![0, 0, 0] S1x128x512.size inb_S4x128x512_S1x128x512_0_0_0), (k0_pay1 (View.readAt (Elt F) (Memref.whole cc0_scratch1).view (Rect.unit (s := S4x128x512) ![0, 0, 0] S1x128x512.size inb_S4x128x512_S1x128x512_0_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP d0 Finset.univ) d1 Finset.univ) d2 Finset.univ) d3 Finset.univ)))⟩] : List (View.Piece (Elt F) S4x128x512 .bf16)))
      = truncf .bf16 d3 bitsLt_bf16_f32 := by
  rw [send_read_3, scratch_read_3, pay5_cast]

/-- The same with the blocks the body copies: slot `3` holds what the device sends in slot `3`. -/
theorem send_sent_3 (m : (ℓ : Loc nD τ sig) → Buf (Elt F) ℓ) (c : Dev nD) (J0 : S4x128x512.Idx → Elt F .bf16) (fP : S4x128x512.Idx → Elt F .f32) :
    (((Memref.whole cc0_scratch2).slice (Rect.unit (s := S4x128x512) ![3, 0, 0] S1x128x512.size inb_S4x128x512_S1x128x512_3_0_0) (fun _ => rfl)).squeeze S128x512 squeezes_S1x128x512_S128x512).view.read (Elt F)
        ((Memref.whole cc0_scratch2).view.writes (Elt F) J0 ([⟨(Rect.unit (s := S4x128x512) ![3, 0, 0] S1x128x512.size inb_S4x128x512_S1x128x512_3_0_0), (k0_pay5 (View.readAt (Elt F) (Memref.whole cc0_scratch1).view (Rect.unit (s := S4x128x512) ![3, 0, 0] S1x128x512.size inb_S4x128x512_S1x128x512_3_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩, ⟨(Rect.unit (s := S4x128x512) ![2, 0, 0] S1x128x512.size inb_S4x128x512_S1x128x512_2_0_0), (k0_pay4 (k0_pay3 (View.readAt (Elt F) (Memref.whole cc0_scratch1).view (Rect.unit (s := S4x128x512) ![2, 0, 0] S1x128x512.size inb_S4x128x512_S1x128x512_2_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ))))⟩, ⟨(Rect.unit (s := S4x128x512) ![1, 0, 0] S1x128x512.size inb_S4x128x512_S1x128x512_1_0_0), (k0_pay2 (View.readAt (Elt F) (Memref.whole cc0_scratch1).view (Rect.unit (s := S4x128x512) ![1, 0, 0] S1x128x512.size inb_S4x128x512_S1x128x512_1_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩, ⟨(Rect.unit (s := S4x128x512) ![0, 0, 0] S1x128x512.size inb_S4x128x512_S1x128x512_0_0_0), (k0_pay1 (View.readAt (Elt F) (Memref.whole cc0_scratch1).view (Rect.unit (s := S4x128x512) ![0, 0, 0] S1x128x512.size inb_S4x128x512_S1x128x512_0_0_0).toLoadRect (View.write (Elt F) (((Memref.whole cc0_scratch1).slice (Rect.unit (s := S4x128x512) ![3, 0, 0] S1x128x512.size inb_S4x128x512_S1x128x512_3_0_0) (fun _ => rfl)).squeeze S128x512 squeezes_S1x128x512_S128x512).view (View.write (Elt F) (((Memref.whole cc0_scratch1).slice (Rect.unit (s := S4x128x512) ![2, 0, 0] S1x128x512.size inb_S4x128x512_S1x128x512_2_0_0) (fun _ => rfl)).squeeze S128x512 squeezes_S1x128x512_S128x512).view (View.write (Elt F) (((Memref.whole cc0_scratch1).slice (Rect.unit (s := S4x128x512) ![1, 0, 0] S1x128x512.size inb_S4x128x512_S1x128x512_1_0_0) (fun _ => rfl)).squeeze S128x512 squeezes_S1x128x512_S128x512).view (View.write (Elt F) (((Memref.whole cc0_scratch1).slice (Rect.unit (s := S4x128x512) ![0, 0, 0] S1x128x512.size inb_S4x128x512_S1x128x512_0_0_0) (fun _ => rfl)).squeeze S128x512 squeezes_S1x128x512_S128x512).view fP (ReadAs.same.apply ((xPeer c 0).view.read (Elt F) (m ((c : Thread nD τ).loc main_arg0)))) Finset.univ) (ReadAs.same.apply ((xPeer c 1).view.read (Elt F) (m ((c : Thread nD τ).loc main_arg0)))) Finset.univ) (ReadAs.same.apply ((xPeer c 2).view.read (Elt F) (m ((c : Thread nD τ).loc main_arg0)))) Finset.univ) (ReadAs.same.apply ((xPeer c 3).view.read (Elt F) (m ((c : Thread nD τ).loc main_arg0)))) Finset.univ)))⟩] : List (View.Piece (Elt F) S4x128x512 .bf16)))
      = sent m c 3 :=
  send_eq_3 J0 fP _ _ _ _

/-! ## The kept half, copied whole into its scratch and loaded in four chunks -/

/-- A load of the rows from `o = 128·K` of the kept half's scratch, after the half was copied there whole, is chunk `K`
    of the kept half. -/
theorem mine_read (m : (ℓ : Loc nD τ sig) → Buf (Elt F) ℓ) (c : Dev nD) (K : Fin 4) (o : Nat) (ho : o = 128 * K.val)
    (inb : ∀ a, (![o, 0] : Fin 2 → Nat) a + S128x512.size a ≤ S512x512.size a) (fM : S512x512.Idx → Elt F .f32) :
    View.readAt (Elt F) (Memref.whole cc0_scratch0).view (Rect.unit (s := S512x512) ![o, 0] S128x512.size inb).toLoadRect
        (View.write (Elt F) (Memref.whole cc0_scratch0).view fM (ReadAs.same.apply ((xMine c).view.read (Elt F) (m ((c : Thread nD τ).loc main_arg0)))) Finset.univ)
      = mineChunk m c K := by
  subst ho
  have hw : View.write (Elt F) (Memref.whole cc0_scratch0).view fM (ReadAs.same.apply ((xMine c).view.read (Elt F) (m ((c : Thread nD τ).loc main_arg0)))) Finset.univ
      = mineRows m c :=
    View.write_whole_univ (Val := Elt F) cc0_scratch0 fM (mineRows m c)
  rw [hw]
  funext j
  rw [View.readAt_apply]
  show mineRows m c ((Rect.unit (s := S512x512) ![128 * K.val, 0] S128x512.size inb).toLoadRect.idx j) = mineRows m c _
  refine congrArg (mineRows m c) (funext fun a => Fin.ext ?_)
  match a with
  | ⟨0, _⟩ => show 128 * K.val + 1 * (j 0).val = 128 * K.val + (j 0).val; omega
  | ⟨1, _⟩ => show 0 + 1 * (j 1).val = (j 1).val; omega

theorem mine_read_0 (m : (ℓ : Loc nD τ sig) → Buf (Elt F) ℓ) (c : Dev nD) (fM : S512x512.Idx → Elt F .f32) :
    View.readAt (Elt F) (Memref.whole cc0_scratch0).view (Rect.unit (s := S512x512) ![0, 0] S128x512.size inb_S512x512_S128x512_0_0).toLoadRect
        (View.write (Elt F) (Memref.whole cc0_scratch0).view fM (ReadAs.same.apply ((xMine c).view.read (Elt F) (m ((c : Thread nD τ).loc main_arg0)))) Finset.univ)
      = mineChunk m c 0 :=
  mine_read m c 0 0 rfl inb_S512x512_S128x512_0_0 fM

theorem mine_read_1 (m : (ℓ : Loc nD τ sig) → Buf (Elt F) ℓ) (c : Dev nD) (fM : S512x512.Idx → Elt F .f32) :
    View.readAt (Elt F) (Memref.whole cc0_scratch0).view (Rect.unit (s := S512x512) ![128, 0] S128x512.size inb_S512x512_S128x512_128_0).toLoadRect
        (View.write (Elt F) (Memref.whole cc0_scratch0).view fM (ReadAs.same.apply ((xMine c).view.read (Elt F) (m ((c : Thread nD τ).loc main_arg0)))) Finset.univ)
      = mineChunk m c 1 :=
  mine_read m c 1 128 rfl inb_S512x512_S128x512_128_0 fM

theorem mine_read_2 (m : (ℓ : Loc nD τ sig) → Buf (Elt F) ℓ) (c : Dev nD) (fM : S512x512.Idx → Elt F .f32) :
    View.readAt (Elt F) (Memref.whole cc0_scratch0).view (Rect.unit (s := S512x512) ![256, 0] S128x512.size inb_S512x512_S128x512_256_0).toLoadRect
        (View.write (Elt F) (Memref.whole cc0_scratch0).view fM (ReadAs.same.apply ((xMine c).view.read (Elt F) (m ((c : Thread nD τ).loc main_arg0)))) Finset.univ)
      = mineChunk m c 2 :=
  mine_read m c 2 256 rfl inb_S512x512_S128x512_256_0 fM

theorem mine_read_3 (m : (ℓ : Loc nD τ sig) → Buf (Elt F) ℓ) (c : Dev nD) (fM : S512x512.Idx → Elt F .f32) :
    View.readAt (Elt F) (Memref.whole cc0_scratch0).view (Rect.unit (s := S512x512) ![384, 0] S128x512.size inb_S512x512_S128x512_384_0).toLoadRect
        (View.write (Elt F) (Memref.whole cc0_scratch0).view fM (ReadAs.same.apply ((xMine c).view.read (Elt F) (m ((c : Thread nD τ).loc main_arg0)))) Finset.univ)
      = mineChunk m c 3 :=
  mine_read m c 3 384 rfl inb_S512x512_S128x512_384_0 fM

/-! ## A receive slot held by its own elements, loaded through the enclosing buffer -/

section Rep
variable {sg : RefSig} {κ : Kind} {sp : Space} {e : EltTy} {Val : EltTy → Type} [∀ e, Nonempty (Val e)]

/-- A load of slot `K` of the representative of a block on the slot's squeeze reads the block with the unit axis put back. -/
theorem readAt_rep_squeeze (v : View sg κ sp S4x128x512 e) (K : Nat)
    (inbK : ∀ a, (![K, 0, 0] : Fin 3 → Nat) a + S1x128x512.size a ≤ S4x128x512.size a)
    (hq : S128x512.numel = S1x128x512.numel) (x : S128x512.Idx → Val e) :
    v.readAt Val (Rect.unit (s := S4x128x512) ![K, 0, 0] S1x128x512.size inbK).toLoadRect (((v.slice (Rect.unit (s := S4x128x512) ![K, 0, 0] S1x128x512.size inbK)).reshape S128x512 hq).rep x)
      = shapeCast S1x128x512 x shapeCasts_S128x512_S1x128x512 := by
  funext j
  rw [View.readAt_apply, View.read_apply]
  have hj : v.emb ((Rect.unit (s := S4x128x512) ![K, 0, 0] S1x128x512.size inbK).toLoadRect.idx j)
      = ((v.slice (Rect.unit (s := S4x128x512) ![K, 0, 0] S1x128x512.size inbK)).reshape S128x512 hq).emb ((Shape.reshapeEquiv hq).symm j) := by
    show v.emb ((Rect.unit (s := S4x128x512) ![K, 0, 0] S1x128x512.size inbK).emb j) = v.emb ((Rect.unit (s := S4x128x512) ![K, 0, 0] S1x128x512.size inbK).emb (Shape.reshapeEquiv hq ((Shape.reshapeEquiv hq).symm j)))
    rw [Equiv.apply_symm_apply]
  rw [hj, View.rep_emb, cast_cast, cast_eq, Shape.reshapeEquiv_symm]
  rfl

end Rep

theorem recv_read_0 (v : S128x512.Idx → Elt F .bf16) :
    View.readAt (Elt F) (Memref.whole cc0_scratch3).view (Rect.unit (s := S4x128x512) ![0, 0, 0] S1x128x512.size inb_S4x128x512_S1x128x512_0_0_0).toLoadRect ((((Memref.whole cc0_scratch3).slice (Rect.unit (s := S4x128x512) ![0, 0, 0] S1x128x512.size inb_S4x128x512_S1x128x512_0_0_0) (fun _ => rfl)).squeeze S128x512 squeezes_S1x128x512_S128x512).view.rep v)
      = shapeCast S1x128x512 v shapeCasts_S128x512_S1x128x512 :=
  readAt_rep_squeeze (Memref.whole cc0_scratch3).view 0 inb_S4x128x512_S1x128x512_0_0_0 squeezes_S1x128x512_S128x512.numel_eq v

theorem recv_read_1 (v : S128x512.Idx → Elt F .bf16) :
    View.readAt (Elt F) (Memref.whole cc0_scratch3).view (Rect.unit (s := S4x128x512) ![1, 0, 0] S1x128x512.size inb_S4x128x512_S1x128x512_1_0_0).toLoadRect ((((Memref.whole cc0_scratch3).slice (Rect.unit (s := S4x128x512) ![1, 0, 0] S1x128x512.size inb_S4x128x512_S1x128x512_1_0_0) (fun _ => rfl)).squeeze S128x512 squeezes_S1x128x512_S128x512).view.rep v)
      = shapeCast S1x128x512 v shapeCasts_S128x512_S1x128x512 :=
  readAt_rep_squeeze (Memref.whole cc0_scratch3).view 1 inb_S4x128x512_S1x128x512_1_0_0 squeezes_S1x128x512_S128x512.numel_eq v

theorem recv_read_2 (v : S128x512.Idx → Elt F .bf16) :
    View.readAt (Elt F) (Memref.whole cc0_scratch3).view (Rect.unit (s := S4x128x512) ![2, 0, 0] S1x128x512.size inb_S4x128x512_S1x128x512_2_0_0).toLoadRect ((((Memref.whole cc0_scratch3).slice (Rect.unit (s := S4x128x512) ![2, 0, 0] S1x128x512.size inb_S4x128x512_S1x128x512_2_0_0) (fun _ => rfl)).squeeze S128x512 squeezes_S1x128x512_S128x512).view.rep v)
      = shapeCast S1x128x512 v shapeCasts_S128x512_S1x128x512 :=
  readAt_rep_squeeze (Memref.whole cc0_scratch3).view 2 inb_S4x128x512_S1x128x512_2_0_0 squeezes_S1x128x512_S128x512.numel_eq v

theorem recv_read_3 (v : S128x512.Idx → Elt F .bf16) :
    View.readAt (Elt F) (Memref.whole cc0_scratch3).view (Rect.unit (s := S4x128x512) ![3, 0, 0] S1x128x512.size inb_S4x128x512_S1x128x512_3_0_0).toLoadRect ((((Memref.whole cc0_scratch3).slice (Rect.unit (s := S4x128x512) ![3, 0, 0] S1x128x512.size inb_S4x128x512_S1x128x512_3_0_0) (fun _ => rfl)).squeeze S128x512 squeezes_S1x128x512_S128x512).view.rep v)
      = shapeCast S1x128x512 v shapeCasts_S128x512_S1x128x512 :=
  readAt_rep_squeeze (Memref.whole cc0_scratch3).view 3 inb_S4x128x512_S1x128x512_3_0_0 squeezes_S1x128x512_S128x512.numel_eq v

/-! ## The staged result: a slot read back right after its store -/

/-- Slot `0` of the staged result, read through its squeeze when the newest store is the one into that slot, holds that
    store's payload with the unit axis dropped, whatever was stored before. -/
theorem stage_read_0 (J0 : S4x128x512.Idx → Elt F .f32) (p : FVec F S1x128x512 .f32) (L : List (View.Piece (Elt F) S4x128x512 .f32)) :
    (((Memref.whole cc0_scratch4).slice (Rect.unit (s := S4x128x512) ![0, 0, 0] S1x128x512.size inb_S4x128x512_S1x128x512_0_0_0) (fun _ => rfl)).squeeze S128x512 squeezes_S1x128x512_S128x512).view.read (Elt F)
        ((Memref.whole cc0_scratch4).view.writes (Elt F) J0 ((⟨(Rect.unit (s := S4x128x512) ![0, 0, 0] S1x128x512.size inb_S4x128x512_S1x128x512_0_0_0), p⟩ : View.Piece (Elt F) S4x128x512 .f32) :: L))
      = shapeCast S128x512 p shapeCasts_S1x128x512_S128x512 := by
  rw [Memref.read_squeeze_slice _ _ _ _ shapeCasts_S1x128x512_S128x512]
  refine congrArg (fun u => shapeCast S128x512 u shapeCasts_S1x128x512_S128x512) ?_
  exact readAt_write_hit (Memref.whole cc0_scratch4).view ((Memref.whole cc0_scratch4).view.writes (Elt F) J0 L) 0 inb_S4x128x512_S1x128x512_0_0_0 p

/-- Slot `1` of the staged result, read through its squeeze when the newest store is the one into that slot, holds that
    store's payload with the unit axis dropped, whatever was stored before. -/
theorem stage_read_1 (J0 : S4x128x512.Idx → Elt F .f32) (p : FVec F S1x128x512 .f32) (L : List (View.Piece (Elt F) S4x128x512 .f32)) :
    (((Memref.whole cc0_scratch4).slice (Rect.unit (s := S4x128x512) ![1, 0, 0] S1x128x512.size inb_S4x128x512_S1x128x512_1_0_0) (fun _ => rfl)).squeeze S128x512 squeezes_S1x128x512_S128x512).view.read (Elt F)
        ((Memref.whole cc0_scratch4).view.writes (Elt F) J0 ((⟨(Rect.unit (s := S4x128x512) ![1, 0, 0] S1x128x512.size inb_S4x128x512_S1x128x512_1_0_0), p⟩ : View.Piece (Elt F) S4x128x512 .f32) :: L))
      = shapeCast S128x512 p shapeCasts_S1x128x512_S128x512 := by
  rw [Memref.read_squeeze_slice _ _ _ _ shapeCasts_S1x128x512_S128x512]
  refine congrArg (fun u => shapeCast S128x512 u shapeCasts_S1x128x512_S128x512) ?_
  exact readAt_write_hit (Memref.whole cc0_scratch4).view ((Memref.whole cc0_scratch4).view.writes (Elt F) J0 L) 1 inb_S4x128x512_S1x128x512_1_0_0 p

/-- Slot `2` of the staged result, read through its squeeze when the newest store is the one into that slot, holds that
    store's payload with the unit axis dropped, whatever was stored before. -/
theorem stage_read_2 (J0 : S4x128x512.Idx → Elt F .f32) (p : FVec F S1x128x512 .f32) (L : List (View.Piece (Elt F) S4x128x512 .f32)) :
    (((Memref.whole cc0_scratch4).slice (Rect.unit (s := S4x128x512) ![2, 0, 0] S1x128x512.size inb_S4x128x512_S1x128x512_2_0_0) (fun _ => rfl)).squeeze S128x512 squeezes_S1x128x512_S128x512).view.read (Elt F)
        ((Memref.whole cc0_scratch4).view.writes (Elt F) J0 ((⟨(Rect.unit (s := S4x128x512) ![2, 0, 0] S1x128x512.size inb_S4x128x512_S1x128x512_2_0_0), p⟩ : View.Piece (Elt F) S4x128x512 .f32) :: L))
      = shapeCast S128x512 p shapeCasts_S1x128x512_S128x512 := by
  rw [Memref.read_squeeze_slice _ _ _ _ shapeCasts_S1x128x512_S128x512]
  refine congrArg (fun u => shapeCast S128x512 u shapeCasts_S1x128x512_S128x512) ?_
  exact readAt_write_hit (Memref.whole cc0_scratch4).view ((Memref.whole cc0_scratch4).view.writes (Elt F) J0 L) 2 inb_S4x128x512_S1x128x512_2_0_0 p

/-- Slot `3` of the staged result, read through its squeeze when the newest store is the one into that slot, holds that
    store's payload with the unit axis dropped, whatever was stored before. -/
theorem stage_read_3 (J0 : S4x128x512.Idx → Elt F .f32) (p : FVec F S1x128x512 .f32) (L : List (View.Piece (Elt F) S4x128x512 .f32)) :
    (((Memref.whole cc0_scratch4).slice (Rect.unit (s := S4x128x512) ![3, 0, 0] S1x128x512.size inb_S4x128x512_S1x128x512_3_0_0) (fun _ => rfl)).squeeze S128x512 squeezes_S1x128x512_S128x512).view.read (Elt F)
        ((Memref.whole cc0_scratch4).view.writes (Elt F) J0 ((⟨(Rect.unit (s := S4x128x512) ![3, 0, 0] S1x128x512.size inb_S4x128x512_S1x128x512_3_0_0), p⟩ : View.Piece (Elt F) S4x128x512 .f32) :: L))
      = shapeCast S128x512 p shapeCasts_S1x128x512_S128x512 := by
  rw [Memref.read_squeeze_slice _ _ _ _ shapeCasts_S1x128x512_S128x512]
  refine congrArg (fun u => shapeCast S128x512 u shapeCasts_S1x128x512_S128x512) ?_
  exact readAt_write_hit (Memref.whole cc0_scratch4).view ((Memref.whole cc0_scratch4).view.writes (Elt F) J0 L) 3 inb_S4x128x512_S1x128x512_3_0_0 p

/-! ## The scale row -/

/-- The staged scale row loaded whole is the row. -/
theorem scale_read (g : S512.Idx → Elt F .f32) :
    View.readAt (Elt F) (Memref.whole cc0_stg0_0).view (Rect.unit (s := S512) ![0] S512.size inb_S512_S512_0).toLoadRect g = g :=
  Memref.readAt_unit_zero (Elt F) cc0_stg0_0 (funext fun (a : Fin 1) => Matrix.cons_val_fin_one 0 _ a : (![0] : Fin 1 → ℕ) = fun _ => 0) inb_S512_S512_0 g

/-- The scale array's one window is the whole array. -/
theorem scale_window_read (G : S512.Idx → Elt F .f32) : (win0_0.blk (0 : Fin 1)).view.read (Elt F) G = G := by
  funext x
  rw [View.read_apply]
  have hx : (win0_0.blk (0 : Fin 1)).view.emb x = x := by
    funext a; refine Fin.ext ?_
    show 0 * S512.size a + 1 * (x a).val = (x a).val
    omega
  rw [hx]
  rfl

end Cert.Kernel.Lay

end
-- ==== Proof.BodyB.lean ====
/-
  One device's body, stepped from the protocol's ghost state to the final contents.
-/
import proofs.«900478_g7700000000000479_dist_rsrms_v7x_xyz2x2x2_z_m512_d512_bf16_1_alg».proof.Proof.ProtoB
import proofs.«900478_g7700000000000479_dist_rsrms_v7x_xyz2x2x2_z_m512_d512_bf16_1_alg».proof.Proof.Gen.Kernel.Points
import proofs.«900478_g7700000000000479_dist_rsrms_v7x_xyz2x2x2_z_m512_d512_bf16_1_alg».proof.Proof.LayB
import Idealize.ShloMosaic.Lib.Ring

noncomputable section

namespace Cert.Kernel.Proto

open Cert.Kernel Cert.Kernel.Gen Cert.Kernel.Contents

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## A 4×128×512 buffer held whole is held slot by slot -/

omit [FloatOps F] in
theorem recvSlot_set0 : (recvSlot 0).view.set = (slotRect 0).set := (Memref.set_view_squeeze _ squeezes_S1x128x512_S128x512).trans (View.set_slice_whole _ _)
omit [FloatOps F] in
theorem recvSlot_set1 : (recvSlot 1).view.set = (slotRect 1).set := (Memref.set_view_squeeze _ squeezes_S1x128x512_S128x512).trans (View.set_slice_whole _ _)
omit [FloatOps F] in
theorem recvSlot_set2 : (recvSlot 2).view.set = (slotRect 2).set := (Memref.set_view_squeeze _ squeezes_S1x128x512_S128x512).trans (View.set_slice_whole _ _)
omit [FloatOps F] in
theorem recvSlot_set3 : (recvSlot 3).view.set = (slotRect 3).set := (Memref.set_view_squeeze _ squeezes_S1x128x512_S128x512).trans (View.set_slice_whole _ _)

omit [FloatOps F] in
theorem recv_split (c : Dev nD) (f : Buf (Elt F) (recvM.view.loc (c : Thread nD τ))) :
    (recvM.view.loc (c : Thread nD τ) ↦{fullShare} f : sProp 𝕄)
      = iprop(((recvSlot 0).view.loc (c : Thread nD τ) ↦[(recvSlot 0).view.set]{fullShare} f) ∗ ((recvSlot 1).view.loc (c : Thread nD τ) ↦[(recvSlot 1).view.set]{fullShare} f)
          ∗ ((recvSlot 2).view.loc (c : Thread nD τ) ↦[(recvSlot 2).view.set]{fullShare} f) ∗ ((recvSlot 3).view.loc (c : Thread nD τ) ↦[(recvSlot 3).view.set]{fullShare} f)) := by
  rw [recvSlot_set0, recvSlot_set1, recvSlot_set2, recvSlot_set3,
    Ring.pointsTo_blocks (ℓ := recvM.view.loc (c : Thread nD τ)) (fun k : Fin 4 => ((slotRect k).set : Finset (Idx (recvM.view.loc (c : Thread nD τ)))))
      (fun k k' h => slotRect_disjoint k k' h) slotRect_cover f,
    bigSep_univ_eq_bigSepL [(0 : Fin 4), 1, 2, 3] (by decide) (by decide), bigSepL_cons_cons, bigSepL_cons_cons, bigSepL_cons_cons, bigSepL_singleton]
  rfl

/-! ## The partial array read by five copies at once: five read tokens and a rest -/

omit [FloatOps F] in
theorem x_toks (c : Dev nD) (f : Buf (Elt F) (xA.view.loc (c : Thread nD τ))) :
    (xA.view.loc (c : Thread nD τ) ↦{fullShare} f : sProp 𝕄)
      ⊣⊢ iprop((xA.view.loc (c : Thread nD τ) ↦{Transfers.shareDrop fullShare 5} f)
          ∗ (xA.view.loc (c : Thread nD τ) ↦{Transfers.shareTokN fullShare 0} f) ∗ (xA.view.loc (c : Thread nD τ) ↦{Transfers.shareTokN fullShare 1} f)
          ∗ (xA.view.loc (c : Thread nD τ) ↦{Transfers.shareTokN fullShare 2} f) ∗ (xA.view.loc (c : Thread nD τ) ↦{Transfers.shareTokN fullShare 3} f)
          ∗ (xA.view.loc (c : Thread nD τ) ↦{Transfers.shareTokN fullShare 4} f)) := by
  have h := Transfers.pointsTo_toks (Ix := Unit) (Name := ℕ) (U := UU) (Lvl := ℕ) (ℓ := xA.view.loc (c : Thread nD τ)) (S := Finset.univ) (f := f) fullShare 5
  rw [bigSep_univ_eq_bigSepL [(0 : Fin 5), 1, 2, 3, 4] (by decide) (by decide), bigSepL_cons_cons, bigSepL_cons_cons, bigSepL_cons_cons, bigSepL_cons_cons, bigSepL_singleton] at h
  exact h

omit [FloatOps F] in
theorem lv_copy (c : Dev nD) (k : Fin 5) : lv ((c : Thread nD τ), SemLoc.dma (copySem k)) () = 0 := by
  have h : cellKind (SemLoc.dma (copySem k)) = 9 := by revert k; decide
  show (if cellKind (SemLoc.dma (copySem k)) = 0 then 1 else if 5 ≤ cellKind (SemLoc.dma (copySem k)) ∧ cellKind (SemLoc.dma (copySem k)) ≤ 8 then 2 else 0) = 0
  rw [h]; rfl
omit [FloatOps F] in
theorem mayWait_copy (c : Dev nD) (k : Fin 5) : (levAts L lv : sProp 𝕄) ⊢ MayWait (c : Thread nD τ) (SemLoc.dma (copySem k)) () (Or0 c) :=
  mayWait_low c _ (lv_copy c k) (Or0 c) (fun g u h => Or.inr (Or0_pos h))

/-! ## The schedule's tables at this device's cells, payloads spelt as points-tos -/

theorem payload_bar_peer (c : Dev nD) (d : Unit) : (rd (F := F) m).payload (barCell (peer c)) 0 d
    = iprop((∃ f, (recvSlot 0).view.loc (c : Thread nD τ) ↦[(recvSlot 0).view.set]{fullShare} f) ∗ (∃ f, (recvSlot 1).view.loc (c : Thread nD τ) ↦[(recvSlot 1).view.set]{fullShare} f)
        ∗ (∃ f, (recvSlot 2).view.loc (c : Thread nD τ) ↦[(recvSlot 2).view.set]{fullShare} f) ∗ (∃ f, (recvSlot 3).view.loc (c : Thread nD τ) ↦[(recvSlot 3).view.set]{fullShare} f)) := by
  rw [payload_bar]; unfold barPay slotPts; rw [peer_peer]
theorem payload_bar_own (c : Dev nD) (d : Unit) : (rd (F := F) m).payload (barCell c) 0 d
    = iprop((∃ f, (recvSlot 0).view.loc (peer c : Thread nD τ) ↦[(recvSlot 0).view.set]{fullShare} f) ∗ (∃ f, (recvSlot 1).view.loc (peer c : Thread nD τ) ↦[(recvSlot 1).view.set]{fullShare} f)
        ∗ (∃ f, (recvSlot 2).view.loc (peer c : Thread nD τ) ↦[(recvSlot 2).view.set]{fullShare} f) ∗ (∃ f, (recvSlot 3).view.loc (peer c : Thread nD τ) ↦[(recvSlot 3).view.set]{fullShare} f)) := by
  rw [payload_bar]; rfl
theorem payload_recv_own (c : Dev nD) (k : Fin 4) (d : Unit) : (rd (F := F) m).payload (recvCell c k) 0 d
    = ((recvSlot k).view.loc (c : Thread nD τ) ↦[(recvSlot k).view.set]{fullShare} (recvSlot k).view.rep (sent m (peer c) k) : sProp 𝕄) := by
  rw [payload_recv]; rfl
theorem payload_recv_peer (c : Dev nD) (k : Fin 4) (d : Unit) : (rd (F := F) m).payload (recvCell (peer c) k) 0 d
    = ((recvSlot k).view.loc (peer c : Thread nD τ) ↦[(recvSlot k).view.set]{fullShare} (recvSlot k).view.rep (sent m c k) : sProp 𝕄) := by
  rw [payload_recv]; unfold recvPay slotPts; rw [peer_peer]
theorem payload_send_own (c : Dev nD) (k : Fin 4) (d : Unit) : (rd (F := F) m).payload (sendCell c k) 0 d
    = ((sendSlot k).view.loc (c : Thread nD τ) ↦[(sendSlot k).view.set]{fullShare} (sendSlot k).view.rep (sent m c k) : sProp 𝕄) := by
  rw [payload_send]; rfl

theorem pay_recv (c : Dev nD) (k : Fin 4) :
    bigSep ((rd (F := F) m).duties (recvCell c k) 0) (fun d => (rd (F := F) m).payload (recvCell c k) 0 d)
      = ((recvSlot k).view.loc (c : Thread nD τ) ↦[(recvSlot k).view.set]{fullShare} (recvSlot k).view.rep (sent m (peer c) k) : sProp 𝕄) := by
  rw [duties_recv, bigSep_singleton, payload_recv_own]
theorem pay_send (c : Dev nD) (k : Fin 4) :
    bigSep ((rd (F := F) m).duties (sendCell c k) 0) (fun d => (rd (F := F) m).payload (sendCell c k) 0 d)
      = ((sendSlot k).view.loc (c : Thread nD τ) ↦[(sendSlot k).view.set]{fullShare} (sendSlot k).view.rep (sent m c k) : sProp 𝕄) := by
  rw [duties_send, bigSep_singleton, payload_send_own]

/-! ## What each result copy carries: chunk `k` of the result -/

theorem out_piece_0 (c : Dev nD) (fM : S512x512.Idx → Elt F .f32) (J0 : S4x128x512.Idx → Elt F .f32) (Lp : List (View.Piece (Elt F) S4x128x512 .f32))
    (g0 : S512.Idx → Elt F .f32) (hg : g0 = Gof m c) :
    ReadAs.same.apply ((((Memref.whole cc0_scratch4).slice (Rect.unit (s := S4x128x512) ![0, 0, 0] S1x128x512.size inb_S4x128x512_S1x128x512_0_0_0) (fun _ => rfl)).squeeze S128x512 squeezes_S1x128x512_S128x512).view.read (Elt F) ((Memref.whole cc0_scratch4).view.writes (Elt F) J0
        ((⟨(Rect.unit (s := S4x128x512) ![0, 0, 0] S1x128x512.size inb_S4x128x512_S1x128x512_0_0_0), k0_pay6 (View.readAt (Elt F) (Memref.whole cc0_scratch0).view (Rect.unit (s := S512x512) ![0, 0] S128x512.size inb_S512x512_S128x512_0_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![0, 0, 0] S1x128x512.size inb_S4x128x512_S1x128x512_0_0_0).toLoadRect ((((Memref.whole cc0_scratch3).slice (Rect.unit (s := S4x128x512) ![0, 0, 0] S1x128x512.size inb_S4x128x512_S1x128x512_0_0_0) (fun _ => rfl)).squeeze S128x512 squeezes_S1x128x512_S128x512).view.rep (sent m (peer c) 0))) (View.readAt (Elt F) (Memref.whole cc0_stg0_0).view (Rect.unit (s := S512) ![0] S512.size inb_S512_S512_0).toLoadRect g0)⟩ : View.Piece (Elt F) S4x128x512 .f32) :: Lp)))
      = outChunk m c 0 := by
  rw [Lay.readAs_same, Lay.stage_read_0, Lay.readAs_same, Lay.mine_read_0, Lay.recv_read_0, Lay.scale_read, hg]
  exact Lay.outChunk_def m c 0

theorem out_piece_1 (c : Dev nD) (fM : S512x512.Idx → Elt F .f32) (J0 : S4x128x512.Idx → Elt F .f32) (Lp : List (View.Piece (Elt F) S4x128x512 .f32))
    (g0 : S512.Idx → Elt F .f32) (hg : g0 = Gof m c) :
    ReadAs.same.apply ((((Memref.whole cc0_scratch4).slice (Rect.unit (s := S4x128x512) ![1, 0, 0] S1x128x512.size inb_S4x128x512_S1x128x512_1_0_0) (fun _ => rfl)).squeeze S128x512 squeezes_S1x128x512_S128x512).view.read (Elt F) ((Memref.whole cc0_scratch4).view.writes (Elt F) J0
        ((⟨(Rect.unit (s := S4x128x512) ![1, 0, 0] S1x128x512.size inb_S4x128x512_S1x128x512_1_0_0), k0_pay7 (View.readAt (Elt F) (Memref.whole cc0_scratch0).view (Rect.unit (s := S512x512) ![128, 0] S128x512.size inb_S512x512_S128x512_128_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![1, 0, 0] S1x128x512.size inb_S4x128x512_S1x128x512_1_0_0).toLoadRect ((((Memref.whole cc0_scratch3).slice (Rect.unit (s := S4x128x512) ![1, 0, 0] S1x128x512.size inb_S4x128x512_S1x128x512_1_0_0) (fun _ => rfl)).squeeze S128x512 squeezes_S1x128x512_S128x512).view.rep (sent m (peer c) 1))) (View.readAt (Elt F) (Memref.whole cc0_stg0_0).view (Rect.unit (s := S512) ![0] S512.size inb_S512_S512_0).toLoadRect g0)⟩ : View.Piece (Elt F) S4x128x512 .f32) :: Lp)))
      = outChunk m c 1 := by
  rw [Lay.readAs_same, Lay.stage_read_1, Lay.readAs_same, Lay.mine_read_1, Lay.recv_read_1, Lay.scale_read, hg, Lay.pay7_eq_pay6]
  exact Lay.outChunk_def m c 1

theorem out_piece_2 (c : Dev nD) (fM : S512x512.Idx → Elt F .f32) (J0 : S4x128x512.Idx → Elt F .f32) (Lp : List (View.Piece (Elt F) S4x128x512 .f32))
    (g0 : S512.Idx → Elt F .f32) (hg : g0 = Gof m c) :
    ReadAs.same.apply ((((Memref.whole cc0_scratch4).slice (Rect.unit (s := S4x128x512) ![2, 0, 0] S1x128x512.size inb_S4x128x512_S1x128x512_2_0_0) (fun _ => rfl)).squeeze S128x512 squeezes_S1x128x512_S128x512).view.read (Elt F) ((Memref.whole cc0_scratch4).view.writes (Elt F) J0
        ((⟨(Rect.unit (s := S4x128x512) ![2, 0, 0] S1x128x512.size inb_S4x128x512_S1x128x512_2_0_0), k0_pay8 (View.readAt (Elt F) (Memref.whole cc0_scratch0).view (Rect.unit (s := S512x512) ![256, 0] S128x512.size inb_S512x512_S128x512_256_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![2, 0, 0] S1x128x512.size inb_S4x128x512_S1x128x512_2_0_0).toLoadRect ((((Memref.whole cc0_scratch3).slice (Rect.unit (s := S4x128x512) ![2, 0, 0] S1x128x512.size inb_S4x128x512_S1x128x512_2_0_0) (fun _ => rfl)).squeeze S128x512 squeezes_S1x128x512_S128x512).view.rep (sent m (peer c) 2))) (View.readAt (Elt F) (Memref.whole cc0_stg0_0).view (Rect.unit (s := S512) ![0] S512.size inb_S512_S512_0).toLoadRect g0)⟩ : View.Piece (Elt F) S4x128x512 .f32) :: Lp)))
      = outChunk m c 2 := by
  rw [Lay.readAs_same, Lay.stage_read_2, Lay.readAs_same, Lay.mine_read_2, Lay.recv_read_2, Lay.scale_read, hg, Lay.pay8_eq_pay6]
  exact Lay.outChunk_def m c 2

theorem out_piece_3 (c : Dev nD) (fM : S512x512.Idx → Elt F .f32) (J0 : S4x128x512.Idx → Elt F .f32) (Lp : List (View.Piece (Elt F) S4x128x512 .f32))
    (g0 : S512.Idx → Elt F .f32) (hg : g0 = Gof m c) :
    ReadAs.same.apply ((((Memref.whole cc0_scratch4).slice (Rect.unit (s := S4x128x512) ![3, 0, 0] S1x128x512.size inb_S4x128x512_S1x128x512_3_0_0) (fun _ => rfl)).squeeze S128x512 squeezes_S1x128x512_S128x512).view.read (Elt F) ((Memref.whole cc0_scratch4).view.writes (Elt F) J0
        ((⟨(Rect.unit (s := S4x128x512) ![3, 0, 0] S1x128x512.size inb_S4x128x512_S1x128x512_3_0_0), k0_pay11 (k0_pay9 (View.readAt (Elt F) (Memref.whole cc0_scratch0).view (Rect.unit (s := S512x512) ![384, 0] S128x512.size inb_S512x512_S128x512_384_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![3, 0, 0] S1x128x512.size inb_S4x128x512_S1x128x512_3_0_0).toLoadRect ((((Memref.whole cc0_scratch3).slice (Rect.unit (s := S4x128x512) ![3, 0, 0] S1x128x512.size inb_S4x128x512_S1x128x512_3_0_0) (fun _ => rfl)).squeeze S128x512 squeezes_S1x128x512_S128x512).view.rep (sent m (peer c) 3)))) (k0_pay10 (View.readAt (Elt F) (Memref.whole cc0_stg0_0).view (Rect.unit (s := S512) ![0] S512.size inb_S512_S512_0).toLoadRect g0))⟩ : View.Piece (Elt F) S4x128x512 .f32) :: Lp)))
      = outChunk m c 3 := by
  rw [Lay.readAs_same, Lay.stage_read_3, Lay.readAs_same, Lay.mine_read_3, Lay.recv_read_3, Lay.scale_read, hg, Lay.pay11_eq_pay6]
  exact Lay.outChunk_def m c 3

/-- The result array after the four copies, as the run leaves it, is `outFinal`. -/
theorem out_final_eq (c : Dev nD) (fM : S512x512.Idx → Elt F .f32) (fO : S4x128x512.Idx → Elt F .f32) (g0 : S512.Idx → Elt F .f32) (hg : g0 = Gof m c) :
    oA.view.writes (Elt F) oA.view.junk
      [(⟨Rect.unit (s := S512x512) ![384, 0] S128x512.size inb_S512x512_S128x512_384_0, ReadAs.same.apply ((((Memref.whole cc0_scratch4).slice (Rect.unit (s := S4x128x512) ![3, 0, 0] S1x128x512.size inb_S4x128x512_S1x128x512_3_0_0) (fun _ => rfl)).squeeze S128x512 squeezes_S1x128x512_S128x512).view.read (Elt F) ((Memref.whole cc0_scratch4).view.writes (Elt F) fO
          [(⟨(Rect.unit (s := S4x128x512) ![3, 0, 0] S1x128x512.size inb_S4x128x512_S1x128x512_3_0_0), k0_pay11 (k0_pay9 (View.readAt (Elt F) (Memref.whole cc0_scratch0).view (Rect.unit (s := S512x512) ![384, 0] S128x512.size inb_S512x512_S128x512_384_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![3, 0, 0] S1x128x512.size inb_S4x128x512_S1x128x512_3_0_0).toLoadRect ((((Memref.whole cc0_scratch3).slice (Rect.unit (s := S4x128x512) ![3, 0, 0] S1x128x512.size inb_S4x128x512_S1x128x512_3_0_0) (fun _ => rfl)).squeeze S128x512 squeezes_S1x128x512_S128x512).view.rep (sent m (peer c) 3)))) (k0_pay10 (View.readAt (Elt F) (Memref.whole cc0_stg0_0).view (Rect.unit (s := S512) ![0] S512.size inb_S512_S512_0).toLoadRect g0))⟩ : View.Piece (Elt F) S4x128x512 .f32),
          (⟨(Rect.unit (s := S4x128x512) ![2, 0, 0] S1x128x512.size inb_S4x128x512_S1x128x512_2_0_0), k0_pay8 (View.readAt (Elt F) (Memref.whole cc0_scratch0).view (Rect.unit (s := S512x512) ![256, 0] S128x512.size inb_S512x512_S128x512_256_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![2, 0, 0] S1x128x512.size inb_S4x128x512_S1x128x512_2_0_0).toLoadRect ((((Memref.whole cc0_scratch3).slice (Rect.unit (s := S4x128x512) ![2, 0, 0] S1x128x512.size inb_S4x128x512_S1x128x512_2_0_0) (fun _ => rfl)).squeeze S128x512 squeezes_S1x128x512_S128x512).view.rep (sent m (peer c) 2))) (View.readAt (Elt F) (Memref.whole cc0_stg0_0).view (Rect.unit (s := S512) ![0] S512.size inb_S512_S512_0).toLoadRect g0)⟩ : View.Piece (Elt F) S4x128x512 .f32),
          (⟨(Rect.unit (s := S4x128x512) ![1, 0, 0] S1x128x512.size inb_S4x128x512_S1x128x512_1_0_0), k0_pay7 (View.readAt (Elt F) (Memref.whole cc0_scratch0).view (Rect.unit (s := S512x512) ![128, 0] S128x512.size inb_S512x512_S128x512_128_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![1, 0, 0] S1x128x512.size inb_S4x128x512_S1x128x512_1_0_0).toLoadRect ((((Memref.whole cc0_scratch3).slice (Rect.unit (s := S4x128x512) ![1, 0, 0] S1x128x512.size inb_S4x128x512_S1x128x512_1_0_0) (fun _ => rfl)).squeeze S128x512 squeezes_S1x128x512_S128x512).view.rep (sent m (peer c) 1))) (View.readAt (Elt F) (Memref.whole cc0_stg0_0).view (Rect.unit (s := S512) ![0] S512.size inb_S512_S512_0).toLoadRect g0)⟩ : View.Piece (Elt F) S4x128x512 .f32),
          (⟨(Rect.unit (s := S4x128x512) ![0, 0, 0] S1x128x512.size inb_S4x128x512_S1x128x512_0_0_0), k0_pay6 (View.readAt (Elt F) (Memref.whole cc0_scratch0).view (Rect.unit (s := S512x512) ![0, 0] S128x512.size inb_S512x512_S128x512_0_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![0, 0, 0] S1x128x512.size inb_S4x128x512_S1x128x512_0_0_0).toLoadRect ((((Memref.whole cc0_scratch3).slice (Rect.unit (s := S4x128x512) ![0, 0, 0] S1x128x512.size inb_S4x128x512_S1x128x512_0_0_0) (fun _ => rfl)).squeeze S128x512 squeezes_S1x128x512_S128x512).view.rep (sent m (peer c) 0))) (View.readAt (Elt F) (Memref.whole cc0_stg0_0).view (Rect.unit (s := S512) ![0] S512.size inb_S512_S512_0).toLoadRect g0)⟩ : View.Piece (Elt F) S4x128x512 .f32)]))⟩ : View.Piece (Elt F) S512x512 .f32),
       ⟨Rect.unit (s := S512x512) ![256, 0] S128x512.size inb_S512x512_S128x512_256_0, ReadAs.same.apply ((((Memref.whole cc0_scratch4).slice (Rect.unit (s := S4x128x512) ![2, 0, 0] S1x128x512.size inb_S4x128x512_S1x128x512_2_0_0) (fun _ => rfl)).squeeze S128x512 squeezes_S1x128x512_S128x512).view.read (Elt F) ((Memref.whole cc0_scratch4).view.writes (Elt F) fO
          [(⟨(Rect.unit (s := S4x128x512) ![2, 0, 0] S1x128x512.size inb_S4x128x512_S1x128x512_2_0_0), k0_pay8 (View.readAt (Elt F) (Memref.whole cc0_scratch0).view (Rect.unit (s := S512x512) ![256, 0] S128x512.size inb_S512x512_S128x512_256_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![2, 0, 0] S1x128x512.size inb_S4x128x512_S1x128x512_2_0_0).toLoadRect ((((Memref.whole cc0_scratch3).slice (Rect.unit (s := S4x128x512) ![2, 0, 0] S1x128x512.size inb_S4x128x512_S1x128x512_2_0_0) (fun _ => rfl)).squeeze S128x512 squeezes_S1x128x512_S128x512).view.rep (sent m (peer c) 2))) (View.readAt (Elt F) (Memref.whole cc0_stg0_0).view (Rect.unit (s := S512) ![0] S512.size inb_S512_S512_0).toLoadRect g0)⟩ : View.Piece (Elt F) S4x128x512 .f32),
          (⟨(Rect.unit (s := S4x128x512) ![1, 0, 0] S1x128x512.size inb_S4x128x512_S1x128x512_1_0_0), k0_pay7 (View.readAt (Elt F) (Memref.whole cc0_scratch0).view (Rect.unit (s := S512x512) ![128, 0] S128x512.size inb_S512x512_S128x512_128_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![1, 0, 0] S1x128x512.size inb_S4x128x512_S1x128x512_1_0_0).toLoadRect ((((Memref.whole cc0_scratch3).slice (Rect.unit (s := S4x128x512) ![1, 0, 0] S1x128x512.size inb_S4x128x512_S1x128x512_1_0_0) (fun _ => rfl)).squeeze S128x512 squeezes_S1x128x512_S128x512).view.rep (sent m (peer c) 1))) (View.readAt (Elt F) (Memref.whole cc0_stg0_0).view (Rect.unit (s := S512) ![0] S512.size inb_S512_S512_0).toLoadRect g0)⟩ : View.Piece (Elt F) S4x128x512 .f32),
          (⟨(Rect.unit (s := S4x128x512) ![0, 0, 0] S1x128x512.size inb_S4x128x512_S1x128x512_0_0_0), k0_pay6 (View.readAt (Elt F) (Memref.whole cc0_scratch0).view (Rect.unit (s := S512x512) ![0, 0] S128x512.size inb_S512x512_S128x512_0_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![0, 0, 0] S1x128x512.size inb_S4x128x512_S1x128x512_0_0_0).toLoadRect ((((Memref.whole cc0_scratch3).slice (Rect.unit (s := S4x128x512) ![0, 0, 0] S1x128x512.size inb_S4x128x512_S1x128x512_0_0_0) (fun _ => rfl)).squeeze S128x512 squeezes_S1x128x512_S128x512).view.rep (sent m (peer c) 0))) (View.readAt (Elt F) (Memref.whole cc0_stg0_0).view (Rect.unit (s := S512) ![0] S512.size inb_S512_S512_0).toLoadRect g0)⟩ : View.Piece (Elt F) S4x128x512 .f32)]))⟩,
       ⟨Rect.unit (s := S512x512) ![128, 0] S128x512.size inb_S512x512_S128x512_128_0, ReadAs.same.apply ((((Memref.whole cc0_scratch4).slice (Rect.unit (s := S4x128x512) ![1, 0, 0] S1x128x512.size inb_S4x128x512_S1x128x512_1_0_0) (fun _ => rfl)).squeeze S128x512 squeezes_S1x128x512_S128x512).view.read (Elt F) ((Memref.whole cc0_scratch4).view.writes (Elt F) fO
          [(⟨(Rect.unit (s := S4x128x512) ![1, 0, 0] S1x128x512.size inb_S4x128x512_S1x128x512_1_0_0), k0_pay7 (View.readAt (Elt F) (Memref.whole cc0_scratch0).view (Rect.unit (s := S512x512) ![128, 0] S128x512.size inb_S512x512_S128x512_128_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![1, 0, 0] S1x128x512.size inb_S4x128x512_S1x128x512_1_0_0).toLoadRect ((((Memref.whole cc0_scratch3).slice (Rect.unit (s := S4x128x512) ![1, 0, 0] S1x128x512.size inb_S4x128x512_S1x128x512_1_0_0) (fun _ => rfl)).squeeze S128x512 squeezes_S1x128x512_S128x512).view.rep (sent m (peer c) 1))) (View.readAt (Elt F) (Memref.whole cc0_stg0_0).view (Rect.unit (s := S512) ![0] S512.size inb_S512_S512_0).toLoadRect g0)⟩ : View.Piece (Elt F) S4x128x512 .f32),
          (⟨(Rect.unit (s := S4x128x512) ![0, 0, 0] S1x128x512.size inb_S4x128x512_S1x128x512_0_0_0), k0_pay6 (View.readAt (Elt F) (Memref.whole cc0_scratch0).view (Rect.unit (s := S512x512) ![0, 0] S128x512.size inb_S512x512_S128x512_0_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![0, 0, 0] S1x128x512.size inb_S4x128x512_S1x128x512_0_0_0).toLoadRect ((((Memref.whole cc0_scratch3).slice (Rect.unit (s := S4x128x512) ![0, 0, 0] S1x128x512.size inb_S4x128x512_S1x128x512_0_0_0) (fun _ => rfl)).squeeze S128x512 squeezes_S1x128x512_S128x512).view.rep (sent m (peer c) 0))) (View.readAt (Elt F) (Memref.whole cc0_stg0_0).view (Rect.unit (s := S512) ![0] S512.size inb_S512_S512_0).toLoadRect g0)⟩ : View.Piece (Elt F) S4x128x512 .f32)]))⟩,
       ⟨Rect.unit (s := S512x512) ![0, 0] S128x512.size inb_S512x512_S128x512_0_0, ReadAs.same.apply ((((Memref.whole cc0_scratch4).slice (Rect.unit (s := S4x128x512) ![0, 0, 0] S1x128x512.size inb_S4x128x512_S1x128x512_0_0_0) (fun _ => rfl)).squeeze S128x512 squeezes_S1x128x512_S128x512).view.read (Elt F) ((Memref.whole cc0_scratch4).view.writes (Elt F) fO
          [(⟨(Rect.unit (s := S4x128x512) ![0, 0, 0] S1x128x512.size inb_S4x128x512_S1x128x512_0_0_0), k0_pay6 (View.readAt (Elt F) (Memref.whole cc0_scratch0).view (Rect.unit (s := S512x512) ![0, 0] S128x512.size inb_S512x512_S128x512_0_0).toLoadRect
          (View.write (Elt F) (Memref.whole cc0_scratch0).view fM (ReadAs.same.apply ((xMine c).view.read (Elt F) (m ((c : Thread nD τ).loc main_arg0)))) Finset.univ)) (View.readAt (Elt F) (Memref.whole cc0_scratch3).view (Rect.unit (s := S4x128x512) ![0, 0, 0] S1x128x512.size inb_S4x128x512_S1x128x512_0_0_0).toLoadRect ((((Memref.whole cc0_scratch3).slice (Rect.unit (s := S4x128x512) ![0, 0, 0] S1x128x512.size inb_S4x128x512_S1x128x512_0_0_0) (fun _ => rfl)).squeeze S128x512 squeezes_S1x128x512_S128x512).view.rep (sent m (peer c) 0))) (View.readAt (Elt F) (Memref.whole cc0_stg0_0).view (Rect.unit (s := S512) ![0] S512.size inb_S512_S512_0).toLoadRect g0)⟩ : View.Piece (Elt F) S4x128x512 .f32)]))⟩]
      = outFinal m c := by
  rw [out_piece_3 m c fM fO _ g0 hg, out_piece_2 m c fM fO _ g0 hg, out_piece_1 m c fM fO _ g0 hg, out_piece_0 m c fM fO _ g0 hg]
  rfl

/-! ## The send buffer by slots; one remote copy -/

omit [FloatOps F] in
theorem sendSlot_set0 : (sendSlot 0).view.set = (slotRect 0).set := (Memref.set_view_squeeze _ squeezes_S1x128x512_S128x512).trans (View.set_slice_whole _ _)
omit [FloatOps F] in
theorem sendSlot_set1 : (sendSlot 1).view.set = (slotRect 1).set := (Memref.set_view_squeeze _ squeezes_S1x128x512_S128x512).trans (View.set_slice_whole _ _)
omit [FloatOps F] in
theorem sendSlot_set2 : (sendSlot 2).view.set = (slotRect 2).set := (Memref.set_view_squeeze _ squeezes_S1x128x512_S128x512).trans (View.set_slice_whole _ _)
omit [FloatOps F] in
theorem sendSlot_set3 : (sendSlot 3).view.set = (slotRect 3).set := (Memref.set_view_squeeze _ squeezes_S1x128x512_S128x512).trans (View.set_slice_whole _ _)

omit [FloatOps F] in
theorem send_split (c : Dev nD) (f : Buf (Elt F) (sendM.view.loc (c : Thread nD τ))) :
    (sendM.view.loc (c : Thread nD τ) ↦{fullShare} f : sProp 𝕄)
      = iprop(((sendSlot 0).view.loc (c : Thread nD τ) ↦[(sendSlot 0).view.set]{fullShare} f) ∗ ((sendSlot 1).view.loc (c : Thread nD τ) ↦[(sendSlot 1).view.set]{fullShare} f)
          ∗ ((sendSlot 2).view.loc (c : Thread nD τ) ↦[(sendSlot 2).view.set]{fullShare} f) ∗ ((sendSlot 3).view.loc (c : Thread nD τ) ↦[(sendSlot 3).view.set]{fullShare} f)) := by
  rw [sendSlot_set0, sendSlot_set1, sendSlot_set2, sendSlot_set3,
    Ring.pointsTo_blocks (ℓ := sendM.view.loc (c : Thread nD τ)) (fun k : Fin 4 => ((slotRect k).set : Finset (Idx (sendM.view.loc (c : Thread nD τ)))))
      (fun k k' h => slotRect_disjoint k k' h) slotRect_cover f,
    bigSep_univ_eq_bigSepL [(0 : Fin 4), 1, 2, 3] (by decide) (by decide), bigSepL_cons_cons, bigSepL_cons_cons, bigSepL_cons_cons, bigSepL_singleton]
  rfl

omit [FloatOps F] in
theorem credit_slot (k : Fin 4) : (recvSlot k).view.amount (SemLoc.dma (recvSem k)) = N := by fin_cases k <;> rfl

/-- The remote copy of slot `k` to the partner: the source slot goes to the send cell's duty, the partner's slot, rewritten
    with what is sent, to its receive cell's. The transfer is addressed to `n = peer c` (substituted, not rewritten). -/
theorem wp_send_slot (K : Dev nD × Fin 9 → ℕ) (c n : Dev nD) (hn : n = peer c) (k : Fin 4)
    {hsc : (recvSlot k : Memref sig (Dev.tc n : Thread nD τ).2.kind .vmem S128x512 .bf16).view.ref.isScScratch = false}
    {hsrc : (sendSlot k).view.WordExact} {hdst : (recvSlot k).view.WordExact}
    {hsem : DmaTarget.Typed .vmem (.dma (recvSem k)) (.remote (Dev.tc n : Thread nD τ) (recvSlot k) (.dma (sendSem k)) hsc)}
    {α : Type} {Q : α → sProp 𝕄} {kk : PUnit → Prog (TpuEff nD τ sig (Elt F) Λ₀ .tc) α}
    (fs : Buf (Elt F) ((sendSlot k).view.loc (c : Thread nD τ))) (fd : Buf (Elt F) ((recvSlot k).view.loc (peer c : Thread nD τ)))
    (O : CellTallies nD τ sig Unit) (W : Waits sig Unit)
    (hfs : (sendSlot k).view.read (Elt F) fs = sent m c k) :
    iprop(cellInv ER (rd m) (K (c, jS k)) (sendCell c k) ∗ cellInv ER (rd m) (K (peer c, jR k)) (recvCell (peer c) k)
        ∗ ((sendSlot k).view.loc (c : Thread nD τ) ↦[(sendSlot k).view.set]{fullShare} fs)
        ∗ ((recvSlot k).view.loc (peer c : Thread nD τ) ↦[(recvSlot k).view.set]{fullShare} fd)
        ∗ owes (c : Thread nD τ) (O + tallyAt (recvCell (peer c) k) () N) W
        ∗ dutyTok ER (sendCell c k) 0 () ∗ reached ER (sendCell c k) 0
        ∗ dutyTok ER (recvCell (peer c) k) 0 () ∗ reached ER (recvCell (peer c) k) 0)
      ⊢ iprop(((cred (tallyAt (sendCell c k) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (sendSlot k) (.remote (Dev.tc n : Thread nD τ) (recvSlot k) (.dma (sendSem k)) hsc) (.dma (recvSem k)) hsrc hdst hsem) kk) Q) := by
  subst hn
  exact Rounds.wp_send_pointsTo 𝒱₀ ER (rd m) (c : Thread nD τ) none (κ₁ := K (c, jS k)) (κ₂ := K (peer c, jR k))
    (r₁ := 0) (r₂ := 0) (d₁ := ()) (d₂ := ()) (fd := fd)
    (by rw [duties_send]; exact Finset.mem_singleton_self _) (by rw [duties_recv]; exact Finset.mem_singleton_self _)
    () () N (credit_slot k) (amount_send m c k ()) (amount_recv m (peer c) k ()) O rfl (W := W)
    (by rw [payload_send_own, ← hfs]; exact pointsTo_rep_entails (c : Thread nD τ) (sendSlot k) fs fullShare)
    (by
      rw [payload_recv_peer, ← hfs]
      refine (pointsTo_rep_entails (peer c : Thread nD τ) (recvSlot k) _ fullShare).trans ?_
      rw [View.read_write_univ])

omit [FloatOps F] in
theorem send_join (c : Dev nD) (f0 f1 f2 f3 : Buf (Elt F) (sendM.view.loc (c : Thread nD τ))) :
    iprop(((sendSlot 0).view.loc (c : Thread nD τ) ↦[(sendSlot 0).view.set]{fullShare} f0) ∗ ((sendSlot 1).view.loc (c : Thread nD τ) ↦[(sendSlot 1).view.set]{fullShare} f1)
        ∗ ((sendSlot 2).view.loc (c : Thread nD τ) ↦[(sendSlot 2).view.set]{fullShare} f2) ∗ ((sendSlot 3).view.loc (c : Thread nD τ) ↦[(sendSlot 3).view.set]{fullShare} f3))
      ⊢ (iprop(∃ g, sendM.view.loc (c : Thread nD τ) ↦{fullShare} g) : sProp 𝕄) := by
  rw [sendSlot_set0, sendSlot_set1, sendSlot_set2, sendSlot_set3]
  refine Entails.trans (Entails.of_eq ?_) (Ring.pointsTo_blocks_join (ℓ := sendM.view.loc (c : Thread nD τ))
    (fun k : Fin 4 => ((slotRect k).set : Finset (Idx (sendM.view.loc (c : Thread nD τ))))) (fun k k' h => slotRect_disjoint k k' h) slotRect_cover
    (fun k : Fin 4 => match k with | 0 => f0 | 1 => f1 | 2 => f2 | 3 => f3) f0)
  rw [bigSep_univ_eq_bigSepL [(0 : Fin 4), 1, 2, 3] (by decide) (by decide), bigSepL_cons_cons, bigSepL_cons_cons, bigSepL_cons_cons, bigSepL_singleton]
  rfl
omit [FloatOps F] in
theorem recv_join (c : Dev nD) (f0 f1 f2 f3 : Buf (Elt F) (recvM.view.loc (c : Thread nD τ))) :
    iprop(((recvSlot 0).view.loc (c : Thread nD τ) ↦[(recvSlot 0).view.set]{fullShare} f0) ∗ ((recvSlot 1).view.loc (c : Thread nD τ) ↦[(recvSlot 1).view.set]{fullShare} f1)
        ∗ ((recvSlot 2).view.loc (c : Thread nD τ) ↦[(recvSlot 2).view.set]{fullShare} f2) ∗ ((recvSlot 3).view.loc (c : Thread nD τ) ↦[(recvSlot 3).view.set]{fullShare} f3))
      ⊢ (iprop(∃ g, recvM.view.loc (c : Thread nD τ) ↦{fullShare} g) : sProp 𝕄) := by
  rw [recvSlot_set0, recvSlot_set1, recvSlot_set2, recvSlot_set3]
  refine Entails.trans (Entails.of_eq ?_) (Ring.pointsTo_blocks_join (ℓ := recvM.view.loc (c : Thread nD τ))
    (fun k : Fin 4 => ((slotRect k).set : Finset (Idx (recvM.view.loc (c : Thread nD τ))))) (fun k k' h => slotRect_disjoint k k' h) slotRect_cover
    (fun k : Fin 4 => match k with | 0 => f0 | 1 => f1 | 2 => f2 | 3 => f3) f0)
  rw [bigSep_univ_eq_bigSepL [(0 : Fin 4), 1, 2, 3] (by decide) (by decide), bigSepL_cons_cons, bigSepL_cons_cons, bigSepL_cons_cons, bigSepL_singleton]
  rfl

def bodyPre (K : Dev nD × Fin 9 → ℕ) (c : Dev nD) : sProp 𝕄 :=
  iprop((ghost m K c
      ∗ cred (tallyAt (barCell c) () 1)
      ∗ (cred (tallyAt (recvCell c 0) () N) ∗ cred (tallyAt (recvCell c 1) () N) ∗ cred (tallyAt (recvCell c 2) () N) ∗ cred (tallyAt (recvCell c 3) () N))
      ∗ levAts L lv ∗ localSems c
      ∗ (xA.view.loc (c : Thread nD τ) ↦{fullShare} Xof m c) ∗ (oA.view.loc (c : Thread nD τ) ↦{fullShare} m ((c : Thread nD τ).loc main_v1))
      ∗ scratch c)
    ∗ (dats m 0 c).owesAt () t₀.castSucc
    ∗ (∃ d, stg c cc0_stg0_0 ((dats m 0 c).before (0 : Fin 1) t₀ d)))

def bodyPost (c : Dev nD) : sProp 𝕄 :=
  iprop(Φ₁ m c ∗ (dats m 0 c).owesAt () t₀.succ ∗ stg c cc0_stg0_0 (gstg m c))

theorem owes_exit (c : Dev nD) (Wx : Waits sig Unit) : (owes (c : Thread nD τ) 0 Wx : sProp 𝕄) ⊢ (dats m 0 c).owesAt () t₀.succ := by
  unfold Dat.owesAt Pipeline.owesWithin
  rw [show (dats m 0 c).owed t₀.succ = 0 from rfl]
  iintro H
  iexists Wx
  isplitr; · ipureintro; exact fun _ _ => Or.inl trivial
  iexact H

attribute [local sl_rounds] duties_bar duties_send duties_recv amount_bar amount_send amount_recv expect_bar expect_send expect_recv
  payload_bar_own payload_recv_own payload_send_own
attribute [local sl_canon] dev1_eq dev2_eq dev3_eq dev4_eq dev5_eq

set_option maxHeartbeats 1600000 in
theorem sound_body (K : Dev nD × Fin 9 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole cc0_stg0_0) (Memref.isWhole_whole _) (Memref.whole main_v1) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) cc0_scratch5 cc0_scratch6 cc0_scratch7 cc0_scratch8) Kt := by
  unfold bodyPre ghost positions payToks localSems scratch
  iintro ⟨⟨⟨⟨#Hrec, ⟨HatB, ⟨HatS0, HatS1, HatS2, HatS3⟩, ⟨HatR0, HatR1, HatR2, HatR3⟩⟩, ⟨HtB, ⟨HtR0, HtR1, HtR2, HtR3⟩, ⟨HtS0, HtS1, HtS2, HtS3⟩⟩⟩,
      HcB, ⟨HcR0, HcR1, HcR2, HcR3⟩, #Hlev, ⟨Hc0, Hc1, Hc2, Hc3, Hc4, Ho0, Ho1, Ho2, Ho3⟩, HX, HOut,
      ⟨⟨%fM, HM⟩, ⟨%fP, HP⟩, ⟨%fS, HS⟩, ⟨%fR, HR⟩, ⟨%fO, HOv⟩⟩⟩,
    Ho, ⟨%d0, %g0, %hg0, Hg⟩⟩, Hk⟩
  unfold Dat.owesAt Pipeline.owesWithin
  icases Ho with ⟨%W, %hW, HO⟩
  rw [show (dats m 0 c).owed t₀.castSucc = O₀ c from rfl]
  ihave #HIbP := (show records m K ⊢ cellInv ER (rd m) (K (peer c, 0)) (barCell (peer c)) from inv_at m K (peer c, 0)) $$ []
  · iexact Hrec
  ihave #HrbP := (show records m K ⊢ reached ER (barCell (peer c)) 0 from reached_at m K (peer c, 0)) $$ []
  · iexact Hrec
  ihave #HIb := (show records m K ⊢ cellInv ER (rd m) (K (c, 0)) (barCell c) from inv_at m K (c, 0)) $$ []
  · iexact Hrec
  ihave #HIs0 := (show records m K ⊢ cellInv ER (rd m) (K (c, 1)) (sendCell c 0) from inv_at m K (c, 1)) $$ []
  · iexact Hrec
  ihave #HIs1 := (show records m K ⊢ cellInv ER (rd m) (K (c, 2)) (sendCell c 1) from inv_at m K (c, 2)) $$ []
  · iexact Hrec
  ihave #HIs2 := (show records m K ⊢ cellInv ER (rd m) (K (c, 3)) (sendCell c 2) from inv_at m K (c, 3)) $$ []
  · iexact Hrec
  ihave #HIs3 := (show records m K ⊢ cellInv ER (rd m) (K (c, 4)) (sendCell c 3) from inv_at m K (c, 4)) $$ []
  · iexact Hrec
  ihave #HIr0 := (show records m K ⊢ cellInv ER (rd m) (K (c, 5)) (recvCell c 0) from inv_at m K (c, 5)) $$ []
  · iexact Hrec
  ihave #HIr1 := (show records m K ⊢ cellInv ER (rd m) (K (c, 6)) (recvCell c 1) from inv_at m K (c, 6)) $$ []
  · iexact Hrec
  ihave #HIr2 := (show records m K ⊢ cellInv ER (rd m) (K (c, 7)) (recvCell c 2) from inv_at m K (c, 7)) $$ []
  · iexact Hrec
  ihave #HIr3 := (show records m K ⊢ cellInv ER (rd m) (K (c, 8)) (recvCell c 3) from inv_at m K (c, 8)) $$ []
  · iexact Hrec
  ihave #HIrP0 := (show records m K ⊢ cellInv ER (rd m) (K (peer c, 5)) (recvCell (peer c) 0) from inv_at m K (peer c, 5)) $$ []
  · iexact Hrec
  ihave #HIrP1 := (show records m K ⊢ cellInv ER (rd m) (K (peer c, 6)) (recvCell (peer c) 1) from inv_at m K (peer c, 6)) $$ []
  · iexact Hrec
  ihave #HIrP2 := (show records m K ⊢ cellInv ER (rd m) (K (peer c, 7)) (recvCell (peer c) 2) from inv_at m K (peer c, 7)) $$ []
  · iexact Hrec
  ihave #HIrP3 := (show records m K ⊢ cellInv ER (rd m) (K (peer c, 8)) (recvCell (peer c) 3) from inv_at m K (peer c, 8)) $$ []
  · iexact Hrec
  ihave #HrrP0 := (show records m K ⊢ reached ER (recvCell (peer c) 0) 0 from reached_at m K (peer c, 5)) $$ []
  · iexact Hrec
  ihave #HrrP1 := (show records m K ⊢ reached ER (recvCell (peer c) 1) 0 from reached_at m K (peer c, 6)) $$ []
  · iexact Hrec
  ihave #HrrP2 := (show records m K ⊢ reached ER (recvCell (peer c) 2) 0 from reached_at m K (peer c, 7)) $$ []
  · iexact Hrec
  ihave #HrrP3 := (show records m K ⊢ reached ER (recvCell (peer c) 3) 0 from reached_at m K (peer c, 8)) $$ []
  · iexact Hrec
  ihave #Hrs0 := (show records m K ⊢ reached ER (sendCell c 0) 0 from reached_at m K (c, 1)) $$ []
  · iexact Hrec
  ihave #Hrs1 := (show records m K ⊢ reached ER (sendCell c 1) 0 from reached_at m K (c, 2)) $$ []
  · iexact Hrec
  ihave #Hrs2 := (show records m K ⊢ reached ER (sendCell c 2) 0 from reached_at m K (c, 3)) $$ []
  · iexact Hrec
  ihave #Hrs3 := (show records m K ⊢ reached ER (sendCell c 3) 0 from reached_at m K (c, 4)) $$ []
  · iexact Hrec
  iclear Hrec
  ihave HRs := (Entails.of_eq (recv_split (F := F) c fR)) $$ HR
  icases HRs with ⟨HR0, HR1, HR2, HR3⟩
  ihave Hg := (show (((c : Thread nD τ).loc cc0_stg0_0 ↦{fullShare} g0 : sProp 𝕄)) ⊢ ((Memref.whole cc0_stg0_0 : Memref sig .tc .vmem S512 .f32).view.loc (c : Thread nD τ) ↦{fullShare} g0) from .rfl) $$ Hg
  ihave HXs := (x_toks (F := F) c (Xof m c)).1 $$ HX
  icases HXs with ⟨HX, HX0, HX1, HX2, HX3, HX4⟩
  unfold O₀
  have hmw0 := mayWait_copy (F := F) c 0
  have hmw1 := mayWait_copy (F := F) c 1
  have hmw2 := mayWait_copy (F := F) c 2
  have hmw3 := mayWait_copy (F := F) c 3
  have hmwb := mayWait_bar (F := F) c
  sl_unfold [cc0_body]
  sl_exec!
  -- the entry signal to the partner's barrier cell: the device's own four receive slots go with it
  iapply (Rounds.wp_signal 𝒱₀ ER (rd m) (c : Thread nD τ) none (dst := (peer c : Thread nD τ)) (κ := K (peer c, 0))
      (d := ()) (by rw [duties_bar]; exact Finset.mem_singleton_self _) ((amount_bar m (peer c) ()).trans (by decide)) () (Or0 c) rfl)
    $$ [HO HtB HR0 HR1 HR2 HR3]
  · isplitr; · iexact HIbP
    isplitl [HO]; · iexact HO
    isplitl [HtB]; · iexact HtB
    isplitl [HR0 HR1 HR2 HR3]
    · rw [payload_bar_peer]
      isplitl [HR0]; · iexists fR; iexact HR0
      isplitl [HR1]; · iexists fR; iexact HR1
      isplitl [HR2]; · iexists fR; iexact HR2
      iexists fR; iexact HR3
    · iexact HrbP
  iintro HO
  set_option sl_exec.dmaWindow true in sl_exec!
  -- the send buffer slot by slot
  ihave HSs := (Entails.of_eq (send_split (F := F) c _)) $$ HS
  icases HSs with ⟨HS0, HS1, HS2, HS3⟩
  -- the remote copy of slot 0
  unfold Or0
  iapply (wp_send_slot m K c _ (dev2_eq c) 0 _ _ (O1 c) _ (Lay.send_sent_0 m c _ _)) $$ [HS0 HatB_pay1 HO HtS0 HtR0]
  · isplitr; · iexact HIs0
    isplitr; · iexact HIrP0
    isplitl [HS0]; · iexact HS0
    isplitl [HatB_pay1]; · iexact HatB_pay1
    isplitl [HO]; · iexact HO
    isplitl [HtS0]; · iexact HtS0
    isplitr; · iexact Hrs0
    isplitl [HtR0]; · iexact HtR0
    iexact HrrP0
  iintro ⟨HcS0, HO⟩
  set_option sl_exec.dmaWindow true in sl_exec!
  -- the remote copy of slot 1
  unfold O1
  iapply (wp_send_slot m K c _ (dev3_eq c) 1 _ _ (O2 c) _ (Lay.send_sent_1 m c _ _)) $$ [HS1 HatB_pay2 HO HtS1 HtR1]
  · isplitr; · iexact HIs1
    isplitr; · iexact HIrP1
    isplitl [HS1]; · iexact HS1
    isplitl [HatB_pay2]; · iexact HatB_pay2
    isplitl [HO]; · iexact HO
    isplitl [HtS1]; · iexact HtS1
    isplitr; · iexact Hrs1
    isplitl [HtR1]; · iexact HtR1
    iexact HrrP1
  iintro ⟨HcS1, HO⟩
  set_option sl_exec.dmaWindow true in sl_exec!
  -- the remote copy of slot 2
  unfold O2
  iapply (wp_send_slot m K c _ (dev4_eq c) 2 _ _ (O3 c) _ (Lay.send_sent_2 m c _ _)) $$ [HS2 HatB_pay3 HO HtS2 HtR2]
  · isplitr; · iexact HIs2
    isplitr; · iexact HIrP2
    isplitl [HS2]; · iexact HS2
    isplitl [HatB_pay3]; · iexact HatB_pay3
    isplitl [HO]; · iexact HO
    isplitl [HtS2]; · iexact HtS2
    isplitr; · iexact Hrs2
    isplitl [HtR2]; · iexact HtR2
    iexact HrrP2
  iintro ⟨HcS2, HO⟩
  set_option sl_exec.dmaWindow true in sl_exec!
  -- the remote copy of slot 3
  unfold O3
  iapply (wp_send_slot m K c _ (dev5_eq c) 3 _ _ (0) _ (Lay.send_sent_3 m c _ _)) $$ [HS3 HatB_pay4 HO HtS3 HtR3]
  · isplitr; · iexact HIs3
    isplitr; · iexact HIrP3
    isplitl [HS3]; · iexact HS3
    isplitl [HatB_pay4]; · iexact HatB_pay4
    isplitl [HO]; · iexact HO
    isplitl [HtS3]; · iexact HtS3
    isplitr; · iexact Hrs3
    isplitl [HtR3]; · iexact HtR3
    iexact HrrP3
  iintro ⟨HcS3, HO⟩
  set_option sl_exec.dmaWindow true in sl_exec!
  ihave HRl0 := (Entails.of_eq (pay_recv m c 0)) $$ HatR0_pay1
  set_option sl_exec.dmaWindow true in sl_exec!
  ihave HRl1 := (Entails.of_eq (pay_recv m c 1)) $$ HatR1_pay1
  set_option sl_exec.dmaWindow true in sl_exec!
  ihave HRl2 := (Entails.of_eq (pay_recv m c 2)) $$ HatR2_pay1
  set_option sl_exec.dmaWindow true in sl_exec!
  ihave HRl3 := (Entails.of_eq (pay_recv m c 3)) $$ HatR3_pay1
  set_option sl_exec.dmaWindow true in sl_exec!
  ihave HSl0 := (Entails.of_eq (pay_send m c 0)) $$ HatS0_pay1
  ihave HSl1 := (Entails.of_eq (pay_send m c 1)) $$ HatS1_pay1
  ihave HSl2 := (Entails.of_eq (pay_send m c 2)) $$ HatS2_pay1
  ihave HSl3 := (Entails.of_eq (pay_send m c 3)) $$ HatS3_pay1
  -- the eight send and receive cells close: their counters at zero are the device's again
  imod (Rounds.cell_close ER (rd m) (Set.mem_univ (K (c, 1))) (fun h => h) (R := 0 + 1) (duties_later m (sendCell c 0))) $$ [HatS0] with HzS0
  · isplitr; · iexact HIs0
    iexact HatS0
  imod (Rounds.cell_close ER (rd m) (Set.mem_univ (K (c, 2))) (fun h => h) (R := 0 + 1) (duties_later m (sendCell c 1))) $$ [HatS1] with HzS1
  · isplitr; · iexact HIs1
    iexact HatS1
  imod (Rounds.cell_close ER (rd m) (Set.mem_univ (K (c, 3))) (fun h => h) (R := 0 + 1) (duties_later m (sendCell c 2))) $$ [HatS2] with HzS2
  · isplitr; · iexact HIs2
    iexact HatS2
  imod (Rounds.cell_close ER (rd m) (Set.mem_univ (K (c, 4))) (fun h => h) (R := 0 + 1) (duties_later m (sendCell c 3))) $$ [HatS3] with HzS3
  · isplitr; · iexact HIs3
    iexact HatS3
  imod (Rounds.cell_close ER (rd m) (Set.mem_univ (K (c, 5))) (fun h => h) (R := 0 + 1) (duties_later m (recvCell c 0))) $$ [HatR0] with HzR0
  · isplitr; · iexact HIr0
    iexact HatR0
  imod (Rounds.cell_close ER (rd m) (Set.mem_univ (K (c, 6))) (fun h => h) (R := 0 + 1) (duties_later m (recvCell c 1))) $$ [HatR1] with HzR1
  · isplitr; · iexact HIr1
    iexact HatR1
  imod (Rounds.cell_close ER (rd m) (Set.mem_univ (K (c, 7))) (fun h => h) (R := 0 + 1) (duties_later m (recvCell c 2))) $$ [HatR2] with HzR2
  · isplitr; · iexact HIr2
    iexact HatR2
  imod (Rounds.cell_close ER (rd m) (Set.mem_univ (K (c, 8))) (fun h => h) (R := 0 + 1) (duties_later m (recvCell c 3))) $$ [HatR3] with HzR3
  · isplitr; · iexact HIr3
    iexact HatR3
  have hg : g0 = gstg m c := by rw [hg0]; unfold Dat.before; rw [if_pos (fetch0_0 t₀)]; rfl
  sl_step
  iapply Hk
  unfold bodyPost Φ₁ scratch localSems xferSems
  isplitr [HO Hg]
  · isplitl [HM HP HSl0 HSl1 HSl2 HSl3 HRl0 HRl1 HRl2 HRl3 HOv]
    · isplitl [HM]; · iexists _; iexact HM
      isplitl [HP]; · iexists _; iexact HP
      isplitl [HSl0 HSl1 HSl2 HSl3]
      · iapply (send_join (F := F) c _ _ _ _)
        isplitl [HSl0]; · iexact HSl0
        isplitl [HSl1]; · iexact HSl1
        isplitl [HSl2]; · iexact HSl2
        iexact HSl3
      isplitl [HRl0 HRl1 HRl2 HRl3]
      · iapply (recv_join (F := F) c _ _ _ _)
        isplitl [HRl0]; · iexact HRl0
        isplitl [HRl1]; · iexact HRl1
        isplitl [HRl2]; · iexact HRl2
        iexact HRl3
      iexists _; iexact HOv
    isplitl [Hc0 Hc1 Hc2 Hc3 Hc4 Ho0 Ho1 Ho2 Ho3]
    · isplitl [Hc0]; · iexact Hc0
      isplitl [Hc1]; · iexact Hc1
      isplitl [Hc2]; · iexact Hc2
      isplitl [Hc3]; · iexact Hc3
      isplitl [Hc4]; · iexact Hc4
      isplitl [Ho0]; · iexact Ho0
      isplitl [Ho1]; · iexact Ho1
      isplitl [Ho2]; · iexact Ho2
      iexact Ho3
    isplitl [HzS0 HzS1 HzS2 HzS3 HzR0 HzR1 HzR2 HzR3]
    · isplitl [HzS0]; · iexact HzS0
      isplitl [HzS1]; · iexact HzS1
      isplitl [HzS2]; · iexact HzS2
      isplitl [HzS3]; · iexact HzS3
      isplitl [HzR0]; · iexact HzR0
      isplitl [HzR1]; · iexact HzR1
      isplitl [HzR2]; · iexact HzR2
      iexact HzR3
    isplitl [HX HX0 HX1 HX2 HX3 HX4]
    · iapply (x_toks (F := F) c _).2
      isplitl [HX]; · iexact HX
      isplitl [HX0]; · iexact HX0
      isplitl [HX1]; · iexact HX1
      isplitl [HX2]; · iexact HX2
      isplitl [HX3]; · iexact HX3
      iexact HX4
    have hg' : (g0 : S512.Idx → Elt F .f32) = Gof m c := hg.trans (Lay.scale_window_read _)
    iapply (Entails.of_eq (congrArg (fun f => (oA.view.loc (c : Thread nD τ) ↦{fullShare} f : sProp 𝕄)) (out_final_eq m c fM fO g0 hg')))
    iexact HOut
  isplitl [HO]
  · iapply (owes_exit m c _); iexact HO
  iexists _
  isplitr; · ipureintro; exact hg
  iexact Hg

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre' (c : Dev nD) : sProp 𝕄 :=
  iprop(Φ₀ m c ∗ (dats m 0 c).owesAt () t₀.castSucc
    ∗ (∃ d, stg c cc0_stg0_0 ((dats m 0 c).before (0 : Fin 1) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole main_arg0) (Memref.isWhole_whole _) (Memref.whole cc0_stg0_0) (Memref.isWhole_whole _) (Memref.whole main_v1) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) cc0_scratch5 cc0_scratch6 cc0_scratch7 cc0_scratch8)
    (fun _ => bodyPost m c)
  unfold bodyPre' Φ₀ start
  iintro ⟨⟨⟨⟨%K, Hgh⟩, HcB, HcR, Hlev, Hloc, HX, HOut⟩, Hscr⟩, Ho, Hx⟩
  iapply (sound_body m K c fun _ => bodyPost m c)
  unfold bodyPre
  isplitr []
  · isplitl [Hgh HcB HcR Hlev Hloc HX HOut Hscr]
    · isplitl [Hgh]; · iexact Hgh
      isplitl [HcB]; · iexact HcB
      isplitl [HcR]; · iexact HcR
      isplitl [Hlev]; · iexact Hlev
      isplitl [Hloc]; · iexact Hloc
      isplitl [HX]; · iexact HX
      isplitl [HOut]; · iexact HOut
      iexact Hscr
    isplitl [Ho]; · iexact Ho
    iexact Hx
  · iintro H; iexact H

/-- info: 'Cert.Kernel.Proto.body_obligation' depends on axioms: [propext, Classical.choice, Quot.sound] -/
#guard_msgs in #print axioms body_obligation

end Cert.Kernel.Proto

end
-- ==== Proof.lean ====
/-
  The certificate's claim: the kernel on eight devices — partner devices exchange the half of their partial arrays the
  other one owns, each adds what it receives to the half it keeps and normalises every row by the root of its mean
  square — against the one-device reference, which sums the two partial arrays and normalises every row.

  The three frames: the two kernel programs by the launch theorem from one device's body (Launch, Body; LaunchB, BodyB at
  the word level), the reference by its generated run.  The idealization rewrote nothing, so `preserves` is trivial.
  `algebraic`: after the kernel's run device `c`'s result array holds `outFinal m c` (the four row chunks the body
  computes); at the ideal instance that is the reference's whole result cut to the device's 512 rows (KOut, Bridge): the
  two partial rows are added in either order, and `y · rsqrt a = y / sqrt a` for a finite row `y` and `a > 0` (Law).
-/
import proofs.«900478_g7700000000000479_dist_rsrms_v7x_xyz2x2x2_z_m512_d512_bf16_1_alg».proof.Proof.Assemble
import proofs.«900478_g7700000000000479_dist_rsrms_v7x_xyz2x2x2_z_m512_d512_bf16_1_alg».proof.Proof.Launch
import proofs.«900478_g7700000000000479_dist_rsrms_v7x_xyz2x2x2_z_m512_d512_bf16_1_alg».proof.Proof.Body
import proofs.«900478_g7700000000000479_dist_rsrms_v7x_xyz2x2x2_z_m512_d512_bf16_1_alg».proof.Proof.LaunchB
import proofs.«900478_g7700000000000479_dist_rsrms_v7x_xyz2x2x2_z_m512_d512_bf16_1_alg».proof.Proof.BodyB
import Idealize.ShloMosaic.Adequacy
import Idealize.ShloMosaic.Init

noncomputable section

namespace Cert.Proof

open Idealize.ShloMosaic Idealize.SL.Sem

theorem claim : Cert.Claim :=
  Cert.Asm.claim_of
    (fun m ρ => Cert.KernelIdeal.Proto.run_main m ρ (fun c => Cert.KernelIdeal.Proto.body_obligation m c))
    (fun m ρ => (θ_run (Cert.Kernel.defs (F := Bits)) _ _).mono (fun _ h c => (h c).2)
      (Cert.Kernel.Proto.run_main m ρ (fun c => Cert.Kernel.Proto.body_obligation m c)))

end Cert.Proof

end
